-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S300000x2 : Shape := ⟨2, ![300000, 2]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S300000x2 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x128 : Shape := ⟨2, ![100000, 128]⟩
abbrev S300000x2 : Shape := ⟨2, ![300000, 2]⟩
abbrev S3x128x128 : Shape := ⟨3, ![3, 128, 128]⟩
abbrev S3x128 : Shape := ⟨2, ![3, 128]⟩
abbrev S300000x1 : Shape := ⟨2, ![300000, 1]⟩
abbrev S300000 : Shape := ⟨1, ![300000]⟩
abbrev S_ : Shape := ⟨0, ![]⟩
abbrev S100000 : Shape := ⟨1, ![100000]⟩
abbrev S600000 : Shape := ⟨1, ![600000]⟩
abbrev S600000x1 : Shape := ⟨2, ![600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S300000x128 : Shape := ⟨2, ![300000, 128]⟩
abbrev S600000x128 : Shape := ⟨2, ![600000, 128]⟩
abbrev S160x128 : Shape := ⟨2, ![160, 128]⟩
abbrev S5000x1 : Shape := ⟨2, ![5000, 1]⟩
abbrev S8x128 : Shape := ⟨2, ![8, 128]⟩
abbrev S20x8x128 : Shape := ⟨3, ![20, 8, 128]⟩
abbrev S20x1x128 : Shape := ⟨3, ![20, 1, 128]⟩
abbrev S20x128 : Shape := ⟨2, ![20, 128]⟩

abbrev nBuf : Space → Nat
  | .hbm => 262
  | .vmem => 82
  | .smem => 0
  | _ => 0

abbrev hbmTy0_0 (i : Nat) : BufTy := match i % 128 with
  | 0 => ⟨S100000x128, .f32⟩
  | 1 => ⟨S300000x2, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S300000x1, .i32⟩
  | 9 => ⟨S300000, .i32⟩
  | 10 => ⟨S300000x1, .i32⟩
  | 11 => ⟨S300000, .i32⟩
  | 12 => ⟨S_, .f32⟩
  | 13 => ⟨S100000, .f32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S_, .f32⟩
  | 24 => ⟨S600000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S600000, .i32⟩
  | 34 => ⟨S1x128x128, .f32⟩
  | 35 => ⟨S128x128, .f32⟩
  | 36 => ⟨S128x128, .f32⟩
  | 37 => ⟨S1x128, .f32⟩
  | 38 => ⟨S128, .f32⟩
  | 39 => ⟨S1x128, .f32⟩
  | 40 => ⟨S100000x128, .f32⟩
  | 41 => ⟨S_, .i32⟩
  | 42 => ⟨S300000, .i32⟩
  | 43 => ⟨S300000, .i1⟩
  | 44 => ⟨S_, .i32⟩
  | 45 => ⟨S300000, .i32⟩
  | 46 => ⟨S300000, .i32⟩
  | 47 => ⟨S300000, .i32⟩
  | 48 => ⟨S300000x1, .i32⟩
  | 49 => ⟨S300000x128, .f32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000x128, .f32⟩
  | 59 => ⟨S600000x128, .f32⟩
  | 60 => ⟨S_, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S100000x128, .f32⟩
  | 71 => ⟨S1x128x128, .f32⟩
  | 72 => ⟨S128x128, .f32⟩
  | 73 => ⟨S128x128, .f32⟩
  | 74 => ⟨S1x128, .f32⟩
  | 75 => ⟨S128, .f32⟩
  | 76 => ⟨S1x128, .f32⟩
  | 77 => ⟨S100000x128, .f32⟩
  | 78 => ⟨S160x128, .f32⟩
  | 79 => ⟨S160x128, .f32⟩
  | 80 => ⟨S20x8x128, .f32⟩
  | 81 => ⟨S20x1x128, .f32⟩
  | 82 => ⟨S20x128, .f32⟩
  | 83 => ⟨S_, .f32⟩
  | 84 => ⟨S128, .f32⟩
  | 85 => ⟨S1x128, .f32⟩
  | 86 => ⟨S20x8x128, .f32⟩
  | 87 => ⟨S20x1x128, .f32⟩
  | 88 => ⟨S20x128, .f32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128x128, .f32⟩
  | 110 => ⟨S128x128, .f32⟩
  | 111 => ⟨S128x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x128, .f32⟩
  | 126 => ⟨S_, .i32⟩
  | 127 => ⟨S300000, .i32⟩
  | _ => ⟨S100000x128, .f32⟩

abbrev hbmTy0_1 (i : Nat) : BufTy := match i % 128 with
  | 0 => ⟨S300000, .i1⟩
  | 1 => ⟨S_, .i32⟩
  | 2 => ⟨S300000, .i32⟩
  | 3 => ⟨S300000, .i32⟩
  | 4 => ⟨S300000, .i32⟩
  | 5 => ⟨S300000x1, .i32⟩
  | 6 => ⟨S300000x128, .f32⟩
  | 7 => ⟨S600000x128, .f32⟩
  | 8 => ⟨S_, .f32⟩
  | 9 => ⟨S100000x128, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S100000x128, .f32⟩
  | 19 => ⟨S1x128x128, .f32⟩
  | 20 => ⟨S128x128, .f32⟩
  | 21 => ⟨S128x128, .f32⟩
  | 22 => ⟨S1x128, .f32⟩
  | 23 => ⟨S128, .f32⟩
  | 24 => ⟨S1x128, .f32⟩
  | 25 => ⟨S100000x128, .f32⟩
  | 26 => ⟨S160x128, .f32⟩
  | 27 => ⟨S160x128, .f32⟩
  | 28 => ⟨S20x8x128, .f32⟩
  | 29 => ⟨S20x1x128, .f32⟩
  | 30 => ⟨S20x128, .f32⟩
  | 31 => ⟨S_, .f32⟩
  | 32 => ⟨S128, .f32⟩
  | 33 => ⟨S1x128, .f32⟩
  | 34 => ⟨S20x8x128, .f32⟩
  | 35 => ⟨S20x1x128, .f32⟩
  | 36 => ⟨S20x128, .f32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S1x128x128, .f32⟩
  | 58 => ⟨S128x128, .f32⟩
  | 59 => ⟨S128x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000x128, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x128, .f32⟩
  | 83 => ⟨S600000x128, .f32⟩
  | 84 => ⟨S_, .f32⟩
  | 85 => ⟨S100000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S100000x128, .f32⟩
  | 95 => ⟨S1x128x128, .f32⟩
  | 96 => ⟨S128x128, .f32⟩
  | 97 => ⟨S128x128, .f32⟩
  | 98 => ⟨S1x128, .f32⟩
  | 99 => ⟨S128, .f32⟩
  | 100 => ⟨S1x128, .f32⟩
  | 101 => ⟨S100000x128, .f32⟩
  | 102 => ⟨S160x128, .f32⟩
  | 103 => ⟨S160x128, .f32⟩
  | 104 => ⟨S20x8x128, .f32⟩
  | 105 => ⟨S20x1x128, .f32⟩
  | 106 => ⟨S20x128, .f32⟩
  | 107 => ⟨S_, .f32⟩
  | 108 => ⟨S128, .f32⟩
  | 109 => ⟨S1x128, .f32⟩
  | 110 => ⟨S20x8x128, .f32⟩
  | 111 => ⟨S20x1x128, .f32⟩
  | 112 => ⟨S20x128, .f32⟩
  | 113 => ⟨S_, .f32⟩
  | 114 => ⟨S128, .f32⟩
  | 115 => ⟨S1x128, .f32⟩
  | 116 => ⟨S_, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S100000x128, .f32⟩

abbrev hbmTy0_2 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S5000x128, .f32⟩
  | .local _ .vmem, ⟨67, _⟩ => ⟨S5000x128, .f32⟩
  | .local _ .vmem, ⟨68, _⟩ => ⟨S8x128, .f32⟩
  | .local _ .vmem, ⟨69, _⟩ => ⟨S8x128, .f32⟩
  | .local _ .vmem, ⟨70, _⟩ => ⟨S8x128, .f32⟩
  | .local _ .vmem, ⟨71, _⟩ => ⟨S8x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87_0 : Ref sig .tc := ⟨.hbm, 115, rfl⟩
abbrev main_v87_1 : Ref sig .tc := ⟨.hbm, 116, rfl⟩
abbrev main_c_16 : Ref sig .tc := ⟨.hbm, 117, rfl⟩
abbrev main_v88 : Ref sig .tc := ⟨.hbm, 118, rfl⟩
abbrev main_v89 : Ref sig .tc := ⟨.hbm, 119, rfl⟩
abbrev main_c_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_18 : Ref sig .tc := ⟨.hbm, 126, rfl⟩
abbrev main_v95 : Ref sig .tc := ⟨.hbm, 127, rfl⟩
abbrev main_v96 : Ref sig .tc := ⟨.hbm, 128, rfl⟩
abbrev main_c_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_20 : Ref sig .tc := ⟨.hbm, 136, rfl⟩
abbrev main_v103 : Ref sig .tc := ⟨.hbm, 137, rfl⟩
abbrev main_c_21 : Ref sig .tc := ⟨.hbm, 138, rfl⟩
abbrev main_v104 : Ref sig .tc := ⟨.hbm, 139, rfl⟩
abbrev main_v105 : Ref sig .tc := ⟨.hbm, 140, rfl⟩
abbrev main_c_22 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117_0 : Ref sig .tc := ⟨.hbm, 153, rfl⟩
abbrev main_v117_1 : Ref sig .tc := ⟨.hbm, 154, rfl⟩
abbrev main_v117_2 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_23 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_24 : Ref sig .tc := ⟨.hbm, 165, rfl⟩
abbrev main_v126 : Ref sig .tc := ⟨.hbm, 166, rfl⟩
abbrev main_v127 : Ref sig .tc := ⟨.hbm, 167, rfl⟩
abbrev main_cst_25 : Ref sig .tc := ⟨.hbm, 168, rfl⟩
abbrev main_v128 : Ref sig .tc := ⟨.hbm, 169, rfl⟩
abbrev main_v129 : Ref sig .tc := ⟨.hbm, 170, rfl⟩
abbrev main_cst_26 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_27 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148_0 : Ref sig .tc := ⟨.hbm, 191, rfl⟩
abbrev main_v148_1 : Ref sig .tc := ⟨.hbm, 192, rfl⟩
abbrev main_c_28 : Ref sig .tc := ⟨.hbm, 193, rfl⟩
abbrev main_v149 : Ref sig .tc := ⟨.hbm, 194, rfl⟩
abbrev main_v150 : Ref sig .tc := ⟨.hbm, 195, rfl⟩
abbrev main_c_29 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_30 : Ref sig .tc := ⟨.hbm, 202, rfl⟩
abbrev main_v156 : Ref sig .tc := ⟨.hbm, 203, rfl⟩
abbrev main_v157 : Ref sig .tc := ⟨.hbm, 204, rfl⟩
abbrev main_c_31 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_32 : Ref sig .tc := ⟨.hbm, 212, rfl⟩
abbrev main_v164 : Ref sig .tc := ⟨.hbm, 213, rfl⟩
abbrev main_c_33 : Ref sig .tc := ⟨.hbm, 214, rfl⟩
abbrev main_v165 : Ref sig .tc := ⟨.hbm, 215, rfl⟩
abbrev main_v166 : Ref sig .tc := ⟨.hbm, 216, rfl⟩
abbrev main_c_34 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178_0 : Ref sig .tc := ⟨.hbm, 229, rfl⟩
abbrev main_v178_1 : Ref sig .tc := ⟨.hbm, 230, rfl⟩
abbrev main_v178_2 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_cst_35 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_36 : Ref sig .tc := ⟨.hbm, 241, rfl⟩
abbrev main_v187 : Ref sig .tc := ⟨.hbm, 242, rfl⟩
abbrev main_v188 : Ref sig .tc := ⟨.hbm, 243, rfl⟩
abbrev main_cst_37 : Ref sig .tc := ⟨.hbm, 244, rfl⟩
abbrev main_v189 : Ref sig .tc := ⟨.hbm, 245, rfl⟩
abbrev main_v190 : Ref sig .tc := ⟨.hbm, 246, rfl⟩
abbrev main_cst_38 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_39 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc5_stg7_0 : Ref sig .tc := ⟨.vmem, 70, rfl⟩
abbrev cc5_stg7_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg5_1 : Ref sig .tc := ⟨.vmem, 79, rfl⟩
abbrev cc6_stg6_0 : Ref sig .tc := ⟨.vmem, 80, rfl⟩
abbrev cc6_stg6_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43
abbrev cc3_sem7_0 : DmaSem sig := 44
abbrev cc3_sem7_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55
abbrev cc4_sem8_0 : DmaSem sig := 56
abbrev cc4_sem8_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc5_sem7_0 : DmaSem sig := 70
abbrev cc5_sem7_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem5_1 : DmaSem sig := 79
abbrev cc6_sem6_0 : DmaSem sig := 80
abbrev cc6_sem6_1 : DmaSem sig := 81

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S8x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S300000x2_S300000x1_0_0 : S300000x2.Slices ![0, 0] S300000x1
  shapeCasts_S300000x1_S300000 : S300000x1.ShapeCasts S300000
  slices_S300000x2_S300000x1_0_1 : S300000x2.Slices ![0, 1] S300000x1
  bcast_S_S100000 : S_.BroadcastsInDim S100000 (![] : Fin 0 → Fin S100000.rank)
  shapeCasts_S300000x2_S600000 : S300000x2.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  shapeCasts_S100000_S100000x1 : S100000.ShapeCasts S100000x1
  concatenates_S300000_S300000_S600000_d0 : Shape.Concatenates [S300000, S300000] S600000 0
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S600000x128_d0 : Shape.Concatenates [S300000x128, S300000x128] S600000x128 0
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S160x128_S20x8x128 : S160x128.ShapeCasts S20x8x128
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  gather_S100000x128_S300000x1_S300000x128_1_0_n_n_0_1_1128_wf : GatherDims.WF S100000x128 S300000x1 S300000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S160x128.size a
  hwx1_6 : ∀ i : grid1.Coords, EltTy.bits .f32 = 32 ∨ (Rect.block (s := S160x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S160x128.size a
  hwx1_7 : ∀ i : grid1.Coords, EltTy.bits .f32 = 32 ∨ (Rect.block (s := S160x128) S8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x128.size a ≤ S160x128.size a
  hwx3_6 : ∀ i : grid3.Coords, EltTy.bits .f32 = 32 ∨ (Rect.block (s := S160x128) S8x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8x128.size a ≤ S160x128.size a
  hwx3_7 : ∀ i : grid3.Coords, EltTy.bits .f32 = 32 ∨ (Rect.block (s := S160x128) S8x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S100000x128.size a
  hwx4_8 : ∀ i : grid4.Coords, EltTy.bits .f32 = 32 ∨ (Rect.block (s := S100000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S100000x1.size a
  hwx5_4 : ∀ i : grid5.Coords, EltTy.bits .f32 = 32 ∨ (Rect.block (s := S100000x1) S5000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8x128.size a ≤ S160x128.size a
  hwx5_6 : ∀ i : grid5.Coords, EltTy.bits .f32 = 32 ∨ (Rect.block (s := S160x128) S8x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8x128.size a ≤ S160x128.size a
  hwx5_7 : ∀ i : grid5.Coords, EltTy.bits .f32 = 32 ∨ (Rect.block (s := S160x128) S8x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v56_1) S8x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v56_2) S8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v56_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v87_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v87_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v116) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v110) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v117_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v117_1) S8x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v117_2) S8x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v117_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v135) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v138) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v141) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v144) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v147) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v148_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v148_1) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v148_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v174) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v177) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v171) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v18) S5000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v178_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v178_1) S8x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v178_2) S8x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v178_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v190) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v196) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v199) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v202) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg0) S5000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v203) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000x128 : Shape := ⟨2, ![100000, 128]⟩
abbrev S300000x2 : Shape := ⟨2, ![300000, 2]⟩
abbrev S3x128x128 : Shape := ⟨3, ![3, 128, 128]⟩
abbrev S3x128 : Shape := ⟨2, ![3, 128]⟩
abbrev S300000x1 : Shape := ⟨2, ![300000, 1]⟩
abbrev S300000 : Shape := ⟨1, ![300000]⟩
abbrev S_ : Shape := ⟨0, ![]⟩
abbrev S100000 : Shape := ⟨1, ![100000]⟩
abbrev S600000 : Shape := ⟨1, ![600000]⟩
abbrev S600000x1 : Shape := ⟨2, ![600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S300000x128 : Shape := ⟨2, ![300000, 128]⟩

abbrev nBuf : Space → Nat
  | .hbm => 364
  | .vmem => 0
  | .smem => 0
  | _ => 0

abbrev hbmTy0_0 (i : Nat) : BufTy := match i % 128 with
  | 0 => ⟨S100000x128, .f32⟩
  | 1 => ⟨S300000x2, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S300000x1, .i32⟩
  | 9 => ⟨S300000, .i32⟩
  | 10 => ⟨S300000x1, .i32⟩
  | 11 => ⟨S300000, .i32⟩
  | 12 => ⟨S_, .f32⟩
  | 13 => ⟨S100000, .f32⟩
  | 14 => ⟨S600000, .i32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S_, .f32⟩
  | 24 => ⟨S600000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S1x128x128, .f32⟩
  | 34 => ⟨S128x128, .f32⟩
  | 35 => ⟨S128x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128x128, .f32⟩
  | 43 => ⟨S128x128, .f32⟩
  | 44 => ⟨S128x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S_, .i32⟩
  | 54 => ⟨S300000, .i32⟩
  | 55 => ⟨S300000, .i1⟩
  | 56 => ⟨S_, .i32⟩
  | 57 => ⟨S300000, .i32⟩
  | 58 => ⟨S300000, .i32⟩
  | 59 => ⟨S300000, .i32⟩
  | 60 => ⟨S300000x1, .i32⟩
  | 61 => ⟨S300000x128, .f32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S100000x128, .f32⟩
  | 71 => ⟨S_, .i32⟩
  | 72 => ⟨S300000, .i32⟩
  | 73 => ⟨S300000, .i1⟩
  | 74 => ⟨S_, .i32⟩
  | 75 => ⟨S300000, .i32⟩
  | 76 => ⟨S300000, .i32⟩
  | 77 => ⟨S300000, .i32⟩
  | 78 => ⟨S300000x1, .i32⟩
  | 79 => ⟨S300000x128, .f32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S100000x128, .f32⟩
  | 89 => ⟨S100000x128, .f32⟩
  | 90 => ⟨S100000x128, .f32⟩
  | 91 => ⟨S100000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S1x128x128, .f32⟩
  | 16 => ⟨S128x128, .f32⟩
  | 17 => ⟨S128x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S1x128x128, .f32⟩
  | 25 => ⟨S128x128, .f32⟩
  | 26 => ⟨S128x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x128, .f32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S100000x128, .f32⟩
  | 53 => ⟨S_, .i32⟩
  | 54 => ⟨S300000, .i32⟩
  | 55 => ⟨S300000, .i1⟩
  | 56 => ⟨S_, .i32⟩
  | 57 => ⟨S300000, .i32⟩
  | 58 => ⟨S300000, .i32⟩
  | 59 => ⟨S300000, .i32⟩
  | 60 => ⟨S300000x1, .i32⟩
  | 61 => ⟨S300000x128, .f32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S100000x128, .f32⟩
  | 71 => ⟨S100000x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S1x128x128, .f32⟩
  | 126 => ⟨S128x128, .f32⟩
  | 127 => ⟨S128x128, .f32⟩
  | _ => ⟨S100000x128, .f32⟩

abbrev hbmTy0_2 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128x128, .f32⟩
  | 7 => ⟨S128x128, .f32⟩
  | 8 => ⟨S128x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000x128, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S100000x128, .f32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x128, .f32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S100000x128, .f32⟩
  | 53 => ⟨S100000x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_cst_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_cst_1 : Ref sig .tc := ⟨.hbm, 108, rfl⟩
abbrev main_call0_v8 : Ref sig .tc := ⟨.hbm, 109, rfl⟩
abbrev main_call0_cst_2 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_call0_cst_3 : Ref sig .tc := ⟨.hbm, 114, rfl⟩
abbrev main_call0_v12 : Ref sig .tc := ⟨.hbm, 115, rfl⟩
abbrev main_call0_cst_4 : Ref sig .tc := ⟨.hbm, 116, rfl⟩
abbrev main_call0_call0_v0 : Ref sig .tc := ⟨.hbm, 117, rfl⟩
abbrev main_call0_call0_v1 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_16 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_call1_cst : Ref sig .tc := ⟨.hbm, 140, rfl⟩
abbrev main_call1_v0 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_17 : Ref sig .tc := ⟨.hbm, 161, rfl⟩
abbrev main_v111 : Ref sig .tc := ⟨.hbm, 162, rfl⟩
abbrev main_c_18 : Ref sig .tc := ⟨.hbm, 163, rfl⟩
abbrev main_v112 : Ref sig .tc := ⟨.hbm, 164, rfl⟩
abbrev main_v113 : Ref sig .tc := ⟨.hbm, 165, rfl⟩
abbrev main_c_19 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_20 : Ref sig .tc := ⟨.hbm, 172, rfl⟩
abbrev main_v119 : Ref sig .tc := ⟨.hbm, 173, rfl⟩
abbrev main_v120 : Ref sig .tc := ⟨.hbm, 174, rfl⟩
abbrev main_c_21 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_c_22 : Ref sig .tc := ⟨.hbm, 181, rfl⟩
abbrev main_v126 : Ref sig .tc := ⟨.hbm, 182, rfl⟩
abbrev main_v127 : Ref sig .tc := ⟨.hbm, 183, rfl⟩
abbrev main_c_23 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_c_24 : Ref sig .tc := ⟨.hbm, 190, rfl⟩
abbrev main_v133 : Ref sig .tc := ⟨.hbm, 191, rfl⟩
abbrev main_v134 : Ref sig .tc := ⟨.hbm, 192, rfl⟩
abbrev main_c_25 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_26 : Ref sig .tc := ⟨.hbm, 202, rfl⟩
abbrev main_v143 : Ref sig .tc := ⟨.hbm, 203, rfl⟩
abbrev main_cst_27 : Ref sig .tc := ⟨.hbm, 204, rfl⟩
abbrev main_v144 : Ref sig .tc := ⟨.hbm, 205, rfl⟩
abbrev main_v145 : Ref sig .tc := ⟨.hbm, 206, rfl⟩
abbrev main_c_28 : Ref sig .tc := ⟨.hbm, 207, rfl⟩
abbrev main_call2_cst : Ref sig .tc := ⟨.hbm, 208, rfl⟩
abbrev main_call2_v0 : Ref sig .tc := ⟨.hbm, 209, rfl⟩
abbrev main_call2_v1 : Ref sig .tc := ⟨.hbm, 210, rfl⟩
abbrev main_call2_cst_0 : Ref sig .tc := ⟨.hbm, 211, rfl⟩
abbrev main_call2_v2 : Ref sig .tc := ⟨.hbm, 212, rfl⟩
abbrev main_call2_v3 : Ref sig .tc := ⟨.hbm, 213, rfl⟩
abbrev main_call2_v4 : Ref sig .tc := ⟨.hbm, 214, rfl⟩
abbrev main_call2_v5 : Ref sig .tc := ⟨.hbm, 215, rfl⟩
abbrev main_call2_v6 : Ref sig .tc := ⟨.hbm, 216, rfl⟩
abbrev main_call2_v7 : Ref sig .tc := ⟨.hbm, 217, rfl⟩
abbrev main_call2_cst_1 : Ref sig .tc := ⟨.hbm, 218, rfl⟩
abbrev main_call2_v8 : Ref sig .tc := ⟨.hbm, 219, rfl⟩
abbrev main_call2_cst_2 : Ref sig .tc := ⟨.hbm, 220, rfl⟩
abbrev main_call2_v9 : Ref sig .tc := ⟨.hbm, 221, rfl⟩
abbrev main_call2_v10 : Ref sig .tc := ⟨.hbm, 222, rfl⟩
abbrev main_call2_v11 : Ref sig .tc := ⟨.hbm, 223, rfl⟩
abbrev main_call2_cst_3 : Ref sig .tc := ⟨.hbm, 224, rfl⟩
abbrev main_call2_v12 : Ref sig .tc := ⟨.hbm, 225, rfl⟩
abbrev main_call2_cst_4 : Ref sig .tc := ⟨.hbm, 226, rfl⟩
abbrev main_call2_call0_v0 : Ref sig .tc := ⟨.hbm, 227, rfl⟩
abbrev main_call2_call0_v1 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_29 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_call3_cst : Ref sig .tc := ⟨.hbm, 250, rfl⟩
abbrev main_call3_v0 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_cst_30 : Ref sig .tc := ⟨.hbm, 271, rfl⟩
abbrev main_v185 : Ref sig .tc := ⟨.hbm, 272, rfl⟩
abbrev main_c_31 : Ref sig .tc := ⟨.hbm, 273, rfl⟩
abbrev main_v186 : Ref sig .tc := ⟨.hbm, 274, rfl⟩
abbrev main_v187 : Ref sig .tc := ⟨.hbm, 275, rfl⟩
abbrev main_c_32 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_c_33 : Ref sig .tc := ⟨.hbm, 282, rfl⟩
abbrev main_v193 : Ref sig .tc := ⟨.hbm, 283, rfl⟩
abbrev main_v194 : Ref sig .tc := ⟨.hbm, 284, rfl⟩
abbrev main_c_34 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_c_35 : Ref sig .tc := ⟨.hbm, 291, rfl⟩
abbrev main_v200 : Ref sig .tc := ⟨.hbm, 292, rfl⟩
abbrev main_v201 : Ref sig .tc := ⟨.hbm, 293, rfl⟩
abbrev main_c_36 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_c_37 : Ref sig .tc := ⟨.hbm, 300, rfl⟩
abbrev main_v207 : Ref sig .tc := ⟨.hbm, 301, rfl⟩
abbrev main_v208 : Ref sig .tc := ⟨.hbm, 302, rfl⟩
abbrev main_c_38 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_cst_39 : Ref sig .tc := ⟨.hbm, 312, rfl⟩
abbrev main_v217 : Ref sig .tc := ⟨.hbm, 313, rfl⟩
abbrev main_cst_40 : Ref sig .tc := ⟨.hbm, 314, rfl⟩
abbrev main_v218 : Ref sig .tc := ⟨.hbm, 315, rfl⟩
abbrev main_v219 : Ref sig .tc := ⟨.hbm, 316, rfl⟩
abbrev main_c_41 : Ref sig .tc := ⟨.hbm, 317, rfl⟩
abbrev main_call4_cst : Ref sig .tc := ⟨.hbm, 318, rfl⟩
abbrev main_call4_v0 : Ref sig .tc := ⟨.hbm, 319, rfl⟩
abbrev main_call4_v1 : Ref sig .tc := ⟨.hbm, 320, rfl⟩
abbrev main_call4_cst_0 : Ref sig .tc := ⟨.hbm, 321, rfl⟩
abbrev main_call4_v2 : Ref sig .tc := ⟨.hbm, 322, rfl⟩
abbrev main_call4_v3 : Ref sig .tc := ⟨.hbm, 323, rfl⟩
abbrev main_call4_v4 : Ref sig .tc := ⟨.hbm, 324, rfl⟩
abbrev main_call4_v5 : Ref sig .tc := ⟨.hbm, 325, rfl⟩
abbrev main_call4_v6 : Ref sig .tc := ⟨.hbm, 326, rfl⟩
abbrev main_call4_v7 : Ref sig .tc := ⟨.hbm, 327, rfl⟩
abbrev main_call4_cst_1 : Ref sig .tc := ⟨.hbm, 328, rfl⟩
abbrev main_call4_v8 : Ref sig .tc := ⟨.hbm, 329, rfl⟩
abbrev main_call4_cst_2 : Ref sig .tc := ⟨.hbm, 330, rfl⟩
abbrev main_call4_v9 : Ref sig .tc := ⟨.hbm, 331, rfl⟩
abbrev main_call4_v10 : Ref sig .tc := ⟨.hbm, 332, rfl⟩
abbrev main_call4_v11 : Ref sig .tc := ⟨.hbm, 333, rfl⟩
abbrev main_call4_cst_3 : Ref sig .tc := ⟨.hbm, 334, rfl⟩
abbrev main_call4_v12 : Ref sig .tc := ⟨.hbm, 335, rfl⟩
abbrev main_call4_cst_4 : Ref sig .tc := ⟨.hbm, 336, rfl⟩
abbrev main_call4_call0_v0 : Ref sig .tc := ⟨.hbm, 337, rfl⟩
abbrev main_call4_call0_v1 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_cst_42 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_call5_cst : Ref sig .tc := ⟨.hbm, 361, rfl⟩
abbrev main_call5_v0 : Ref sig .tc := ⟨.hbm, 362, rfl⟩
abbrev main_v241 : Ref sig .tc := ⟨.hbm, 363, rfl⟩

abbrev nD : Nat := 1
abbrev τ : Topo := Topo.v7x

variable {F : FTy → Type} [FloatOps F]

class Facts₀ : Prop where
  slices_S300000x2_S300000x1_0_0 : S300000x2.Slices ![0, 0] S300000x1
  shapeCasts_S300000x1_S300000 : S300000x1.ShapeCasts S300000
  slices_S300000x2_S300000x1_0_1 : S300000x2.Slices ![0, 1] S300000x1
  bcast_S_S100000 : S_.BroadcastsInDim S100000 (![] : Fin 0 → Fin S100000.rank)
  shapeCasts_S300000x2_S600000 : S300000x2.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf

class Facts : Prop extends Facts₀ where

variable [Facts]
-- ==== Proof.Spec.lean ====
/-
  The mathematics both programs compute, as functions of the eight argument arrays: a three-layer graph convolution
  over 100000 vertices with 128 features. A layer applies two dense maps x ↦ x·Wᵀ + b, sums over every edge the second
  map's rows of the neighbouring endpoints, scales by the inverse of one plus the vertex's count among the edge
  endpoints, normalises every feature column by its mean and variance over the vertices, and clips at zero; the last
  layer adds the input back before clipping.
  The two programs differ in three places, and each has its own spelling here:
  * the edge sum: one accumulation over the 600000 endpoint rows laid end to end (`aggK`), against two accumulations over
    the 300000 edges, one per direction (`aggR`);
  * the column sums: by blocks of 5000 vertices and then over the 20 blocks (`sumK`), against one sum over all vertices;
  * the variance: the mean of squares minus the squared mean, clipped at zero (`varK`), against the mean of the squared
    deviations (`varR`).
-/
import Idealize.ShloMosaic.PureOps.Ideal
import Idealize.ShloMosaic.Lib.ValueIdx

noncomputable section

namespace Cert.Spec

open Idealize.ShloMosaic Idealize.ShloMosaic.ValueIdx
open scoped BigOperators

abbrev SVD : Shape := ⟨2, ![100000, 128]⟩
abbrev SV1 : Shape := ⟨2, ![100000, 1]⟩
abbrev SV : Shape := ⟨1, ![100000]⟩
abbrev SE2 : Shape := ⟨2, ![300000, 2]⟩
abbrev SE1 : Shape := ⟨2, ![300000, 1]⟩
abbrev SED : Shape := ⟨2, ![300000, 128]⟩
abbrev SF1 : Shape := ⟨2, ![600000, 1]⟩
abbrev SF : Shape := ⟨1, ![600000]⟩
abbrev SFD : Shape := ⟨2, ![600000, 128]⟩
abbrev S3DD : Shape := ⟨3, ![3, 128, 128]⟩
abbrev S3D : Shape := ⟨2, ![3, 128]⟩

/-- A [100000, 128] array of extended reals. -/
abbrev Arr := SVD.Idx → EReal
/-- One value per feature. -/
abbrev Feat := Fin 128 → EReal

/-- The eight argument arrays. -/
structure Args where
  x : Arr
  E : IVec SE2 32
  W0 : S3DD.Idx → EReal
  b0 : S3D.Idx → EReal
  W1 : S3DD.Idx → EReal
  b1 : S3D.Idx → EReal
  γ : S3D.Idx → EReal
  β : S3D.Idx → EReal

/-- The float literals of the programs: 0, 1, 100000 and the variance's offset 1e-5 (as rounded to binary32). -/
def f0 : EReal := Ideal.ofBits .f32 0x00000000#32
def f1 : EReal := Ideal.ofBits .f32 0x3F800000#32
def nV : EReal := Ideal.ofBits .f32 0x47C35000#32
def eps : EReal := Ideal.ofBits .f32 0x3727C5AC#32

/-! ## The edge endpoints as row indices -/

/-- An endpoint word as numpy reads an index: a negative word has the number of vertices added (in 32-bit arithmetic). -/
def norm (v : BitVec 32) : BitVec 32 := Scalar.select (IntOp.cmpi .slt v 0#32) (IntOp.addi v 100000#32) v

/-- The first endpoints, one per edge, as a column of start indices. -/
def srcCol (E : IVec SE2 32) : IVec SE1 32 := fun i => norm (E (ix2 (i 0) (0 : Fin 2)))
/-- The second endpoints. -/
def dstCol (E : IVec SE2 32) : IVec SE1 32 := fun i => norm (E (ix2 (i 0) (1 : Fin 2)))
/-- The first endpoints followed by the second ones: 600000 start indices. -/
def catAt (E : IVec SE2 32) (q : Fin 600000) : BitVec 32 :=
  if h : q.val < 300000 then norm (E (ix2 (⟨q.val, h⟩ : Fin 300000) (0 : Fin 2)))
  else norm (E (ix2 (⟨q.val - 300000, by have := q.isLt; omega⟩ : Fin 300000) (1 : Fin 2)))
def catCol (E : IVec SE2 32) : IVec SF1 32 := fun i => catAt E (i 0)
/-- Every endpoint in the array's own (row-major) order: entry q is endpoint q % 2 of edge q / 2. -/
def flatAt (E : IVec SE2 32) (q : Fin 600000) : BitVec 32 :=
  norm (E (ix2 (⟨q.val / 2, by have := q.isLt; omega⟩ : Fin 300000) (⟨q.val % 2, Nat.mod_lt _ (by decide)⟩ : Fin 2)))
def flatCol (E : IVec SE2 32) : IVec SF1 32 := fun i => flatAt E (i 0)

/-- Two [300000, 128] arrays one after the other along the rows. -/
def catAt2 (A B : SED.Idx → EReal) (q : Fin 600000) (j : Fin 128) : EReal :=
  if h : q.val < 300000 then A (ix2 (⟨q.val, h⟩ : Fin 300000) j)
  else B (ix2 (⟨q.val - 300000, by have := q.isLt; omega⟩ : Fin 300000) j)
def cat (A B : SED.Idx → EReal) : SFD.Idx → EReal := fun i => catAt2 A B (i 0) (i 1)

/-! ## The dimension numbers of the gathers and scatters -/

/-- Rows of a [100000, 128] array at 300000 start indices. -/
def gRec : GatherDims SVD SE1 SED where
  offsetDims := [1]
  collapsedSliceDims := [0]
  operandBatchingDims := []
  startIndicesBatchingDims := []
  startIndexMap := [0]
  indexVectorDim := 1
  sliceSizes := ![1, 128]
  wf := by decide

/-- Rows accumulated into a [100000, 128] array at 300000 start indices. -/
def sRec3 : ScatterDims SVD SE1 SED where
  updateWindowDims := [1]
  insertedWindowDims := [0]
  scatterDimsToOperandDims := [0]
  indexVectorDim := 1
  wf := by decide

/-- Rows accumulated into a [100000, 128] array at 600000 start indices. -/
def sRec6 : ScatterDims SVD SF1 SFD where
  updateWindowDims := [1]
  insertedWindowDims := [0]
  scatterDimsToOperandDims := [0]
  indexVectorDim := 1
  wf := by decide

/-- Entries accumulated into a [100000] array at 600000 start indices. -/
def sRecC : ScatterDims SV SF1 SF where
  updateWindowDims := []
  insertedWindowDims := [0]
  scatterDimsToOperandDims := [0]
  indexVectorDim := 1
  wf := by decide

/-! ## The pieces of a layer -/

/-- One plus the number of endpoints that name vertex r, inverted. -/
def cnt (E : IVec SE2 32) : SV.Idx → EReal :=
  Ideal.hostScatterAdd sRecC (fun _ => f0) (flatCol E) (fun _ => f1)
def dinv (E : IVec SE2 32) (r : Fin 100000) : EReal := Ideal.div f1 (f1 + cnt E (ix1 r))

/-- The edge sum, one direction after the other: into zeros, at every first endpoint the row of the second one; then at
    every second endpoint the row of the first one. -/
def aggR (E : IVec SE2 32) (h : Arr) : Arr :=
  Ideal.hostScatterAdd sRec3 (Ideal.hostScatterAdd sRec3 (fun _ => f0) (srcCol E) (Host.gather gRec h (dstCol E)))
    (dstCol E) (Host.gather gRec h (srcCol E))
/-- The edge sum in one accumulation over the 600000 endpoint rows laid end to end. -/
def aggK (E : IVec SE2 32) (h : Arr) : Arr :=
  Ideal.hostScatterAdd sRec6 (fun _ => f0) (catCol E) (cat (Host.gather gRec h (dstCol E)) (Host.gather gRec h (srcCol E)))

/-- The dense map of layer l: x · W[l]ᵀ + b[l]. -/
def lin (W : S3DD.Idx → EReal) (b : S3D.Idx → EReal) (l : Fin 3) (x : Arr) : Arr :=
  fun i => (∑ k : Fin 128, x (ix2 (i 0) k) * W (ix3 l (i 1) k)) + b (ix2 l (i 1))
theorem lin_apply (W : S3DD.Idx → EReal) (b : S3D.Idx → EReal) (l : Fin 3) (x : Arr) (r : Fin 100000) (j : Fin 128) :
    lin W b l x (ix2 r j) = (∑ k : Fin 128, x (ix2 r k) * W (ix3 l j k)) + b (ix2 l j) := rfl

/-- The scaled combination of a layer: dinv r · (h0 + agg). -/
def comb (d : Fin 100000 → EReal) (h0 agg : Arr) : Arr := fun i => d (i 0) * (h0 i + agg i)
theorem comb_apply (d : Fin 100000 → EReal) (h0 agg : Arr) (r : Fin 100000) (j : Fin 128) :
    comb d h0 agg (ix2 r j) = d r * (h0 (ix2 r j) + agg (ix2 r j)) := rfl

/-- A sum over the vertices by blocks of 5000: over the 20 blocks, of the sums within a block. -/
def sumK (f : Fin 100000 → EReal) : EReal :=
  ∑ t : Fin 20, ∑ q : Fin 5000, f ⟨5000 * t.val + q.val, by have := t.isLt; have := q.isLt; omega⟩

/-- Column means and variances, by blocks (`K`) and at once (`R`). -/
def meanK (g : Arr) : Feat := fun j => Ideal.div (sumK fun r => g (ix2 r j)) nV
def varK (g : Arr) : Feat := fun j =>
  max (Ideal.div (sumK fun r => g (ix2 r j) * g (ix2 r j)) nV - meanK g j * meanK g j) f0
def meanR (g : Arr) : Feat := fun j => Ideal.div (∑ r : Fin 100000, g (ix2 r j)) nV
def varR (g : Arr) : Feat := fun j =>
  Ideal.div (∑ r : Fin 100000, (g (ix2 r j) - meanR g j) * (g (ix2 r j) - meanR g j)) nV

/-- The normalisation of layer l: γ · (g − μ) · (var + ε)^(−1/2) + β. -/
def bn (γ β : S3D.Idx → EReal) (l : Fin 3) (mu var : Feat) (g : Arr) : Arr :=
  fun i => γ (ix2 l (i 1)) * (g i - mu (i 1)) * Ideal.rsqrt (var (i 1) + eps) + β (ix2 l (i 1))
theorem bn_apply (γ β : S3D.Idx → EReal) (l : Fin 3) (mu var : Feat) (g : Arr) (r : Fin 100000) (j : Fin 128) :
    bn γ β l mu var g (ix2 r j) = γ (ix2 l j) * (g (ix2 r j) - mu j) * Ideal.rsqrt (var j + eps) + β (ix2 l j) := rfl

/-- Clipping at zero. -/
def relu (x : Arr) : Arr := fun i => max (x i) f0

/-! ## The two networks -/

/-- A layer's scaled combination, the edge sum in one accumulation; `h1` is the second dense map of the layer's input. -/
def gK (a : Args) (l : Fin 3) (x h1 : Arr) : Arr := comb (dinv a.E) (lin a.W0 a.b0 l x) (aggK a.E h1)
/-- The same, the edge sum one direction after the other. -/
def gR (a : Args) (l : Fin 3) (x : Arr) : Arr := comb (dinv a.E) (lin a.W0 a.b0 l x) (aggR a.E (lin a.W1 a.b1 l x))

def normK (a : Args) (l : Fin 3) (g : Arr) : Arr := bn a.γ a.β l (meanK g) (varK g) g
def normR (a : Args) (l : Fin 3) (g : Arr) : Arr := bn a.γ a.β l (meanR g) (varR g) g

/-- The kernel program's result. -/
def outK (a : Args) : Arr :=
  let g0 := gK a 0 a.x (lin a.W1 a.b1 0 a.x)
  let x1 := relu (normK a 0 g0)
  let g1 := gK a 1 x1 (lin a.W1 a.b1 1 x1)
  let x2 := relu (normK a 1 g1)
  let g2 := gK a 2 x2 (lin a.W1 a.b1 2 x2)
  fun i => max (normK a 2 g2 i + a.x i) f0

/-- The reference program's result. -/
def outR (a : Args) : Arr :=
  let g0 := gR a 0 a.x
  let x1 := relu (normR a 0 g0)
  let g1 := gR a 1 x1
  let x2 := relu (normR a 1 g1)
  let g2 := gR a 2 x2
  fun i => max (normR a 2 g2 i + a.x i) f0

/-- Every float argument holds real numbers only. -/
structure Args.Real (a : Args) : Prop where
  x : ∀ i, ∃ r : ℝ, a.x i = (r : EReal)
  W0 : ∀ i, ∃ r : ℝ, a.W0 i = (r : EReal)
  b0 : ∀ i, ∃ r : ℝ, a.b0 i = (r : EReal)
  W1 : ∀ i, ∃ r : ℝ, a.W1 i = (r : EReal)
  b1 : ∀ i, ∃ r : ℝ, a.b1 i = (r : EReal)
  γ : ∀ i, ∃ r : ℝ, a.γ i = (r : EReal)
  β : ∀ i, ∃ r : ℝ, a.β i = (r : EReal)

end Cert.Spec

end
-- ==== Proof.Pre.lean ====
/-
  From the precondition to real numbers. The precondition says of every float argument array that the absolute value of
  each entry is below +∞ (a conjunction of seven reductions by `and` of such comparisons); an extended real whose absolute
  value is below +∞ is neither infinity, so it is a real number.
-/
import proofs.«178513_j90202903151305_2_alg».proof.Pre_finite_inputs
import proofs.«178513_j90202903151305_2_alg».proof.Proof.Spec
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.PreReal

open Idealize.ShloMosaic Cert.Pre_finite_inputs

/-- An extended real whose absolute value max x (−x) compares below the pattern of +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hinf : Ideal.ofBits .f32 0x7F800000#32 = ⊤ := by simp [Ideal.ofBits, Ideal.ieee]
  rw [Ideal.hostAbsf_def, Ideal.absf_def, Ideal.cmpf_def, Ideal.ofBits_def, hinf] at h
  unfold Ideal.cmp at h
  have h' : max x (-x) < ⊤ := by
    by_contra hn
    simp [hn] at h
  induction x using EReal.rec with
  | bot => simp at h'
  | coe r => exact ⟨r, rfl⟩
  | top => simp at h'

instance : Subsingleton S_.Idx := ⟨fun a b => funext fun d => d.elim0⟩

variable [Cert.Pre_finite_inputs.Facts]

/-- Every float argument array of which the precondition holds has real entries only. -/
theorem reals_of_pre (a0 : FVec Ideal S100000x128 .f32) (a1 : IVec S300000x2 32) (a2 : FVec Ideal S3x128x128 .f32)
    (a3 : FVec Ideal S3x128 .f32) (a4 : FVec Ideal S3x128x128 .f32) (a5 a6 a7 : FVec Ideal S3x128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have h0 := congrFun h ValueIdx.ix0
  dsimp only [fn, fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => real_of_abs_lt _ (Host.reduce_andi_all _ _ _ _ _ e0 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => real_of_abs_lt _ (Host.reduce_andi_all _ _ _ _ _ e7 i)⟩

end Cert.PreReal

end
-- ==== Proof.K.Args.lean ====
/-
  The eight argument arrays of the kernel program, as they lie in a launch memory, bundled for the specification.
-/
import proofs.«178513_j90202903151305_2_alg».proof.KernelIdeal
import proofs.«178513_j90202903151305_2_alg».proof.Proof.Spec
import Idealize.ShloMosaic.PureOps.Ideal

noncomputable section

namespace Cert.KernelIdeal

open Idealize.ShloMosaic Idealize.SL.Sem

/-- Core c's argument arrays in the memory m. -/
def argsK (m : (ℓ : Loc nD τ sig) → Buf (Elt Ideal) ℓ) (c : Dev nD) : Cert.Spec.Args where
  x := m ((c.tc : Thread nD τ).loc main_arg0)
  E := m ((c.tc : Thread nD τ).loc main_arg1)
  W0 := m ((c.tc : Thread nD τ).loc main_arg2)
  b0 := m ((c.tc : Thread nD τ).loc main_arg3)
  W1 := m ((c.tc : Thread nD τ).loc main_arg4)
  b1 := m ((c.tc : Thread nD τ).loc main_arg5)
  γ := m ((c.tc : Thread nD τ).loc main_arg6)
  β := m ((c.tc : Thread nD τ).loc main_arg7)

end Cert.KernelIdeal

end
-- ==== Proof.K.Run.lean ====
/-
  The kernel program's run with its result named: every weakly fair execution of @main terminates, nothing faulting,
  with the result array at what the last region leaves in it — the contents at the last of the run's boundaries, a fold
  from the launch memory through the seven stretches of host operations and the seven regions — and the eight argument
  arrays as launched.
-/
import proofs.«178513_j90202903151305_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the fourteen segments, the last thread state read against the final state: every unscoped buffer ends at
    the last boundary's contents, the result buffer among them; each argument is read back through the fold. -/
theorem run_value : θ_run defs (onTc (τ := τ) (main (F := F))) ⟨m, fun _ => 0, ρ⟩ (fun r => ∀ c : Dev nD,
      r.2.mem ((c.tc : Thread nD τ).loc main_v203) = W14 m ρ c (Proc.devRef .tc main_v203)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v203 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.KRun

end
-- ==== Proof.K.Arr.lean ====
/-
  A buffer's contents read as an array of extended reals of a stated shape.
-/
import Idealize.ShloMosaic.PureOps.Ideal
import Idealize.ShloMosaic.Lib.ValueIdx

namespace Cert.KernelIdeal.KA

open Idealize.ShloMosaic

/-- The array itself: the shape is named so that an entry's type reads as an extended real. -/
abbrev arr (s : Shape) (f : s.Idx → EReal) : s.Idx → EReal := f

theorem arr_apply (s : Shape) (f : s.Idx → EReal) (i : s.Idx) : arr s f i = f i := rfl

end Cert.KernelIdeal.KA
-- ==== Proof.LibPayIdx.lean ====
/-
  A kernel body's layout and contraction operations READ AT AN INDEX GIVEN BY COORDINATES, at the ideal values (floats are
  extended reals): the operations a body of the shape "flatten the two leading axes, multiply on the matrix unit into a zero
  accumulator, unflatten, normalise per row" meets beside the pointwise ones. Every lemma is general in the extents.
  • Reshapes: `[a, b, k]` to `[m, k]` and back (row `p·b + q`), `[a, b]` to `[a, b, 1]`.
  • Broadcasts to `[a, b, n]`: of one row `[1, 1, n]`, of one slab `[1, b, n]`, of one column `[1, b, 1]`.
  • A matrix product `[m, k] × [k, n]` into the zero accumulator: the sum over the contracted coordinate; and the same
    between the two reshapes, read at `(p, q, c)`.
  • A sum over one axis from the zero accumulator: over the last axis of `[a, b, n]`, over the first of `[a, b, 1]`.
-/
import Idealize.ShloMosaic.Lib.ValueLayout
import Idealize.ShloMosaic.PureOps.Ideal.Laws

noncomputable section

open scoped BigOperators

namespace Cert.KernelIdeal.Hand

open Idealize.ShloMosaic Idealize.ShloMosaic.ValueIdx

variable {α : Type}

/-! ## Reshapes -/

/-- An `[a, b, k]` array cast to `[m, k]` reads, at row `i = p·b + q` and column `c`, the operand at `(p, q, c)`. -/
theorem shapeCast_abk_mk_apply {a b k m : ℕ} (x : (⟨3, ![a, b, k]⟩ : Shape).Idx → α)
    (h : (⟨3, ![a, b, k]⟩ : Shape).ShapeCasts ⟨2, ![m, k]⟩) (p : Fin a) (q : Fin b) (c : Fin k) (i : Fin m)
    (hi : i.val = p.val * b + q.val) :
    shapeCast ⟨2, ![m, k]⟩ x h (ix2 i c) = x (ix3 p q c) :=
  shapeCast_apply x h _ _ (by
    rw [Shape.rowMajor_val_three, Shape.rowMajor_val_two]
    show (p.val * b + q.val) * k + c.val = i.val * k + c.val
    rw [hi])

/-- An `[m, k]` array cast to `[a, b, k]` reads, at `(p, q, c)`, the operand at row `i = p·b + q` and column `c`. -/
theorem shapeCast_mk_abk_apply {a b k m : ℕ} (x : (⟨2, ![m, k]⟩ : Shape).Idx → α)
    (h : (⟨2, ![m, k]⟩ : Shape).ShapeCasts ⟨3, ![a, b, k]⟩) (p : Fin a) (q : Fin b) (c : Fin k) (i : Fin m)
    (hi : i.val = p.val * b + q.val) :
    shapeCast ⟨3, ![a, b, k]⟩ x h (ix3 p q c) = x (ix2 i c) :=
  shapeCast_apply x h _ _ (by
    rw [Shape.rowMajor_val_two, Shape.rowMajor_val_three]
    show i.val * k + c.val = (p.val * b + q.val) * k + c.val
    rw [hi])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-! ## Broadcasts to `[a, b, n]` -/

/-- A `[1, 1, n]` array broadcast to `[a, b, n]` reads, at `(p, q, c)`, the operand's one row at `c`. -/
theorem broadcastTo_11c_abc_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A `[1, b, n]` array broadcast to `[a, b, n]` reads, at `(p, q, c)`, the operand's one slab at `(q, c)`. -/
theorem broadcastTo_1bc_abc_apply {a b n : ℕ} (v : (⟨3, ![1, b, n]⟩ : Shape).Idx → α)
    (h : (⟨3, ![1, b, n]⟩ : Shape).Broadcasts ⟨3, ![a, b, n]⟩) (p : Fin a) (q : Fin b) (c : Fin n) :
    broadcastTo ⟨3, ![a, b, n]⟩ v h (ix3 p q c) = v (ix3 (0 : Fin 1) q c) := by
  refine broadcastTo_apply v h (ix3 p q c) (ix3 (0 : Fin 1) q c) fun ax => ?_
  match ax with
  | ⟨0, _⟩ => rfl
  | ⟨1, _⟩ =>
    show q.val = if b = 1 then 0 else q.val
    split
    · have := q.isLt; omega
    · rfl
  | ⟨2, _⟩ =>
    show c.val = if n = 1 then 0 else c.val
    split
    · have := c.isLt; omega
    · rfl

/-- A `[1, b, 1]` array broadcast to `[a, b, n]` reads, at `(p, q, c)`, the operand's one column at `q`. -/
theorem broadcastTo_1b1_abc_apply {a b n : ℕ} (v : (⟨3, ![1, b, 1]⟩ : Shape).Idx → α)
    (h : (⟨3, ![1, b, 1]⟩ : Shape).Broadcasts ⟨3, ![a, b, n]⟩) (p : Fin a) (q : Fin b) (c : Fin n) :
    broadcastTo ⟨3, ![a, b, n]⟩ v h (ix3 p q c) = v (ix3 (0 : Fin 1) q (0 : Fin 1)) := by
  refine broadcastTo_apply v h (ix3 p q c) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-! ## A matrix product into the zero accumulator -/

/-- The product of an `m × k` by a `k × n` matrix on the matrix unit, accumulated into the zero splat, read at `(i, c)`: the
    sum over the contracted coordinate of the products of the entries. `w` is the dimension numbers' well-formedness, which a
    program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    matmul (⟨[1], [0], [0], [1], [], [], w⟩ : DotDims _ _ _) prec A B (constant (F := Ideal) ⟨2, ![m, n]⟩ .f32 0x00000000#32) (ix2 i c)
      = ∑ j : Fin k, A (ix2 i j) * B (ix2 j c) := by
  show FloatOps.matmul _ prec A B (constant (F := Ideal) ⟨2, ![m, n]⟩ .f32 0x00000000#32) (ix2 i c) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The row-block product: an `[a, b, k]` array flattened to `[m, k]` (row `p·b + q`), multiplied by a `[k, n]` matrix into the
    zero accumulator, and unflattened to `[a, b, n]`, read at `(p, q, c)`: the sum over the contracted coordinate of the
    products of the entries of row `(p, q)` and column `c`. -/
theorem flat_matmul_apply {a b k n m : ℕ} {φ₁ φ₂ : FTy}
    (w : DotDims.WF ⟨2, ![m, k]⟩ ⟨2, ![k, n]⟩ ⟨2, ![m, n]⟩ [1] [0] [0] [1] [] [])
    (prec : Option ContractPrecision) (X : FVec Ideal ⟨3, ![a, b, k]⟩ φ₁) (W : FVec Ideal ⟨2, ![k, n]⟩ φ₂)
    (h1 : (⟨3, ![a, b, k]⟩ : Shape).ShapeCasts ⟨2, ![m, k]⟩) (h2 : (⟨2, ![m, n]⟩ : Shape).ShapeCasts ⟨3, ![a, b, n]⟩)
    (p : Fin a) (q : Fin b) (c : Fin n) (hlt : p.val * b + q.val < m) :
    shapeCast ⟨3, ![a, b, n]⟩
        (matmul (⟨[1], [0], [0], [1], [], [], w⟩ : DotDims _ _ _) prec (shapeCast ⟨2, ![m, k]⟩ X h1) W
          (constant (F := Ideal) ⟨2, ![m, n]⟩ .f32 0x00000000#32)) h2 (ix3 p q c)
      = ∑ j : Fin k, X (ix3 p q j) * W (ix2 j c) := by
  refine (shapeCast_mk_abk_apply _ h2 p q c ⟨_, hlt⟩ rfl).trans ?_
  refine (matmul_plain_zero_apply w prec _ W ⟨_, hlt⟩ c).trans ?_
  exact Finset.sum_congr rfl fun j _ =>
    congrArg (· * W (ix2 j c)) (shapeCast_abk_mk_apply X h1 p q j ⟨_, hlt⟩ rfl)

/-! ## A sum over one axis from the zero accumulator -/

/-- The sum over the LAST axis of an `[a, b, n]` array from the zero accumulator, read at `(p, q)`: the sum over that axis's
    coordinates. The accumulator's word is zero, which is the hypothesis as a printed program carries it. -/
theorem multiReduction_add_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ c : Fin n, src (ix3 p q c) := by
  refine (Ideal.multiReduction_add_single src 0x00000000#32 h hφ hacc (ix2 p q)).trans ?_
  refine Finset.sum_congr rfl fun c _ => congrArg src ?_
  funext ax; apply Fin.ext
  match ax with
  | ⟨0, _⟩ => rfl
  | ⟨1, _⟩ => rfl
  | ⟨2, _⟩ => rfl

/-- The sum over the FIRST axis of an `[a, b, 1]` array from the zero accumulator, read at `(q, u)`: the sum over that axis's
    coordinates. -/
theorem multiReduction_add_first_apply {a b : ℕ} (src : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = 0x00000000#32) (q : Fin b) (u : Fin 1) :
    multiReduction .add [0] ⟨2, ![b, 1]⟩ src 0x00000000#32 h hφ hacc (ix2 q u) = ∑ p : Fin a, src (ix3 p q u) := by
  refine (Ideal.multiReduction_add_single src 0x00000000#32 h hφ hacc (ix2 q u)).trans ?_
  refine Finset.sum_congr rfl fun p _ => congrArg src ?_
  funext ax; apply Fin.ext
  match ax with
  | ⟨0, _⟩ => rfl
  | ⟨1, _⟩ => rfl
  | ⟨2, _⟩ => rfl

end Cert.KernelIdeal.Hand

end
-- ==== Proof.K.Pay.lean ====
/-
  The layout and contraction operations of the layer bodies read at an index given by coordinates, at the ideal values:
  a column [a,1] spread over the columns of [a,b]; the dense map "row block times matrix plus bias row"; a sum over the
  rows of a block; a [n] row viewed as [1,n].
-/
import proofs.«178513_j90202903151305_2_alg».proof.KernelIdeal
import proofs.«178513_j90202903151305_2_alg».proof.Proof.LibPayIdx

noncomputable section

namespace Cert.KernelIdeal.KA

open Cert.KernelIdeal Idealize.ShloMosaic Idealize.ShloMosaic.ValueIdx
open scoped BigOperators

variable {α : Type}

theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dense map of a row block: the block times the matrix (into the zero accumulator) plus the bias row spread over the
    rows, read at `(p, j)`: row `p` of the block times column `j` of the matrix, plus the bias at `j`. -/
theorem dense_apply {a k n : ℕ}
    (w : DotDims.WF ⟨2, ![a, k]⟩ ⟨2, ![k, n]⟩ ⟨2, ![a, n]⟩ [1] [0] [0] [1] [] [])
    (x0 : FVec Ideal ⟨2, ![a, k]⟩ .f32) (x1 : FVec Ideal ⟨2, ![k, n]⟩ .f32) (x2 : FVec Ideal ⟨2, ![1, n]⟩ .f32)
    (hb : FTy.bits .bf16 < FTy.bits .f32) (hc1 : (⟨2, ![k, n]⟩ : Shape).ShapeCasts ⟨2, ![k, n]⟩)
    (hc2 : (⟨2, ![1, n]⟩ : Shape).ShapeCasts ⟨2, ![1, n]⟩) (hbr : (⟨2, ![1, n]⟩ : Shape).Broadcasts ⟨2, ![a, n]⟩)
    (p : Fin a) (j : Fin n) :
    addf (matmul (⟨[1], [0], [0], [1], [], [], w⟩ : DotDims _ _ _) none (truncf .bf16 x0 hb)
          (truncf .bf16 (shapeCast ⟨2, ![k, n]⟩ x1 hc1) hb) (constant (F := Ideal) ⟨2, ![a, n]⟩ .f32 0x00000000#32))
        (broadcastTo ⟨2, ![a, n]⟩ (shapeCast ⟨2, ![1, n]⟩ x2 hc2) hbr) (ix2 p j)
      = (∑ l : Fin k, x0 (ix2 p l) * x1 (ix2 l j)) + x2 (ix2 (0 : Fin 1) j) := by
  rw [addf_apply]
  refine congrArg₂ (· + ·) ?_ ?_
  · refine (Cert.KernelIdeal.Hand.matmul_plain_zero_apply w none _ _ p j).trans ?_
    refine Finset.sum_congr rfl fun l _ => ?_
    rw [truncf_apply, truncf_apply, shapeCast_self]
  · rw [broadcastTo_1b_ab_apply, shapeCast_self]

/-- The sum over the rows of an `[a, b]` array from the zero accumulator, read at `j`. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ p : Fin a, src (ix2 p j) := by
  refine (Ideal.multiReduction_add_single src 0x00000000#32 h hφ hacc (ix1 j)).trans ?_
  refine Finset.sum_congr rfl fun p _ => congrArg src ?_
  funext ax; apply Fin.ext
  match ax with
  | ⟨0, _⟩ => rfl
  | ⟨1, _⟩ => rfl

end Cert.KernelIdeal.KA

end
-- ==== Proof.K.Reg0.lean ====
/-
  The first dense map's region: every row block of 5000 vertices is multiplied by the whole [128,128] matrix and the
  bias row is added; the 20 blocks tile the rows, so the output array is the matrix product plus the bias, entry by entry.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay
import Idealize.ShloMosaic.Lib.Pipeline.Value
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The output as one function of the region's entry arrays. -/
def G0 (c : Dev nD) : S100000x128.Idx → EReal := fun i =>
  (∑ k : Fin 128, arr S100000x128 (V c main_arg0) (ix2 (i 0) k) * arr S128x128 (V c main_v22) (ix2 k (i 1)))
    + arr S1x128 (V c main_v25) (ix2 0 (i 1))

/-- The body's stored value at an entry of the block. -/
theorem pay0_apply (x0 : Vec Ideal S5000x128 .f32) (x1 : Vec Ideal S128x128 .f32) (x2 : Vec Ideal S1x128 .f32)
    (p : Fin 5000) (j : Fin 128) :
    k0_pay1 x0 x1 x2 (ix2 p j) = (∑ k : Fin 128, x0 (ix2 p k) * x1 (ix2 k j)) + x2 (ix2 (0 : Fin 1) j) := by
  unfold k0_pay1
  exact dense_apply _ x0 x1 x2 _ _ _ _ p j

/-- The block index maps over the 20 grid points: the row blocks move with the point, the matrix and the bias stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 5000·t … 5000·t + 4999. -/
theorem blk0_0 (c : Dev nD) (t : Fin cfg0.N) (p : Fin 5000) (k : Fin 128) (i : S100000x128.Idx)
    (h0 : (i 0).val = 5000 * t.val + p.val) (h1 : (i 1).val = k.val) :
    iblk0 V c 0 t (ix2 p k) = arr S100000x128 (V c main_arg0) i := by
  obtain ⟨e0, e1, -⟩ := idx_facts0 t
  unfold iblk0
  show V c main_arg0 (((cfg0.win 0).blk t).view.emb (ix2 p k)) = V c main_arg0 i
  refine congrArg (V c main_arg0) ?_
  funext a; apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The matrix's block is the whole matrix at every point. -/
theorem blk0_1 (c : Dev nD) (t : Fin cfg0.N) (k : Fin 128) (j : Fin 128) :
    iblk0 V c 1 t (ix2 k j) = arr S128x128 (V c main_v22) (ix2 k j) := by
  obtain ⟨-, -, e2, e3, -⟩ := idx_facts0 t
  unfold iblk0
  show V c main_v22 (((cfg0.win 1).blk t).view.emb (ix2 k j)) = V c main_v22 (ix2 k j)
  refine congrArg (V c main_v22) ?_
  funext a; apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- The bias row's block is the whole row at every point. -/
theorem blk0_2 (c : Dev nD) (t : Fin cfg0.N) (j : Fin 128) :
    iblk0 V c 2 t (ix2 (0 : Fin 1) j) = arr S1x128 (V c main_v25) (ix2 (0 : Fin 1) j) := by
  obtain ⟨-, -, -, -, e4, e5, -⟩ := idx_facts0 t
  unfold iblk0
  show V c main_v25 (((cfg0.win 2).blk t).view.emb (ix2 (0 : Fin 1) j)) = V c main_v25 (ix2 (0 : Fin 1) j)
  refine congrArg (V c main_v25) ?_
  funext a; apply Fin.ext
  match a with
  | ⟨0, _⟩ => show win0_2.index t (0 : Fin 2) * 1 + 1 * 0 = 0; rw [e4]
  | ⟨1, _⟩ => show win0_2.index t (1 : Fin 2) * 128 + 1 * j.val = j.val; rw [e5]; omega

/-- What point t writes back is block t of the output function. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e6, e7⟩ := idx_facts0 t
  funext y
  obtain ⟨p, j, rfl⟩ : ∃ (p : Fin 5000) (j : Fin 128), y = ix2 p j := ⟨y 0, y 1, eq_ix2 y⟩
  show k0_pay1 (iblk0 V c 0 t) (iblk0 V c 1 t) (iblk0 V c 2 t) (ix2 p j)
    = G0 V c (((cfg0.win 3).blk t).view.emb (ix2 p j))
  have hr0 : ((((cfg0.win 3).blk t).view.emb (ix2 p j) : S100000x128.Idx) 0).val = 5000 * t.val + p.val := by
    show win0_3.index t (0 : Fin 2) * 5000 + 1 * p.val = _; rw [e6]; omega
  have hr1 : ((((cfg0.win 3).blk t).view.emb (ix2 p j) : S100000x128.Idx) 1).val = j.val := by
    show win0_3.index t (1 : Fin 2) * 128 + 1 * j.val = _; rw [e7]; omega
  generalize (((cfg0.win 3).blk t).view.emb (ix2 p j) : S100000x128.Idx) = i at hr0 hr1 ⊢
  refine (pay0_apply _ _ _ p j).trans ?_
  unfold G0
  refine congrArg₂ (· + ·) (Finset.sum_congr rfl fun k _ => congrArg₂ (· * ·) ?_ ?_) ?_
  · exact blk0_0 V c t p k (ix2 (i 0) k) hr0 rfl
  · rw [show (i 1 : Fin 128) = j from Fin.ext hr1]; exact blk0_1 V c t k j
  · rw [show (i 1 : Fin 128) = j from Fin.ext hr1]; exact blk0_2 V c t j

/-- An index is in point t's block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v26).slice (win0_3.rect t)).set ↔ _
  rw [View.set_slice_whole, Rect.mem_set_unit]
  exact Iff.rfl

/-- Every row lies in the block of the point r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e6, e7⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- The output array after the region is the output function. -/
theorem final0 (c : Dev nD) : (dat0 V c).arrAt 3 cfg0.N = G0 V c :=
  (dat0 V c).arrAt_eq_of_cover 3 (G0 V c) (fun t _ => flushed0_eq V c t) cover0

/-- Entry (r, j) of the output: row r of the input times column j of the matrix, plus the bias at j. -/
theorem final0_3 (c : Dev nD) (r : Fin 100000) (j : Fin 128) :
    (Gen.dat0 V c).arrAt 3 cfg0.N (ix2 r j)
      = (∑ k : Fin 128, arr S100000x128 (V c main_arg0) (ix2 r k) * arr S128x128 (V c main_v22) (ix2 k j))
        + arr S1x128 (V c main_v25) (ix2 0 j) := by
  rw [final0]; rfl

end Cert.KernelIdeal.KA

end
-- ==== Proof.K.Pay2.lean ====
/-
  More of the layer bodies' operations read at an index: the dense map without re-typing casts, the choice "row 0 of the
  8 rows, else zero", and a block's column sums placed on row 0 of an [8,128] tile.
-/
import proofs.«178513_j90202903151305_2_alg».proof.Proof.K.Pay
import proofs.«178513_j90202903151305_2_alg».proof.Proof.Spec
import Idealize.ShloMosaic.Lib.Pipeline.Value

noncomputable section

namespace Cert.KernelIdeal.KA

open Cert.KernelIdeal Idealize.ShloMosaic Idealize.ShloMosaic.ValueIdx
open scoped BigOperators

variable {α : Type}

/-- The dense map of a row block, the operands as they are: row `p` of the block times column `j` of the matrix, plus
    the bias at `j`. -/
theorem dense_plain_apply {a k n : ℕ}
    (w : DotDims.WF ⟨2, ![a, k]⟩ ⟨2, ![k, n]⟩ ⟨2, ![a, n]⟩ [1] [0] [0] [1] [] [])
    (x0 : FVec Ideal ⟨2, ![a, k]⟩ .f32) (x1 : FVec Ideal ⟨2, ![k, n]⟩ .f32) (x2 : FVec Ideal ⟨2, ![1, n]⟩ .f32)
    (hb : FTy.bits .bf16 < FTy.bits .f32) (hbr : (⟨2, ![1, n]⟩ : Shape).Broadcasts ⟨2, ![a, n]⟩)
    (p : Fin a) (j : Fin n) :
    addf (matmul (⟨[1], [0], [0], [1], [], [], w⟩ : DotDims _ _ _) none (truncf .bf16 x0 hb)
          (truncf .bf16 x1 hb) (constant (F := Ideal) ⟨2, ![a, n]⟩ .f32 0x00000000#32))
        (broadcastTo ⟨2, ![a, n]⟩ x2 hbr) (ix2 p j)
      = (∑ l : Fin k, x0 (ix2 p l) * x1 (ix2 l j)) + x2 (ix2 (0 : Fin 1) j) := by
  rw [addf_apply]
  refine congrArg₂ (· + ·) ?_ ?_
  · refine (Cert.KernelIdeal.Hand.matmul_plain_zero_apply w none _ _ p j).trans ?_
    refine Finset.sum_congr rfl fun l _ => ?_
    rw [truncf_apply, truncf_apply]
  · rw [broadcastTo_1b_ab_apply]

/-- A choice on "the row coordinate is 0", the row below 8, is the `if` on the row. -/
theorem select_row0 {β : Type} (y : Nat) (hy : y < 8) (A B : β) :
    Scalar.select (IntOp.cmpi .eq (BitVec.ofNat 32 y) 0#32) A B = if y = 0 then A else B := by
  interval_cases y <;> rfl

/-- A block's column sums set on row 0 of an [8, b] tile whose other rows are zero, read at `(y, j)`. -/
theorem colsum_tile_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32)
    (hc : (⟨1, ![b]⟩ : Shape).ShapeCasts ⟨2, ![1, b]⟩) (hi : (⟨2, ![8, b]⟩ : Shape).Iotas .tc 32 [0])
    (hbr : (⟨2, ![1, b]⟩ : Shape).Broadcasts ⟨2, ![8, b]⟩) (y : Fin 8) (j : Fin b) :
    select (cmpi .eq (iota .tc ⟨2, ![8, b]⟩ 32 [0] hi) (broadcast ⟨2, ![8, b]⟩ 0#32))
        (broadcastTo ⟨2, ![8, b]⟩ (shapeCast ⟨2, ![1, b]⟩ (multiReduction .add [0] ⟨1, ![b]⟩ src 0x00000000#32 h hφ hacc) hc) hbr)
        (broadcast ⟨2, ![8, b]⟩ (Scalar.ofBits (F := Ideal) .f32 0x00000000#32)) (ix2 y j)
      = if y.val = 0 then ∑ p : Fin a, src (ix2 p j) else Cert.Spec.f0 := by
  rw [select_apply]
  have hc0 : cmpi .eq (iota .tc ⟨2, ![8, b]⟩ 32 [0] hi) (broadcast ⟨2, ![8, b]⟩ 0#32) (ix2 y j)
      = IntOp.cmpi .eq (BitVec.ofNat 32 y.val) 0#32 := by
    show IntOp.cmpi .eq (iota .tc ⟨2, ![8, b]⟩ 32 [0] hi (ix2 y j)) 0#32 = _
    rw [iota_single_apply]
    rfl
  rw [hc0, select_row0 y.val y.isLt, broadcastTo_1b_ab_apply, shapeCast_a_1a_apply, multiReduction_add_rows_apply]
  rfl

end Cert.KernelIdeal.KA

end
-- ==== Proof.K.Reg1.lean ====
/-
  A layer's scaled combination and its column sums by blocks: every row block of 5000 vertices is multiplied by the
  [128,128] matrix, the bias row and the edge sum's block are added and every row is scaled by its vertex's factor;
  the block's column sums, and the column sums of its squares, go to row 0 of the block's 8 rows of two [160,128]
  arrays, whose other rows are zero.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay2
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The scaled combination at an index: the vertex's factor times (the dense map of the row plus the edge sum). -/
def g1 (c : Dev nD) : S100000x128.Idx → EReal := fun i =>
  arr S100000x1 (V c main_v18) (ix2 (i 0) 0)
    * (((∑ k : Fin 128, arr S100000x128 (V c main_arg0) (ix2 (i 0) k) * arr S128x128 (V c main_v52) (ix2 k (i 1)))
        + arr S1x128 (V c main_v55) (ix2 0 (i 1))) + arr S100000x128 (V c main_v49) i)

theorem g1_apply (c : Dev nD) (r : Fin 100000) (j : Fin 128) :
    g1 V c (ix2 r j) = arr S100000x1 (V c main_v18) (ix2 r 0)
      * (((∑ k : Fin 128, arr S100000x128 (V c main_arg0) (ix2 r k) * arr S128x128 (V c main_v52) (ix2 k j))
          + arr S1x128 (V c main_v55) (ix2 0 j)) + arr S100000x128 (V c main_v49) (ix2 r j)) := rfl

/-- The body's scaled combination at an entry of the block. -/
theorem pay1_1_apply (v0 : Vec Ideal S5000x128 .f32) (v2 : Vec Ideal S128x128 .f32) (v6 : Vec Ideal S1x128 .f32)
    (v10 : Vec Ideal S5000x1 .f32) (v12 : Vec Ideal S5000x128 .f32) (p : Fin 5000) (j : Fin 128) :
    k1_pay1 v0 v2 v6 v10 v12 (ix2 p j)
      = v10 (ix2 p (0 : Fin 1)) * (((∑ k : Fin 128, v0 (ix2 p k) * v2 (ix2 k j)) + v6 (ix2 (0 : Fin 1) j)) + v12 (ix2 p j)) := by
  unfold k1_pay1
  simp only [shapeCast_self]
  rw [mulf_apply, addf_apply, broadcastTo_a1_ab_apply]
  exact congrArg (fun z => v10 (ix2 p (0 : Fin 1)) * (z + v12 (ix2 p j))) (dense_plain_apply _ v0 v2 v6 _ _ p j)

/-- The block's column sums on row 0 of the 8-row tile. -/
theorem pay1_3_apply (v0 : Vec Ideal S5000x128 .f32) (v2 : Vec Ideal S128x128 .f32) (v6 : Vec Ideal S1x128 .f32)
    (v10 : Vec Ideal S5000x1 .f32) (v12 : Vec Ideal S5000x128 .f32) (y : Fin 8) (j : Fin 128) :
    k1_pay3 v0 v2 v6 v10 v12 (ix2 y j)
      = if y.val = 0 then ∑ p : Fin 5000, k1_pay1 v0 v2 v6 v10 v12 (ix2 p j) else Cert.Spec.f0 := by
  unfold k1_pay3 k1_pay2
  simp only [shapeCast_self]
  exact colsum_tile_apply (k1_pay1 v0 v2 v6 v10 v12) _ _ _ _ _ _ y j

/-- The column sums of the block's squares on row 0 of the 8-row tile. -/
theorem pay1_4_apply (v0 : Vec Ideal S5000x128 .f32) (v2 : Vec Ideal S128x128 .f32) (v6 : Vec Ideal S1x128 .f32)
    (v10 : Vec Ideal S5000x1 .f32) (v12 : Vec Ideal S5000x128 .f32) (y : Fin 8) (j : Fin 128) :
    k1_pay4 v0 v2 v6 v10 v12 (ix2 y j)
      = if y.val = 0 then ∑ p : Fin 5000, k1_pay1 v0 v2 v6 v10 v12 (ix2 p j) * k1_pay1 v0 v2 v6 v10 v12 (ix2 p j)
        else Cert.Spec.f0 := by
  unfold k1_pay4 k1_pay2
  simp only [shapeCast_self]
  exact colsum_tile_apply (mulf (k1_pay1 v0 v2 v6 v10 v12) (k1_pay1 v0 v2 v6 v10 v12)) _ _ _ _ _ _ y j

/-- The block index maps over the 20 grid points: a row-blocked window's block moves with the point, a whole window stays. -/
theorem idx_facts1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = t.val
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

/-- Window 0's block at point t is rows 5000·t … 5000·t + 4999 of its array. -/
theorem blk1_0 (c : Dev nD) (t : Fin cfg1.N) (p : Fin 5000) (k : Fin 128) (i : S100000x128.Idx)
    (h0 : (i 0).val = 5000 * t.val + p.val) (h1 : (i 1).val = k.val) :
    iblk1 V c 0 t (ix2 p k) = arr S100000x128 (V c main_arg0) i := by
  obtain ⟨e0, e1, -⟩ := idx_facts1 t
  unfold iblk1
  show V c main_arg0 (((cfg1.win 0).blk t).view.emb (ix2 p k)) = V c main_arg0 i
  refine congrArg (V c main_arg0) ?_
  funext a; apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- Window 1's block is its whole matrix at every point. -/
theorem blk1_1 (c : Dev nD) (t : Fin cfg1.N) (k : Fin 128) (j : Fin 128) :
    iblk1 V c 1 t (ix2 k j) = arr S128x128 (V c main_v52) (ix2 k j) := by
  obtain ⟨-, -, e0, e1, -⟩ := idx_facts1 t
  unfold iblk1
  show V c main_v52 (((cfg1.win 1).blk t).view.emb (ix2 k j)) = V c main_v52 (ix2 k j)
  refine congrArg (V c main_v52) ?_
  funext a; apply Fin.ext
  match a with
  | ⟨0, _⟩ => show win1_1.index t (0 : Fin 2) * 128 + 1 * k.val = k.val; rw [e0]; omega
  | ⟨1, _⟩ => show win1_1.index t (1 : Fin 2) * 128 + 1 * j.val = j.val; rw [e1]; omega

/-- Window 2's block is its whole row at every point. -/
theorem blk1_2 (c : Dev nD) (t : Fin cfg1.N) (j : Fin 128) :
    iblk1 V c 2 t (ix2 (0 : Fin 1) j) = arr S1x128 (V c main_v55) (ix2 (0 : Fin 1) j) := by
  obtain ⟨-, -, -, -, e0, e1, -⟩ := idx_facts1 t
  unfold iblk1
  show V c main_v55 (((cfg1.win 2).blk t).view.emb (ix2 (0 : Fin 1) j)) = V c main_v55 (ix2 (0 : Fin 1) j)
  refine congrArg (V c main_v55) ?_
  funext a; apply Fin.ext
  match a with
  | ⟨0, _⟩ => show win1_2.index t (0 : Fin 2) * 1 + 1 * 0 = 0; rw [e0]
  | ⟨1, _⟩ => show win1_2.index t (1 : Fin 2) * 128 + 1 * j.val = j.val; rw [e1]; omega

/-- Window 3's block at point t is rows 5000·t … 5000·t + 4999 of its array. -/
theorem blk1_3 (c : Dev nD) (t : Fin cfg1.N) (p : Fin 5000) (k : Fin 128) (i : S100000x128.Idx)
    (h0 : (i 0).val = 5000 * t.val + p.val) (h1 : (i 1).val = k.val) :
    iblk1 V c 3 t (ix2 p k) = arr S100000x128 (V c main_v49) i := by
  obtain ⟨-, -, -, -, -, -, e0, e1, -⟩ := idx_facts1 t
  unfold iblk1
  show V c main_v49 (((cfg1.win 3).blk t).view.emb (ix2 p k)) = V c main_v49 i
  refine congrArg (V c main_v49) ?_
  funext a; apply Fin.ext
  match a with
  | ⟨0, _⟩ => show win1_3.index t (0 : Fin 2) * 5000 + 1 * p.val = (i 0).val; rw [e0, h0]; omega
  | ⟨1, _⟩ => show win1_3.index t (1 : Fin 2) * 128 + 1 * k.val = (i 1).val; rw [e1, h1]; omega

/-- Window 4's block at point t is entries 5000·t … 5000·t + 4999 of its column. -/
theorem blk1_4 (c : Dev nD) (t : Fin cfg1.N) (p : Fin 5000) (i : S100000x1.Idx)
    (h0 : (i 0).val = 5000 * t.val + p.val) :
    iblk1 V c 4 t (ix2 p (0 : Fin 1)) = arr S100000x1 (V c main_v18) i := by
  obtain ⟨-, -, -, -, -, -, -, -, e0, e1, -⟩ := idx_facts1 t
  unfold iblk1
  show V c main_v18 (((cfg1.win 4).blk t).view.emb (ix2 p (0 : Fin 1))) = V c main_v18 i
  refine congrArg (V c main_v18) ?_
  funext a; apply Fin.ext
  match a with
  | ⟨0, _⟩ => show win1_4.index t (0 : Fin 2) * 5000 + 1 * p.val = (i 0).val; rw [e0, h0]; omega
  | ⟨1, _⟩ => show win1_4.index t (1 : Fin 2) * 1 + 1 * 0 = (i 1).val; rw [e1]; have hi1 : (i 1).val < 1 := (i 1).isLt; omega

/-- The value the body computes from the blocks at point t is the scaled combination at the row's place in the arrays. -/
theorem pay1_1_blk (c : Dev nD) (t : Fin cfg1.N) (p : Fin 5000) (j : Fin 128) (i : S100000x128.Idx)
    (h0 : (i 0).val = 5000 * t.val + p.val) (h1 : (i 1).val = j.val) :
    k1_pay1 (iblk1 V c 0 t) (iblk1 V c 1 t) (iblk1 V c 2 t) (iblk1 V c 4 t) (iblk1 V c 3 t) (ix2 p j) = g1 V c i := by
  refine (pay1_1_apply _ _ _ _ _ p j).trans ?_
  unfold g1
  refine congrArg₂ (· * ·) (blk1_4 V c t p (ix2 (i 0) 0) h0)
    (congrArg₂ (· + ·) (congrArg₂ (· + ·) (Finset.sum_congr rfl fun k _ =>
      congrArg₂ (· * ·) (blk1_0 V c t p k (ix2 (i 0) k) h0 rfl) ?_) ?_) (blk1_3 V c t p j i h0 h1))
  · rw [show (i 1 : Fin 128) = j from Fin.ext h1]; exact blk1_1 V c t k j
  · rw [show (i 1 : Fin 128) = j from Fin.ext h1]; exact blk1_2 V c t j

/-- What point t writes back to the first output is block t of the scaled combination. -/
theorem flushed1_5_eq (c : Dev nD) (t : Fin cfg1.N) :
    (dat1 V c).flushed 5 t = ((cfg1.win 5).blk t).view.read (Elt Ideal) (g1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, e0, e1, -⟩ := idx_facts1 t
  funext y
  obtain ⟨p, j, rfl⟩ : ∃ (p : Fin 5000) (j : Fin 128), y = ix2 p j := ⟨y 0, y 1, eq_ix2 y⟩
  have hr0 : ((((cfg1.win 5).blk t).view.emb (ix2 p j) : S100000x128.Idx) 0).val = 5000 * t.val + p.val := by
    show win1_5.index t (0 : Fin 2) * 5000 + 1 * p.val = _; rw [e0]; omega
  have hr1 : ((((cfg1.win 5).blk t).view.emb (ix2 p j) : S100000x128.Idx) 1).val = j.val := by
    show win1_5.index t (1 : Fin 2) * 128 + 1 * j.val = _; rw [e1]; omega
  exact pay1_1_blk V c t p j _ hr0 hr1

/-- An index is in point t's block of window 5 iff each coordinate is in the block's range. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v56_0).slice (win1_5.rect t)).set ↔ _
  rw [View.set_slice_whole, Rect.mem_set_unit]
  exact Iff.rfl

/-- Every row r lies in the block of the point r / 5000. -/
theorem cover1_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, e0, e1, -⟩ := idx_facts1 t
  have ht : t.val = (i 0).val / 5000 := rfl
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- The first output array after the region. -/
theorem final1_5_fun (c : Dev nD) : (dat1 V c).arrAt 5 cfg1.N = g1 V c :=
  (dat1 V c).arrAt_eq_of_cover 5 (g1 V c) (fun t _ => flushed1_5_eq V c t) cover1_5

/-- Entry (q, j) of the second output: on a row 8·t the sum over block t's rows, zero on the other rows. -/
def S1_6 (c : Dev nD) (q : Fin 160) (j : Fin 128) : EReal :=
  if q.val % 8 = 0 then ∑ p : Fin 5000, g1 V c (ix2 (⟨5000 * (q.val / 8) + p.val, by have := q.isLt; have := p.isLt; omega⟩ : Fin 100000) j) else Cert.Spec.f0
def G1_6 (c : Dev nD) : S160x128.Idx → EReal := fun i => S1_6 V c (i 0) (i 1)

/-- What point t writes back is its 8-row tile of that array. -/
theorem flushed1_6_eq (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, -, -, e0, e1, -⟩ := idx_facts1 t
  funext y'
  obtain ⟨y, j, rfl⟩ : ∃ (y : Fin 8) (j : Fin 128), y' = ix2 y j := ⟨y' 0, y' 1, eq_ix2 y'⟩
  have hr0 : ((((cfg1.win 6).blk t).view.emb (ix2 y j) : S160x128.Idx) 0).val = 8 * t.val + y.val := by
    show win1_6.index t (0 : Fin 2) * 8 + 1 * y.val = _; rw [e0]; omega
  have hr1 : ((((cfg1.win 6).blk t).view.emb (ix2 y j) : S160x128.Idx) 1).val = j.val := by
    show win1_6.index t (1 : Fin 2) * 128 + 1 * j.val = _; rw [e1]; omega
  show k1_pay3 (iblk1 V c 0 t) (iblk1 V c 1 t) (iblk1 V c 2 t) (iblk1 V c 4 t) (iblk1 V c 3 t) (ix2 y j) = G1_6 V c (((cfg1.win 6).blk t).view.emb (ix2 y j))
  generalize (((cfg1.win 6).blk t).view.emb (ix2 y j) : S160x128.Idx) = i at hr0 hr1 ⊢
  refine (pay1_3_apply _ _ _ _ _ y j).trans ?_
  unfold G1_6 S1_6
  have hy : y.val < 8 := y.isLt
  have htl : t.val < 20 := by have := t.isLt; have hN : cfg1.N = 20 := N_1; omega
  by_cases h : y.val = 0
  · rw [if_pos h, if_pos (show (i 0).val % 8 = 0 by omega)]
    refine Finset.sum_congr rfl fun p _ => ?_
    have hp : k1_pay1 (iblk1 V c 0 t) (iblk1 V c 1 t) (iblk1 V c 2 t) (iblk1 V c 4 t) (iblk1 V c 3 t) (ix2 p j)
        = g1 V c (ix2 (⟨5000 * ((i 0).val / 8) + p.val, by have := p.isLt; omega⟩ : Fin 100000) (i 1)) :=
      pay1_1_blk V c t p j _ (show 5000 * ((i 0).val / 8) + p.val = 5000 * t.val + p.val by omega) hr1
    exact hp
  · rw [if_neg h, if_neg (show ¬ (i 0).val % 8 = 0 by omega)]

/-- An index is in point t's block of window 6 iff each coordinate is in the block's range. -/
theorem mem_blk1_6 (t : Fin cfg1.N) (i : S160x128.Idx) :
    i ∈ ((cfg1.win 6).blk t).view.set ↔ ∀ a : Fin 2, win1_6.index t a * S8x128.size a ≤ (i a).val ∧ (i a).val < win1_6.index t a * S8x128.size a + S8x128.size a := by
  show i ∈ ((View.whole main_v56_1).slice (win1_6.rect t)).set ↔ _
  rw [View.set_slice_whole, Rect.mem_set_unit]
  exact Iff.rfl

/-- Every row r lies in the block of the point r / 8. -/
theorem cover1_6 (i : S160x128.Idx) : ∃ t : Fin cfg1.N, (cfg1.win 6).flush t = true ∧ i ∈ ((cfg1.win 6).blk t).view.set := by
  have hi0 : (i 0).val < 160 := (i 0).isLt
  have hi1 : (i 1).val < 128 := (i 1).isLt
  have hN : cfg1.N = 20 := N_1
  let t : Fin cfg1.N := ⟨(i 0).val / 8, by rw [hN]; omega⟩
  obtain ⟨-, -, -, -, -, -, -, -, -, -, -, -, e0, e1, -⟩ := idx_facts1 t
  have ht : t.val = (i 0).val / 8 := rfl
  refine ⟨t, flush1_6 t, ?_⟩
  rw [mem_blk1_6]
  intro a
  match a with
  | ⟨0, _⟩ => show win1_6.index t (0 : Fin 2) * 8 ≤ (i 0).val ∧ (i 0).val < win1_6.index t (0 : Fin 2) * 8 + 8; rw [e0, ht]; omega
  | ⟨1, _⟩ => show win1_6.index t (1 : Fin 2) * 128 ≤ (i 1).val ∧ (i 1).val < win1_6.index t (1 : Fin 2) * 128 + 128; rw [e1]; omega

/-- The array after the region. -/
theorem final1_6_fun (c : Dev nD) : (dat1 V c).arrAt 6 cfg1.N = G1_6 V c :=
  (dat1 V c).arrAt_eq_of_cover 6 (G1_6 V c) (fun t _ => flushed1_6_eq V c t) cover1_6

/-- Entry (q, j) of the third output: on a row 8·t the sum over block t's rows of the squares, zero on the other rows. -/
def S1_7 (c : Dev nD) (q : Fin 160) (j : Fin 128) : EReal :=
  if q.val % 8 = 0 then ∑ p : Fin 5000, g1 V c (ix2 (⟨5000 * (q.val / 8) + p.val, by have := q.isLt; have := p.isLt; omega⟩ : Fin 100000) j) * g1 V c (ix2 (⟨5000 * (q.val / 8) + p.val, by have := q.isLt; have := p.isLt; omega⟩ : Fin 100000) j) else Cert.Spec.f0
def G1_7 (c : Dev nD) : S160x128.Idx → EReal := fun i => S1_7 V c (i 0) (i 1)

/-- What point t writes back is its 8-row tile of that array. -/
theorem flushed1_7_eq (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, -, -, -, -, e0, e1⟩ := idx_facts1 t
  funext y'
  obtain ⟨y, j, rfl⟩ : ∃ (y : Fin 8) (j : Fin 128), y' = ix2 y j := ⟨y' 0, y' 1, eq_ix2 y'⟩
  have hr0 : ((((cfg1.win 7).blk t).view.emb (ix2 y j) : S160x128.Idx) 0).val = 8 * t.val + y.val := by
    show win1_7.index t (0 : Fin 2) * 8 + 1 * y.val = _; rw [e0]; omega
  have hr1 : ((((cfg1.win 7).blk t).view.emb (ix2 y j) : S160x128.Idx) 1).val = j.val := by
    show win1_7.index t (1 : Fin 2) * 128 + 1 * j.val = _; rw [e1]; omega
  show k1_pay4 (iblk1 V c 0 t) (iblk1 V c 1 t) (iblk1 V c 2 t) (iblk1 V c 4 t) (iblk1 V c 3 t) (ix2 y j) = G1_7 V c (((cfg1.win 7).blk t).view.emb (ix2 y j))
  generalize (((cfg1.win 7).blk t).view.emb (ix2 y j) : S160x128.Idx) = i at hr0 hr1 ⊢
  refine (pay1_4_apply _ _ _ _ _ y j).trans ?_
  unfold G1_7 S1_7
  have hy : y.val < 8 := y.isLt
  have htl : t.val < 20 := by have := t.isLt; have hN : cfg1.N = 20 := N_1; omega
  by_cases h : y.val = 0
  · rw [if_pos h, if_pos (show (i 0).val % 8 = 0 by omega)]
    refine Finset.sum_congr rfl fun p _ => ?_
    have hp : k1_pay1 (iblk1 V c 0 t) (iblk1 V c 1 t) (iblk1 V c 2 t) (iblk1 V c 4 t) (iblk1 V c 3 t) (ix2 p j)
        = g1 V c (ix2 (⟨5000 * ((i 0).val / 8) + p.val, by have := p.isLt; omega⟩ : Fin 100000) (i 1)) :=
      pay1_1_blk V c t p j _ (show 5000 * ((i 0).val / 8) + p.val = 5000 * t.val + p.val by omega) hr1
    rw [hp]
  · rw [if_neg h, if_neg (show ¬ (i 0).val % 8 = 0 by omega)]

/-- An index is in point t's block of window 7 iff each coordinate is in the block's range. -/
theorem mem_blk1_7 (t : Fin cfg1.N) (i : S160x128.Idx) :
    i ∈ ((cfg1.win 7).blk t).view.set ↔ ∀ a : Fin 2, win1_7.index t a * S8x128.size a ≤ (i a).val ∧ (i a).val < win1_7.index t a * S8x128.size a + S8x128.size a := by
  show i ∈ ((View.whole main_v56_2).slice (win1_7.rect t)).set ↔ _
  rw [View.set_slice_whole, Rect.mem_set_unit]
  exact Iff.rfl

/-- Every row r lies in the block of the point r / 8. -/
theorem cover1_7 (i : S160x128.Idx) : ∃ t : Fin cfg1.N, (cfg1.win 7).flush t = true ∧ i ∈ ((cfg1.win 7).blk t).view.set := by
  have hi0 : (i 0).val < 160 := (i 0).isLt
  have hi1 : (i 1).val < 128 := (i 1).isLt
  have hN : cfg1.N = 20 := N_1
  let t : Fin cfg1.N := ⟨(i 0).val / 8, by rw [hN]; omega⟩
  obtain ⟨-, -, -, -, -, -, -, -, -, -, -, -, -, -, e0, e1⟩ := idx_facts1 t
  have ht : t.val = (i 0).val / 8 := rfl
  refine ⟨t, flush1_7 t, ?_⟩
  rw [mem_blk1_7]
  intro a
  match a with
  | ⟨0, _⟩ => show win1_7.index t (0 : Fin 2) * 8 ≤ (i 0).val ∧ (i 0).val < win1_7.index t (0 : Fin 2) * 8 + 8; rw [e0, ht]; omega
  | ⟨1, _⟩ => show win1_7.index t (1 : Fin 2) * 128 ≤ (i 1).val ∧ (i 1).val < win1_7.index t (1 : Fin 2) * 128 + 128; rw [e1]; omega

/-- The array after the region. -/
theorem final1_7_fun (c : Dev nD) : (dat1 V c).arrAt 7 cfg1.N = G1_7 V c :=
  (dat1 V c).arrAt_eq_of_cover 7 (G1_7 V c) (fun t _ => flushed1_7_eq V c t) cover1_7

/-- The first output is the scaled combination, entry by entry. -/
theorem final1_5 (c : Dev nD) (r : Fin 100000) (j : Fin 128) :
    (Gen.dat1 V c).arrAt 5 cfg1.N (ix2 r j) = g1 V c (ix2 r j) := by
  rw [final1_5_fun]

/-- The second output: row 8·t of the [160,128] array holds block t's column sums, every other row zero. -/
theorem final1_6 (c : Dev nD) (q : Fin 160) (j : Fin 128) :
    (Gen.dat1 V c).arrAt 6 cfg1.N (ix2 q j)
      = if q.val % 8 = 0 then
          ∑ p : Fin 5000, g1 V c (ix2 (⟨5000 * (q.val / 8) + p.val, by have := q.isLt; have := p.isLt; omega⟩ : Fin 100000) j)
        else Cert.Spec.f0 := by
  rw [final1_6_fun]; rfl

/-- The third output: the same with the squares. -/
theorem final1_7 (c : Dev nD) (q : Fin 160) (j : Fin 128) :
    (Gen.dat1 V c).arrAt 7 cfg1.N (ix2 q j)
      = if q.val % 8 = 0 then
          ∑ p : Fin 5000, g1 V c (ix2 (⟨5000 * (q.val / 8) + p.val, by have := q.isLt; have := p.isLt; omega⟩ : Fin 100000) j)
            * g1 V c (ix2 (⟨5000 * (q.val / 8) + p.val, by have := q.isLt; have := p.isLt; omega⟩ : Fin 100000) j)
        else Cert.Spec.f0 := by
  rw [final1_7_fun]; rfl

end Cert.KernelIdeal.KA

end
-- ==== Proof.K.Reg2.lean ====
/-
  Normalisation, clipping and the next dense map: every entry of a row block has its column's mean subtracted, is
  scaled by the column's factor and by the inverse root of the column's variance plus the offset, has the column's
  shift added and is clipped at zero; the clipped block is also multiplied by the [128,128] matrix, plus the bias row.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay
import Idealize.ShloMosaic.Lib.Pipeline.Value
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The normalised and clipped entry. -/
def x2 (c : Dev nD) : S100000x128.Idx → EReal := fun i =>
  max (arr S1x128 (V c main_v77) (ix2 0 (i 1)) * (arr S100000x128 (V c main_v56_0) i - arr S1x128 (V c main_v68) (ix2 0 (i 1)))
        * Ideal.rsqrt (arr S1x128 (V c main_v74) (ix2 0 (i 1)) + Cert.Spec.eps)
      + arr S1x128 (V c main_v80) (ix2 0 (i 1))) Cert.Spec.f0

theorem x2_apply (c : Dev nD) (r : Fin 100000) (j : Fin 128) :
    x2 V c (ix2 r j) = max (arr S1x128 (V c main_v77) (ix2 0 j) * (arr S100000x128 (V c main_v56_0) (ix2 r j) - arr S1x128 (V c main_v68) (ix2 0 j))
        * Ideal.rsqrt (arr S1x128 (V c main_v74) (ix2 0 j) + Cert.Spec.eps)
      + arr S1x128 (V c main_v80) (ix2 0 j)) Cert.Spec.f0 := rfl

/-- The normalised and clipped entry of a block, from the block and the four rows. -/
theorem pay2_1_apply (v0 v5 : Vec Ideal S1x128 .f32) (v7 : Vec Ideal S5000x128 .f32) (v9 v17 : Vec Ideal S1x128 .f32)
    (p : Fin 5000) (j : Fin 128) :
    k2_pay1 v0 v5 v7 v9 v17 (ix2 p j)
      = max (v5 (ix2 (0 : Fin 1) j) * (v7 (ix2 p j) - v9 (ix2 (0 : Fin 1) j))
            * Ideal.rsqrt (v0 (ix2 (0 : Fin 1) j) + Cert.Spec.eps) + v17 (ix2 (0 : Fin 1) j)) Cert.Spec.f0 := by
  unfold k2_pay1
  simp only [maximumf_apply, addf_apply, mulf_apply, subf_apply, broadcastTo_1b_ab_apply, shapeCast_self, broadcast_apply]
  rfl

/-- The dense map of the clipped block. -/
theorem pay2_2_apply (v0 v5 : Vec Ideal S1x128 .f32) (v7 : Vec Ideal S5000x128 .f32) (v9 v17 : Vec Ideal S1x128 .f32)
    (v25 : Vec Ideal S128x128 .f32) (v29 : Vec Ideal S1x128 .f32) (p : Fin 5000) (j : Fin 128) :
    k2_pay2 v0 v5 v7 v9 v17 v25 v29 (ix2 p j)
      = (∑ k : Fin 128, k2_pay1 v0 v5 v7 v9 v17 (ix2 p k) * v25 (ix2 k j)) + v29 (ix2 (0 : Fin 1) j) := by
  unfold k2_pay2
  exact dense_apply _ (k2_pay1 v0 v5 v7 v9 v17) v25 v29 _ _ _ _ p j

/-- The block index maps over the 20 grid points: a row-blocked window's block moves with the point, a whole window stays. -/
theorem idx_facts2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

/-- Window 0's block at point t is rows 5000·t … 5000·t + 4999 of its array. -/
theorem blk2_0 (c : Dev nD) (t : Fin cfg2.N) (p : Fin 5000) (k : Fin 128) (i : S100000x128.Idx)
    (h0 : (i 0).val = 5000 * t.val + p.val) (h1 : (i 1).val = k.val) :
    iblk2 V c 0 t (ix2 p k) = arr S100000x128 (V c main_v56_0) i := by
  obtain ⟨e0, e1, -⟩ := idx_facts2 t
  unfold iblk2
  show V c main_v56_0 (((cfg2.win 0).blk t).view.emb (ix2 p k)) = V c main_v56_0 i
  refine congrArg (V c main_v56_0) ?_
  funext a; apply Fin.ext
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- Window 1's block is its whole row at every point. -/
theorem blk2_1 (c : Dev nD) (t : Fin cfg2.N) (j : Fin 128) :
    iblk2 V c 1 t (ix2 (0 : Fin 1) j) = arr S1x128 (V c main_v68) (ix2 (0 : Fin 1) j) := by
  obtain ⟨-, -, e0, e1, -⟩ := idx_facts2 t
  unfold iblk2
  show V c main_v68 (((cfg2.win 1).blk t).view.emb (ix2 (0 : Fin 1) j)) = V c main_v68 (ix2 (0 : Fin 1) j)
  refine congrArg (V c main_v68) ?_
  funext a; apply Fin.ext
  match a with
  | ⟨0, _⟩ => show win2_1.index t (0 : Fin 2) * 1 + 1 * 0 = 0; rw [e0]
  | ⟨1, _⟩ => show win2_1.index t (1 : Fin 2) * 128 + 1 * j.val = j.val; rw [e1]; omega

/-- Window 2's block is its whole row at every point. -/
theorem blk2_2 (c : Dev nD) (t : Fin cfg2.N) (j : Fin 128) :
    iblk2 V c 2 t (ix2 (0 : Fin 1) j) = arr S1x128 (V c main_v74) (ix2 (0 : Fin 1) j) := by
  obtain ⟨-, -, -, -, e0, e1, -⟩ := idx_facts2 t
  unfold iblk2
  show V c main_v74 (((cfg2.win 2).blk t).view.emb (ix2 (0 : Fin 1) j)) = V c main_v74 (ix2 (0 : Fin 1) j)
  refine congrArg (V c main_v74) ?_
  funext a; apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

/-- Window 3's block is its whole row at every point. -/
theorem blk2_3 (c : Dev nD) (t : Fin cfg2.N) (j : Fin 128) :
    iblk2 V c 3 t (ix2 (0 : Fin 1) j) = arr S1x128 (V c main_v77) (ix2 (0 : Fin 1) j) := by
  obtain ⟨-, -, -, -, -, -, e0, e1, -⟩ := idx_facts2 t
  unfold iblk2
  show V c main_v77 (((cfg2.win 3).blk t).view.emb (ix2 (0 : Fin 1) j)) = V c main_v77 (ix2 (0 : Fin 1) j)
  refine congrArg (V c main_v77) ?_
  funext a; apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

/-- Window 4's block is its whole row at every point. -/
theorem blk2_4 (c : Dev nD) (t : Fin cfg2.N) (j : Fin 128) :
    iblk2 V c 4 t (ix2 (0 : Fin 1) j) = arr S1x128 (V c main_v80) (ix2 (0 : Fin 1) j) := by
  obtain ⟨-, -, -, -, -, -, -, -, e0, e1, -⟩ := idx_facts2 t
  unfold iblk2
  show V c main_v80 (((cfg2.win 4).blk t).view.emb (ix2 (0 : Fin 1) j)) = V c main_v80 (ix2 (0 : Fin 1) j)
  refine congrArg (V c main_v80) ?_
  funext a; apply Fin.ext
  match a with
  | ⟨0, _⟩ => show win2_4.index t (0 : Fin 2) * 1 + 1 * 0 = 0; rw [e0]
  | ⟨1, _⟩ => show win2_4.index t (1 : Fin 2) * 128 + 1 * j.val = j.val; rw [e1]; omega

/-- Window 5's block is its whole matrix at every point. -/
theorem blk2_5 (c : Dev nD) (t : Fin cfg2.N) (k : Fin 128) (j : Fin 128) :
    iblk2 V c 5 t (ix2 k j) = arr S128x128 (V c main_v83) (ix2 k j) := by
  obtain ⟨-, -, -, -, -, -, -, -, -, -, e0, e1, -⟩ := idx_facts2 t
  unfold iblk2
  show V c main_v83 (((cfg2.win 5).blk t).view.emb (ix2 k j)) = V c main_v83 (ix2 k j)
  refine congrArg (V c main_v83) ?_
  funext a; apply Fin.ext
  match a with
  | ⟨0, _⟩ => show win2_5.index t (0 : Fin 2) * 128 + 1 * k.val = k.val; rw [e0]; omega
  | ⟨1, _⟩ => show win2_5.index t (1 : Fin 2) * 128 + 1 * j.val = j.val; rw [e1]; omega

/-- Window 6's block is its whole row at every point. -/
theorem blk2_6 (c : Dev nD) (t : Fin cfg2.N) (j : Fin 128) :
    iblk2 V c 6 t (ix2 (0 : Fin 1) j) = arr S1x128 (V c main_v86) (ix2 (0 : Fin 1) j) := by
  obtain ⟨-, -, -, -, -, -, -, -, -, -, -, -, e0, e1, -⟩ := idx_facts2 t
  unfold iblk2
  show V c main_v86 (((cfg2.win 6).blk t).view.emb (ix2 (0 : Fin 1) j)) = V c main_v86 (ix2 (0 : Fin 1) j)
  refine congrArg (V c main_v86) ?_
  funext a; apply Fin.ext
  match a with
  | ⟨0, _⟩ => show win2_6.index t (0 : Fin 2) * 1 + 1 * 0 = 0; rw [e0]
  | ⟨1, _⟩ => show win2_6.index t (1 : Fin 2) * 128 + 1 * j.val = j.val; rw [e1]; omega

/-- The clipped value the body computes from the blocks at point t is the normalised and clipped entry of the row's array. -/
theorem pay2_1_blk (c : Dev nD) (t : Fin cfg2.N) (p : Fin 5000) (j : Fin 128) (i : S100000x128.Idx)
    (h0 : (i 0).val = 5000 * t.val + p.val) (h1 : (i 1).val = j.val) :
    k2_pay1 (iblk2 V c 2 t) (iblk2 V c 3 t) (iblk2 V c 0 t) (iblk2 V c 1 t) (iblk2 V c 4 t) (ix2 p j) = x2 V c i := by
  refine (pay2_1_apply _ _ _ _ _ p j).trans ?_
  unfold x2
  rw [show (i 1 : Fin 128) = j from Fin.ext h1]
  rw [blk2_0 V c t p j i h0 h1, blk2_1 V c t j, blk2_2 V c t j, blk2_3 V c t j, blk2_4 V c t j]

/-- What point t writes back to the first output is block t of the normalised and clipped array. -/
theorem flushed2_7_eq (c : Dev nD) (t : Fin cfg2.N) :
    (dat2 V c).flushed 7 t = ((cfg2.win 7).blk t).view.read (Elt Ideal) (x2 V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz]
  obtain ⟨-, -, -, -, -, -, -, -, -, -, -, -, -, -, e0, e1, -⟩ := idx_facts2 t
  funext y
  obtain ⟨p, j, rfl⟩ : ∃ (p : Fin 5000) (j : Fin 128), y = ix2 p j := ⟨y 0, y 1, eq_ix2 y⟩
  have hr0 : ((((cfg2.win 7).blk t).view.emb (ix2 p j) : S100000x128.Idx) 0).val = 5000 * t.val + p.val := by
    show win2_7.index t (0 : Fin 2) * 5000 + 1 * p.val = _; rw [e0]; omega
  have hr1 : ((((cfg2.win 7).blk t).view.emb (ix2 p j) : S100000x128.Idx) 1).val = j.val := by
    show win2_7.index t (1 : Fin 2) * 128 + 1 * j.val = _; rw [e1]; omega
  exact pay2_1_blk V c t p j _ hr0 hr1

/-- An index is in point t's block of window 7 iff each coordinate is in the block's range. -/
theorem mem_blk2_7 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v87_0).slice (win2_7.rect t)).set ↔ _
  rw [View.set_slice_whole, Rect.mem_set_unit]
  exact Iff.rfl

/-- Every row r lies in the block of the point r / 5000. -/
theorem cover2_7 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, -, -, -, -, -, e0, e1, -⟩ := idx_facts2 t
  have ht : t.val = (i 0).val / 5000 := rfl
  refine ⟨t, flush2_7 t, ?_⟩
  rw [mem_blk2_7]
  intro a
  match a with
  | ⟨0, _⟩ => show win2_7.index t (0 : Fin 2) * 5000 ≤ (i 0).val ∧ (i 0).val < win2_7.index t (0 : Fin 2) * 5000 + 5000; rw [e0, ht]; omega
  | ⟨1, _⟩ => show win2_7.index t (1 : Fin 2) * 128 ≤ (i 1).val ∧ (i 1).val < win2_7.index t (1 : Fin 2) * 128 + 128; rw [e1]; omega

/-- The first output array after the region. -/
theorem final2_7_fun (c : Dev nD) : (dat2 V c).arrAt 7 cfg2.N = x2 V c :=
  (dat2 V c).arrAt_eq_of_cover 7 (x2 V c) (fun t _ => flushed2_7_eq V c t) cover2_7

/-- The second output as one function of the region's entry arrays. -/
def H2 (c : Dev nD) : S100000x128.Idx → EReal := fun i =>
  (∑ k : Fin 128, x2 V c (ix2 (i 0) k) * arr S128x128 (V c main_v83) (ix2 k (i 1))) + arr S1x128 (V c main_v86) (ix2 0 (i 1))

/-- What point t writes back to the second output is block t of that function. -/
theorem flushed2_8_eq (c : Dev nD) (t : Fin cfg2.N) :
    (dat2 V c).flushed 8 t = ((cfg2.win 8).blk t).view.read (Elt Ideal) (H2 V c) := by
  show (cfg2.win 8).cut (grid2.coords t) ((dat2 V c).after 8 t) = _
  rw [after2_8]
  unfold out2_8
  rw [View.canon_unit_zero hz]
  simp only [View.ld_unit_zero (S := S5000x128) hz, View.ld_unit_zero (S := S1x128) hz, View.ld_unit_zero (S := S128x128) hz]
  obtain ⟨-, -, -, -, -, -, -, -, -, -, -, -, -, -, -, -, e0, e1⟩ := idx_facts2 t
  funext y
  obtain ⟨p, j, rfl⟩ : ∃ (p : Fin 5000) (j : Fin 128), y = ix2 p j := ⟨y 0, y 1, eq_ix2 y⟩
  have hr0 : ((((cfg2.win 8).blk t).view.emb (ix2 p j) : S100000x128.Idx) 0).val = 5000 * t.val + p.val := by
    show win2_8.index t (0 : Fin 2) * 5000 + 1 * p.val = _; rw [e0]; omega
  have hr1 : ((((cfg2.win 8).blk t).view.emb (ix2 p j) : S100000x128.Idx) 1).val = j.val := by
    show win2_8.index t (1 : Fin 2) * 128 + 1 * j.val = _; rw [e1]; omega
  show k2_pay2 (iblk2 V c 2 t) (iblk2 V c 3 t) (iblk2 V c 0 t) (iblk2 V c 1 t) (iblk2 V c 4 t) (iblk2 V c 5 t) (iblk2 V c 6 t) (ix2 p j)
    = H2 V c (((cfg2.win 8).blk t).view.emb (ix2 p j))
  generalize (((cfg2.win 8).blk t).view.emb (ix2 p j) : S100000x128.Idx) = i at hr0 hr1 ⊢
  refine (pay2_2_apply _ _ _ _ _ _ _ p j).trans ?_
  unfold H2
  refine congrArg₂ (· + ·) (Finset.sum_congr rfl fun k _ => congrArg₂ (· * ·) ?_ ?_) ?_
  · exact pay2_1_blk V c t p k (ix2 (i 0) k) hr0 rfl
  · rw [show (i 1 : Fin 128) = j from Fin.ext hr1]; exact blk2_5 V c t k j
  · rw [show (i 1 : Fin 128) = j from Fin.ext hr1]; exact blk2_6 V c t j

/-- An index is in point t's block of window 8 iff each coordinate is in the block's range. -/
theorem mem_blk2_8 (t : Fin cfg2.N) (i : S100000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v87_1).slice (win2_8.rect t)).set ↔ _
  rw [View.set_slice_whole, Rect.mem_set_unit]
  exact Iff.rfl

/-- Every row r lies in the block of the point r / 5000. -/
theorem cover2_8 (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, -, -, -, -, -, -, -, e0, e1⟩ := idx_facts2 t
  have ht : t.val = (i 0).val / 5000 := rfl
  refine ⟨t, flush2_8 t, ?_⟩
  rw [mem_blk2_8]
  intro a
  match a with
  | ⟨0, _⟩ => show win2_8.index t (0 : Fin 2) * 5000 ≤ (i 0).val ∧ (i 0).val < win2_8.index t (0 : Fin 2) * 5000 + 5000; rw [e0, ht]; omega
  | ⟨1, _⟩ => show win2_8.index t (1 : Fin 2) * 128 ≤ (i 1).val ∧ (i 1).val < win2_8.index t (1 : Fin 2) * 128 + 128; rw [e1]; omega

/-- The second output array after the region. -/
theorem final2_8_fun (c : Dev nD) : (dat2 V c).arrAt 8 cfg2.N = H2 V c :=
  (dat2 V c).arrAt_eq_of_cover 8 (H2 V c) (fun t _ => flushed2_8_eq V c t) cover2_8

/-- The first output is the normalised and clipped array. -/
theorem final2_7 (c : Dev nD) (r : Fin 100000) (j : Fin 128) :
    (Gen.dat2 V c).arrAt 7 cfg2.N (ix2 r j) = x2 V c (ix2 r j) := by
  rw [final2_7_fun]

/-- The second output is its product with the matrix, plus the bias. -/
theorem final2_8 (c : Dev nD) (r : Fin 100000) (j : Fin 128) :
    (Gen.dat2 V c).arrAt 8 cfg2.N (ix2 r j)
      = (∑ k : Fin 128, x2 V c (ix2 r k) * arr S128x128 (V c main_v83) (ix2 k j)) + arr S1x128 (V c main_v86) (ix2 0 j) := by
  rw [final2_8_fun]; rfl

end Cert.KernelIdeal.KA

end
-- ==== Proof.K.Reg3.lean ====
/-
  A layer's scaled combination and its column sums by blocks: every row block of 5000 vertices is multiplied by the
  [128,128] matrix, the bias row and the edge sum's block are added and every row is scaled by its vertex's factor;
  the block's column sums, and the column sums of its squares, go to row 0 of the block's 8 rows of two [160,128]
  arrays, whose other rows are zero.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay2
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The scaled combination at an index: the vertex's factor times (the dense map of the row plus the edge sum). -/
def g3 (c : Dev nD) : S100000x128.Idx → EReal := fun i =>
  arr S100000x1 (V c main_v18) (ix2 (i 0) 0)
    * (((∑ k : Fin 128, arr S100000x128 (V c main_v87_0) (ix2 (i 0) k) * arr S128x128 (V c main_v113) (ix2 k (i 1)))
        + arr S1x128 (V c main_v116) (ix2 0 (i 1))) + arr S100000x128 (V c main_v110) i)

theorem g3_apply (c : Dev nD) (r : Fin 100000) (j : Fin 128) :
    g3 V c (ix2 r j) = arr S100000x1 (V c main_v18) (ix2 r 0)
      * (((∑ k : Fin 128, arr S100000x128 (V c main_v87_0) (ix2 r k) * arr S128x128 (V c main_v113) (ix2 k j))
          + arr S1x128 (V c main_v116) (ix2 0 j)) + arr S100000x128 (V c main_v110) (ix2 r j)) := rfl

/-- The body's scaled combination at an entry of the block. -/
theorem pay3_1_apply (v0 : Vec Ideal S5000x128 .f32) (v2 : Vec Ideal S128x128 .f32) (v6 : Vec Ideal S1x128 .f32)
    (v10 : Vec Ideal S5000x1 .f32) (v12 : Vec Ideal S5000x128 .f32) (p : Fin 5000) (j : Fin 128) :
    k3_pay1 v0 v2 v6 v10 v12 (ix2 p j)
      = v10 (ix2 p (0 : Fin 1)) * (((∑ k : Fin 128, v0 (ix2 p k) * v2 (ix2 k j)) + v6 (ix2 (0 : Fin 1) j)) + v12 (ix2 p j)) := by
  unfold k3_pay1
  simp only [shapeCast_self]
  rw [mulf_apply, addf_apply, broadcastTo_a1_ab_apply]
  exact congrArg (fun z => v10 (ix2 p (0 : Fin 1)) * (z + v12 (ix2 p j))) (dense_plain_apply _ v0 v2 v6 _ _ p j)

/-- The block's column sums on row 0 of the 8-row tile. -/
theorem pay3_3_apply (v0 : Vec Ideal S5000x128 .f32) (v2 : Vec Ideal S128x128 .f32) (v6 : Vec Ideal S1x128 .f32)
    (v10 : Vec Ideal S5000x1 .f32) (v12 : Vec Ideal S5000x128 .f32) (y : Fin 8) (j : Fin 128) :
    k3_pay3 v0 v2 v6 v10 v12 (ix2 y j)
      = if y.val = 0 then ∑ p : Fin 5000, k3_pay1 v0 v2 v6 v10 v12 (ix2 p j) else Cert.Spec.f0 := by
  unfold k3_pay3 k3_pay2
  simp only [shapeCast_self]
  exact colsum_tile_apply (k3_pay1 v0 v2 v6 v10 v12) _ _ _ _ _ _ y j

/-- The column sums of the block's squares on row 0 of the 8-row tile. -/
theorem pay3_4_apply (v0 : Vec Ideal S5000x128 .f32) (v2 : Vec Ideal S128x128 .f32) (v6 : Vec Ideal S1x128 .f32)
    (v10 : Vec Ideal S5000x1 .f32) (v12 : Vec Ideal S5000x128 .f32) (y : Fin 8) (j : Fin 128) :
    k3_pay4 v0 v2 v6 v10 v12 (ix2 y j)
      = if y.val = 0 then ∑ p : Fin 5000, k3_pay1 v0 v2 v6 v10 v12 (ix2 p j) * k3_pay1 v0 v2 v6 v10 v12 (ix2 p j)
        else Cert.Spec.f0 := by
  unfold k3_pay4 k3_pay2
  simp only [shapeCast_self]
  exact colsum_tile_apply (mulf (k3_pay1 v0 v2 v6 v10 v12) (k3_pay1 v0 v2 v6 v10 v12)) _ _ _ _ _ _ y j

/-- The block index maps over the 20 grid points: a row-blocked window's block moves with the point, a whole window stays. -/
theorem idx_facts3 : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0 :=
  (by decide +kernel : ∀ t : Fin grid3.N, _)

/-- Window 0's block at point t is rows 5000·t … 5000·t + 4999 of its array. -/
theorem blk3_0 (c : Dev nD) (t : Fin cfg3.N) (p : Fin 5000) (k : Fin 128) (i : S100000x128.Idx)
    (h0 : (i 0).val = 5000 * t.val + p.val) (h1 : (i 1).val = k.val) :
    iblk3 V c 0 t (ix2 p k) = arr S100000x128 (V c main_v87_0) i := by
  obtain ⟨e0, e1, -⟩ := idx_facts3 t
  unfold iblk3
  show V c main_v87_0 (((cfg3.win 0).blk t).view.emb (ix2 p k)) = V c main_v87_0 i
  refine congrArg (V c main_v87_0) ?_
  funext a; apply Fin.ext
  match a with
  | ⟨0, _⟩ => show win3_0.index t (0 : Fin 2) * 5000 + 1 * p.val = (i 0).val; rw [e0, h0]; omega
  | ⟨1, _⟩ => show win3_0.index t (1 : Fin 2) * 128 + 1 * k.val = (i 1).val; rw [e1, h1]; omega

/-- Window 1's block is its whole matrix at every point. -/
theorem blk3_1 (c : Dev nD) (t : Fin cfg3.N) (k : Fin 128) (j : Fin 128) :
    iblk3 V c 1 t (ix2 k j) = arr S128x128 (V c main_v113) (ix2 k j) := by
  obtain ⟨-, -, e0, e1, -⟩ := idx_facts3 t
  unfold iblk3
  show V c main_v113 (((cfg3.win 1).blk t).view.emb (ix2 k j)) = V c main_v113 (ix2 k j)
  refine congrArg (V c main_v113) ?_
  funext a; apply Fin.ext
  match a with
  | ⟨0, _⟩ => show win3_1.index t (0 : Fin 2) * 128 + 1 * k.val = k.val; rw [e0]; omega
  | ⟨1, _⟩ => show win3_1.index t (1 : Fin 2) * 128 + 1 * j.val = j.val; rw [e1]; omega

/-- Window 2's block is its whole row at every point. -/
theorem blk3_2 (c : Dev nD) (t : Fin cfg3.N) (j : Fin 128) :
    iblk3 V c 2 t (ix2 (0 : Fin 1) j) = arr S1x128 (V c main_v116) (ix2 (0 : Fin 1) j) := by
  obtain ⟨-, -, -, -, e0, e1, -⟩ := idx_facts3 t
  unfold iblk3
  show V c main_v116 (((cfg3.win 2).blk t).view.emb (ix2 (0 : Fin 1) j)) = V c main_v116 (ix2 (0 : Fin 1) j)
  refine congrArg (V c main_v116) ?_
  funext a; apply Fin.ext
  match a with
  | ⟨0, _⟩ => show win3_2.index t (0 : Fin 2) * 1 + 1 * 0 = 0; rw [e0]
  | ⟨1, _⟩ => show win3_2.index t (1 : Fin 2) * 128 + 1 * j.val = j.val; rw [e1]; omega

/-- Window 3's block at point t is rows 5000·t … 5000·t + 4999 of its array. -/
theorem blk3_3 (c : Dev nD) (t : Fin cfg3.N) (p : Fin 5000) (k : Fin 128) (i : S100000x128.Idx)
    (h0 : (i 0).val = 5000 * t.val + p.val) (h1 : (i 1).val = k.val) :
    iblk3 V c 3 t (ix2 p k) = arr S100000x128 (V c main_v110) i := by
  obtain ⟨-, -, -, -, -, -, e0, e1, -⟩ := idx_facts3 t
  unfold iblk3
  show V c main_v110 (((cfg3.win 3).blk t).view.emb (ix2 p k)) = V c main_v110 i
  refine congrArg (V c main_v110) ?_
  funext a; apply Fin.ext
  match a with
  | ⟨0, _⟩ => show win3_3.index t (0 : Fin 2) * 5000 + 1 * p.val = (i 0).val; rw [e0, h0]; omega
  | ⟨1, _⟩ => show win3_3.index t (1 : Fin 2) * 128 + 1 * k.val = (i 1).val; rw [e1, h1]; omega

/-- Window 4's block at point t is entries 5000·t … 5000·t + 4999 of its column. -/
theorem blk3_4 (c : Dev nD) (t : Fin cfg3.N) (p : Fin 5000) (i : S100000x1.Idx)
    (h0 : (i 0).val = 5000 * t.val + p.val) :
    iblk3 V c 4 t (ix2 p (0 : Fin 1)) = arr S100000x1 (V c main_v18) i := by
  obtain ⟨-, -, -, -, -, -, -, -, e0, e1, -⟩ := idx_facts3 t
  unfold iblk3
  show V c main_v18 (((cfg3.win 4).blk t).view.emb (ix2 p (0 : Fin 1))) = V c main_v18 i
  refine congrArg (V c main_v18) ?_
  funext a; apply Fin.ext
  match a with
  | ⟨0, _⟩ => show win3_4.index t (0 : Fin 2) * 5000 + 1 * p.val = (i 0).val; rw [e0, h0]; omega
  | ⟨1, _⟩ => show win3_4.index t (1 : Fin 2) * 1 + 1 * 0 = (i 1).val; rw [e1]; have hi1 : (i 1).val < 1 := (i 1).isLt; omega

/-- The value the body computes from the blocks at point t is the scaled combination at the row's place in the arrays. -/
theorem pay3_1_blk (c : Dev nD) (t : Fin cfg3.N) (p : Fin 5000) (j : Fin 128) (i : S100000x128.Idx)
    (h0 : (i 0).val = 5000 * t.val + p.val) (h1 : (i 1).val = j.val) :
    k3_pay1 (iblk3 V c 0 t) (iblk3 V c 1 t) (iblk3 V c 2 t) (iblk3 V c 4 t) (iblk3 V c 3 t) (ix2 p j) = g3 V c i := by
  refine (pay3_1_apply _ _ _ _ _ p j).trans ?_
  unfold g3
  refine congrArg₂ (· * ·) (blk3_4 V c t p (ix2 (i 0) 0) h0)
    (congrArg₂ (· + ·) (congrArg₂ (· + ·) (Finset.sum_congr rfl fun k _ =>
      congrArg₂ (· * ·) (blk3_0 V c t p k (ix2 (i 0) k) h0 rfl) ?_) ?_) (blk3_3 V c t p j i h0 h1))
  · rw [show (i 1 : Fin 128) = j from Fin.ext h1]; exact blk3_1 V c t k j
  · rw [show (i 1 : Fin 128) = j from Fin.ext h1]; exact blk3_2 V c t j

/-- What point t writes back to the first output is block t of the scaled combination. -/
theorem flushed3_5_eq (c : Dev nD) (t : Fin cfg3.N) :
    (dat3 V c).flushed 5 t = ((cfg3.win 5).blk t).view.read (Elt Ideal) (g3 V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, e0, e1, -⟩ := idx_facts3 t
  funext y
  obtain ⟨p, j, rfl⟩ : ∃ (p : Fin 5000) (j : Fin 128), y = ix2 p j := ⟨y 0, y 1, eq_ix2 y⟩
  have hr0 : ((((cfg3.win 5).blk t).view.emb (ix2 p j) : S100000x128.Idx) 0).val = 5000 * t.val + p.val := by
    show win3_5.index t (0 : Fin 2) * 5000 + 1 * p.val = _; rw [e0]; omega
  have hr1 : ((((cfg3.win 5).blk t).view.emb (ix2 p j) : S100000x128.Idx) 1).val = j.val := by
    show win3_5.index t (1 : Fin 2) * 128 + 1 * j.val = _; rw [e1]; omega
  exact pay3_1_blk V c t p j _ hr0 hr1

/-- An index is in point t's block of window 5 iff each coordinate is in the block's range. -/
theorem mem_blk3_5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v117_0).slice (win3_5.rect t)).set ↔ _
  rw [View.set_slice_whole, Rect.mem_set_unit]
  exact Iff.rfl

/-- Every row r lies in the block of the point r / 5000. -/
theorem cover3_5 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, -, e0, e1, -⟩ := idx_facts3 t
  have ht : t.val = (i 0).val / 5000 := rfl
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- The first output array after the region. -/
theorem final3_5_fun (c : Dev nD) : (dat3 V c).arrAt 5 cfg3.N = g3 V c :=
  (dat3 V c).arrAt_eq_of_cover 5 (g3 V c) (fun t _ => flushed3_5_eq V c t) cover3_5

/-- Entry (q, j) of the second output: on a row 8·t the sum over block t's rows, zero on the other rows. -/
def S3_6 (c : Dev nD) (q : Fin 160) (j : Fin 128) : EReal :=
  if q.val % 8 = 0 then ∑ p : Fin 5000, g3 V c (ix2 (⟨5000 * (q.val / 8) + p.val, by have := q.isLt; have := p.isLt; omega⟩ : Fin 100000) j) else Cert.Spec.f0
def G3_6 (c : Dev nD) : S160x128.Idx → EReal := fun i => S3_6 V c (i 0) (i 1)

/-- What point t writes back is its 8-row tile of that array. -/
theorem flushed3_6_eq (c : Dev nD) (t : Fin cfg3.N) :
    (dat3 V c).flushed 6 t = ((cfg3.win 6).blk t).view.read (Elt Ideal) (G3_6 V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, -, -, e0, e1, -⟩ := idx_facts3 t
  funext y'
  obtain ⟨y, j, rfl⟩ : ∃ (y : Fin 8) (j : Fin 128), y' = ix2 y j := ⟨y' 0, y' 1, eq_ix2 y'⟩
  have hr0 : ((((cfg3.win 6).blk t).view.emb (ix2 y j) : S160x128.Idx) 0).val = 8 * t.val + y.val := by
    show win3_6.index t (0 : Fin 2) * 8 + 1 * y.val = _; rw [e0]; omega
  have hr1 : ((((cfg3.win 6).blk t).view.emb (ix2 y j) : S160x128.Idx) 1).val = j.val := by
    show win3_6.index t (1 : Fin 2) * 128 + 1 * j.val = _; rw [e1]; omega
  show k3_pay3 (iblk3 V c 0 t) (iblk3 V c 1 t) (iblk3 V c 2 t) (iblk3 V c 4 t) (iblk3 V c 3 t) (ix2 y j) = G3_6 V c (((cfg3.win 6).blk t).view.emb (ix2 y j))
  generalize (((cfg3.win 6).blk t).view.emb (ix2 y j) : S160x128.Idx) = i at hr0 hr1 ⊢
  refine (pay3_3_apply _ _ _ _ _ y j).trans ?_
  unfold G3_6 S3_6
  have hy : y.val < 8 := y.isLt
  have htl : t.val < 20 := by have := t.isLt; have hN : cfg3.N = 20 := N_3; omega
  by_cases h : y.val = 0
  · rw [if_pos h, if_pos (show (i 0).val % 8 = 0 by omega)]
    refine Finset.sum_congr rfl fun p _ => ?_
    have hp : k3_pay1 (iblk3 V c 0 t) (iblk3 V c 1 t) (iblk3 V c 2 t) (iblk3 V c 4 t) (iblk3 V c 3 t) (ix2 p j)
        = g3 V c (ix2 (⟨5000 * ((i 0).val / 8) + p.val, by have := p.isLt; omega⟩ : Fin 100000) (i 1)) :=
      pay3_1_blk V c t p j _ (show 5000 * ((i 0).val / 8) + p.val = 5000 * t.val + p.val by omega) hr1
    exact hp
  · rw [if_neg h, if_neg (show ¬ (i 0).val % 8 = 0 by omega)]

/-- An index is in point t's block of window 6 iff each coordinate is in the block's range. -/
theorem mem_blk3_6 (t : Fin cfg3.N) (i : S160x128.Idx) :
    i ∈ ((cfg3.win 6).blk t).view.set ↔ ∀ a : Fin 2, win3_6.index t a * S8x128.size a ≤ (i a).val ∧ (i a).val < win3_6.index t a * S8x128.size a + S8x128.size a := by
  show i ∈ ((View.whole main_v117_1).slice (win3_6.rect t)).set ↔ _
  rw [View.set_slice_whole, Rect.mem_set_unit]
  exact Iff.rfl

/-- Every row r lies in the block of the point r / 8. -/
theorem cover3_6 (i : S160x128.Idx) : ∃ t : Fin cfg3.N, (cfg3.win 6).flush t = true ∧ i ∈ ((cfg3.win 6).blk t).view.set := by
  have hi0 : (i 0).val < 160 := (i 0).isLt
  have hi1 : (i 1).val < 128 := (i 1).isLt
  have hN : cfg3.N = 20 := N_3
  let t : Fin cfg3.N := ⟨(i 0).val / 8, by rw [hN]; omega⟩
  obtain ⟨-, -, -, -, -, -, -, -, -, -, -, -, e0, e1, -⟩ := idx_facts3 t
  have ht : t.val = (i 0).val / 8 := rfl
  refine ⟨t, flush3_6 t, ?_⟩
  rw [mem_blk3_6]
  intro a
  match a with
  | ⟨0, _⟩ => show win3_6.index t (0 : Fin 2) * 8 ≤ (i 0).val ∧ (i 0).val < win3_6.index t (0 : Fin 2) * 8 + 8; rw [e0, ht]; omega
  | ⟨1, _⟩ => show win3_6.index t (1 : Fin 2) * 128 ≤ (i 1).val ∧ (i 1).val < win3_6.index t (1 : Fin 2) * 128 + 128; rw [e1]; omega

/-- The array after the region. -/
theorem final3_6_fun (c : Dev nD) : (dat3 V c).arrAt 6 cfg3.N = G3_6 V c :=
  (dat3 V c).arrAt_eq_of_cover 6 (G3_6 V c) (fun t _ => flushed3_6_eq V c t) cover3_6

/-- Entry (q, j) of the third output: on a row 8·t the sum over block t's rows of the squares, zero on the other rows. -/
def S3_7 (c : Dev nD) (q : Fin 160) (j : Fin 128) : EReal :=
  if q.val % 8 = 0 then ∑ p : Fin 5000, g3 V c (ix2 (⟨5000 * (q.val / 8) + p.val, by have := q.isLt; have := p.isLt; omega⟩ : Fin 100000) j) * g3 V c (ix2 (⟨5000 * (q.val / 8) + p.val, by have := q.isLt; have := p.isLt; omega⟩ : Fin 100000) j) else Cert.Spec.f0
def G3_7 (c : Dev nD) : S160x128.Idx → EReal := fun i => S3_7 V c (i 0) (i 1)

/-- What point t writes back is its 8-row tile of that array. -/
theorem flushed3_7_eq (c : Dev nD) (t : Fin cfg3.N) :
    (dat3 V c).flushed 7 t = ((cfg3.win 7).blk t).view.read (Elt Ideal) (G3_7 V c) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, -, -, -, -, e0, e1⟩ := idx_facts3 t
  funext y'
  obtain ⟨y, j, rfl⟩ : ∃ (y : Fin 8) (j : Fin 128), y' = ix2 y j := ⟨y' 0, y' 1, eq_ix2 y'⟩
  have hr0 : ((((cfg3.win 7).blk t).view.emb (ix2 y j) : S160x128.Idx) 0).val = 8 * t.val + y.val := by
    show win3_7.index t (0 : Fin 2) * 8 + 1 * y.val = _; rw [e0]; omega
  have hr1 : ((((cfg3.win 7).blk t).view.emb (ix2 y j) : S160x128.Idx) 1).val = j.val := by
    show win3_7.index t (1 : Fin 2) * 128 + 1 * j.val = _; rw [e1]; omega
  show k3_pay4 (iblk3 V c 0 t) (iblk3 V c 1 t) (iblk3 V c 2 t) (iblk3 V c 4 t) (iblk3 V c 3 t) (ix2 y j) = G3_7 V c (((cfg3.win 7).blk t).view.emb (ix2 y j))
  generalize (((cfg3.win 7).blk t).view.emb (ix2 y j) : S160x128.Idx) = i at hr0 hr1 ⊢
  refine (pay3_4_apply _ _ _ _ _ y j).trans ?_
  unfold G3_7 S3_7
  have hy : y.val < 8 := y.isLt
  have htl : t.val < 20 := by have := t.isLt; have hN : cfg3.N = 20 := N_3; omega
  by_cases h : y.val = 0
  · rw [if_pos h, if_pos (show (i 0).val % 8 = 0 by omega)]
    refine Finset.sum_congr rfl fun p _ => ?_
    have hp : k3_pay1 (iblk3 V c 0 t) (iblk3 V c 1 t) (iblk3 V c 2 t) (iblk3 V c 4 t) (iblk3 V c 3 t) (ix2 p j)
        = g3 V c (ix2 (⟨5000 * ((i 0).val / 8) + p.val, by have := p.isLt; omega⟩ : Fin 100000) (i 1)) :=
      pay3_1_blk V c t p j _ (show 5000 * ((i 0).val / 8) + p.val = 5000 * t.val + p.val by omega) hr1
    rw [hp]
  · rw [if_neg h, if_neg (show ¬ (i 0).val % 8 = 0 by omega)]

/-- An index is in point t's block of window 7 iff each coordinate is in the block's range. -/
theorem mem_blk3_7 (t : Fin cfg3.N) (i : S160x128.Idx) :
    i ∈ ((cfg3.win 7).blk t).view.set ↔ ∀ a : Fin 2, win3_7.index t a * S8x128.size a ≤ (i a).val ∧ (i a).val < win3_7.index t a * S8x128.size a + S8x128.size a := by
  show i ∈ ((View.whole main_v117_2).slice (win3_7.rect t)).set ↔ _
  rw [View.set_slice_whole, Rect.mem_set_unit]
  exact Iff.rfl

/-- Every row r lies in the block of the point r / 8. -/
theorem cover3_7 (i : S160x128.Idx) : ∃ t : Fin cfg3.N, (cfg3.win 7).flush t = true ∧ i ∈ ((cfg3.win 7).blk t).view.set := by
  have hi0 : (i 0).val < 160 := (i 0).isLt
  have hi1 : (i 1).val < 128 := (i 1).isLt
  have hN : cfg3.N = 20 := N_3
  let t : Fin cfg3.N := ⟨(i 0).val / 8, by rw [hN]; omega⟩
  obtain ⟨-, -, -, -, -, -, -, -, -, -, -, -, -, -, e0, e1⟩ := idx_facts3 t
  have ht : t.val = (i 0).val / 8 := rfl
  refine ⟨t, flush3_7 t, ?_⟩
  rw [mem_blk3_7]
  intro a
  match a with
  | ⟨0, _⟩ => show win3_7.index t (0 : Fin 2) * 8 ≤ (i 0).val ∧ (i 0).val < win3_7.index t (0 : Fin 2) * 8 + 8; rw [e0, ht]; omega
  | ⟨1, _⟩ => show win3_7.index t (1 : Fin 2) * 128 ≤ (i 1).val ∧ (i 1).val < win3_7.index t (1 : Fin 2) * 128 + 128; rw [e1]; omega

/-- The array after the region. -/
theorem final3_7_fun (c : Dev nD) : (dat3 V c).arrAt 7 cfg3.N = G3_7 V c :=
  (dat3 V c).arrAt_eq_of_cover 7 (G3_7 V c) (fun t _ => flushed3_7_eq V c t) cover3_7

/-- The first output is the scaled combination, entry by entry. -/
theorem final3_5 (c : Dev nD) (r : Fin 100000) (j : Fin 128) :
    (Gen.dat3 V c).arrAt 5 cfg3.N (ix2 r j) = g3 V c (ix2 r j) := by
  rw [final3_5_fun]

/-- The second output: row 8·t of the [160,128] array holds block t's column sums, every other row zero. -/
theorem final3_6 (c : Dev nD) (q : Fin 160) (j : Fin 128) :
    (Gen.dat3 V c).arrAt 6 cfg3.N (ix2 q j)
      = if q.val % 8 = 0 then
          ∑ p : Fin 5000, g3 V c (ix2 (⟨5000 * (q.val / 8) + p.val, by have := q.isLt; have := p.isLt; omega⟩ : Fin 100000) j)
        else Cert.Spec.f0 := by
  rw [final3_6_fun]; rfl

/-- The third output: the same with the squares. -/
theorem final3_7 (c : Dev nD) (q : Fin 160) (j : Fin 128) :
    (Gen.dat3 V c).arrAt 7 cfg3.N (ix2 q j)
      = if q.val % 8 = 0 then
          ∑ p : Fin 5000, g3 V c (ix2 (⟨5000 * (q.val / 8) + p.val, by have := q.isLt; have := p.isLt; omega⟩ : Fin 100000) j)
            * g3 V c (ix2 (⟨5000 * (q.val / 8) + p.val, by have := q.isLt; have := p.isLt; omega⟩ : Fin 100000) j)
        else Cert.Spec.f0 := by
  rw [final3_7_fun]; rfl

end Cert.KernelIdeal.KA

end
-- ==== Proof.K.Reg4.lean ====
/-
  Normalisation, clipping and the next dense map: every entry of a row block has its column's mean subtracted, is
  scaled by the column's factor and by the inverse root of the column's variance plus the offset, has the column's
  shift added and is clipped at zero; the clipped block is also multiplied by the [128,128] matrix, plus the bias row.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay
import Idealize.ShloMosaic.Lib.Pipeline.Value
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The normalised and clipped entry. -/
def x4 (c : Dev nD) : S100000x128.Idx → EReal := fun i =>
  max (arr S1x128 (V c main_v138) (ix2 0 (i 1)) * (arr S100000x128 (V c main_v117_0) i - arr S1x128 (V c main_v129) (ix2 0 (i 1)))
        * Ideal.rsqrt (arr S1x128 (V c main_v135) (ix2 0 (i 1)) + Cert.Spec.eps)
      + arr S1x128 (V c main_v141) (ix2 0 (i 1))) Cert.Spec.f0

theorem x4_apply (c : Dev nD) (r : Fin 100000) (j : Fin 128) :
    x4 V c (ix2 r j) = max (arr S1x128 (V c main_v138) (ix2 0 j) * (arr S100000x128 (V c main_v117_0) (ix2 r j) - arr S1x128 (V c main_v129) (ix2 0 j))
        * Ideal.rsqrt (arr S1x128 (V c main_v135) (ix2 0 j) + Cert.Spec.eps)
      + arr S1x128 (V c main_v141) (ix2 0 j)) Cert.Spec.f0 := rfl

/-- The normalised and clipped entry of a block, from the block and the four rows. -/
theorem pay4_1_apply (v0 v5 : Vec Ideal S1x128 .f32) (v7 : Vec Ideal S5000x128 .f32) (v9 v17 : Vec Ideal S1x128 .f32)
    (p : Fin 5000) (j : Fin 128) :
    k4_pay1 v0 v5 v7 v9 v17 (ix2 p j)
      = max (v5 (ix2 (0 : Fin 1) j) * (v7 (ix2 p j) - v9 (ix2 (0 : Fin 1) j))
            * Ideal.rsqrt (v0 (ix2 (0 : Fin 1) j) + Cert.Spec.eps) + v17 (ix2 (0 : Fin 1) j)) Cert.Spec.f0 := by
  unfold k4_pay1
  simp only [maximumf_apply, addf_apply, mulf_apply, subf_apply, broadcastTo_1b_ab_apply, shapeCast_self, broadcast_apply]
  rfl

/-- The dense map of the clipped block. -/
theorem pay4_2_apply (v0 v5 : Vec Ideal S1x128 .f32) (v7 : Vec Ideal S5000x128 .f32) (v9 v17 : Vec Ideal S1x128 .f32)
    (v25 : Vec Ideal S128x128 .f32) (v29 : Vec Ideal S1x128 .f32) (p : Fin 5000) (j : Fin 128) :
    k4_pay2 v0 v5 v7 v9 v17 v25 v29 (ix2 p j)
      = (∑ k : Fin 128, k4_pay1 v0 v5 v7 v9 v17 (ix2 p k) * v25 (ix2 k j)) + v29 (ix2 (0 : Fin 1) j) := by
  unfold k4_pay2
  exact dense_apply _ (k4_pay1 v0 v5 v7 v9 v17) v25 v29 _ _ _ _ p j

/-- The block index maps over the 20 grid points: a row-blocked window's block moves with the point, a whole window stays. -/
theorem idx_facts4 : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0
    ∧ win4_8.index t (0 : Fin 2) = t.val
    ∧ win4_8.index t (1 : Fin 2) = 0 :=
  (by decide +kernel : ∀ t : Fin grid4.N, _)

/-- Window 0's block at point t is rows 5000·t … 5000·t + 4999 of its array. -/
theorem blk4_0 (c : Dev nD) (t : Fin cfg4.N) (p : Fin 5000) (k : Fin 128) (i : S100000x128.Idx)
    (h0 : (i 0).val = 5000 * t.val + p.val) (h1 : (i 1).val = k.val) :
    iblk4 V c 0 t (ix2 p k) = arr S100000x128 (V c main_v117_0) i := by
  obtain ⟨e0, e1, -⟩ := idx_facts4 t
  unfold iblk4
  show V c main_v117_0 (((cfg4.win 0).blk t).view.emb (ix2 p k)) = V c main_v117_0 i
  refine congrArg (V c main_v117_0) ?_
  funext a; apply Fin.ext
  match a with
  | ⟨0, _⟩ => show win4_0.index t (0 : Fin 2) * 5000 + 1 * p.val = (i 0).val; rw [e0, h0]; omega
  | ⟨1, _⟩ => show win4_0.index t (1 : Fin 2) * 128 + 1 * k.val = (i 1).val; rw [e1, h1]; omega

/-- Window 1's block is its whole row at every point. -/
theorem blk4_1 (c : Dev nD) (t : Fin cfg4.N) (j : Fin 128) :
    iblk4 V c 1 t (ix2 (0 : Fin 1) j) = arr S1x128 (V c main_v129) (ix2 (0 : Fin 1) j) := by
  obtain ⟨-, -, e0, e1, -⟩ := idx_facts4 t
  unfold iblk4
  show V c main_v129 (((cfg4.win 1).blk t).view.emb (ix2 (0 : Fin 1) j)) = V c main_v129 (ix2 (0 : Fin 1) j)
  refine congrArg (V c main_v129) ?_
  funext a; apply Fin.ext
  match a with
  | ⟨0, _⟩ => show win4_1.index t (0 : Fin 2) * 1 + 1 * 0 = 0; rw [e0]
  | ⟨1, _⟩ => show win4_1.index t (1 : Fin 2) * 128 + 1 * j.val = j.val; rw [e1]; omega

/-- Window 2's block is its whole row at every point. -/
theorem blk4_2 (c : Dev nD) (t : Fin cfg4.N) (j : Fin 128) :
    iblk4 V c 2 t (ix2 (0 : Fin 1) j) = arr S1x128 (V c main_v135) (ix2 (0 : Fin 1) j) := by
  obtain ⟨-, -, -, -, e0, e1, -⟩ := idx_facts4 t
  unfold iblk4
  show V c main_v135 (((cfg4.win 2).blk t).view.emb (ix2 (0 : Fin 1) j)) = V c main_v135 (ix2 (0 : Fin 1) j)
  refine congrArg (V c main_v135) ?_
  funext a; apply Fin.ext
  match a with
  | ⟨0, _⟩ => show win4_2.index t (0 : Fin 2) * 1 + 1 * 0 = 0; rw [e0]
  | ⟨1, _⟩ => show win4_2.index t (1 : Fin 2) * 128 + 1 * j.val = j.val; rw [e1]; omega

/-- Window 3's block is its whole row at every point. -/
theorem blk4_3 (c : Dev nD) (t : Fin cfg4.N) (j : Fin 128) :
    iblk4 V c 3 t (ix2 (0 : Fin 1) j) = arr S1x128 (V c main_v138) (ix2 (0 : Fin 1) j) := by
  obtain ⟨-, -, -, -, -, -, e0, e1, -⟩ := idx_facts4 t
  unfold iblk4
  show V c main_v138 (((cfg4.win 3).blk t).view.emb (ix2 (0 : Fin 1) j)) = V c main_v138 (ix2 (0 : Fin 1) j)
  refine congrArg (V c main_v138) ?_
  funext a; apply Fin.ext
  match a with
  | ⟨0, _⟩ => show win4_3.index t (0 : Fin 2) * 1 + 1 * 0 = 0; rw [e0]
  | ⟨1, _⟩ => show win4_3.index t (1 : Fin 2) * 128 + 1 * j.val = j.val; rw [e1]; omega

/-- Window 4's block is its whole row at every point. -/
theorem blk4_4 (c : Dev nD) (t : Fin cfg4.N) (j : Fin 128) :
    iblk4 V c 4 t (ix2 (0 : Fin 1) j) = arr S1x128 (V c main_v141) (ix2 (0 : Fin 1) j) := by
  obtain ⟨-, -, -, -, -, -, -, -, e0, e1, -⟩ := idx_facts4 t
  unfold iblk4
  show V c main_v141 (((cfg4.win 4).blk t).view.emb (ix2 (0 : Fin 1) j)) = V c main_v141 (ix2 (0 : Fin 1) j)
  refine congrArg (V c main_v141) ?_
  funext a; apply Fin.ext
  match a with
  | ⟨0, _⟩ => show win4_4.index t (0 : Fin 2) * 1 + 1 * 0 = 0; rw [e0]
  | ⟨1, _⟩ => show win4_4.index t (1 : Fin 2) * 128 + 1 * j.val = j.val; rw [e1]; omega

/-- Window 5's block is its whole matrix at every point. -/
theorem blk4_5 (c : Dev nD) (t : Fin cfg4.N) (k : Fin 128) (j : Fin 128) :
    iblk4 V c 5 t (ix2 k j) = arr S128x128 (V c main_v144) (ix2 k j) := by
  obtain ⟨-, -, -, -, -, -, -, -, -, -, e0, e1, -⟩ := idx_facts4 t
  unfold iblk4
  show V c main_v144 (((cfg4.win 5).blk t).view.emb (ix2 k j)) = V c main_v144 (ix2 k j)
  refine congrArg (V c main_v144) ?_
  funext a; apply Fin.ext
  match a with
  | ⟨0, _⟩ => show win4_5.index t (0 : Fin 2) * 128 + 1 * k.val = k.val; rw [e0]; omega
  | ⟨1, _⟩ => show win4_5.index t (1 : Fin 2) * 128 + 1 * j.val = j.val; rw [e1]; omega

/-- Window 6's block is its whole row at every point. -/
theorem blk4_6 (c : Dev nD) (t : Fin cfg4.N) (j : Fin 128) :
    iblk4 V c 6 t (ix2 (0 : Fin 1) j) = arr S1x128 (V c main_v147) (ix2 (0 : Fin 1) j) := by
  obtain ⟨-, -, -, -, -, -, -, -, -, -, -, -, e0, e1, -⟩ := idx_facts4 t
  unfold iblk4
  show V c main_v147 (((cfg4.win 6).blk t).view.emb (ix2 (0 : Fin 1) j)) = V c main_v147 (ix2 (0 : Fin 1) j)
  refine congrArg (V c main_v147) ?_
  funext a; apply Fin.ext
  match a with
  | ⟨0, _⟩ => show win4_6.index t (0 : Fin 2) * 1 + 1 * 0 = 0; rw [e0]
  | ⟨1, _⟩ => show win4_6.index t (1 : Fin 2) * 128 + 1 * j.val = j.val; rw [e1]; omega

/-- The clipped value the body computes from the blocks at point t is the normalised and clipped entry of the row's array. -/
theorem pay4_1_blk (c : Dev nD) (t : Fin cfg4.N) (p : Fin 5000) (j : Fin 128) (i : S100000x128.Idx)
    (h0 : (i 0).val = 5000 * t.val + p.val) (h1 : (i 1).val = j.val) :
    k4_pay1 (iblk4 V c 2 t) (iblk4 V c 3 t) (iblk4 V c 0 t) (iblk4 V c 1 t) (iblk4 V c 4 t) (ix2 p j) = x4 V c i := by
  refine (pay4_1_apply _ _ _ _ _ p j).trans ?_
  unfold x4
  rw [show (i 1 : Fin 128) = j from Fin.ext h1]
  rw [blk4_0 V c t p j i h0 h1, blk4_1 V c t j, blk4_2 V c t j, blk4_3 V c t j, blk4_4 V c t j]

/-- What point t writes back to the first output is block t of the normalised and clipped array. -/
theorem flushed4_7_eq (c : Dev nD) (t : Fin cfg4.N) :
    (dat4 V c).flushed 7 t = ((cfg4.win 7).blk t).view.read (Elt Ideal) (x4 V c) := by
  show (cfg4.win 7).cut (grid4.coords t) ((dat4 V c).after 7 t) = _
  rw [after4_7]
  unfold out4_7
  rw [View.canon_unit_zero hz]
  simp only [View.ld_unit_zero (S := S5000x128) hz, View.ld_unit_zero (S := S1x128) hz]
  obtain ⟨-, -, -, -, -, -, -, -, -, -, -, -, -, -, e0, e1, -⟩ := idx_facts4 t
  funext y
  obtain ⟨p, j, rfl⟩ : ∃ (p : Fin 5000) (j : Fin 128), y = ix2 p j := ⟨y 0, y 1, eq_ix2 y⟩
  have hr0 : ((((cfg4.win 7).blk t).view.emb (ix2 p j) : S100000x128.Idx) 0).val = 5000 * t.val + p.val := by
    show win4_7.index t (0 : Fin 2) * 5000 + 1 * p.val = _; rw [e0]; omega
  have hr1 : ((((cfg4.win 7).blk t).view.emb (ix2 p j) : S100000x128.Idx) 1).val = j.val := by
    show win4_7.index t (1 : Fin 2) * 128 + 1 * j.val = _; rw [e1]; omega
  exact pay4_1_blk V c t p j _ hr0 hr1

/-- An index is in point t's block of window 7 iff each coordinate is in the block's range. -/
theorem mem_blk4_7 (t : Fin cfg4.N) (i : S100000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v148_0).slice (win4_7.rect t)).set ↔ _
  rw [View.set_slice_whole, Rect.mem_set_unit]
  exact Iff.rfl

/-- Every row r lies in the block of the point r / 5000. -/
theorem cover4_7 (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, -, -, -, -, -, -, -, e0, e1, -⟩ := idx_facts4 t
  have ht : t.val = (i 0).val / 5000 := rfl
  refine ⟨t, flush4_7 t, ?_⟩
  rw [mem_blk4_7]
  intro a
  match a with
  | ⟨0, _⟩ => show win4_7.index t (0 : Fin 2) * 5000 ≤ (i 0).val ∧ (i 0).val < win4_7.index t (0 : Fin 2) * 5000 + 5000; rw [e0, ht]; omega
  | ⟨1, _⟩ => show win4_7.index t (1 : Fin 2) * 128 ≤ (i 1).val ∧ (i 1).val < win4_7.index t (1 : Fin 2) * 128 + 128; rw [e1]; omega

/-- The first output array after the region. -/
theorem final4_7_fun (c : Dev nD) : (dat4 V c).arrAt 7 cfg4.N = x4 V c :=
  (dat4 V c).arrAt_eq_of_cover 7 (x4 V c) (fun t _ => flushed4_7_eq V c t) cover4_7

/-- The second output as one function of the region's entry arrays. -/
def H4 (c : Dev nD) : S100000x128.Idx → EReal := fun i =>
  (∑ k : Fin 128, x4 V c (ix2 (i 0) k) * arr S128x128 (V c main_v144) (ix2 k (i 1))) + arr S1x128 (V c main_v147) (ix2 0 (i 1))

/-- What point t writes back to the second output is block t of that function. -/
theorem flushed4_8_eq (c : Dev nD) (t : Fin cfg4.N) :
    (dat4 V c).flushed 8 t = ((cfg4.win 8).blk t).view.read (Elt Ideal) (H4 V c) := by
  show (cfg4.win 8).cut (grid4.coords t) ((dat4 V c).after 8 t) = _
  rw [after4_8]
  unfold out4_8
  rw [View.canon_unit_zero hz]
  simp only [View.ld_unit_zero (S := S5000x128) hz, View.ld_unit_zero (S := S1x128) hz, View.ld_unit_zero (S := S128x128) hz]
  obtain ⟨-, -, -, -, -, -, -, -, -, -, -, -, -, -, -, -, e0, e1⟩ := idx_facts4 t
  funext y
  obtain ⟨p, j, rfl⟩ : ∃ (p : Fin 5000) (j : Fin 128), y = ix2 p j := ⟨y 0, y 1, eq_ix2 y⟩
  have hr0 : ((((cfg4.win 8).blk t).view.emb (ix2 p j) : S100000x128.Idx) 0).val = 5000 * t.val + p.val := by
    show win4_8.index t (0 : Fin 2) * 5000 + 1 * p.val = _; rw [e0]; omega
  have hr1 : ((((cfg4.win 8).blk t).view.emb (ix2 p j) : S100000x128.Idx) 1).val = j.val := by
    show win4_8.index t (1 : Fin 2) * 128 + 1 * j.val = _; rw [e1]; omega
  show k4_pay2 (iblk4 V c 2 t) (iblk4 V c 3 t) (iblk4 V c 0 t) (iblk4 V c 1 t) (iblk4 V c 4 t) (iblk4 V c 5 t) (iblk4 V c 6 t) (ix2 p j)
    = H4 V c (((cfg4.win 8).blk t).view.emb (ix2 p j))
  generalize (((cfg4.win 8).blk t).view.emb (ix2 p j) : S100000x128.Idx) = i at hr0 hr1 ⊢
  refine (pay4_2_apply _ _ _ _ _ _ _ p j).trans ?_
  unfold H4
  refine congrArg₂ (· + ·) (Finset.sum_congr rfl fun k _ => congrArg₂ (· * ·) ?_ ?_) ?_
  · exact pay4_1_blk V c t p k (ix2 (i 0) k) hr0 rfl
  · rw [show (i 1 : Fin 128) = j from Fin.ext hr1]; exact blk4_5 V c t k j
  · rw [show (i 1 : Fin 128) = j from Fin.ext hr1]; exact blk4_6 V c t j

/-- An index is in point t's block of window 8 iff each coordinate is in the block's range. -/
theorem mem_blk4_8 (t : Fin cfg4.N) (i : S100000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole main_v148_1).slice (win4_8.rect t)).set ↔ _
  rw [View.set_slice_whole, Rect.mem_set_unit]
  exact Iff.rfl

/-- Every row r lies in the block of the point r / 5000. -/
theorem cover4_8 (i : S100000x128.Idx) : ∃ t : Fin cfg4.N, (cfg4.win 8).flush t = true ∧ i ∈ ((cfg4.win 8).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, -, -, -, -, -, -, -, -, -, e0, e1⟩ := idx_facts4 t
  have ht : t.val = (i 0).val / 5000 := rfl
  refine ⟨t, flush4_8 t, ?_⟩
  rw [mem_blk4_8]
  intro a
  match a with
  | ⟨0, _⟩ => show win4_8.index t (0 : Fin 2) * 5000 ≤ (i 0).val ∧ (i 0).val < win4_8.index t (0 : Fin 2) * 5000 + 5000; rw [e0, ht]; omega
  | ⟨1, _⟩ => show win4_8.index t (1 : Fin 2) * 128 ≤ (i 1).val ∧ (i 1).val < win4_8.index t (1 : Fin 2) * 128 + 128; rw [e1]; omega

/-- The second output array after the region. -/
theorem final4_8_fun (c : Dev nD) : (dat4 V c).arrAt 8 cfg4.N = H4 V c :=
  (dat4 V c).arrAt_eq_of_cover 8 (H4 V c) (fun t _ => flushed4_8_eq V c t) cover4_8

/-- The first output is the normalised and clipped array. -/
theorem final4_7 (c : Dev nD) (r : Fin 100000) (j : Fin 128) :
    (Gen.dat4 V c).arrAt 7 cfg4.N (ix2 r j) = x4 V c (ix2 r j) := by
  rw [final4_7_fun]

/-- The second output is its product with the matrix, plus the bias. -/
theorem final4_8 (c : Dev nD) (r : Fin 100000) (j : Fin 128) :
    (Gen.dat4 V c).arrAt 8 cfg4.N (ix2 r j)
      = (∑ k : Fin 128, x4 V c (ix2 r k) * arr S128x128 (V c main_v144) (ix2 k j)) + arr S1x128 (V c main_v147) (ix2 0 j) := by
  rw [final4_8_fun]; rfl

end Cert.KernelIdeal.KA

end
-- ==== Proof.K.Reg5.lean ====
/-
  A layer's scaled combination and its column sums by blocks: every row block of 5000 vertices is multiplied by the
  [128,128] matrix, the bias row and the edge sum's block are added and every row is scaled by its vertex's factor;
  the block's column sums, and the column sums of its squares, go to row 0 of the block's 8 rows of two [160,128]
  arrays, whose other rows are zero.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay2
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The scaled combination at an index: the vertex's factor times (the dense map of the row plus the edge sum). -/
def g5 (c : Dev nD) : S100000x128.Idx → EReal := fun i =>
  arr S100000x1 (V c main_v18) (ix2 (i 0) 0)
    * (((∑ k : Fin 128, arr S100000x128 (V c main_v148_0) (ix2 (i 0) k) * arr S128x128 (V c main_v174) (ix2 k (i 1)))
        + arr S1x128 (V c main_v177) (ix2 0 (i 1))) + arr S100000x128 (V c main_v171) i)

theorem g5_apply (c : Dev nD) (r : Fin 100000) (j : Fin 128) :
    g5 V c (ix2 r j) = arr S100000x1 (V c main_v18) (ix2 r 0)
      * (((∑ k : Fin 128, arr S100000x128 (V c main_v148_0) (ix2 r k) * arr S128x128 (V c main_v174) (ix2 k j))
          + arr S1x128 (V c main_v177) (ix2 0 j)) + arr S100000x128 (V c main_v171) (ix2 r j)) := rfl

/-- The body's scaled combination at an entry of the block. -/
theorem pay5_1_apply (v0 : Vec Ideal S5000x128 .f32) (v2 : Vec Ideal S128x128 .f32) (v6 : Vec Ideal S1x128 .f32)
    (v10 : Vec Ideal S5000x1 .f32) (v12 : Vec Ideal S5000x128 .f32) (p : Fin 5000) (j : Fin 128) :
    k5_pay1 v0 v2 v6 v10 v12 (ix2 p j)
      = v10 (ix2 p (0 : Fin 1)) * (((∑ k : Fin 128, v0 (ix2 p k) * v2 (ix2 k j)) + v6 (ix2 (0 : Fin 1) j)) + v12 (ix2 p j)) := by
  unfold k5_pay1
  simp only [shapeCast_self]
  rw [mulf_apply, addf_apply, broadcastTo_a1_ab_apply]
  exact congrArg (fun z => v10 (ix2 p (0 : Fin 1)) * (z + v12 (ix2 p j))) (dense_plain_apply _ v0 v2 v6 _ _ p j)

/-- The block's column sums on row 0 of the 8-row tile. -/
theorem pay5_3_apply (v0 : Vec Ideal S5000x128 .f32) (v2 : Vec Ideal S128x128 .f32) (v6 : Vec Ideal S1x128 .f32)
    (v10 : Vec Ideal S5000x1 .f32) (v12 : Vec Ideal S5000x128 .f32) (y : Fin 8) (j : Fin 128) :
    k5_pay3 v0 v2 v6 v10 v12 (ix2 y j)
      = if y.val = 0 then ∑ p : Fin 5000, k5_pay1 v0 v2 v6 v10 v12 (ix2 p j) else Cert.Spec.f0 := by
  unfold k5_pay3 k5_pay2
  simp only [shapeCast_self]
  exact colsum_tile_apply (k5_pay1 v0 v2 v6 v10 v12) _ _ _ _ _ _ y j

/-- The column sums of the block's squares on row 0 of the 8-row tile. -/
theorem pay5_4_apply (v0 : Vec Ideal S5000x128 .f32) (v2 : Vec Ideal S128x128 .f32) (v6 : Vec Ideal S1x128 .f32)
    (v10 : Vec Ideal S5000x1 .f32) (v12 : Vec Ideal S5000x128 .f32) (y : Fin 8) (j : Fin 128) :
    k5_pay4 v0 v2 v6 v10 v12 (ix2 y j)
      = if y.val = 0 then ∑ p : Fin 5000, k5_pay1 v0 v2 v6 v10 v12 (ix2 p j) * k5_pay1 v0 v2 v6 v10 v12 (ix2 p j)
        else Cert.Spec.f0 := by
  unfold k5_pay4 k5_pay2
  simp only [shapeCast_self]
  exact colsum_tile_apply (mulf (k5_pay1 v0 v2 v6 v10 v12) (k5_pay1 v0 v2 v6 v10 v12)) _ _ _ _ _ _ y j

/-- The block index maps over the 20 grid points: a row-blocked window's block moves with the point, a whole window stays. -/
theorem idx_facts5 : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0
    ∧ win5_4.index t (0 : Fin 2) = t.val
    ∧ win5_4.index t (1 : Fin 2) = 0
    ∧ win5_5.index t (0 : Fin 2) = t.val
    ∧ win5_5.index t (1 : Fin 2) = 0
    ∧ win5_6.index t (0 : Fin 2) = t.val
    ∧ win5_6.index t (1 : Fin 2) = 0
    ∧ win5_7.index t (0 : Fin 2) = t.val
    ∧ win5_7.index t (1 : Fin 2) = 0 :=
  (by decide +kernel : ∀ t : Fin grid5.N, _)

/-- Window 0's block at point t is rows 5000·t … 5000·t + 4999 of its array. -/
theorem blk5_0 (c : Dev nD) (t : Fin cfg5.N) (p : Fin 5000) (k : Fin 128) (i : S100000x128.Idx)
    (h0 : (i 0).val = 5000 * t.val + p.val) (h1 : (i 1).val = k.val) :
    iblk5 V c 0 t (ix2 p k) = arr S100000x128 (V c main_v148_0) i := by
  obtain ⟨e0, e1, -⟩ := idx_facts5 t
  unfold iblk5
  show V c main_v148_0 (((cfg5.win 0).blk t).view.emb (ix2 p k)) = V c main_v148_0 i
  refine congrArg (V c main_v148_0) ?_
  funext a; apply Fin.ext
  match a with
  | ⟨0, _⟩ => show win5_0.index t (0 : Fin 2) * 5000 + 1 * p.val = (i 0).val; rw [e0, h0]; omega
  | ⟨1, _⟩ => show win5_0.index t (1 : Fin 2) * 128 + 1 * k.val = (i 1).val; rw [e1, h1]; omega

/-- Window 1's block is its whole matrix at every point. -/
theorem blk5_1 (c : Dev nD) (t : Fin cfg5.N) (k : Fin 128) (j : Fin 128) :
    iblk5 V c 1 t (ix2 k j) = arr S128x128 (V c main_v174) (ix2 k j) := by
  obtain ⟨-, -, e0, e1, -⟩ := idx_facts5 t
  unfold iblk5
  show V c main_v174 (((cfg5.win 1).blk t).view.emb (ix2 k j)) = V c main_v174 (ix2 k j)
  refine congrArg (V c main_v174) ?_
  funext a; apply Fin.ext
  match a with
  | ⟨0, _⟩ => show win5_1.index t (0 : Fin 2) * 128 + 1 * k.val = k.val; rw [e0]; omega
  | ⟨1, _⟩ => show win5_1.index t (1 : Fin 2) * 128 + 1 * j.val = j.val; rw [e1]; omega

/-- Window 2's block is its whole row at every point. -/
theorem blk5_2 (c : Dev nD) (t : Fin cfg5.N) (j : Fin 128) :
    iblk5 V c 2 t (ix2 (0 : Fin 1) j) = arr S1x128 (V c main_v177) (ix2 (0 : Fin 1) j) := by
  obtain ⟨-, -, -, -, e0, e1, -⟩ := idx_facts5 t
  unfold iblk5
  show V c main_v177 (((cfg5.win 2).blk t).view.emb (ix2 (0 : Fin 1) j)) = V c main_v177 (ix2 (0 : Fin 1) j)
  refine congrArg (V c main_v177) ?_
  funext a; apply Fin.ext
  match a with
  | ⟨0, _⟩ => show win5_2.index t (0 : Fin 2) * 1 + 1 * 0 = 0; rw [e0]
  | ⟨1, _⟩ => show win5_2.index t (1 : Fin 2) * 128 + 1 * j.val = j.val; rw [e1]; omega

/-- Window 3's block at point t is rows 5000·t … 5000·t + 4999 of its array. -/
theorem blk5_3 (c : Dev nD) (t : Fin cfg5.N) (p : Fin 5000) (k : Fin 128) (i : S100000x128.Idx)
    (h0 : (i 0).val = 5000 * t.val + p.val) (h1 : (i 1).val = k.val) :
    iblk5 V c 3 t (ix2 p k) = arr S100000x128 (V c main_v171) i := by
  obtain ⟨-, -, -, -, -, -, e0, e1, -⟩ := idx_facts5 t
  unfold iblk5
  show V c main_v171 (((cfg5.win 3).blk t).view.emb (ix2 p k)) = V c main_v171 i
  refine congrArg (V c main_v171) ?_
  funext a; apply Fin.ext
  match a with
  | ⟨0, _⟩ => show win5_3.index t (0 : Fin 2) * 5000 + 1 * p.val = (i 0).val; rw [e0, h0]; omega
  | ⟨1, _⟩ => show win5_3.index t (1 : Fin 2) * 128 + 1 * k.val = (i 1).val; rw [e1, h1]; omega

/-- Window 4's block at point t is entries 5000·t … 5000·t + 4999 of its column. -/
theorem blk5_4 (c : Dev nD) (t : Fin cfg5.N) (p : Fin 5000) (i : S100000x1.Idx)
    (h0 : (i 0).val = 5000 * t.val + p.val) :
    iblk5 V c 4 t (ix2 p (0 : Fin 1)) = arr S100000x1 (V c main_v18) i := by
  obtain ⟨-, -, -, -, -, -, -, -, e0, e1, -⟩ := idx_facts5 t
  unfold iblk5
  show V c main_v18 (((cfg5.win 4).blk t).view.emb (ix2 p (0 : Fin 1))) = V c main_v18 i
  refine congrArg (V c main_v18) ?_
  funext a; apply Fin.ext
  match a with
  | ⟨0, _⟩ => show win5_4.index t (0 : Fin 2) * 5000 + 1 * p.val = (i 0).val; rw [e0, h0]; omega
  | ⟨1, _⟩ => show win5_4.index t (1 : Fin 2) * 1 + 1 * 0 = (i 1).val; rw [e1]; have hi1 : (i 1).val < 1 := (i 1).isLt; omega

/-- The value the body computes from the blocks at point t is the scaled combination at the row's place in the arrays. -/
theorem pay5_1_blk (c : Dev nD) (t : Fin cfg5.N) (p : Fin 5000) (j : Fin 128) (i : S100000x128.Idx)
    (h0 : (i 0).val = 5000 * t.val + p.val) (h1 : (i 1).val = j.val) :
    k5_pay1 (iblk5 V c 0 t) (iblk5 V c 1 t) (iblk5 V c 2 t) (iblk5 V c 4 t) (iblk5 V c 3 t) (ix2 p j) = g5 V c i := by
  refine (pay5_1_apply _ _ _ _ _ p j).trans ?_
  unfold g5
  refine congrArg₂ (· * ·) (blk5_4 V c t p (ix2 (i 0) 0) h0)
    (congrArg₂ (· + ·) (congrArg₂ (· + ·) (Finset.sum_congr rfl fun k _ =>
      congrArg₂ (· * ·) (blk5_0 V c t p k (ix2 (i 0) k) h0 rfl) ?_) ?_) (blk5_3 V c t p j i h0 h1))
  · rw [show (i 1 : Fin 128) = j from Fin.ext h1]; exact blk5_1 V c t k j
  · rw [show (i 1 : Fin 128) = j from Fin.ext h1]; exact blk5_2 V c t j

/-- What point t writes back to the first output is block t of the scaled combination. -/
theorem flushed5_5_eq (c : Dev nD) (t : Fin cfg5.N) :
    (dat5 V c).flushed 5 t = ((cfg5.win 5).blk t).view.read (Elt Ideal) (g5 V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, e0, e1, -⟩ := idx_facts5 t
  funext y
  obtain ⟨p, j, rfl⟩ : ∃ (p : Fin 5000) (j : Fin 128), y = ix2 p j := ⟨y 0, y 1, eq_ix2 y⟩
  have hr0 : ((((cfg5.win 5).blk t).view.emb (ix2 p j) : S100000x128.Idx) 0).val = 5000 * t.val + p.val := by
    show win5_5.index t (0 : Fin 2) * 5000 + 1 * p.val = _; rw [e0]; omega
  have hr1 : ((((cfg5.win 5).blk t).view.emb (ix2 p j) : S100000x128.Idx) 1).val = j.val := by
    show win5_5.index t (1 : Fin 2) * 128 + 1 * j.val = _; rw [e1]; omega
  exact pay5_1_blk V c t p j _ hr0 hr1

/-- An index is in point t's block of window 5 iff each coordinate is in the block's range. -/
theorem mem_blk5_5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v178_0).slice (win5_5.rect t)).set ↔ _
  rw [View.set_slice_whole, Rect.mem_set_unit]
  exact Iff.rfl

/-- Every row r lies in the block of the point r / 5000. -/
theorem cover5_5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨-, -, -, -, -, -, -, -, -, -, e0, e1, -⟩ := idx_facts5 t
  have ht : t.val = (i 0).val / 5000 := rfl
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 128 ≤ (i 1).val ∧ (i 1).val < win5_5.index t (1 : Fin 2) * 128 + 128; rw [e1]; omega

/-- The first output array after the region. -/
theorem final5_5_fun (c : Dev nD) : (dat5 V c).arrAt 5 cfg5.N = g5 V c :=
  (dat5 V c).arrAt_eq_of_cover 5 (g5 V c) (fun t _ => flushed5_5_eq V c t) cover5_5

/-- Entry (q, j) of the second output: on a row 8·t the sum over block t's rows, zero on the other rows. -/
def S5_6 (c : Dev nD) (q : Fin 160) (j : Fin 128) : EReal :=
  if q.val % 8 = 0 then ∑ p : Fin 5000, g5 V c (ix2 (⟨5000 * (q.val / 8) + p.val, by have := q.isLt; have := p.isLt; omega⟩ : Fin 100000) j) else Cert.Spec.f0
def G5_6 (c : Dev nD) : S160x128.Idx → EReal := fun i => S5_6 V c (i 0) (i 1)

/-- What point t writes back is its 8-row tile of that array. -/
theorem flushed5_6_eq (c : Dev nD) (t : Fin cfg5.N) :
    (dat5 V c).flushed 6 t = ((cfg5.win 6).blk t).view.read (Elt Ideal) (G5_6 V c) := by
  show (cfg5.win 6).cut (grid5.coords t) ((dat5 V c).after 6 t) = _
  rw [after5_6]
  unfold out5_6
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, -, -, e0, e1, -⟩ := idx_facts5 t
  funext y'
  obtain ⟨y, j, rfl⟩ : ∃ (y : Fin 8) (j : Fin 128), y' = ix2 y j := ⟨y' 0, y' 1, eq_ix2 y'⟩
  have hr0 : ((((cfg5.win 6).blk t).view.emb (ix2 y j) : S160x128.Idx) 0).val = 8 * t.val + y.val := by
    show win5_6.index t (0 : Fin 2) * 8 + 1 * y.val = _; rw [e0]; omega
  have hr1 : ((((cfg5.win 6).blk t).view.emb (ix2 y j) : S160x128.Idx) 1).val = j.val := by
    show win5_6.index t (1 : Fin 2) * 128 + 1 * j.val = _; rw [e1]; omega
  show k5_pay3 (iblk5 V c 0 t) (iblk5 V c 1 t) (iblk5 V c 2 t) (iblk5 V c 4 t) (iblk5 V c 3 t) (ix2 y j) = G5_6 V c (((cfg5.win 6).blk t).view.emb (ix2 y j))
  generalize (((cfg5.win 6).blk t).view.emb (ix2 y j) : S160x128.Idx) = i at hr0 hr1 ⊢
  refine (pay5_3_apply _ _ _ _ _ y j).trans ?_
  unfold G5_6 S5_6
  have hy : y.val < 8 := y.isLt
  have htl : t.val < 20 := by have := t.isLt; have hN : cfg5.N = 20 := N_5; omega
  by_cases h : y.val = 0
  · rw [if_pos h, if_pos (show (i 0).val % 8 = 0 by omega)]
    refine Finset.sum_congr rfl fun p _ => ?_
    have hp : k5_pay1 (iblk5 V c 0 t) (iblk5 V c 1 t) (iblk5 V c 2 t) (iblk5 V c 4 t) (iblk5 V c 3 t) (ix2 p j)
        = g5 V c (ix2 (⟨5000 * ((i 0).val / 8) + p.val, by have := p.isLt; omega⟩ : Fin 100000) (i 1)) :=
      pay5_1_blk V c t p j _ (show 5000 * ((i 0).val / 8) + p.val = 5000 * t.val + p.val by omega) hr1
    exact hp
  · rw [if_neg h, if_neg (show ¬ (i 0).val % 8 = 0 by omega)]

/-- An index is in point t's block of window 6 iff each coordinate is in the block's range. -/
theorem mem_blk5_6 (t : Fin cfg5.N) (i : S160x128.Idx) :
    i ∈ ((cfg5.win 6).blk t).view.set ↔ ∀ a : Fin 2, win5_6.index t a * S8x128.size a ≤ (i a).val ∧ (i a).val < win5_6.index t a * S8x128.size a + S8x128.size a := by
  show i ∈ ((View.whole main_v178_1).slice (win5_6.rect t)).set ↔ _
  rw [View.set_slice_whole, Rect.mem_set_unit]
  exact Iff.rfl

/-- Every row r lies in the block of the point r / 8. -/
theorem cover5_6 (i : S160x128.Idx) : ∃ t : Fin cfg5.N, (cfg5.win 6).flush t = true ∧ i ∈ ((cfg5.win 6).blk t).view.set := by
  have hi0 : (i 0).val < 160 := (i 0).isLt
  have hi1 : (i 1).val < 128 := (i 1).isLt
  have hN : cfg5.N = 20 := N_5
  let t : Fin cfg5.N := ⟨(i 0).val / 8, by rw [hN]; omega⟩
  obtain ⟨-, -, -, -, -, -, -, -, -, -, -, -, e0, e1, -⟩ := idx_facts5 t
  have ht : t.val = (i 0).val / 8 := rfl
  refine ⟨t, flush5_6 t, ?_⟩
  rw [mem_blk5_6]
  intro a
  match a with
  | ⟨0, _⟩ => show win5_6.index t (0 : Fin 2) * 8 ≤ (i 0).val ∧ (i 0).val < win5_6.index t (0 : Fin 2) * 8 + 8; rw [e0, ht]; omega
  | ⟨1, _⟩ => show win5_6.index t (1 : Fin 2) * 128 ≤ (i 1).val ∧ (i 1).val < win5_6.index t (1 : Fin 2) * 128 + 128; rw [e1]; omega

/-- The array after the region. -/
theorem final5_6_fun (c : Dev nD) : (dat5 V c).arrAt 6 cfg5.N = G5_6 V c :=
  (dat5 V c).arrAt_eq_of_cover 6 (G5_6 V c) (fun t _ => flushed5_6_eq V c t) cover5_6

/-- Entry (q, j) of the third output: on a row 8·t the sum over block t's rows of the squares, zero on the other rows. -/
def S5_7 (c : Dev nD) (q : Fin 160) (j : Fin 128) : EReal :=
  if q.val % 8 = 0 then ∑ p : Fin 5000, g5 V c (ix2 (⟨5000 * (q.val / 8) + p.val, by have := q.isLt; have := p.isLt; omega⟩ : Fin 100000) j) * g5 V c (ix2 (⟨5000 * (q.val / 8) + p.val, by have := q.isLt; have := p.isLt; omega⟩ : Fin 100000) j) else Cert.Spec.f0
def G5_7 (c : Dev nD) : S160x128.Idx → EReal := fun i => S5_7 V c (i 0) (i 1)

/-- What point t writes back is its 8-row tile of that array. -/
theorem flushed5_7_eq (c : Dev nD) (t : Fin cfg5.N) :
    (dat5 V c).flushed 7 t = ((cfg5.win 7).blk t).view.read (Elt Ideal) (G5_7 V c) := by
  show (cfg5.win 7).cut (grid5.coords t) ((dat5 V c).after 7 t) = _
  rw [after5_7]
  unfold out5_7
  rw [View.canon_unit_zero hz]
  simp only [View.ld_unit_zero (S := S5000x128) hz, View.ld_unit_zero (S := S128x128) hz, View.ld_unit_zero (S := S1x128) hz, View.ld_unit_zero (S := S5000x1) hz]
  obtain ⟨-, -, -, -, -, -, -, -, -, -, -, -, -, -, e0, e1⟩ := idx_facts5 t
  funext y'
  obtain ⟨y, j, rfl⟩ : ∃ (y : Fin 8) (j : Fin 128), y' = ix2 y j := ⟨y' 0, y' 1, eq_ix2 y'⟩
  have hr0 : ((((cfg5.win 7).blk t).view.emb (ix2 y j) : S160x128.Idx) 0).val = 8 * t.val + y.val := by
    show win5_7.index t (0 : Fin 2) * 8 + 1 * y.val = _; rw [e0]; omega
  have hr1 : ((((cfg5.win 7).blk t).view.emb (ix2 y j) : S160x128.Idx) 1).val = j.val := by
    show win5_7.index t (1 : Fin 2) * 128 + 1 * j.val = _; rw [e1]; omega
  show k5_pay4 (iblk5 V c 0 t) (iblk5 V c 1 t) (iblk5 V c 2 t) (iblk5 V c 4 t) (iblk5 V c 3 t) (ix2 y j) = G5_7 V c (((cfg5.win 7).blk t).view.emb (ix2 y j))
  generalize (((cfg5.win 7).blk t).view.emb (ix2 y j) : S160x128.Idx) = i at hr0 hr1 ⊢
  refine (pay5_4_apply _ _ _ _ _ y j).trans ?_
  unfold G5_7 S5_7
  have hy : y.val < 8 := y.isLt
  have htl : t.val < 20 := by have := t.isLt; have hN : cfg5.N = 20 := N_5; omega
  by_cases h : y.val = 0
  · rw [if_pos h, if_pos (show (i 0).val % 8 = 0 by omega)]
    refine Finset.sum_congr rfl fun p _ => ?_
    have hp : k5_pay1 (iblk5 V c 0 t) (iblk5 V c 1 t) (iblk5 V c 2 t) (iblk5 V c 4 t) (iblk5 V c 3 t) (ix2 p j)
        = g5 V c (ix2 (⟨5000 * ((i 0).val / 8) + p.val, by have := p.isLt; omega⟩ : Fin 100000) (i 1)) :=
      pay5_1_blk V c t p j _ (show 5000 * ((i 0).val / 8) + p.val = 5000 * t.val + p.val by omega) hr1
    rw [hp]
  · rw [if_neg h, if_neg (show ¬ (i 0).val % 8 = 0 by omega)]

/-- An index is in point t's block of window 7 iff each coordinate is in the block's range. -/
theorem mem_blk5_7 (t : Fin cfg5.N) (i : S160x128.Idx) :
    i ∈ ((cfg5.win 7).blk t).view.set ↔ ∀ a : Fin 2, win5_7.index t a * S8x128.size a ≤ (i a).val ∧ (i a).val < win5_7.index t a * S8x128.size a + S8x128.size a := by
  show i ∈ ((View.whole main_v178_2).slice (win5_7.rect t)).set ↔ _
  rw [View.set_slice_whole, Rect.mem_set_unit]
  exact Iff.rfl

/-- Every row r lies in the block of the point r / 8. -/
theorem cover5_7 (i : S160x128.Idx) : ∃ t : Fin cfg5.N, (cfg5.win 7).flush t = true ∧ i ∈ ((cfg5.win 7).blk t).view.set := by
  have hi0 : (i 0).val < 160 := (i 0).isLt
  have hi1 : (i 1).val < 128 := (i 1).isLt
  have hN : cfg5.N = 20 := N_5
  let t : Fin cfg5.N := ⟨(i 0).val / 8, by rw [hN]; omega⟩
  obtain ⟨-, -, -, -, -, -, -, -, -, -, -, -, -, -, e0, e1⟩ := idx_facts5 t
  have ht : t.val = (i 0).val / 8 := rfl
  refine ⟨t, flush5_7 t, ?_⟩
  rw [mem_blk5_7]
  intro a
  match a with
  | ⟨0, _⟩ => show win5_7.index t (0 : Fin 2) * 8 ≤ (i 0).val ∧ (i 0).val < win5_7.index t (0 : Fin 2) * 8 + 8; rw [e0, ht]; omega
  | ⟨1, _⟩ => show win5_7.index t (1 : Fin 2) * 128 ≤ (i 1).val ∧ (i 1).val < win5_7.index t (1 : Fin 2) * 128 + 128; rw [e1]; omega

/-- The array after the region. -/
theorem final5_7_fun (c : Dev nD) : (dat5 V c).arrAt 7 cfg5.N = G5_7 V c :=
  (dat5 V c).arrAt_eq_of_cover 7 (G5_7 V c) (fun t _ => flushed5_7_eq V c t) cover5_7

/-- The first output is the scaled combination, entry by entry. -/
theorem final5_5 (c : Dev nD) (r : Fin 100000) (j : Fin 128) :
    (Gen.dat5 V c).arrAt 5 cfg5.N (ix2 r j) = g5 V c (ix2 r j) := by
  rw [final5_5_fun]

/-- The second output: row 8·t of the [160,128] array holds block t's column sums, every other row zero. -/
theorem final5_6 (c : Dev nD) (q : Fin 160) (j : Fin 128) :
    (Gen.dat5 V c).arrAt 6 cfg5.N (ix2 q j)
      = if q.val % 8 = 0 then
          ∑ p : Fin 5000, g5 V c (ix2 (⟨5000 * (q.val / 8) + p.val, by have := q.isLt; have := p.isLt; omega⟩ : Fin 100000) j)
        else Cert.Spec.f0 := by
  rw [final5_6_fun]; rfl

/-- The third output: the same with the squares. -/
theorem final5_7 (c : Dev nD) (q : Fin 160) (j : Fin 128) :
    (Gen.dat5 V c).arrAt 7 cfg5.N (ix2 q j)
      = if q.val % 8 = 0 then
          ∑ p : Fin 5000, g5 V c (ix2 (⟨5000 * (q.val / 8) + p.val, by have := q.isLt; have := p.isLt; omega⟩ : Fin 100000) j)
            * g5 V c (ix2 (⟨5000 * (q.val / 8) + p.val, by have := q.isLt; have := p.isLt; omega⟩ : Fin 100000) j)
        else Cert.Spec.f0 := by
  rw [final5_7_fun]; rfl

end Cert.KernelIdeal.KA

end
-- ==== Proof.K.Reg6.lean ====
/-
  The last normalisation: as in the earlier layers, then the network's input is added back before clipping at zero.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.Pay
import Idealize.ShloMosaic.Lib.Pipeline.Value
set_option maxRecDepth 16384

noncomputable section

namespace Cert.KernelIdeal.KA

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The result as one function of the region's entry arrays. -/
def G6 (c : Dev nD) : S100000x128.Idx → EReal := fun i =>
  max ((arr S1x128 (V c main_v199) (ix2 0 (i 1)) * (arr S100000x128 (V c main_v178_0) i - arr S1x128 (V c main_v190) (ix2 0 (i 1)))
          * Ideal.rsqrt (arr S1x128 (V c main_v196) (ix2 0 (i 1)) + Cert.Spec.eps)
        + arr S1x128 (V c main_v202) (ix2 0 (i 1))) + arr S100000x128 (V c main_arg0) i) Cert.Spec.f0

/-- The body's stored value at an entry of the block. -/
theorem pay6_apply (v0 v5 : Vec Ideal S1x128 .f32) (v7 : Vec Ideal S5000x128 .f32) (v9 v17 : Vec Ideal S1x128 .f32)
    (v21 : Vec Ideal S5000x128 .f32) (p : Fin 5000) (j : Fin 128) :
    k6_pay1 v0 v5 v7 v9 v17 v21 (ix2 p j)
      = max ((v5 (ix2 (0 : Fin 1) j) * (v7 (ix2 p j) - v9 (ix2 (0 : Fin 1) j))
              * Ideal.rsqrt (v0 (ix2 (0 : Fin 1) j) + Cert.Spec.eps) + v17 (ix2 (0 : Fin 1) j)) + v21 (ix2 p j)) Cert.Spec.f0 := by
  unfold k6_pay1
  simp only [maximumf_apply, addf_apply, mulf_apply, subf_apply, broadcastTo_1b_ab_apply, shapeCast_self, broadcast_apply]
  rfl

/-- The block index maps over the 20 grid points: a row-blocked window's block moves with the point, a whole window stays. -/
theorem idx_facts6 : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0
    ∧ win6_6.index t (0 : Fin 2) = t.val
    ∧ win6_6.index t (1 : Fin 2) = 0 :=
  (by decide +kernel : ∀ t : Fin grid6.N, _)

/-- Window 0's block at point t is rows 5000·t … 5000·t + 4999 of its array. -/
theorem blk6_0 (c : Dev nD) (t : Fin cfg6.N) (p : Fin 5000) (k : Fin 128) (i : S100000x128.Idx)
    (h0 : (i 0).val = 5000 * t.val + p.val) (h1 : (i 1).val = k.val) :
    iblk6 V c 0 t (ix2 p k) = arr S100000x128 (V c main_v178_0) i := by
  obtain ⟨e0, e1, -⟩ := idx_facts6 t
  unfold iblk6
  show V c main_v178_0 (((cfg6.win 0).blk t).view.emb (ix2 p k)) = V c main_v178_0 i
  refine congrArg (V c main_v178_0) ?_
  funext a; apply Fin.ext
  match a with
  | ⟨0, _⟩ => show win6_0.index t (0 : Fin 2) * 5000 + 1 * p.val = (i 0).val; rw [e0, h0]; omega
  | ⟨1, _⟩ => show win6_0.index t (1 : Fin 2) * 128 + 1 * k.val = (i 1).val; rw [e1, h1]; omega

/-- Window 1's block is its whole row at every point. -/
theorem blk6_1 (c : Dev nD) (t : Fin cfg6.N) (j : Fin 128) :
    iblk6 V c 1 t (ix2 (0 : Fin 1) j) = arr S1x128 (V c main_v190) (ix2 (0 : Fin 1) j) := by
  obtain ⟨-, -, e0, e1, -⟩ := idx_facts6 t
  unfold iblk6
  show V c main_v190 (((cfg6.win 1).blk t).view.emb (ix2 (0 : Fin 1) j)) = V c main_v190 (ix2 (0 : Fin 1) j)
  refine congrArg (V c main_v190) ?_
  funext a; apply Fin.ext
  match a with
  | ⟨0, _⟩ => show win6_1.index t (0 : Fin 2) * 1 + 1 * 0 = 0; rw [e0]
  | ⟨1, _⟩ => show win6_1.index t (1 : Fin 2) * 128 + 1 * j.val = j.val; rw [e1]; omega

/-- Window 2's block is its whole row at every point. -/
theorem blk6_2 (c : Dev nD) (t : Fin cfg6.N) (j : Fin 128) :
    iblk6 V c 2 t (ix2 (0 : Fin 1) j) = arr S1x128 (V c main_v196) (ix2 (0 : Fin 1) j) := by
  obtain ⟨-, -, -, -, e0, e1, -⟩ := idx_facts6 t
  unfold iblk6
  show V c main_v196 (((cfg6.win 2).blk t).view.emb (ix2 (0 : Fin 1) j)) = V c main_v196 (ix2 (0 : Fin 1) j)
  refine congrArg (V c main_v196) ?_
  funext a; apply Fin.ext
  match a with
  | ⟨0, _⟩ => show win6_2.index t (0 : Fin 2) * 1 + 1 * 0 = 0; rw [e0]
  | ⟨1, _⟩ => show win6_2.index t (1 : Fin 2) * 128 + 1 * j.val = j.val; rw [e1]; omega

/-- Window 3's block is its whole row at every point. -/
theorem blk6_3 (c : Dev nD) (t : Fin cfg6.N) (j : Fin 128) :
    iblk6 V c 3 t (ix2 (0 : Fin 1) j) = arr S1x128 (V c main_v199) (ix2 (0 : Fin 1) j) := by
  obtain ⟨-, -, -, -, -, -, e0, e1, -⟩ := idx_facts6 t
  unfold iblk6
  show V c main_v199 (((cfg6.win 3).blk t).view.emb (ix2 (0 : Fin 1) j)) = V c main_v199 (ix2 (0 : Fin 1) j)
  refine congrArg (V c main_v199) ?_
  funext a; apply Fin.ext
  match a with
  | ⟨0, _⟩ => show win6_3.index t (0 : Fin 2) * 1 + 1 * 0 = 0; rw [e0]
  | ⟨1, _⟩ => show win6_3.index t (1 : Fin 2) * 128 + 1 * j.val = j.val; rw [e1]; omega

/-- Window 4's block is its whole row at every point. -/
theorem blk6_4 (c : Dev nD) (t : Fin cfg6.N) (j : Fin 128) :
    iblk6 V c 4 t (ix2 (0 : Fin 1) j) = arr S1x128 (V c main_v202) (ix2 (0 : Fin 1) j) := by
  obtain ⟨-, -, -, -, -, -, -, -, e0, e1, -⟩ := idx_facts6 t
  unfold iblk6
  show V c main_v202 (((cfg6.win 4).blk t).view.emb (ix2 (0 : Fin 1) j)) = V c main_v202 (ix2 (0 : Fin 1) j)
  refine congrArg (V c main_v202) ?_
  funext a; apply Fin.ext
  match a with
  | ⟨0, _⟩ => show win6_4.index t (0 : Fin 2) * 1 + 1 * 0 = 0; rw [e0]
  | ⟨1, _⟩ => show win6_4.index t (1 : Fin 2) * 128 + 1 * j.val = j.val; rw [e1]; omega

/-- Window 5's block at point t is rows 5000·t … 5000·t + 4999 of its array. -/
theorem blk6_5 (c : Dev nD) (t : Fin cfg6.N) (p : Fin 5000) (k : Fin 128) (i : S100000x128.Idx)
    (h0 : (i 0).val = 5000 * t.val + p.val) (h1 : (i 1).val = k.val) :
    iblk6 V c 5 t (ix2 p k) = arr S100000x128 (V c main_arg0) i := by
  obtain ⟨-, -, -, -, -, -, -, -, -, -, e0, e1, -⟩ := idx_facts6 t
  unfold iblk6
  show V c main_arg0 (((cfg6.win 5).blk t).view.emb (ix2 p k)) = V c main_arg0 i
  refine congrArg (V c main_arg0) ?_
  funext a; apply Fin.ext
  match a with
  | ⟨0, _⟩ => show win6_5.index t (0 : Fin 2) * 5000 + 1 * p.val = (i 0).val; rw [e0, h0]; omega
  | ⟨1, _⟩ => show win6_5.index t (1 : Fin 2) * 128 + 1 * k.val = (i 1).val; rw [e1, h1]; omega

/-- What point t writes back is block t of the result function. -/
theorem flushed6_eq (c : Dev nD) (t : Fin cfg6.N) :
    (dat6 V c).flushed 6 t = ((cfg6.win 6).blk t).view.read (Elt Ideal) (G6 V c) := by
  show (cfg6.win 6).cut (grid6.coords t) ((dat6 V c).after 6 t) = _
  rw [after6_6]
  unfold out6_6
  rw [View.canon_unit_zero hz]
  simp only [View.ld_unit_zero (S := S5000x128) hz, View.ld_unit_zero (S := S1x128) hz]
  obtain ⟨-, -, -, -, -, -, -, -, -, -, -, -, e0, e1⟩ := idx_facts6 t
  funext y
  obtain ⟨p, j, rfl⟩ : ∃ (p : Fin 5000) (j : Fin 128), y = ix2 p j := ⟨y 0, y 1, eq_ix2 y⟩
  have hr0 : ((((cfg6.win 6).blk t).view.emb (ix2 p j) : S100000x128.Idx) 0).val = 5000 * t.val + p.val := by
    show win6_6.index t (0 : Fin 2) * 5000 + 1 * p.val = _; rw [e0]; omega
  have hr1 : ((((cfg6.win 6).blk t).view.emb (ix2 p j) : S100000x128.Idx) 1).val = j.val := by
    show win6_6.index t (1 : Fin 2) * 128 + 1 * j.val = _; rw [e1]; omega
  show k6_pay1 (iblk6 V c 2 t) (iblk6 V c 3 t) (iblk6 V c 0 t) (iblk6 V c 1 t) (iblk6 V c 4 t) (iblk6 V c 5 t) (ix2 p j)
    = G6 V c (((cfg6.win 6).blk t).view.emb (ix2 p j))
  generalize (((cfg6.win 6).blk t).view.emb (ix2 p j) : S100000x128.Idx) = i at hr0 hr1 ⊢
  refine (pay6_apply _ _ _ _ _ _ p j).trans ?_
  unfold G6
  rw [show (i 1 : Fin 128) = j from Fin.ext hr1]
  rw [blk6_0 V c t p j i hr0 hr1, blk6_1 V c t j, blk6_2 V c t j, blk6_3 V c t j, blk6_4 V c t j, blk6_5 V c t p j i hr0 hr1]

/-- An index is in point t's block of window 6 iff each coordinate is in the block's range. -/
theorem mem_blk6_6 (t : Fin cfg6.N) (i : S100000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v203).slice (win6_6.rect t)).set ↔ _
  rw [View.set_slice_whole, Rect.mem_set_unit]
  exact Iff.rfl

/-- Every row r lies in the block of the point r / 5000. -/
theorem cover6_6 (i : S100000x128.Idx) : ∃ t : Fin cfg6.N, (cfg6.win 6).flush t = true ∧ i ∈ ((cfg6.win 6).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨-, -, -, -, -, -, -, -, -, -, -, -, e0, e1⟩ := idx_facts6 t
  have ht : t.val = (i 0).val / 5000 := rfl
  refine ⟨t, flush6_6 t, ?_⟩
  rw [mem_blk6_6]
  intro a
  match a with
  | ⟨0, _⟩ => show win6_6.index t (0 : Fin 2) * 5000 ≤ (i 0).val ∧ (i 0).val < win6_6.index t (0 : Fin 2) * 5000 + 5000; rw [e0, ht]; omega
  | ⟨1, _⟩ => show win6_6.index t (1 : Fin 2) * 128 ≤ (i 1).val ∧ (i 1).val < win6_6.index t (1 : Fin 2) * 128 + 128; rw [e1]; omega

/-- The result array after the region. -/
theorem final6_fun (c : Dev nD) : (dat6 V c).arrAt 6 cfg6.N = G6 V c :=
  (dat6 V c).arrAt_eq_of_cover 6 (G6 V c) (fun t _ => flushed6_eq V c t) cover6_6

/-- Entry (r, j) of the result. -/
theorem final6_6 (c : Dev nD) (r : Fin 100000) (j : Fin 128) :
    (Gen.dat6 V c).arrAt 6 cfg6.N (ix2 r j)
      = max ((arr S1x128 (V c main_v199) (ix2 0 j) * (arr S100000x128 (V c main_v178_0) (ix2 r j) - arr S1x128 (V c main_v190) (ix2 0 j))
            * Ideal.rsqrt (arr S1x128 (V c main_v196) (ix2 0 j) + Cert.Spec.eps)
          + arr S1x128 (V c main_v202) (ix2 0 j)) + arr S100000x128 (V c main_arg0) (ix2 r j)) Cert.Spec.f0 := by
  rw [final6_fun]; rfl

end Cert.KernelIdeal.KA

end
-- ==== Proof.K.HostLib.lean ====
/-
  Index-by-index readings of the host operations that sit between the kernel program's regions, over variable arrays:
  a [128,128] slab of a [3,128,128] weight array, transposed; a row of a [3,128] array kept as a [1,128] row; the column
  sums of a [160,128] array of per-block partial sums (row 8·t holds block t's sums, the other rows zero), and the mean
  and variance rows made from them; and the three pointwise combinations a layer is made of, each identified with the
  specification's spelling.
-/
import proofs.«178513_j90202903151305_2_alg».proof.Proof.Spec
import proofs.«178513_j90202903151305_2_alg».proof.Proof.LibPayIdx
import Idealize.ShloMosaic.Lib.ValueLayout
import Idealize.ShloMosaic.Lib.IdealHost
import Idealize.ShloMosaic.PureOps.Ideal.Laws

set_option maxRecDepth 16384

noncomputable section

namespace Cert.KernelIdeal.KB

open Idealize.ShloMosaic Idealize.ShloMosaic.ValueIdx Cert.Spec
open scoped BigOperators

/-! ## Layout readings -/

/-- Slab o of a [3,128,128] array, as a [128,128] matrix, transposed: entry (k, j) is the array's entry (o, j, k). -/
theorem wT_apply (o : ℕ) (l : Fin 3) (hl : l.val = o) (X : (⟨3, ![3, 128, 128]⟩ : Shape).Idx → EReal)
    (hs : (⟨3, ![3, 128, 128]⟩ : Shape).Slices ![o, 0, 0] ⟨3, ![1, 128, 128]⟩)
    (hc : (⟨3, ![1, 128, 128]⟩ : Shape).ShapeCasts ⟨2, ![128, 128]⟩)
    (ht : (⟨2, ![128, 128]⟩ : Shape).Transposes [1, 0] ⟨2, ![128, 128]⟩) (k j : Fin 128) :
    transpose ⟨2, ![128, 128]⟩ [1, 0]
        (shapeCast ⟨2, ![128, 128]⟩ (extractStridedSlice ⟨3, ![1, 128, 128]⟩ ![o, 0, 0] X hs) hc) ht (ix2 k j)
      = X (ix3 l j k) := by
  refine (transpose_ix2_apply _ ht k j).trans ?_
  refine (shapeCast_1ab_ab_apply _ hc j k).trans ?_
  refine extractStridedSlice_apply _ _ hs _ _ (fun ax => ?_)
  match ax with
  | ⟨0, _⟩ => show l.val = o + 0; omega
  | ⟨1, _⟩ => exact (Nat.zero_add _).symm
  | ⟨2, _⟩ => exact (Nat.zero_add _).symm

/-- Row o of a [3,128] array, cut out, flattened and kept as a [1,128] row: entry (0, j) is the array's entry (o, j). -/
theorem row_apply (o : ℕ) (l : Fin 3) (hl : l.val = o) (B : (⟨2, ![3, 128]⟩ : Shape).Idx → EReal)
    (hs : (⟨2, ![3, 128]⟩ : Shape).Slices ![o, 0] ⟨2, ![1, 128]⟩)
    (h1 : (⟨2, ![1, 128]⟩ : Shape).ShapeCasts ⟨1, ![128]⟩) (h2 : (⟨1, ![128]⟩ : Shape).ShapeCasts ⟨2, ![1, 128]⟩)
    (j : Fin 128) :
    shapeCast ⟨2, ![1, 128]⟩ (shapeCast ⟨1, ![128]⟩ (extractStridedSlice ⟨2, ![1, 128]⟩ ![o, 0] B hs) h1) h2 (ix2 0 j)
      = B (ix2 l j) := by
  refine (shapeCast_a_1a_apply _ h2 0 j).trans ?_
  refine (shapeCast_1a_a_apply _ h1 j).trans ?_
  exact slice2_axis0_apply o B hs 0 j l (by show l.val = o + 0; omega)

/-! ## Column sums by blocks -/

/-- What a combine region leaves in a [160,128] array of partial sums: row 8·t holds, per column, the sum of G over
    the 5000 rows of block t; every other row is zero. -/
def blockSumAt (G : Arr) (q : Fin 160) (j : Fin 128) : EReal :=
  if q.val % 8 = 0 then
    ∑ p : Fin 5000, G (ix2 (⟨5000 * (q.val / 8) + p.val, by have := q.isLt; have := p.isLt; omega⟩ : Fin 100000) j)
  else f0

/-- Zero plus the 20 block sums is the specification's sum by blocks. -/
theorem blockSums_total (G : Arr) (P : (⟨2, ![160, 128]⟩ : Shape).Idx → EReal)
    (hP : ∀ q j, P (ix2 q j) = blockSumAt G q j) (j : Fin 128) :
    f0 + ∑ t : Fin 20, P (ix2 (⟨8 * t.val, by have := t.isLt; omega⟩ : Fin 160) j) = sumK (fun r => G (ix2 r j)) := by
  have h0 : f0 = 0 := Ideal.ofBits_zero_f32
  rw [h0, zero_add]
  unfold sumK
  refine Finset.sum_congr rfl fun t _ => ?_
  rw [hP]
  unfold blockSumAt
  rw [if_pos (by show 8 * t.val % 8 = 0; omega)]
  refine Finset.sum_congr rfl fun p _ => ?_
  refine congrArg (fun r : Fin 100000 => G (ix2 r j)) (Fin.ext ?_)
  show 5000 * (8 * t.val / 8) + p.val = 5000 * t.val + p.val
  omega

/-- Row 0 of each block of 8 rows of a [160,128] array, summed over the 20 blocks from a zero start and kept as a
    [1,128] row: entry (0, j) is zero plus the sum over t of the array's entry (8·t, j). -/
theorem sumRow_apply (P : (⟨2, ![160, 128]⟩ : Shape).Idx → EReal)
    (h1 : (⟨2, ![160, 128]⟩ : Shape).ShapeCasts ⟨3, ![20, 8, 128]⟩)
    (hs : (⟨3, ![20, 8, 128]⟩ : Shape).Slices ![0, 0, 0] ⟨3, ![20, 1, 128]⟩)
    (h2 : (⟨3, ![20, 1, 128]⟩ : Shape).ShapeCasts ⟨2, ![20, 128]⟩)
    (hr : (⟨2, ![20, 128]⟩ : Shape).ReducesTo [0] ⟨1, ![128]⟩) (hu : 0 < (⟨0, ![]⟩ : Shape).numel)
    (hb : (⟨1, ![128]⟩ : Shape).BroadcastsInDim ⟨2, ![1, 128]⟩ (![1] : Fin 1 → Fin 2)) (j : Fin 128) :
    broadcastInDim ⟨2, ![1, 128]⟩ (![1] : Fin 1 → Fin 2) hb
        (Host.reduceAdd (F := Ideal)
          (shapeCast ⟨2, ![20, 128]⟩
            (extractStridedSlice ⟨3, ![20, 1, 128]⟩ ![0, 0, 0] (shapeCast ⟨3, ![20, 8, 128]⟩ P h1) hs) h2)
          (constant (F := Ideal) ⟨0, ![]⟩ .f32 0x00000000#32) hr hu) (ix2 0 j)
      = f0 + ∑ t : Fin 20, P (ix2 (⟨8 * t.val, by have := t.isLt; omega⟩ : Fin 160) j) := by
  have hR : (⟨2, ![20, 128]⟩ : Shape).Reduces [0] ⟨1, ![128]⟩ := by decide
  refine (broadcastInDim_apply _ hb _ (ix2 0 j) (ix1 j) fun ax => ?_).trans ?_
  · match ax with
    | ⟨0, _⟩ => rfl
  refine (Ideal.hostReduceAdd_single hr hR _ _ (ix1 j)).trans ?_
  refine congrArg₂ (· + ·) rfl ?_
  show ∑ t : Fin 20, _ = _
  refine Finset.sum_congr rfl fun t _ => ?_
  have hl : hR.lift (ix1 j) t = ix2 t j := by
    funext ax; apply Fin.ext
    match ax with
    | ⟨0, _⟩ => rfl
    | ⟨1, _⟩ => rfl
  show shapeCast ⟨2, ![20, 128]⟩ _ h2 (hR.lift (ix1 j) t) = _
  rw [hl]
  refine (shapeCast_apply _ h2 (ix2 t j) (ix3 t (0 : Fin 1) j) (by
    rw [Shape.rowMajor_val_three, Shape.rowMajor_val_two]
    show (t.val * 1 + 0) * 128 + j.val = t.val * 128 + j.val
    omega)).trans ?_
  refine (extractStridedSlice_apply _ _ hs (ix3 t (0 : Fin 1) j) (ix3 t (0 : Fin 8) j) (fun ax => by
    match ax with
    | ⟨0, _⟩ => exact (Nat.zero_add _).symm
    | ⟨1, _⟩ => exact (Nat.zero_add _).symm
    | ⟨2, _⟩ => exact (Nat.zero_add _).symm)).trans ?_
  exact Cert.KernelIdeal.Hand.shapeCast_mk_abk_apply P h1 t (0 : Fin 8) j ⟨8 * t.val, by have := t.isLt; omega⟩
    (by show 8 * t.val = t.val * 8 + 0; omega)

end Cert.KernelIdeal.KB

end
-- ==== Proof.K.Layer.lean ====
/-
  The three pointwise combinations a layer is made of, over variable arrays, each identified with the specification's
  spelling: the dense map x·Wᵀ + b read with the transposed slab and the bias row; the scaled combination
  dinv · (dense map + edge sum); and the normalisation γ·(g − mean)·(var + ε)^(−1/2) + β, clipped at zero or added to
  the input and clipped.
-/
import proofs.«178513_j90202903151305_2_alg».proof.Proof.Spec

set_option maxRecDepth 16384

noncomputable section

namespace Cert.KernelIdeal.KB

open Idealize.ShloMosaic Idealize.ShloMosaic.ValueIdx Cert.Spec
open scoped BigOperators

/-- The dense map of layer l read with the transposed slab Wt (k, j) = W (l, j, k) and the bias row brow (0, j) = b (l, j). -/
theorem lin_eq (W : S3DD.Idx → EReal) (b : S3D.Idx → EReal) (l : Fin 3) (X xin : Arr)
    (Wt : (⟨2, ![128, 128]⟩ : Shape).Idx → EReal) (brow : (⟨2, ![1, 128]⟩ : Shape).Idx → EReal)
    (hx : xin = X) (hW : ∀ k j : Fin 128, Wt (ix2 k j) = W (ix3 l j k))
    (hb : ∀ j : Fin 128, brow (ix2 (0 : Fin 1) j) = b (ix2 l j)) (r : Fin 100000) (j : Fin 128) :
    (∑ k : Fin 128, xin (ix2 r k) * Wt (ix2 k j)) + brow (ix2 (0 : Fin 1) j) = lin W b l X (ix2 r j) := by
  subst hx
  rw [lin_apply, hb]
  refine congrArg (· + b (ix2 l j)) (Finset.sum_congr rfl fun k _ => ?_)
  rw [hW]

/-- The scaled combination of layer l: the vertex's factor times (dense map + edge sum). -/
theorem comb_eq (a : Args) (l : Fin 3) (X h xin agg : Arr) (dcol : (⟨2, ![100000, 1]⟩ : Shape).Idx → EReal)
    (Wt : (⟨2, ![128, 128]⟩ : Shape).Idx → EReal) (brow : (⟨2, ![1, 128]⟩ : Shape).Idx → EReal)
    (hd : ∀ r : Fin 100000, dcol (ix2 r (0 : Fin 1)) = dinv a.E r) (hx : xin = X)
    (hW : ∀ k j : Fin 128, Wt (ix2 k j) = a.W0 (ix3 l j k)) (hb : ∀ j : Fin 128, brow (ix2 (0 : Fin 1) j) = a.b0 (ix2 l j))
    (hagg : agg = aggK a.E h) (r : Fin 100000) (j : Fin 128) :
    dcol (ix2 r (0 : Fin 1)) * (((∑ k : Fin 128, xin (ix2 r k) * Wt (ix2 k j)) + brow (ix2 (0 : Fin 1) j)) + agg (ix2 r j))
      = gK a l X h (ix2 r j) := by
  rw [lin_eq a.W0 a.b0 l X xin Wt brow hx hW hb r j, hd, hagg]
  rfl

/-- The normalisation of layer l at an index, with the mean, variance, scale and shift kept as [1,128] rows. -/
theorem norm_eq (a : Args) (l : Fin 3) (G gin : Arr) (mrow vrow grow brow : (⟨2, ![1, 128]⟩ : Shape).Idx → EReal)
    (hg : gin = G) (hm : ∀ j : Fin 128, mrow (ix2 (0 : Fin 1) j) = meanK G j)
    (hv : ∀ j : Fin 128, vrow (ix2 (0 : Fin 1) j) = varK G j)
    (hγ : ∀ j : Fin 128, grow (ix2 (0 : Fin 1) j) = a.γ (ix2 l j))
    (hβ : ∀ j : Fin 128, brow (ix2 (0 : Fin 1) j) = a.β (ix2 l j)) (r : Fin 100000) (j : Fin 128) :
    grow (ix2 (0 : Fin 1) j) * (gin (ix2 r j) - mrow (ix2 (0 : Fin 1) j)) * Ideal.rsqrt (vrow (ix2 (0 : Fin 1) j) + eps)
        + brow (ix2 (0 : Fin 1) j)
      = normK a l G (ix2 r j) := by
  subst hg
  rw [hm, hv, hγ, hβ]
  rfl

/-- … clipped at zero: the next layer's input. -/
theorem relu_norm_eq (a : Args) (l : Fin 3) (G gin : Arr) (mrow vrow grow brow : (⟨2, ![1, 128]⟩ : Shape).Idx → EReal)
    (hg : gin = G) (hm : ∀ j : Fin 128, mrow (ix2 (0 : Fin 1) j) = meanK G j)
    (hv : ∀ j : Fin 128, vrow (ix2 (0 : Fin 1) j) = varK G j)
    (hγ : ∀ j : Fin 128, grow (ix2 (0 : Fin 1) j) = a.γ (ix2 l j))
    (hβ : ∀ j : Fin 128, brow (ix2 (0 : Fin 1) j) = a.β (ix2 l j)) (r : Fin 100000) (j : Fin 128) :
    max (grow (ix2 (0 : Fin 1) j) * (gin (ix2 r j) - mrow (ix2 (0 : Fin 1) j)) * Ideal.rsqrt (vrow (ix2 (0 : Fin 1) j) + eps)
        + brow (ix2 (0 : Fin 1) j)) f0
      = relu (normK a l G) (ix2 r j) :=
  congrArg (max · f0) (norm_eq a l G gin mrow vrow grow brow hg hm hv hγ hβ r j)

/-- … added to the network's input and clipped at zero: the last layer. -/
theorem out_norm_eq (a : Args) (l : Fin 3) (G gin xin : Arr) (mrow vrow grow brow : (⟨2, ![1, 128]⟩ : Shape).Idx → EReal)
    (hg : gin = G) (hx : xin = a.x) (hm : ∀ j : Fin 128, mrow (ix2 (0 : Fin 1) j) = meanK G j)
    (hv : ∀ j : Fin 128, vrow (ix2 (0 : Fin 1) j) = varK G j)
    (hγ : ∀ j : Fin 128, grow (ix2 (0 : Fin 1) j) = a.γ (ix2 l j))
    (hβ : ∀ j : Fin 128, brow (ix2 (0 : Fin 1) j) = a.β (ix2 l j)) (r : Fin 100000) (j : Fin 128) :
    max ((grow (ix2 (0 : Fin 1) j) * (gin (ix2 r j) - mrow (ix2 (0 : Fin 1) j)) * Ideal.rsqrt (vrow (ix2 (0 : Fin 1) j) + eps)
        + brow (ix2 (0 : Fin 1) j)) + xin (ix2 r j)) f0
      = max (normK a l G (ix2 r j) + a.x (ix2 r j)) f0 := by
  rw [norm_eq a l G gin mrow vrow grow brow hg hm hv hγ hβ r j, hx]

/-- Two [100000,128] arrays that agree at every (r, j) are equal. -/
theorem arr_ext (A B : Arr) (h : ∀ (r : Fin 100000) (j : Fin 128), A (ix2 r j) = B (ix2 r j)) : A = B := by
  funext i
  rw [eq_ix2 i]
  exact h _ _

end Cert.KernelIdeal.KB

end
-- ==== Proof.K.Pers.lean ====
/-
  What stays true of a core's buffers from the first region's entry to the last region's: the eight argument buffers
  hold the argument arrays; the two endpoint vectors are the two columns of the edge array and their concatenation is
  the first column followed by the second; and the scaling column holds, per vertex, the inverse of one plus the
  vertex's count among the edge endpoints. No later host operation and no region writes any of these buffers.
-/
import proofs.«178513_j90202903151305_2_alg».proof.Proof.Gen.KernelIdeal.Frame
import proofs.«178513_j90202903151305_2_alg».proof.Proof.Spec

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

/-- Column s of the edge array as a vector of 300000 words (s = 0: the first endpoints). -/
def end0 (E : IVec S300000x2 32) : IVec S300000 32 :=
  shapeCast S300000 (extractStridedSlice S300000x1 ![0, 0] E slices_S300000x2_S300000x1_0_0) shapeCasts_S300000x1_S300000
/-- The second endpoints. -/
def end1 (E : IVec S300000x2 32) : IVec S300000 32 :=
  shapeCast S300000 (extractStridedSlice S300000x1 ![0, 1] E slices_S300000x2_S300000x1_0_1) shapeCasts_S300000x1_S300000
/-- The first endpoints followed by the second ones. -/
def ends (E : IVec S300000x2 32) : IVec S600000 32 :=
  concatenate S600000 0 [⟨S300000, end0 E⟩, ⟨S300000, end1 E⟩] concatenates_S300000_S300000_S600000_d0

/-- The argument buffers hold the argument arrays. -/
structure Base (a : Cert.Spec.Args) (W : Valuation τ sig (Elt Ideal)) : Prop where
  x : (W (Proc.devRef .tc main_arg0) : S100000x128.Idx → EReal) = a.x
  E : (W (Proc.devRef .tc main_arg1) : IVec S300000x2 32) = a.E
  W0 : (W (Proc.devRef .tc main_arg2) : S3x128x128.Idx → EReal) = a.W0
  b0 : (W (Proc.devRef .tc main_arg3) : S3x128.Idx → EReal) = a.b0
  W1 : (W (Proc.devRef .tc main_arg4) : S3x128x128.Idx → EReal) = a.W1
  b1 : (W (Proc.devRef .tc main_arg5) : S3x128.Idx → EReal) = a.b1
  γ : (W (Proc.devRef .tc main_arg6) : S3x128.Idx → EReal) = a.γ
  β : (W (Proc.devRef .tc main_arg7) : S3x128.Idx → EReal) = a.β

/-- The arguments, the endpoint vectors and the scaling column. -/
structure Pers (a : Cert.Spec.Args) (W : Valuation τ sig (Elt Ideal)) : Prop extends Base a W where
  v1 : (W (Proc.devRef .tc main_v1) : IVec S300000 32) = end0 a.E
  v3 : (W (Proc.devRef .tc main_v3) : IVec S300000 32) = end1 a.E
  v19 : (W (Proc.devRef .tc main_v19) : IVec S600000 32) = ends a.E
  d : ∀ r : Fin 100000, (W (Proc.devRef .tc main_v18) : S100000x1.Idx → EReal) (ix2 r (0 : Fin 1)) = Cert.Spec.dinv a.E r

/-- A stretch of host operations leaves a buffer none of its operations writes as it was: closes
    `StableHlo.after ops W (Proc.devRef .tc b) = W (Proc.devRef .tc b)` for a literal list `ops`. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

example (W : Valuation τ sig (Elt Ideal)) :
    StableHlo.after (hostOps2 (F := Ideal)) W (Proc.devRef .tc main_v18) = W (Proc.devRef .tc main_v18) := by
  host_keep hostOps2

end Cert.KernelIdeal.KB

end
-- ==== Proof.Edges.lean ====
/-
  The edge endpoints as the two programs compute them from the [300000, 2] array of edges, read entry by entry: a column of
  the array as a vector, the array flattened in its own row-major order, two vectors (or two [300000, 128] arrays) laid end to
  end, numpy's normalisation of a negative index (pointwise), and a vector set as a column of start indices. Each is then the
  specification's column: `srcCol`, `dstCol`, `catCol`, `flatCol`, and the end-to-end rows `cat`.
-/
import proofs.«178513_j90202903151305_2_alg».proof.Proof.Spec
import Idealize.ShloMosaic.Lib.Pipeline.Value
import Idealize.ShloMosaic.Lib.ValueLayout
import Idealize.ShloMosaic.Lib.ValueIdx

noncomputable section

namespace Cert.Spec

open Idealize.ShloMosaic Idealize.ShloMosaic.ValueIdx

abbrev SE : Shape := ⟨1, ![300000]⟩
abbrev S0 : Shape := ⟨0, ![]⟩

/-- Column s of the edge array, as a vector: entry e is E (e, s). -/
theorem endpoint0_apply (E : IVec SE2 32) (hs : SE2.Slices ![0, 0] SE1) (hc : SE1.ShapeCasts SE) (e : Fin 300000) :
    shapeCast SE (extractStridedSlice SE1 ![0, 0] E hs) hc (ix1 e) = E (ix2 e (0 : Fin 2)) := by
  rw [shapeCast_apply _ hc (ix1 e) (ix2 e (0 : Fin 1)) (by
    rw [Shape.rowMajor_val_two, Shape.rowMajor_val_one]; show e.val * 1 + 0 = e.val; omega)]
  refine extractStridedSlice_apply _ E hs _ (ix2 e (0 : Fin 2)) fun a => ?_
  match a with
  | ⟨0, _⟩ => show e.val = 0 + e.val; omega
  | ⟨1, _⟩ => rfl

theorem endpoint1_apply (E : IVec SE2 32) (hs : SE2.Slices ![0, 1] SE1) (hc : SE1.ShapeCasts SE) (e : Fin 300000) :
    shapeCast SE (extractStridedSlice SE1 ![0, 1] E hs) hc (ix1 e) = E (ix2 e (1 : Fin 2)) := by
  rw [shapeCast_apply _ hc (ix1 e) (ix2 e (0 : Fin 1)) (by
    rw [Shape.rowMajor_val_two, Shape.rowMajor_val_one]; show e.val * 1 + 0 = e.val; omega)]
  refine extractStridedSlice_apply _ E hs _ (ix2 e (1 : Fin 2)) fun a => ?_
  match a with
  | ⟨0, _⟩ => show e.val = 0 + e.val; omega
  | ⟨1, _⟩ => rfl

/-- The edge array flattened: entry q is E (q / 2, q % 2). -/
theorem flat_apply (E : IVec SE2 32) (hc : SE2.ShapeCasts SF) (q : Fin 600000) :
    shapeCast SF E hc (ix1 q)
      = E (ix2 (⟨q.val / 2, by have := q.isLt; omega⟩ : Fin 300000) (⟨q.val % 2, Nat.mod_lt _ (by decide)⟩ : Fin 2)) := by
  refine shapeCast_apply _ hc (ix1 q) _ ?_
  rw [Shape.rowMajor_val_two, Shape.rowMajor_val_one]
  show q.val / 2 * 2 + q.val % 2 = q.val
  omega

/-! ## Numpy's normalisation, pointwise, and a vector as a column -/

/-- The compare / add / select over a vector of endpoint words is `norm` entry by entry. -/
theorem norm_vec_apply {n : Nat} (v : IVec ⟨1, ![n]⟩ 32) (h0 : S0.BroadcastsInDim ⟨1, ![n]⟩ ![]) (e : Fin n) :
    select (cmpi .slt v (broadcastInDim ⟨1, ![n]⟩ ![] h0 (constantI S0 32 0#32)))
        (addi v (broadcastInDim ⟨1, ![n]⟩ ![] h0 (constantI S0 32 100000#32))) v (ix1 e) = norm (v (ix1 e)) := rfl

/-- A vector set as an [n, 1] column reads, at (e, u), the vector at e. -/
theorem col_apply {n : Nat} {α : Type} (v : (⟨1, ![n]⟩ : Shape).Idx → α) (hb : (⟨1, ![n]⟩ : Shape).BroadcastsInDim ⟨2, ![n, 1]⟩ ![0])
    (e : Fin n) (u : Fin 1) : broadcastInDim ⟨2, ![n, 1]⟩ ![0] hb v (ix2 e u) = v (ix1 e) := by
  refine broadcastInDim_apply _ hb v (ix2 e u) (ix1 e) fun ax => ?_
  match ax with
  | ⟨0, _⟩ =>
    show e.val = if n = 1 then 0 else e.val
    split
    · have := e.isLt; omega
    · rfl

/-- The first endpoints as the programs build their column of start indices. -/
theorem srcCol_eq (E : IVec SE2 32) (hs : SE2.Slices ![0, 0] SE1) (hc : SE1.ShapeCasts SE) (h0 : S0.BroadcastsInDim SE ![])
    (hb : SE.BroadcastsInDim SE1 ![0]) :
    broadcastInDim SE1 ![0] hb
      (select (cmpi .slt (shapeCast SE (extractStridedSlice SE1 ![0, 0] E hs) hc) (broadcastInDim SE ![] h0 (constantI S0 32 0#32)))
        (addi (shapeCast SE (extractStridedSlice SE1 ![0, 0] E hs) hc) (broadcastInDim SE ![] h0 (constantI S0 32 100000#32)))
        (shapeCast SE (extractStridedSlice SE1 ![0, 0] E hs) hc)) = srcCol E := by
  funext i
  obtain ⟨e, u, rfl⟩ : ∃ (e : Fin 300000) (u : Fin 1), i = ix2 e u := ⟨i 0, i 1, eq_ix2 i⟩
  rw [col_apply, norm_vec_apply, endpoint0_apply]
  rfl

/-- The second endpoints likewise. -/
theorem dstCol_eq (E : IVec SE2 32) (hs : SE2.Slices ![0, 1] SE1) (hc : SE1.ShapeCasts SE) (h0 : S0.BroadcastsInDim SE ![])
    (hb : SE.BroadcastsInDim SE1 ![0]) :
    broadcastInDim SE1 ![0] hb
      (select (cmpi .slt (shapeCast SE (extractStridedSlice SE1 ![0, 1] E hs) hc) (broadcastInDim SE ![] h0 (constantI S0 32 0#32)))
        (addi (shapeCast SE (extractStridedSlice SE1 ![0, 1] E hs) hc) (broadcastInDim SE ![] h0 (constantI S0 32 100000#32)))
        (shapeCast SE (extractStridedSlice SE1 ![0, 1] E hs) hc)) = dstCol E := by
  funext i
  obtain ⟨e, u, rfl⟩ : ∃ (e : Fin 300000) (u : Fin 1), i = ix2 e u := ⟨i 0, i 1, eq_ix2 i⟩
  rw [col_apply, norm_vec_apply, endpoint1_apply]
  rfl

/-- Every endpoint in the array's own order, as the programs build the count's column of start indices. -/
theorem flatCol_eq (E : IVec SE2 32) (hc : SE2.ShapeCasts SF) (h0 : S0.BroadcastsInDim SF ![]) (hb : SF.BroadcastsInDim SF1 ![0]) :
    broadcastInDim SF1 ![0] hb
      (select (cmpi .slt (shapeCast SF E hc) (broadcastInDim SF ![] h0 (constantI S0 32 0#32)))
        (addi (shapeCast SF E hc) (broadcastInDim SF ![] h0 (constantI S0 32 100000#32))) (shapeCast SF E hc)) = flatCol E := by
  funext i
  obtain ⟨q, u, rfl⟩ : ∃ (q : Fin 600000) (u : Fin 1), i = ix2 q u := ⟨i 0, i 1, eq_ix2 i⟩
  rw [col_apply, norm_vec_apply, flat_apply]
  rfl

/-! ## Two pieces laid end to end -/

/-- Two vectors of 300000 laid end to end: entry q is the first at q below 300000, the second at q − 300000 from there on. -/
theorem cat_vec_apply {α : Type} (v0 v1 : SE.Idx → α) (h : Shape.Concatenates [SE, SE] SF 0) (q : Fin 600000) :
    concatenate SF 0 [⟨SE, v0⟩, ⟨SE, v1⟩] h (ix1 q)
      = if hq : q.val < 300000 then v0 (ix1 (⟨q.val, hq⟩ : Fin 300000))
        else v1 (ix1 (⟨q.val - 300000, by have := q.isLt; omega⟩ : Fin 300000)) := by
  by_cases hq : q.val < 300000
  · rw [dif_pos hq]
    refine concatenate_pair_apply_left 0 v0 v1 h _ rfl (ix1 (⟨q.val, hq⟩ : Fin 300000)) fun b => ?_
    match b with
    | ⟨0, _⟩ => rfl
  · rw [dif_neg hq]
    refine concatenate_pair_apply_right 0 v0 v1 h _ rfl rfl (ix1 (⟨q.val - 300000, by have := q.isLt; omega⟩ : Fin 300000))
      (fun b hb => ?_) ?_
    · match b with
      | ⟨0, _⟩ => exact absurd (Fin.ext rfl) hb
    · show q.val - 300000 + 300000 = q.val
      omega

/-- Two [300000, 128] arrays laid end to end along the rows are `cat`. -/
theorem cat_eq (A B : SED.Idx → EReal) (h : Shape.Concatenates [SED, SED] SFD 0) :
    concatenate SFD 0 [⟨SED, A⟩, ⟨SED, B⟩] h = cat A B := by
  funext i
  obtain ⟨q, j, rfl⟩ : ∃ (q : Fin 600000) (j : Fin 128), i = ix2 q j := ⟨i 0, i 1, eq_ix2 i⟩
  show _ = catAt2 A B q j
  unfold catAt2
  by_cases hq : q.val < 300000
  · rw [dif_pos hq]
    refine concatenate_pair_apply_left 0 A B h _ rfl (ix2 (⟨q.val, hq⟩ : Fin 300000) j) fun b => ?_
    match b with
    | ⟨0, _⟩ => rfl
    | ⟨1, _⟩ => rfl
  · rw [dif_neg hq]
    refine concatenate_pair_apply_right 0 A B h _ rfl rfl (ix2 (⟨q.val - 300000, by have := q.isLt; omega⟩ : Fin 300000) j)
      (fun b hb => ?_) ?_
    · match b with
      | ⟨0, _⟩ => exact absurd (Fin.ext rfl) hb
      | ⟨1, _⟩ => rfl
    · show q.val - 300000 + 300000 = q.val
      omega

/-- The first endpoints followed by the second ones, as the kernel program builds its column of 600000 start indices. -/
theorem catCol_eq (E : IVec SE2 32) (hs0 : SE2.Slices ![0, 0] SE1) (hs1 : SE2.Slices ![0, 1] SE1) (hc : SE1.ShapeCasts SE)
    (hcat : Shape.Concatenates [SE, SE] SF 0) (h0 : S0.BroadcastsInDim SF ![]) (hb : SF.BroadcastsInDim SF1 ![0]) :
    broadcastInDim SF1 ![0] hb
      (select (cmpi .slt (concatenate SF 0 [⟨SE, shapeCast SE (extractStridedSlice SE1 ![0, 0] E hs0) hc⟩,
            ⟨SE, shapeCast SE (extractStridedSlice SE1 ![0, 1] E hs1) hc⟩] hcat) (broadcastInDim SF ![] h0 (constantI S0 32 0#32)))
        (addi (concatenate SF 0 [⟨SE, shapeCast SE (extractStridedSlice SE1 ![0, 0] E hs0) hc⟩,
            ⟨SE, shapeCast SE (extractStridedSlice SE1 ![0, 1] E hs1) hc⟩] hcat) (broadcastInDim SF ![] h0 (constantI S0 32 100000#32)))
        (concatenate SF 0 [⟨SE, shapeCast SE (extractStridedSlice SE1 ![0, 0] E hs0) hc⟩,
            ⟨SE, shapeCast SE (extractStridedSlice SE1 ![0, 1] E hs1) hc⟩] hcat)) = catCol E := by
  funext i
  obtain ⟨q, u, rfl⟩ : ∃ (q : Fin 600000) (u : Fin 1), i = ix2 q u := ⟨i 0, i 1, eq_ix2 i⟩
  rw [col_apply, norm_vec_apply, cat_vec_apply]
  show _ = catAt E q
  unfold catAt
  by_cases hq : q.val < 300000
  · rw [dif_pos hq, dif_pos hq, endpoint0_apply]
  · rw [dif_neg hq, dif_neg hq, endpoint1_apply]

end Cert.Spec

end
-- ==== Proof.EdgeTerms.lean ====
/-
  The count of endpoints, its inverse, and the two spellings of the edge sum, as the programs state them with the host's
  accumulating scatter and row gather over their own dimension records: each is the specification's term once the record is
  the specification's record and the start-index columns are the specification's columns.
-/
import proofs.«178513_j90202903151305_2_alg».proof.Proof.Edges
import Idealize.ShloMosaic.PureOps.Ideal.Laws

noncomputable section

namespace Cert.Spec

open Idealize.ShloMosaic Idealize.ShloMosaic.ValueIdx

/-- A scalar constant broadcast to any shape is the constant function. -/
theorem bcast_const {t : Shape} (dims : Fin S0.rank → Fin t.rank) (h : S0.BroadcastsInDim t dims) (b : BitVec 32) :
    broadcastInDim t dims h (constant (F := Ideal) S0 .f32 b) = fun _ => Ideal.ofBits .f32 b := rfl

/-- The count: zeros, accumulated with ones at every endpoint in the array's order. -/
theorem cnt_term (E : IVec SE2 32) (d : ScatterDims SV SF1 SF) (hd : d = sRecC) (h0 : S0.BroadcastsInDim SV ![])
    (h1 : S0.BroadcastsInDim SF ![]) (idx : IVec SF1 32) (hidx : idx = flatCol E) :
    Host.scatterAdd (F := Ideal) d (broadcastInDim SV ![] h0 (constant (F := Ideal) S0 .f32 0x00000000#32)) idx
      (broadcastInDim SF ![] h1 (constant (F := Ideal) S0 .f32 0x3F800000#32)) = cnt E := by
  subst hd hidx
  rfl

/-- The inverse of one plus the count, entry r. -/
theorem dinv_term (E : IVec SE2 32) (h0 : S0.BroadcastsInDim SV ![]) (r : Fin 100000) :
    Host.divf (F := Ideal) (broadcastInDim SV ![] h0 (constant (F := Ideal) S0 .f32 0x3F800000#32))
      (addf (broadcastInDim SV ![] h0 (constant (F := Ideal) S0 .f32 0x3F800000#32)) (cnt E)) (ix1 r) = dinv E r := by
  unfold dinv f1
  generalize cnt E = C
  rfl

/-- The edge sum, one direction after the other. -/
theorem aggR_term (E : IVec SE2 32) (h : Arr) (dg : GatherDims SVD SE1 SED) (hg : dg = gRec) (ds : ScatterDims SVD SE1 SED)
    (hs : ds = sRec3) (h0 : S0.BroadcastsInDim SVD ![]) (is id' : IVec SE1 32) (his : is = srcCol E) (hid : id' = dstCol E) :
    Host.scatterAdd (F := Ideal) ds
      (Host.scatterAdd (F := Ideal) ds (broadcastInDim SVD ![] h0 (constant (F := Ideal) S0 .f32 0x00000000#32)) is
        (Host.gather dg h id')) id' (Host.gather dg h is) = aggR E h := by
  subst hg hs his hid
  rfl

/-- The edge sum in one accumulation over the rows laid end to end. -/
theorem aggK_term (E : IVec SE2 32) (h : Arr) (dg : GatherDims SVD SE1 SED) (hg : dg = gRec) (ds : ScatterDims SVD SF1 SFD)
    (hs : ds = sRec6) (h0 : S0.BroadcastsInDim SVD ![]) (hc : Shape.Concatenates [SED, SED] SFD 0)
    (is id' : IVec SE1 32) (ic : IVec SF1 32) (his : is = srcCol E) (hid : id' = dstCol E) (hic : ic = catCol E) :
    Host.scatterAdd (F := Ideal) ds (broadcastInDim SVD ![] h0 (constant (F := Ideal) S0 .f32 0x00000000#32)) ic
      (concatenate SFD 0 [⟨SED, Host.gather dg h id'⟩, ⟨SED, Host.gather dg h is⟩] hc) = aggK E h := by
  subst hg hs his hid hic
  rw [cat_eq]
  rfl

end Cert.Spec

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibFoldCut.lean ====
/-
  Reading a long straight line of host operations back when it concatenates.

  * The contents after a list of operations are the contents after its tail, taken from the contents after its first `n`
    operations (`after_cut`), for any `n`: a line is cut where the reading needs it, without restating the list
    (`List.take` / `List.drop` of a literal list compute to literal lists by `List.take_succ_cons`, `List.take_zero`,
    `List.drop_succ_cons`, `List.drop_zero`).
  * Why one cuts at a concatenation: the operands of a `concatenate` sit in a list of (shape, array) pairs, and the proof
    that the pieces fit the result depends on that list, so a read-back by rewriting does not rewrite under it. What is left
    there is the fold through the operations BEFORE the concatenation. Closing that by computation is cheap when the
    concatenation is among the first operations of the piece being read and out of reach when dozens precede it; and a
    read-back that meets a concatenation below other operations can exhaust the recursion depth outright. So: cut the line
    right after its concatenations, name their results, and read the rest of the line with those buffers as inputs.
-/
import proofs.«178513_j90202903151305_2_alg».proof.Proof.LibTypedRefs

noncomputable section

namespace Idealize.ShloMosaic.StableHlo

variable {τ : Topo} {sig : RefSig} {Val : EltTy → Type}

/-- A fold over a list is the fold over its tail from the fold over its first `n` operations. -/
theorem after_cut (n : Nat) (l : List (HloOp τ sig Val)) (V : Valuation τ sig Val) :
    after l V = after (l.drop n) (after (l.take n) V) := by
  rw [← after_append, List.take_append_drop]

end Idealize.ShloMosaic.StableHlo

end
-- ==== Proof.LibLayoutIdx.lean ====
/-
  HOST layout operations READ AT AN INDEX GIVEN BY COORDINATES, general in the extents and in the element type: what a
  program's host part does to its arguments before a kernel sees them.
  • Four `[A, B, K]` arrays laid side by side on the last axis (`concatenate4_last_apply`): position `i·K + f` of the result
    holds array `i` at `f`.
  • Two `[N, 1]` columns laid side by side (`concatenate2_cols_apply`), a vector made a column (`broadcastInDim_a_a1_apply`,
    `shapeCast_a_a1_apply`), and the two together: two vectors stacked as the columns of an `[N, 2]` array (`stack2_apply`).
  (The row-major reshape of `[A, K, G]` to `[A·K, G]` and a vector made a row are in the kernel-side index library and in the
  library's own layout lemmas.)
-/
import Idealize.ShloMosaic.Lib.ValueLayout

namespace Cert.LayoutIdx

open Idealize.ShloMosaic Idealize.ShloMosaic.ValueIdx

variable {α : Type}

/-! ## Four arrays side by side on the last axis -/

/-- Four `[A, B, K]` arrays concatenated on the last axis into `[A, B, n]`, read at `(a, b, j)` with `j = i·K + f`: array `i`
    at `(a, b, f)`. -/
theorem concatenate4_last_apply {A B K n : ℕ} (u0 u1 u2 u3 : (⟨3, ![A, B, K]⟩ : Shape).Idx → α)
    (h : Shape.Concatenates [⟨3, ![A, B, K]⟩, ⟨3, ![A, B, K]⟩, ⟨3, ![A, B, K]⟩, ⟨3, ![A, B, K]⟩] ⟨3, ![A, B, n]⟩ 2)
    (a : Fin A) (b : Fin B) (i : Fin 4) (f : Fin K) (j : Fin n) (hj : j.val = i.val * K + f.val) :
    concatenate ⟨3, ![A, B, n]⟩ 2
        [⟨⟨3, ![A, B, K]⟩, u0⟩, ⟨⟨3, ![A, B, K]⟩, u1⟩, ⟨⟨3, ![A, B, K]⟩, u2⟩, ⟨⟨3, ![A, B, K]⟩, u3⟩] h (ix3 a b j)
      = (![u0, u1, u2, u3] i) (ix3 a b f) := by
  have hoff : ∀ bb : Fin 3, bb.cast (rfl : (3 : ℕ) = 3) ≠ (2 : Fin 3) →
      ((ix3 a b f) bb).val = ((ix3 a b j) (bb.cast (rfl : (3 : ℕ) = 3))).val := fun bb hb => by
    match bb with
    | ⟨0, _⟩ => rfl
    | ⟨1, _⟩ => rfl
    | ⟨2, _⟩ => exact absurd (Fin.ext rfl) hb
  match i with
  | ⟨0, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 0
      (by show 0 < 4; omega) ⟨3, ![A, B, K]⟩ u0 rfl rfl _ rfl (ix3 a b f) hoff ?_
    show 0 + f.val = j.val
    rw [hj]; show 0 + f.val = 0 * K + f.val; omega
  | ⟨1, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 1
      (by show 1 < 4; omega) ⟨3, ![A, B, K]⟩ u1 rfl rfl _ rfl (ix3 a b f) hoff ?_
    show (K + 0) + f.val = j.val
    rw [hj]; show (K + 0) + f.val = 1 * K + f.val; omega
  | ⟨2, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 2
      (by show 2 < 4; omega) ⟨3, ![A, B, K]⟩ u2 rfl rfl _ rfl (ix3 a b f) hoff ?_
    show (K + (K + 0)) + f.val = j.val
    rw [hj]; show (K + (K + 0)) + f.val = 2 * K + f.val; omega
  | ⟨3, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 3
      (by show 3 < 4; omega) ⟨3, ![A, B, K]⟩ u3 rfl rfl _ rfl (ix3 a b f) hoff ?_
    show (K + (K + (K + 0))) + f.val = j.val
    rw [hj]; show (K + (K + (K + 0))) + f.val = 3 * K + f.val; omega

/-! ## A vector made a column, and two columns side by side -/

/-- An `[N]` array cast to `[N, 1]` reads, at `(n, u)`, the operand at `n`, whatever the unit coordinate. -/
theorem shapeCast_a_a1_apply {N : ℕ} (x : (⟨1, ![N]⟩ : Shape).Idx → α) (h : (⟨1, ![N]⟩ : Shape).ShapeCasts ⟨2, ![N, 1]⟩)
    (n : Fin N) (u : Fin 1) : shapeCast ⟨2, ![N, 1]⟩ x h (ix2 n u) = x (ix1 n) :=
  shapeCast_apply x h _ _ (by
    have hu : u.val = 0 := by omega
    rw [Shape.rowMajor_val_one, Shape.rowMajor_val_two]
    show n.val = n.val * 1 + u.val
    rw [hu, Nat.mul_one, Nat.add_zero])

/-- An `[N]` array broadcast along a new unit last axis to `[N, 1]` reads, at `(n, u)`, the operand at `n`. -/
theorem broadcastInDim_a_a1_apply {N : ℕ} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply _ h x (ix2 n u) (ix1 n) fun ax => ?_
  match ax with
  | ⟨0, _⟩ =>
    show n.val = if N = 1 then 0 else n.val
    split
    · have := n.isLt; omega
    · rfl

/-- Two `[N, 1]` columns concatenated on the last axis into `[N, 2]`, read at `(n, g)`: the first column at `n` if `g = 0`, the
    second if `g = 1`. -/
theorem concatenate2_cols_apply {N : ℕ} (x y : (⟨2, ![N, 1]⟩ : Shape).Idx → α)
    (h : Shape.Concatenates [⟨2, ![N, 1]⟩, ⟨2, ![N, 1]⟩] ⟨2, ![N, 2]⟩ 1) (n : Fin N) (g : Fin 2) :
    concatenate ⟨2, ![N, 2]⟩ 1 [⟨⟨2, ![N, 1]⟩, x⟩, ⟨⟨2, ![N, 1]⟩, y⟩] h (ix2 n g)
      = ![x (ix2 n (0 : Fin 1)), y (ix2 n (0 : Fin 1))] g := by
  match g with
  | ⟨0, _⟩ =>
    refine concatenate_pair_apply_left 1 x y h _ rfl (ix2 n (0 : Fin 1)) fun bb => ?_
    match bb with
    | ⟨0, _⟩ => rfl
    | ⟨1, _⟩ => rfl
  | ⟨1, _⟩ =>
    refine concatenate_pair_apply_right 1 x y h _ rfl rfl (ix2 n (0 : Fin 1)) (fun bb hb => ?_) rfl
    match bb with
    | ⟨0, _⟩ => rfl
    | ⟨1, _⟩ => exact absurd (Fin.ext rfl) hb

/-- Two `[N]` arrays, each broadcast to a column `[N, 1]`, concatenated into `[N, 2]`, read at `(n, g)`: the first array at `n`
    if `g = 0`, the second if `g = 1`. -/
theorem stack2_apply {N : ℕ} (x y : (⟨1, ![N]⟩ : Shape).Idx → α)
    (hb : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N) (g : Fin 2) :
    concatenate ⟨2, ![N, 2]⟩ 1
        [⟨⟨2, ![N, 1]⟩, broadcastInDim ⟨2, ![N, 1]⟩ ![0] hb x⟩, ⟨⟨2, ![N, 1]⟩, broadcastInDim ⟨2, ![N, 1]⟩ ![0] hb y⟩] hc (ix2 n g)
      = ![x (ix1 n), y (ix1 n)] g := by
  rw [concatenate2_cols_apply, broadcastInDim_a_a1_apply, broadcastInDim_a_a1_apply]

end Cert.LayoutIdx
-- ==== Proof.K.Cols.lean ====
/-
  The columns of start indices as the kernel program builds them from a vector of endpoint words: every word below zero
  has the number of vertices added (numpy's reading of a negative index), and the vector is set as a one-column array.
  Built from the first endpoints, the second endpoints, their concatenation, or the whole edge array flattened, the
  column is the specification's srcCol, dstCol, catCol or flatCol.
-/
import proofs.«178513_j90202903151305_2_alg».proof.Proof.Gen.KernelIdeal.Frame
import proofs.«178513_j90202903151305_2_alg».proof.Proof.Spec
import proofs.«178513_j90202903151305_2_alg».proof.Proof.Edges
import proofs.«178513_j90202903151305_2_alg».proof.Proof.K.Pers

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

/-- 300000 endpoint words, normalised, as a column. -/
def normCol3 (v : IVec S300000 32) : IVec S300000x1 32 :=
  broadcastInDim S300000x1 ![0] bcast_S300000_S300000x1_0
    (select (cmpi .slt v (broadcastInDim S300000 ![] bcast_S_S300000 (constantI S_ 32 0#32)))
      (addi v (broadcastInDim S300000 ![] bcast_S_S300000 (constantI S_ 32 100000#32))) v)

/-- 600000 endpoint words, normalised, as a column. -/
def normCol6 (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

theorem normCol3_end0 (E : IVec S300000x2 32) : normCol3 (end0 E) = Cert.Spec.srcCol E :=
  Cert.Spec.srcCol_eq E slices_S300000x2_S300000x1_0_0 shapeCasts_S300000x1_S300000 bcast_S_S300000 bcast_S300000_S300000x1_0

theorem normCol3_end1 (E : IVec S300000x2 32) : normCol3 (end1 E) = Cert.Spec.dstCol E :=
  Cert.Spec.dstCol_eq E slices_S300000x2_S300000x1_0_1 shapeCasts_S300000x1_S300000 bcast_S_S300000 bcast_S300000_S300000x1_0

theorem normCol6_ends (E : IVec S300000x2 32) : normCol6 (ends E) = Cert.Spec.catCol E :=
  Cert.Spec.catCol_eq E slices_S300000x2_S300000x1_0_0 slices_S300000x2_S300000x1_0_1 shapeCasts_S300000x1_S300000
    concatenates_S300000_S300000_S600000_d0 bcast_S_S600000 bcast_S600000_S600000x1_0

theorem normCol6_flat (E : IVec S300000x2 32) :
    normCol6 (shapeCast S600000 E shapeCasts_S300000x2_S600000) = Cert.Spec.flatCol E :=
  Cert.Spec.flatCol_eq E shapeCasts_S300000x2_S600000 bcast_S_S600000 bcast_S600000_S600000x1_0

/-- Two pieces of one shape laid end to end: equal pieces give equal results. -/
theorem concat2_congr {α : Type} {s t : Shape} (ax : Fin t.rank) (x x' y y' : s.Idx → α)
    (h : Shape.Concatenates [s, s] t ax) (hx : x = x') (hy : y = y') :
    concatenate t ax [⟨s, x⟩, ⟨s, y⟩] h = concatenate t ax [⟨s, x'⟩, ⟨s, y'⟩] h := by
  subst hx; subst hy; rfl

end Cert.KernelIdeal.KB

end
-- ==== Proof.K.Host0.lean ====
/-
  The host operations before the first region, read over a variable memory W whose argument buffers hold the argument
  arrays: the two endpoint vectors are the two columns of the edge array, their concatenation the first column followed
  by the second; the scaling column holds, per vertex, the inverse of one plus the vertex's count among all 600000
  endpoint words taken in the array's own order; and the first region's matrix and bias row are slab 0 of the second
  weight array, transposed, and row 0 of the second bias array.
-/
import proofs.«178513_j90202903151305_2_alg».proof.Proof.Gen.KernelIdeal.Frame
import proofs.«178513_j90202903151305_2_alg».proof.Proof.Spec
import proofs.«178513_j90202903151305_2_alg».proof.Proof.EdgeTerms
import proofs.«178513_j90202903151305_2_alg».proof.Proof.LibFoldCut
import proofs.«178513_j90202903151305_2_alg».proof.Proof.LibLayoutIdx
import proofs.«178513_j90202903151305_2_alg».proof.Proof.K.HostLib
import proofs.«178513_j90202903151305_2_alg».proof.Proof.K.Pers
import proofs.«178513_j90202903151305_2_alg».proof.Proof.K.Cols

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

variable (W : Valuation τ sig (Elt Ideal))

/-! ## The argument buffers are not written -/
theorem host0_keep_arg0 : StableHlo.after (hostOps0 (F := Ideal)) W (Proc.devRef .tc main_arg0) = W (Proc.devRef .tc main_arg0) := by
  host_keep hostOps0
theorem host0_keep_arg1 : StableHlo.after (hostOps0 (F := Ideal)) W (Proc.devRef .tc main_arg1) = W (Proc.devRef .tc main_arg1) := by
  host_keep hostOps0
theorem host0_keep_arg2 : StableHlo.after (hostOps0 (F := Ideal)) W (Proc.devRef .tc main_arg2) = W (Proc.devRef .tc main_arg2) := by
  host_keep hostOps0
theorem host0_keep_arg3 : StableHlo.after (hostOps0 (F := Ideal)) W (Proc.devRef .tc main_arg3) = W (Proc.devRef .tc main_arg3) := by
  host_keep hostOps0
theorem host0_keep_arg4 : StableHlo.after (hostOps0 (F := Ideal)) W (Proc.devRef .tc main_arg4) = W (Proc.devRef .tc main_arg4) := by
  host_keep hostOps0
theorem host0_keep_arg5 : StableHlo.after (hostOps0 (F := Ideal)) W (Proc.devRef .tc main_arg5) = W (Proc.devRef .tc main_arg5) := by
  host_keep hostOps0
theorem host0_keep_arg6 : StableHlo.after (hostOps0 (F := Ideal)) W (Proc.devRef .tc main_arg6) = W (Proc.devRef .tc main_arg6) := by
  host_keep hostOps0
theorem host0_keep_arg7 : StableHlo.after (hostOps0 (F := Ideal)) W (Proc.devRef .tc main_arg7) = W (Proc.devRef .tc main_arg7) := by
  host_keep hostOps0

/-! ## The endpoint vectors -/

theorem host0_v1 : (StableHlo.after (hostOps0 (F := Ideal)) W (Proc.devRef .tc main_v1) : IVec S300000 32)
    = end0 (W (Proc.devRef .tc main_arg1)) := by
  after_results; rfl

theorem host0_v3 : (StableHlo.after (hostOps0 (F := Ideal)) W (Proc.devRef .tc main_v3) : IVec S300000 32)
    = end1 (W (Proc.devRef .tc main_arg1)) := by
  after_results; rfl

theorem host0_pre_v1 : (StableHlo.after (List.take 25 (hostOps0 (F := Ideal))) W (Proc.devRef .tc main_v1) : IVec S300000 32)
    = end0 (W (Proc.devRef .tc main_arg1)) := by
  simp only [hostOps0, List.take_succ_cons, List.take_zero]
  after_results; rfl

theorem host0_pre_v3 : (StableHlo.after (List.take 25 (hostOps0 (F := Ideal))) W (Proc.devRef .tc main_v3) : IVec S300000 32)
    = end1 (W (Proc.devRef .tc main_arg1)) := by
  simp only [hostOps0, List.take_succ_cons, List.take_zero]
  after_results; rfl

theorem host0_cut_v19 (F : Valuation τ sig (Elt Ideal)) :
    (StableHlo.after (List.drop 25 (hostOps0 (F := Ideal))) F (Proc.devRef .tc main_v19) : IVec S600000 32)
      = concatenate S600000 0 [⟨S300000, F (Proc.devRef .tc main_v1)⟩, ⟨S300000, F (Proc.devRef .tc main_v3)⟩]
          concatenates_S300000_S300000_S600000_d0 := by
  simp only [hostOps0, List.drop_succ_cons, List.drop_zero]
  after_results
  try rfl

theorem host0_v19 : (StableHlo.after (hostOps0 (F := Ideal)) W (Proc.devRef .tc main_v19) : IVec S600000 32)
    = ends (W (Proc.devRef .tc main_arg1)) := by
  rw [StableHlo.after_cut 25 (hostOps0 (F := Ideal)) W, host0_cut_v19]
  exact concat2_congr _ _ _ _ _ _ (host0_pre_v1 W) (host0_pre_v3 W)

/-! ## The scaling column -/

/-- The last operation of the column's chain: the vector of inverses set as a [100000,1] column. -/
theorem host0_cut_v18 (F : Valuation τ sig (Elt Ideal)) :
    (StableHlo.after (List.drop 24 (hostOps0 (F := Ideal))) F (Proc.devRef .tc main_v18) : S100000x1.Idx → EReal)
      = shapeCast S100000x1 (F (Proc.devRef .tc main_v17)) shapeCasts_S100000_S100000x1 := by
  simp only [hostOps0, List.drop_succ_cons, List.drop_zero]
  after_results; rfl

/-- The vector of inverses from the zeros, the flattened edge array and the ones: one over (one plus the accumulation). -/
theorem host0_cut_v17 (F : Valuation τ sig (Elt Ideal)) :
    (StableHlo.after (List.drop 7 (List.take 24 (hostOps0 (F := Ideal)))) F (Proc.devRef .tc main_v17) : S100000.Idx → EReal)
      = Host.divf (F := Ideal) (broadcastInDim S100000 ![] bcast_S_S100000 (constant (F := Ideal) S_ .f32 0x3F800000#32))
          (addf (broadcastInDim S100000 ![] bcast_S_S100000 (constant (F := Ideal) S_ .f32 0x3F800000#32))
            (Host.scatterAdd (F := Ideal) scatter_S100000_S600000x1_S600000_n_0_0_1
              (F (Proc.devRef .tc main_v4)) (normCol6 (F (Proc.devRef .tc main_v5)))
              (broadcastInDim S600000 ![] bcast_S_S600000 (constant (F := Ideal) S_ .f32 0x3F800000#32)))) := by
  simp only [hostOps0, List.take_succ_cons, List.take_zero, List.drop_succ_cons, List.drop_zero]
  after_results
  try rfl

theorem host0_pre_v5 :
    (StableHlo.after (List.take 7 (List.take 24 (hostOps0 (F := Ideal)))) W (Proc.devRef .tc main_v5) : IVec S600000 32)
      = shapeCast S600000 (W (Proc.devRef .tc main_arg1)) shapeCasts_S300000x2_S600000 := by
  simp only [hostOps0, List.take_succ_cons, List.take_zero]
  after_results; rfl

theorem host0_pre_v4 :
    (StableHlo.after (List.take 7 (List.take 24 (hostOps0 (F := Ideal)))) W (Proc.devRef .tc main_v4) : S100000.Idx → EReal)
      = broadcastInDim S100000 ![] bcast_S_S100000 (constant (F := Ideal) S_ .f32 0x00000000#32) := by
  simp only [hostOps0, List.take_succ_cons, List.take_zero]
  after_results
  try rfl

theorem host0_dinv (E : IVec S300000x2 32) (hE : (W (Proc.devRef .tc main_arg1) : IVec S300000x2 32) = E) (r : Fin 100000) :
    (StableHlo.after (hostOps0 (F := Ideal)) W (Proc.devRef .tc main_v18) : S100000x1.Idx → EReal) (ix2 r (0 : Fin 1))
      = Cert.Spec.dinv E r := by
  rw [StableHlo.after_cut 24 (hostOps0 (F := Ideal)) W, host0_cut_v18]
  refine (Cert.LayoutIdx.shapeCast_a_a1_apply _ shapeCasts_S100000_S100000x1 r (0 : Fin 1)).trans ?_
  rw [StableHlo.after_cut 7 (List.take 24 (hostOps0 (F := Ideal))) W, host0_cut_v17, host0_pre_v5, host0_pre_v4, hE]
  rw [Cert.Spec.cnt_term E scatter_S100000_S600000x1_S600000_n_0_0_1 rfl bcast_S_S100000 bcast_S_S600000 _
    (normCol6_flat E)]
  exact Cert.Spec.dinv_term E bcast_S_S100000 r

/-! ## The first region's matrix and bias row -/

theorem host0_wT (k j : Fin 128) :
    (StableHlo.after (hostOps0 (F := Ideal)) W (Proc.devRef .tc main_v22) : S128x128.Idx → EReal) (ix2 k j)
      = (W (Proc.devRef .tc main_arg4) : S3x128x128.Idx → EReal) (ix3 (0 : Fin 3) j k) := by
  have e : (StableHlo.after (hostOps0 (F := Ideal)) W (Proc.devRef .tc main_v22) : S128x128.Idx → EReal)
      = transpose S128x128 [1, 0]
          (shapeCast S128x128 (extractStridedSlice S1x128x128 ![0, 0, 0] (W (Proc.devRef .tc main_arg4))
            slices_S3x128x128_S1x128x128_0_0_0) shapeCasts_S1x128x128_S128x128) transposes_S128x128_S128x128_1_0 := by
    after_results; rfl
  rw [e]
  exact wT_apply 0 0 rfl _ _ _ _ k j

theorem host0_brow (j : Fin 128) :
    (StableHlo.after (hostOps0 (F := Ideal)) W (Proc.devRef .tc main_v25) : S1x128.Idx → EReal) (ix2 (0 : Fin 1) j)
      = (W (Proc.devRef .tc main_arg5) : S3x128.Idx → EReal) (ix2 (0 : Fin 3) j) := by
  have e : (StableHlo.after (hostOps0 (F := Ideal)) W (Proc.devRef .tc main_v25) : S1x128.Idx → EReal)
      = shapeCast S1x128 (shapeCast S128 (extractStridedSlice S1x128 ![0, 0] (W (Proc.devRef .tc main_arg5))
          slices_S3x128_S1x128_0_0) shapeCasts_S1x128_S128) shapeCasts_S128_S1x128 := by
    after_results; rfl
  rw [e]
  exact row_apply 0 0 rfl _ _ _ _ j

/-! ## Together -/

variable {a : Cert.Spec.Args}

theorem pers_host0 (h : Base a W) : Pers a (StableHlo.after (hostOps0 (F := Ideal)) W) where
  x := (host0_keep_arg0 W).trans h.x
  E := (host0_keep_arg1 W).trans h.E
  W0 := (host0_keep_arg2 W).trans h.W0
  b0 := (host0_keep_arg3 W).trans h.b0
  W1 := (host0_keep_arg4 W).trans h.W1
  b1 := (host0_keep_arg5 W).trans h.b1
  γ := (host0_keep_arg6 W).trans h.γ
  β := (host0_keep_arg7 W).trans h.β
  v1 := (host0_v1 W).trans (congrArg end0 h.E)
  v3 := (host0_v3 W).trans (congrArg end1 h.E)
  v19 := (host0_v19 W).trans (congrArg ends h.E)
  d := fun r => host0_dinv W a.E h.E r

theorem host0_wT' (h : Base a W) (k j : Fin 128) :
    (StableHlo.after (hostOps0 (F := Ideal)) W (Proc.devRef .tc main_v22) : S128x128.Idx → EReal) (ix2 k j)
      = a.W1 (ix3 (0 : Fin 3) j k) := by
  rw [host0_wT, h.W1]

theorem host0_brow' (h : Base a W) (j : Fin 128) :
    (StableHlo.after (hostOps0 (F := Ideal)) W (Proc.devRef .tc main_v25) : S1x128.Idx → EReal) (ix2 (0 : Fin 1) j)
      = a.b1 (ix2 (0 : Fin 3) j) := by
  rw [host0_brow, h.b1]

end Cert.KernelIdeal.KB

end
-- ==== Proof.K.Host1.lean ====
/-
  The host operations before the combine region of layer 0, read over a variable memory W: the edge sum — the rows of
  the previous region's second output gathered at the second and at the first endpoints, laid end to end, and
  accumulated into zeros at the 600000 endpoints — is the specification's one-accumulation edge sum; the region's
  matrix and bias row are slab 0 of the first weight array, transposed, and row 0 of the first bias array; the
  arguments, the endpoint vectors and the scaling column are not written.
-/
import proofs.«178513_j90202903151305_2_alg».proof.Proof.Gen.KernelIdeal.Frame
import proofs.«178513_j90202903151305_2_alg».proof.Proof.Spec
import proofs.«178513_j90202903151305_2_alg».proof.Proof.EdgeTerms
import proofs.«178513_j90202903151305_2_alg».proof.Proof.LibFoldCut
import proofs.«178513_j90202903151305_2_alg».proof.Proof.K.HostLib
import proofs.«178513_j90202903151305_2_alg».proof.Proof.K.Pers
import proofs.«178513_j90202903151305_2_alg».proof.Proof.K.Cols

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

variable (W : Valuation τ sig (Elt Ideal))

/-! ## Buffers the stretch does not write -/
theorem host1_keep_arg0 : StableHlo.after (hostOps1 (F := Ideal)) W (Proc.devRef .tc main_arg0) = W (Proc.devRef .tc main_arg0) := by
  host_keep hostOps1
theorem host1_keep_arg1 : StableHlo.after (hostOps1 (F := Ideal)) W (Proc.devRef .tc main_arg1) = W (Proc.devRef .tc main_arg1) := by
  host_keep hostOps1
theorem host1_keep_arg2 : StableHlo.after (hostOps1 (F := Ideal)) W (Proc.devRef .tc main_arg2) = W (Proc.devRef .tc main_arg2) := by
  host_keep hostOps1
theorem host1_keep_arg3 : StableHlo.after (hostOps1 (F := Ideal)) W (Proc.devRef .tc main_arg3) = W (Proc.devRef .tc main_arg3) := by
  host_keep hostOps1
theorem host1_keep_arg4 : StableHlo.after (hostOps1 (F := Ideal)) W (Proc.devRef .tc main_arg4) = W (Proc.devRef .tc main_arg4) := by
  host_keep hostOps1
theorem host1_keep_arg5 : StableHlo.after (hostOps1 (F := Ideal)) W (Proc.devRef .tc main_arg5) = W (Proc.devRef .tc main_arg5) := by
  host_keep hostOps1
theorem host1_keep_arg6 : StableHlo.after (hostOps1 (F := Ideal)) W (Proc.devRef .tc main_arg6) = W (Proc.devRef .tc main_arg6) := by
  host_keep hostOps1
theorem host1_keep_arg7 : StableHlo.after (hostOps1 (F := Ideal)) W (Proc.devRef .tc main_arg7) = W (Proc.devRef .tc main_arg7) := by
  host_keep hostOps1
theorem host1_keep_v1 : StableHlo.after (hostOps1 (F := Ideal)) W (Proc.devRef .tc main_v1) = W (Proc.devRef .tc main_v1) := by
  host_keep hostOps1
theorem host1_keep_v3 : StableHlo.after (hostOps1 (F := Ideal)) W (Proc.devRef .tc main_v3) = W (Proc.devRef .tc main_v3) := by
  host_keep hostOps1
theorem host1_keep_v19 : StableHlo.after (hostOps1 (F := Ideal)) W (Proc.devRef .tc main_v19) = W (Proc.devRef .tc main_v19) := by
  host_keep hostOps1
theorem host1_keep_v18 : StableHlo.after (hostOps1 (F := Ideal)) W (Proc.devRef .tc main_v18) = W (Proc.devRef .tc main_v18) := by
  host_keep hostOps1

/-! ## The edge sum -/

set_option maxHeartbeats 1000000 in
/-- The rows gathered at the second endpoints. -/
theorem host1_pre_ga :
    (StableHlo.after (List.take 18 (hostOps1 (F := Ideal))) W (Proc.devRef .tc main_v33) : S300000x128.Idx → EReal)
      = Host.gather gather_S100000x128_S300000x1_S300000x128_1_0_n_n_0_1_1128 (W (Proc.devRef .tc main_v26))
          (normCol3 (W (Proc.devRef .tc main_v3))) := by
  simp only [hostOps1, List.take_succ_cons, List.take_zero]
  after_results_simp
  try rfl

set_option maxHeartbeats 1000000 in
/-- The rows gathered at the first endpoints. -/
theorem host1_pre_gb :
    (StableHlo.after (List.take 18 (hostOps1 (F := Ideal))) W (Proc.devRef .tc main_v40) : S300000x128.Idx → EReal)
      = Host.gather gather_S100000x128_S300000x1_S300000x128_1_0_n_n_0_1_1128 (W (Proc.devRef .tc main_v26))
          (normCol3 (W (Proc.devRef .tc main_v1))) := by
  simp only [hostOps1, List.take_succ_cons, List.take_zero]
  after_results_simp
  try rfl

set_option maxHeartbeats 1000000 in
theorem host1_pre_v19 :
    StableHlo.after (List.take 18 (hostOps1 (F := Ideal))) W (Proc.devRef .tc main_v19) = W (Proc.devRef .tc main_v19) := by
  simp only [hostOps1, List.take_succ_cons, List.take_zero]
  after_results_simp
  try rfl

set_option maxHeartbeats 1000000 in
/-- From the concatenation on: the accumulation of the concatenated rows into zeros at the concatenated endpoints. -/
theorem host1_cut_agg (F : Valuation τ sig (Elt Ideal)) :
    (StableHlo.after (List.drop 18 (hostOps1 (F := Ideal))) F (Proc.devRef .tc main_v49) : S100000x128.Idx → EReal)
      = Host.scatterAdd (F := Ideal) scatter_S100000x128_S600000x1_S600000x128_1_0_0_1
          (broadcastInDim S100000x128 ![] bcast_S_S100000x128 (constant (F := Ideal) S_ .f32 0x00000000#32))
          (normCol6 (F (Proc.devRef .tc main_v19)))
          (concatenate S600000x128 0 [⟨S300000x128, F (Proc.devRef .tc main_v33)⟩, ⟨S300000x128, F (Proc.devRef .tc main_v40)⟩]
            concatenates_S300000x128_S300000x128_S600000x128_d0) := by
  simp only [hostOps1, List.drop_succ_cons, List.drop_zero]
  after_results_simp
  try rfl

variable {a : Cert.Spec.Args}

theorem host1_agg (h : Pers a W) (H : Cert.Spec.Arr)
    (hH : (W (Proc.devRef .tc main_v26) : S100000x128.Idx → EReal) = H) :
    (StableHlo.after (hostOps1 (F := Ideal)) W (Proc.devRef .tc main_v49) : S100000x128.Idx → EReal) = Cert.Spec.aggK a.E H := by
  rw [StableHlo.after_cut 18 (hostOps1 (F := Ideal)) W, host1_cut_agg, host1_pre_v19, h.v19,
    concat2_congr (s := S300000x128) (t := S600000x128) 0 _ _ _ _ concatenates_S300000x128_S300000x128_S600000x128_d0
      (host1_pre_ga W) (host1_pre_gb W), h.v1, h.v3, hH]
  exact Cert.Spec.aggK_term a.E H gather_S100000x128_S300000x1_S300000x128_1_0_n_n_0_1_1128 rfl
    scatter_S100000x128_S600000x1_S600000x128_1_0_0_1 rfl bcast_S_S100000x128
    concatenates_S300000x128_S300000x128_S600000x128_d0 _ _ _ (normCol3_end0 a.E) (normCol3_end1 a.E) (normCol6_ends a.E)

/-! ## The region's matrix and bias row -/

theorem host1_wT (h : Pers a W) (k j : Fin 128) :
    (StableHlo.after (hostOps1 (F := Ideal)) W (Proc.devRef .tc main_v52) : S128x128.Idx → EReal) (ix2 k j)
      = a.W0 (ix3 (0 : Fin 3) j k) := by
  have e : (StableHlo.after (hostOps1 (F := Ideal)) W (Proc.devRef .tc main_v52) : S128x128.Idx → EReal)
      = transpose S128x128 [1, 0]
          (shapeCast S128x128 (extractStridedSlice S1x128x128 ![0, 0, 0] (W (Proc.devRef .tc main_arg2))
            slices_S3x128x128_S1x128x128_0_0_0) shapeCasts_S1x128x128_S128x128) transposes_S128x128_S128x128_1_0 := by
    after_results; rfl
  rw [e, h.W0]
  exact wT_apply 0 0 rfl _ _ _ _ k j

theorem host1_brow (h : Pers a W) (j : Fin 128) :
    (StableHlo.after (hostOps1 (F := Ideal)) W (Proc.devRef .tc main_v55) : S1x128.Idx → EReal) (ix2 (0 : Fin 1) j)
      = a.b0 (ix2 (0 : Fin 3) j) := by
  have e : (StableHlo.after (hostOps1 (F := Ideal)) W (Proc.devRef .tc main_v55) : S1x128.Idx → EReal)
      = shapeCast S1x128 (shapeCast S128 (extractStridedSlice S1x128 ![0, 0] (W (Proc.devRef .tc main_arg3))
          slices_S3x128_S1x128_0_0) shapeCasts_S1x128_S128) shapeCasts_S128_S1x128 := by
    after_results; rfl
  rw [e, h.b0]
  exact row_apply 0 0 rfl _ _ _ _ j

/-! ## What stays -/

theorem pers_host1 (h : Pers a W) : Pers a (StableHlo.after (hostOps1 (F := Ideal)) W) where
  x := (host1_keep_arg0 W).trans h.x
  E := (host1_keep_arg1 W).trans h.E
  W0 := (host1_keep_arg2 W).trans h.W0
  b0 := (host1_keep_arg3 W).trans h.b0
  W1 := (host1_keep_arg4 W).trans h.W1
  b1 := (host1_keep_arg5 W).trans h.b1
  γ := (host1_keep_arg6 W).trans h.γ
  β := (host1_keep_arg7 W).trans h.β
  v1 := (host1_keep_v1 W).trans h.v1
  v3 := (host1_keep_v3 W).trans h.v3
  v19 := (host1_keep_v19 W).trans h.v19
  d := fun r => (congrFun (host1_keep_v18 W) _).trans (h.d r)

end Cert.KernelIdeal.KB

end
-- ==== Proof.K.HostStat.lean ====
/-
  The mean row and the variance row that the host makes from two [160,128] arrays of per-block partial sums, read at
  an index over variable arrays: the mean is zero plus the 20 block sums, divided by the number of vertices; the
  variance is the same of the second array, minus the squared mean, clipped at zero. When the two arrays hold the
  block sums of an array and of its squares these are the specification's mean and variance by blocks.
-/
import proofs.«178513_j90202903151305_2_alg».proof.Proof.Spec
import proofs.«178513_j90202903151305_2_alg».proof.Proof.K.HostLib
import Idealize.ShloMosaic.Lib.IdealHost

set_option maxRecDepth 16384

noncomputable section

namespace Cert.KernelIdeal.KB

open Idealize.ShloMosaic Idealize.ShloMosaic.ValueIdx Cert.Spec
open scoped BigOperators

/-- A float literal broadcast to a [1,128] row reads the literal everywhere. -/
theorem constRow_apply (b : BitVec 32) (h : (⟨0, ![]⟩ : Shape).BroadcastsInDim ⟨2, ![1, 128]⟩ ![])
    (i : (⟨2, ![1, 128]⟩ : Shape).Idx) :
    broadcastInDim ⟨2, ![1, 128]⟩ ![] h (constant (F := Ideal) ⟨0, ![]⟩ .f32 b) i = Ideal.ofBits .f32 b :=
  broadcastInDim_scalar_apply h _ i

section
variable (P Q : (⟨2, ![160, 128]⟩ : Shape).Idx → EReal)
  (h1 : (⟨2, ![160, 128]⟩ : Shape).ShapeCasts ⟨3, ![20, 8, 128]⟩)
  (hs : (⟨3, ![20, 8, 128]⟩ : Shape).Slices ![0, 0, 0] ⟨3, ![20, 1, 128]⟩)
  (h2 : (⟨3, ![20, 1, 128]⟩ : Shape).ShapeCasts ⟨2, ![20, 128]⟩)
  (hr : (⟨2, ![20, 128]⟩ : Shape).ReducesTo [0] ⟨1, ![128]⟩) (hu : 0 < (⟨0, ![]⟩ : Shape).numel)
  (hb : (⟨1, ![128]⟩ : Shape).BroadcastsInDim ⟨2, ![1, 128]⟩ (![1] : Fin 1 → Fin 2))
  (hc : (⟨0, ![]⟩ : Shape).BroadcastsInDim ⟨2, ![1, 128]⟩ ![])

/-- The row of column sums of the partial sums, as the host spells it. -/
abbrev sumRow : (⟨2, ![1, 128]⟩ : Shape).Idx → EReal :=
  broadcastInDim ⟨2, ![1, 128]⟩ (![1] : Fin 1 → Fin 2) hb
    (Host.reduceAdd (F := Ideal)
      (shapeCast ⟨2, ![20, 128]⟩
        (extractStridedSlice ⟨3, ![20, 1, 128]⟩ ![0, 0, 0] (shapeCast ⟨3, ![20, 8, 128]⟩ P h1) hs) h2)
      (constant (F := Ideal) ⟨0, ![]⟩ .f32 0x00000000#32) hr hu)

/-- The mean of the column over the 20 blocks, from the partial sums. -/
def meanOf (j : Fin 128) : EReal :=
  Ideal.div (f0 + ∑ t : Fin 20, P (ix2 (⟨8 * t.val, by have := t.isLt; omega⟩ : Fin 160) j)) nV

/-- The mean row at (0, j). -/
theorem meanRow_apply (j : Fin 128) :
    Host.divf (F := Ideal) (φ := .f32) (sumRow P h1 hs h2 hr hu hb)
        (broadcastInDim ⟨2, ![1, 128]⟩ ![] hc (constant (F := Ideal) ⟨0, ![]⟩ .f32 0x47C35000#32)) (ix2 0 j)
      = meanOf P j :=
  (hostDivf_apply _ _ _).trans (congrArg₂ Ideal.div (sumRow_apply P h1 hs h2 hr hu hb j) (constRow_apply _ hc _))

/-- The variance of the column, from the two arrays of partial sums. -/
def varOf (j : Fin 128) : EReal :=
  max (Ideal.div (f0 + ∑ t : Fin 20, Q (ix2 (⟨8 * t.val, by have := t.isLt; omega⟩ : Fin 160) j)) nV
        - meanOf P j * meanOf P j) f0

/-- The variance row at (0, j). -/
theorem varRow_apply (j : Fin 128) :
    maximumf (F := Ideal) (φ := .f32)
        (subf (F := Ideal) (φ := .f32)
          (Host.divf (F := Ideal) (φ := .f32) (sumRow Q h1 hs h2 hr hu hb)
            (broadcastInDim ⟨2, ![1, 128]⟩ ![] hc (constant (F := Ideal) ⟨0, ![]⟩ .f32 0x47C35000#32)))
          (mulf (F := Ideal) (φ := .f32)
            (Host.divf (F := Ideal) (φ := .f32) (sumRow P h1 hs h2 hr hu hb)
              (broadcastInDim ⟨2, ![1, 128]⟩ ![] hc (constant (F := Ideal) ⟨0, ![]⟩ .f32 0x47C35000#32)))
            (Host.divf (F := Ideal) (φ := .f32) (sumRow P h1 hs h2 hr hu hb)
              (broadcastInDim ⟨2, ![1, 128]⟩ ![] hc (constant (F := Ideal) ⟨0, ![]⟩ .f32 0x47C35000#32)))))
        (broadcastInDim ⟨2, ![1, 128]⟩ ![] hc (constant (F := Ideal) ⟨0, ![]⟩ .f32 0x00000000#32)) (ix2 0 j)
      = varOf P Q j := by
  refine (maximumf_apply _ _ _).trans (congrArg₂ max ?_ (constRow_apply _ hc _))
  refine (subf_apply _ _ _).trans (congrArg₂ (· - ·) (meanRow_apply Q h1 hs h2 hr hu hb hc j) ?_)
  exact (mulf_apply _ _ _).trans
    (congrArg₂ (· * ·) (meanRow_apply P h1 hs h2 hr hu hb hc j) (meanRow_apply P h1 hs h2 hr hu hb hc j))

end

/-- When the partial sums are the block sums of G, the mean is the specification's mean by blocks. -/
theorem meanOf_eq (G : Arr) (P : (⟨2, ![160, 128]⟩ : Shape).Idx → EReal)
    (hP : ∀ q j, P (ix2 q j) = blockSumAt G q j) (j : Fin 128) : meanOf P j = meanK G j := by
  unfold meanOf meanK
  rw [blockSums_total G P hP j]

/-- When the second partial sums are the block sums of the squares of G, the variance is the specification's. -/
theorem varOf_eq (G : Arr) (P Q : (⟨2, ![160, 128]⟩ : Shape).Idx → EReal)
    (hP : ∀ q j, P (ix2 q j) = blockSumAt G q j)
    (hQ : ∀ q j, Q (ix2 q j) = blockSumAt (fun i => G i * G i) q j) (j : Fin 128) : varOf P Q j = varK G j := by
  unfold varOf varK
  rw [meanOf_eq G P hP j, blockSums_total (fun i => G i * G i) Q hQ j]

end Cert.KernelIdeal.KB

end
-- ==== Proof.K.Host2.lean ====
/-
  The host operations after the first combine region, read index by index over variable buffer contents: the mean row
  and the variance row made from the two arrays of per-block partial sums, and the factor and shift rows of the
  layer, and the next layer's second dense map (its matrix transposed, its bias row). The combined array itself is not written.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.HostLib
import proofs.«178513_j90202903151305_2_alg».proof.Proof.K.HostStat
import proofs.«178513_j90202903151305_2_alg».proof.Proof.K.Pers

set_option maxRecDepth 16384

noncomputable section

namespace Cert.KernelIdeal.KB

open Cert.KernelIdeal Cert.KernelIdeal.Gen Cert.KernelIdeal.KA Idealize.ShloMosaic Idealize.ShloMosaic.TcCoe
open Idealize.ShloMosaic.ValueIdx Idealize.SL.Sem Cert.Spec
open scoped BigOperators

variable (W : Valuation τ sig (Elt Ideal))

/-- No operation of the stretch writes the combined array. -/
theorem host2_g :
    StableHlo.after (hostOps2 (F := Ideal)) W (Proc.devRef .tc main_v56_0) = W (Proc.devRef .tc main_v56_0) :=
  StableHlo.after_of_forall_not_mem (b := Proc.devRef .tc main_v56_0) _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

/-- The mean row, from the first array of partial sums. -/
theorem host2_meanOf (j : Fin 128) :
    arr S1x128 (StableHlo.after (hostOps2 (F := Ideal)) W (Proc.devRef .tc main_v68)) (ix2 0 j)
      = meanOf (arr S160x128 (W (Proc.devRef .tc main_v56_1))) j := by
  show StableHlo.after (hostOps2 (F := Ideal)) W (Proc.devRef .tc main_v68) (ix2 0 j) = _
  after_results
  exact meanRow_apply (arr S160x128 (W (Proc.devRef .tc main_v56_1))) _ _ _ _ _ _ _ j

/-- The variance row, from the two arrays of partial sums. -/
theorem host2_varOf (j : Fin 128) :
    arr S1x128 (StableHlo.after (hostOps2 (F := Ideal)) W (Proc.devRef .tc main_v74)) (ix2 0 j)
      = varOf (arr S160x128 (W (Proc.devRef .tc main_v56_1))) (arr S160x128 (W (Proc.devRef .tc main_v56_2))) j := by
  show StableHlo.after (hostOps2 (F := Ideal)) W (Proc.devRef .tc main_v74) (ix2 0 j) = _
  after_results_simp
  exact varRow_apply (arr S160x128 (W (Proc.devRef .tc main_v56_1))) (arr S160x128 (W (Proc.devRef .tc main_v56_2)))
    _ _ _ _ _ _ _ j

/-- When the first partial sums are the block sums of G, the mean row is the specification's mean by blocks. -/
theorem host2_mean (G : Arr)
    (hP : ∀ q j, arr S160x128 (W (Proc.devRef .tc main_v56_1)) (ix2 q j) = blockSumAt G q j) (j : Fin 128) :
    arr S1x128 (StableHlo.after (hostOps2 (F := Ideal)) W (Proc.devRef .tc main_v68)) (ix2 0 j) = meanK G j :=
  (host2_meanOf W j).trans (meanOf_eq G _ hP j)

/-- When moreover the second partial sums are the block sums of the squares of G, the variance row is the
    specification's variance by blocks. -/
theorem host2_var (G : Arr)
    (hP : ∀ q j, arr S160x128 (W (Proc.devRef .tc main_v56_1)) (ix2 q j) = blockSumAt G q j)
    (hQ : ∀ q j, arr S160x128 (W (Proc.devRef .tc main_v56_2)) (ix2 q j) = blockSumAt (fun i => G i * G i) q j)
    (j : Fin 128) :
    arr S1x128 (StableHlo.after (hostOps2 (F := Ideal)) W (Proc.devRef .tc main_v74)) (ix2 0 j) = varK G j :=
  (host2_varOf W j).trans (varOf_eq G _ _ hP hQ j)

/-- The layer's factor row. -/
theorem host2_gammaW (j : Fin 128) :
    arr S1x128 (StableHlo.after (hostOps2 (F := Ideal)) W (Proc.devRef .tc main_v77)) (ix2 0 j)
      = arr S3x128 (W (Proc.devRef .tc main_arg6)) (ix2 (0 : Fin 3) j) := by
  show StableHlo.after (hostOps2 (F := Ideal)) W (Proc.devRef .tc main_v77) (ix2 0 j) = _
  after_results
  exact row_apply 0 (0 : Fin 3) rfl (arr S3x128 (W (Proc.devRef .tc main_arg6))) _ _ _ j

/-- The layer's shift row. -/
theorem host2_betaW (j : Fin 128) :
    arr S1x128 (StableHlo.after (hostOps2 (F := Ideal)) W (Proc.devRef .tc main_v80)) (ix2 0 j)
      = arr S3x128 (W (Proc.devRef .tc main_arg7)) (ix2 (0 : Fin 3) j) := by
  show StableHlo.after (hostOps2 (F := Ideal)) W (Proc.devRef .tc main_v80) (ix2 0 j) = _
  after_results
  exact row_apply 0 (0 : Fin 3) rfl (arr S3x128 (W (Proc.devRef .tc main_arg7))) _ _ _ j

/-- The next layer's second dense map, its matrix transposed: entry (k, j) is the weight (layer 1, j, k). -/
theorem host2_wTW (k j : Fin 128) :
    arr S128x128 (StableHlo.after (hostOps2 (F := Ideal)) W (Proc.devRef .tc main_v83)) (ix2 k j)
      = arr S3x128x128 (W (Proc.devRef .tc main_arg4)) (ix3 (1 : Fin 3) j k) := by
  show StableHlo.after (hostOps2 (F := Ideal)) W (Proc.devRef .tc main_v83) (ix2 k j) = _
  after_results
  exact wT_apply 1 (1 : Fin 3) rfl (arr S3x128x128 (W (Proc.devRef .tc main_arg4))) _ _ _ k j

/-- The next layer's second bias row. -/
theorem host2_browW (j : Fin 128) :
    arr S1x128 (StableHlo.after (hostOps2 (F := Ideal)) W (Proc.devRef .tc main_v86)) (ix2 0 j)
      = arr S3x128 (W (Proc.devRef .tc main_arg5)) (ix2 (1 : Fin 3) j) := by
  show StableHlo.after (hostOps2 (F := Ideal)) W (Proc.devRef .tc main_v86) (ix2 0 j) = _
  after_results
  exact row_apply 1 (1 : Fin 3) rfl (arr S3x128 (W (Proc.devRef .tc main_arg5))) _ _ _ j

/-! ## With the arguments in place -/

/-- The stretch writes none of the argument buffers, the endpoint vectors or the scaling column. -/
theorem pers_host2 {a : Args} (h : Pers a W) : Pers a (StableHlo.after (hostOps2 (F := Ideal)) W) := by
  have k_main_arg0 : StableHlo.after (hostOps2 (F := Ideal)) W (Proc.devRef .tc main_arg0) = W (Proc.devRef .tc main_arg0) := by
    host_keep hostOps2
  have k_main_arg1 : StableHlo.after (hostOps2 (F := Ideal)) W (Proc.devRef .tc main_arg1) = W (Proc.devRef .tc main_arg1) := by
    host_keep hostOps2
  have k_main_arg2 : StableHlo.after (hostOps2 (F := Ideal)) W (Proc.devRef .tc main_arg2) = W (Proc.devRef .tc main_arg2) := by
    host_keep hostOps2
  have k_main_arg3 : StableHlo.after (hostOps2 (F := Ideal)) W (Proc.devRef .tc main_arg3) = W (Proc.devRef .tc main_arg3) := by
    host_keep hostOps2
  have k_main_arg4 : StableHlo.after (hostOps2 (F := Ideal)) W (Proc.devRef .tc main_arg4) = W (Proc.devRef .tc main_arg4) := by
    host_keep hostOps2
  have k_main_arg5 : StableHlo.after (hostOps2 (F := Ideal)) W (Proc.devRef .tc main_arg5) = W (Proc.devRef .tc main_arg5) := by
    host_keep hostOps2
  have k_main_arg6 : StableHlo.after (hostOps2 (F := Ideal)) W (Proc.devRef .tc main_arg6) = W (Proc.devRef .tc main_arg6) := by
    host_keep hostOps2
  have k_main_arg7 : StableHlo.after (hostOps2 (F := Ideal)) W (Proc.devRef .tc main_arg7) = W (Proc.devRef .tc main_arg7) := by
    host_keep hostOps2
  have k_main_v1 : StableHlo.after (hostOps2 (F := Ideal)) W (Proc.devRef .tc main_v1) = W (Proc.devRef .tc main_v1) := by
    host_keep hostOps2
  have k_main_v3 : StableHlo.after (hostOps2 (F := Ideal)) W (Proc.devRef .tc main_v3) = W (Proc.devRef .tc main_v3) := by
    host_keep hostOps2
  have k_main_v19 : StableHlo.after (hostOps2 (F := Ideal)) W (Proc.devRef .tc main_v19) = W (Proc.devRef .tc main_v19) := by
    host_keep hostOps2
  have k_main_v18 : StableHlo.after (hostOps2 (F := Ideal)) W (Proc.devRef .tc main_v18) = W (Proc.devRef .tc main_v18) := by
    host_keep hostOps2
  exact
    { x := k_main_arg0.trans h.x, E := k_main_arg1.trans h.E, W0 := k_main_arg2.trans h.W0, b0 := k_main_arg3.trans h.b0,
      W1 := k_main_arg4.trans h.W1, b1 := k_main_arg5.trans h.b1, γ := k_main_arg6.trans h.γ, β := k_main_arg7.trans h.β,
      v1 := k_main_v1.trans h.v1, v3 := k_main_v3.trans h.v3, v19 := k_main_v19.trans h.v19,
      d := fun r => (congrFun k_main_v18 _).trans (h.d r) }

/-- The layer's factor row is the argument's. -/
theorem host2_gamma {a : Args} (h : Pers a W) (j : Fin 128) :
    arr S1x128 (StableHlo.after (hostOps2 (F := Ideal)) W (Proc.devRef .tc main_v77)) (ix2 0 j)
      = a.γ (ix2 (0 : Fin 3) j) :=
  (host2_gammaW W j).trans (congrFun h.γ _)

/-- The layer's shift row is the argument's. -/
theorem host2_beta {a : Args} (h : Pers a W) (j : Fin 128) :
    arr S1x128 (StableHlo.after (hostOps2 (F := Ideal)) W (Proc.devRef .tc main_v80)) (ix2 0 j)
      = a.β (ix2 (0 : Fin 3) j) :=
  (host2_betaW W j).trans (congrFun h.β _)

/-- The next layer's second dense map, transposed, is the argument's. -/
theorem host2_wT {a : Args} (h : Pers a W) (k j : Fin 128) :
    arr S128x128 (StableHlo.after (hostOps2 (F := Ideal)) W (Proc.devRef .tc main_v83)) (ix2 k j)
      = a.W1 (ix3 (1 : Fin 3) j k) :=
  (host2_wTW W k j).trans (congrFun h.W1 _)

/-- The next layer's second bias row is the argument's. -/
theorem host2_brow {a : Args} (h : Pers a W) (j : Fin 128) :
    arr S1x128 (StableHlo.after (hostOps2 (F := Ideal)) W (Proc.devRef .tc main_v86)) (ix2 0 j)
      = a.b1 (ix2 (1 : Fin 3) j) :=
  (host2_browW W j).trans (congrFun h.b1 _)

end Cert.KernelIdeal.KB

end
-- ==== Proof.K.Host3.lean ====
/-
  The host operations before the combine region of layer 1, read over a variable memory W: the edge sum — the rows of
  the previous region's second output gathered at the second and at the first endpoints, laid end to end, and
  accumulated into zeros at the 600000 endpoints — is the specification's one-accumulation edge sum; the region's
  matrix and bias row are slab 1 of the first weight array, transposed, and row 1 of the first bias array; the
  arguments, the endpoint vectors and the scaling column are not written.
-/
import proofs.«178513_j90202903151305_2_alg».proof.Proof.Gen.KernelIdeal.Frame
import proofs.«178513_j90202903151305_2_alg».proof.Proof.Spec
import proofs.«178513_j90202903151305_2_alg».proof.Proof.EdgeTerms
import proofs.«178513_j90202903151305_2_alg».proof.Proof.LibFoldCut
import proofs.«178513_j90202903151305_2_alg».proof.Proof.K.HostLib
import proofs.«178513_j90202903151305_2_alg».proof.Proof.K.Pers
import proofs.«178513_j90202903151305_2_alg».proof.Proof.K.Cols

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

variable (W : Valuation τ sig (Elt Ideal))

/-! ## Buffers the stretch does not write -/
theorem host3_keep_arg0 : StableHlo.after (hostOps3 (F := Ideal)) W (Proc.devRef .tc main_arg0) = W (Proc.devRef .tc main_arg0) := by
  host_keep hostOps3
theorem host3_keep_arg1 : StableHlo.after (hostOps3 (F := Ideal)) W (Proc.devRef .tc main_arg1) = W (Proc.devRef .tc main_arg1) := by
  host_keep hostOps3
theorem host3_keep_arg2 : StableHlo.after (hostOps3 (F := Ideal)) W (Proc.devRef .tc main_arg2) = W (Proc.devRef .tc main_arg2) := by
  host_keep hostOps3
theorem host3_keep_arg3 : StableHlo.after (hostOps3 (F := Ideal)) W (Proc.devRef .tc main_arg3) = W (Proc.devRef .tc main_arg3) := by
  host_keep hostOps3
theorem host3_keep_arg4 : StableHlo.after (hostOps3 (F := Ideal)) W (Proc.devRef .tc main_arg4) = W (Proc.devRef .tc main_arg4) := by
  host_keep hostOps3
theorem host3_keep_arg5 : StableHlo.after (hostOps3 (F := Ideal)) W (Proc.devRef .tc main_arg5) = W (Proc.devRef .tc main_arg5) := by
  host_keep hostOps3
theorem host3_keep_arg6 : StableHlo.after (hostOps3 (F := Ideal)) W (Proc.devRef .tc main_arg6) = W (Proc.devRef .tc main_arg6) := by
  host_keep hostOps3
theorem host3_keep_arg7 : StableHlo.after (hostOps3 (F := Ideal)) W (Proc.devRef .tc main_arg7) = W (Proc.devRef .tc main_arg7) := by
  host_keep hostOps3
theorem host3_keep_v1 : StableHlo.after (hostOps3 (F := Ideal)) W (Proc.devRef .tc main_v1) = W (Proc.devRef .tc main_v1) := by
  host_keep hostOps3
theorem host3_keep_v3 : StableHlo.after (hostOps3 (F := Ideal)) W (Proc.devRef .tc main_v3) = W (Proc.devRef .tc main_v3) := by
  host_keep hostOps3
theorem host3_keep_v19 : StableHlo.after (hostOps3 (F := Ideal)) W (Proc.devRef .tc main_v19) = W (Proc.devRef .tc main_v19) := by
  host_keep hostOps3
theorem host3_keep_v18 : StableHlo.after (hostOps3 (F := Ideal)) W (Proc.devRef .tc main_v18) = W (Proc.devRef .tc main_v18) := by
  host_keep hostOps3
theorem host3_keep_v87_0 : StableHlo.after (hostOps3 (F := Ideal)) W (Proc.devRef .tc main_v87_0) = W (Proc.devRef .tc main_v87_0) := by
  host_keep hostOps3

/-! ## The edge sum -/

set_option maxHeartbeats 1000000 in
/-- The rows gathered at the second endpoints. -/
theorem host3_pre_ga :
    (StableHlo.after (List.take 18 (hostOps3 (F := Ideal))) W (Proc.devRef .tc main_v94) : S300000x128.Idx → EReal)
      = Host.gather gather_S100000x128_S300000x1_S300000x128_1_0_n_n_0_1_1128 (W (Proc.devRef .tc main_v87_1))
          (normCol3 (W (Proc.devRef .tc main_v3))) := by
  simp only [hostOps3, List.take_succ_cons, List.take_zero]
  after_results_simp
  try rfl

set_option maxHeartbeats 1000000 in
/-- The rows gathered at the first endpoints. -/
theorem host3_pre_gb :
    (StableHlo.after (List.take 18 (hostOps3 (F := Ideal))) W (Proc.devRef .tc main_v101) : S300000x128.Idx → EReal)
      = Host.gather gather_S100000x128_S300000x1_S300000x128_1_0_n_n_0_1_1128 (W (Proc.devRef .tc main_v87_1))
          (normCol3 (W (Proc.devRef .tc main_v1))) := by
  simp only [hostOps3, List.take_succ_cons, List.take_zero]
  after_results_simp
  try rfl

set_option maxHeartbeats 1000000 in
theorem host3_pre_v19 :
    StableHlo.after (List.take 18 (hostOps3 (F := Ideal))) W (Proc.devRef .tc main_v19) = W (Proc.devRef .tc main_v19) := by
  simp only [hostOps3, List.take_succ_cons, List.take_zero]
  after_results_simp
  try rfl

set_option maxHeartbeats 1000000 in
/-- From the concatenation on: the accumulation of the concatenated rows into zeros at the concatenated endpoints. -/
theorem host3_cut_agg (F : Valuation τ sig (Elt Ideal)) :
    (StableHlo.after (List.drop 18 (hostOps3 (F := Ideal))) F (Proc.devRef .tc main_v110) : S100000x128.Idx → EReal)
      = Host.scatterAdd (F := Ideal) scatter_S100000x128_S600000x1_S600000x128_1_0_0_1
          (broadcastInDim S100000x128 ![] bcast_S_S100000x128 (constant (F := Ideal) S_ .f32 0x00000000#32))
          (normCol6 (F (Proc.devRef .tc main_v19)))
          (concatenate S600000x128 0 [⟨S300000x128, F (Proc.devRef .tc main_v94)⟩, ⟨S300000x128, F (Proc.devRef .tc main_v101)⟩]
            concatenates_S300000x128_S300000x128_S600000x128_d0) := by
  simp only [hostOps3, List.drop_succ_cons, List.drop_zero]
  after_results_simp
  try rfl

variable {a : Cert.Spec.Args}

theorem host3_agg (h : Pers a W) (H : Cert.Spec.Arr)
    (hH : (W (Proc.devRef .tc main_v87_1) : S100000x128.Idx → EReal) = H) :
    (StableHlo.after (hostOps3 (F := Ideal)) W (Proc.devRef .tc main_v110) : S100000x128.Idx → EReal) = Cert.Spec.aggK a.E H := by
  rw [StableHlo.after_cut 18 (hostOps3 (F := Ideal)) W, host3_cut_agg, host3_pre_v19, h.v19,
    concat2_congr (s := S300000x128) (t := S600000x128) 0 _ _ _ _ concatenates_S300000x128_S300000x128_S600000x128_d0
      (host3_pre_ga W) (host3_pre_gb W), h.v1, h.v3, hH]
  exact Cert.Spec.aggK_term a.E H gather_S100000x128_S300000x1_S300000x128_1_0_n_n_0_1_1128 rfl
    scatter_S100000x128_S600000x1_S600000x128_1_0_0_1 rfl bcast_S_S100000x128
    concatenates_S300000x128_S300000x128_S600000x128_d0 _ _ _ (normCol3_end0 a.E) (normCol3_end1 a.E) (normCol6_ends a.E)

/-! ## The region's matrix and bias row -/

theorem host3_wT (h : Pers a W) (k j : Fin 128) :
    (StableHlo.after (hostOps3 (F := Ideal)) W (Proc.devRef .tc main_v113) : S128x128.Idx → EReal) (ix2 k j)
      = a.W0 (ix3 (1 : Fin 3) j k) := by
  have e : (StableHlo.after (hostOps3 (F := Ideal)) W (Proc.devRef .tc main_v113) : S128x128.Idx → EReal)
      = transpose S128x128 [1, 0]
          (shapeCast S128x128 (extractStridedSlice S1x128x128 ![1, 0, 0] (W (Proc.devRef .tc main_arg2))
            slices_S3x128x128_S1x128x128_1_0_0) shapeCasts_S1x128x128_S128x128) transposes_S128x128_S128x128_1_0 := by
    after_results; rfl
  rw [e, h.W0]
  exact wT_apply 1 1 rfl _ _ _ _ k j

theorem host3_brow (h : Pers a W) (j : Fin 128) :
    (StableHlo.after (hostOps3 (F := Ideal)) W (Proc.devRef .tc main_v116) : S1x128.Idx → EReal) (ix2 (0 : Fin 1) j)
      = a.b0 (ix2 (1 : Fin 3) j) := by
  have e : (StableHlo.after (hostOps3 (F := Ideal)) W (Proc.devRef .tc main_v116) : S1x128.Idx → EReal)
      = shapeCast S1x128 (shapeCast S128 (extractStridedSlice S1x128 ![1, 0] (W (Proc.devRef .tc main_arg3))
          slices_S3x128_S1x128_1_0) shapeCasts_S1x128_S128) shapeCasts_S128_S1x128 := by
    after_results; rfl
  rw [e, h.b0]
  exact row_apply 1 1 rfl _ _ _ _ j

/-! ## What stays -/

theorem pers_host3 (h : Pers a W) : Pers a (StableHlo.after (hostOps3 (F := Ideal)) W) where
  x := (host3_keep_arg0 W).trans h.x
  E := (host3_keep_arg1 W).trans h.E
  W0 := (host3_keep_arg2 W).trans h.W0
  b0 := (host3_keep_arg3 W).trans h.b0
  W1 := (host3_keep_arg4 W).trans h.W1
  b1 := (host3_keep_arg5 W).trans h.b1
  γ := (host3_keep_arg6 W).trans h.γ
  β := (host3_keep_arg7 W).trans h.β
  v1 := (host3_keep_v1 W).trans h.v1
  v3 := (host3_keep_v3 W).trans h.v3
  v19 := (host3_keep_v19 W).trans h.v19
  d := fun r => (congrFun (host3_keep_v18 W) _).trans (h.d r)

end Cert.KernelIdeal.KB

end
-- ==== Proof.K.Host4.lean ====
/-
  The host operations after the second combine region, read index by index over variable buffer contents: the mean row
  and the variance row made from the two arrays of per-block partial sums, and the factor and shift rows of the
  layer, and the next layer's second dense map (its matrix transposed, its bias row). The combined array itself is not written.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.HostLib
import proofs.«178513_j90202903151305_2_alg».proof.Proof.K.HostStat
import proofs.«178513_j90202903151305_2_alg».proof.Proof.K.Pers

set_option maxRecDepth 16384

noncomputable section

namespace Cert.KernelIdeal.KB

open Cert.KernelIdeal Cert.KernelIdeal.Gen Cert.KernelIdeal.KA Idealize.ShloMosaic Idealize.ShloMosaic.TcCoe
open Idealize.ShloMosaic.ValueIdx Idealize.SL.Sem Cert.Spec
open scoped BigOperators

variable (W : Valuation τ sig (Elt Ideal))

/-- No operation of the stretch writes the combined array. -/
theorem host4_g :
    StableHlo.after (hostOps4 (F := Ideal)) W (Proc.devRef .tc main_v117_0) = W (Proc.devRef .tc main_v117_0) :=
  StableHlo.after_of_forall_not_mem (b := Proc.devRef .tc main_v117_0) _ _ (List.forall_iff_forall_mem.mp (by
    simp only [hostOps4, List.Forall, StableHlo.nullary_writes, StableHlo.unary_writes, StableHlo.binary_writes,
      StableHlo.reshape_writes, Finset.mem_singleton]
    repeat' apply And.intro
    all_goals exact StableHlo.devRef_ne_of_ne (by decide)))

/-- The mean row, from the first array of partial sums. -/
theorem host4_meanOf (j : Fin 128) :
    arr S1x128 (StableHlo.after (hostOps4 (F := Ideal)) W (Proc.devRef .tc main_v129)) (ix2 0 j)
      = meanOf (arr S160x128 (W (Proc.devRef .tc main_v117_1))) j := by
  show StableHlo.after (hostOps4 (F := Ideal)) W (Proc.devRef .tc main_v129) (ix2 0 j) = _
  after_results
  exact meanRow_apply (arr S160x128 (W (Proc.devRef .tc main_v117_1))) _ _ _ _ _ _ _ j

/-- The variance row, from the two arrays of partial sums. -/
theorem host4_varOf (j : Fin 128) :
    arr S1x128 (StableHlo.after (hostOps4 (F := Ideal)) W (Proc.devRef .tc main_v135)) (ix2 0 j)
      = varOf (arr S160x128 (W (Proc.devRef .tc main_v117_1))) (arr S160x128 (W (Proc.devRef .tc main_v117_2))) j := by
  show StableHlo.after (hostOps4 (F := Ideal)) W (Proc.devRef .tc main_v135) (ix2 0 j) = _
  after_results_simp
  exact varRow_apply (arr S160x128 (W (Proc.devRef .tc main_v117_1))) (arr S160x128 (W (Proc.devRef .tc main_v117_2)))
    _ _ _ _ _ _ _ j

/-- When the first partial sums are the block sums of G, the mean row is the specification's mean by blocks. -/
theorem host4_mean (G : Arr)
    (hP : ∀ q j, arr S160x128 (W (Proc.devRef .tc main_v117_1)) (ix2 q j) = blockSumAt G q j) (j : Fin 128) :
    arr S1x128 (StableHlo.after (hostOps4 (F := Ideal)) W (Proc.devRef .tc main_v129)) (ix2 0 j) = meanK G j :=
  (host4_meanOf W j).trans (meanOf_eq G _ hP j)

/-- When moreover the second partial sums are the block sums of the squares of G, the variance row is the
    specification's variance by blocks. -/
theorem host4_var (G : Arr)
    (hP : ∀ q j, arr S160x128 (W (Proc.devRef .tc main_v117_1)) (ix2 q j) = blockSumAt G q j)
    (hQ : ∀ q j, arr S160x128 (W (Proc.devRef .tc main_v117_2)) (ix2 q j) = blockSumAt (fun i => G i * G i) q j)
    (j : Fin 128) :
    arr S1x128 (StableHlo.after (hostOps4 (F := Ideal)) W (Proc.devRef .tc main_v135)) (ix2 0 j) = varK G j :=
  (host4_varOf W j).trans (varOf_eq G _ _ hP hQ j)

/-- The layer's factor row. -/
theorem host4_gammaW (j : Fin 128) :
    arr S1x128 (StableHlo.after (hostOps4 (F := Ideal)) W (Proc.devRef .tc main_v138)) (ix2 0 j)
      = arr S3x128 (W (Proc.devRef .tc main_arg6)) (ix2 (1 : Fin 3) j) := by
  show StableHlo.after (hostOps4 (F := Ideal)) W (Proc.devRef .tc main_v138) (ix2 0 j) = _
  after_results
  exact row_apply 1 (1 : Fin 3) rfl (arr S3x128 (W (Proc.devRef .tc main_arg6))) _ _ _ j

/-- The layer's shift row. -/
theorem host4_betaW (j : Fin 128) :
    arr S1x128 (StableHlo.after (hostOps4 (F := Ideal)) W (Proc.devRef .tc main_v141)) (ix2 0 j)
      = arr S3x128 (W (Proc.devRef .tc main_arg7)) (ix2 (1 : Fin 3) j) := by
  show StableHlo.after (hostOps4 (F := Ideal)) W (Proc.devRef .tc main_v141) (ix2 0 j) = _
  after_results
  exact row_apply 1 (1 : Fin 3) rfl (arr S3x128 (W (Proc.devRef .tc main_arg7))) _ _ _ j

/-- The next layer's second dense map, its matrix transposed: entry (k, j) is the weight (layer 2, j, k). -/
theorem host4_wTW (k j : Fin 128) :
    arr S128x128 (StableHlo.after (hostOps4 (F := Ideal)) W (Proc.devRef .tc main_v144)) (ix2 k j)
      = arr S3x128x128 (W (Proc.devRef .tc main_arg4)) (ix3 (2 : Fin 3) j k) := by
  show StableHlo.after (hostOps4 (F := Ideal)) W (Proc.devRef .tc main_v144) (ix2 k j) = _
  after_results
  exact wT_apply 2 (2 : Fin 3) rfl (arr S3x128x128 (W (Proc.devRef .tc main_arg4))) _ _ _ k j

/-- The next layer's second bias row. -/
theorem host4_browW (j : Fin 128) :
    arr S1x128 (StableHlo.after (hostOps4 (F := Ideal)) W (Proc.devRef .tc main_v147)) (ix2 0 j)
      = arr S3x128 (W (Proc.devRef .tc main_arg5)) (ix2 (2 : Fin 3) j) := by
  show StableHlo.after (hostOps4 (F := Ideal)) W (Proc.devRef .tc main_v147) (ix2 0 j) = _
  after_results
  exact row_apply 2 (2 : Fin 3) rfl (arr S3x128 (W (Proc.devRef .tc main_arg5))) _ _ _ j

/-! ## With the arguments in place -/

/-- The stretch writes none of the argument buffers, the endpoint vectors or the scaling column. -/
theorem pers_host4 {a : Args} (h : Pers a W) : Pers a (StableHlo.after (hostOps4 (F := Ideal)) W) := by
  have k_main_arg0 : StableHlo.after (hostOps4 (F := Ideal)) W (Proc.devRef .tc main_arg0) = W (Proc.devRef .tc main_arg0) := by
    host_keep hostOps4
  have k_main_arg1 : StableHlo.after (hostOps4 (F := Ideal)) W (Proc.devRef .tc main_arg1) = W (Proc.devRef .tc main_arg1) := by
    host_keep hostOps4
  have k_main_arg2 : StableHlo.after (hostOps4 (F := Ideal)) W (Proc.devRef .tc main_arg2) = W (Proc.devRef .tc main_arg2) := by
    host_keep hostOps4
  have k_main_arg3 : StableHlo.after (hostOps4 (F := Ideal)) W (Proc.devRef .tc main_arg3) = W (Proc.devRef .tc main_arg3) := by
    host_keep hostOps4
  have k_main_arg4 : StableHlo.after (hostOps4 (F := Ideal)) W (Proc.devRef .tc main_arg4) = W (Proc.devRef .tc main_arg4) := by
    host_keep hostOps4
  have k_main_arg5 : StableHlo.after (hostOps4 (F := Ideal)) W (Proc.devRef .tc main_arg5) = W (Proc.devRef .tc main_arg5) := by
    host_keep hostOps4
  have k_main_arg6 : StableHlo.after (hostOps4 (F := Ideal)) W (Proc.devRef .tc main_arg6) = W (Proc.devRef .tc main_arg6) := by
    host_keep hostOps4
  have k_main_arg7 : StableHlo.after (hostOps4 (F := Ideal)) W (Proc.devRef .tc main_arg7) = W (Proc.devRef .tc main_arg7) := by
    host_keep hostOps4
  have k_main_v1 : StableHlo.after (hostOps4 (F := Ideal)) W (Proc.devRef .tc main_v1) = W (Proc.devRef .tc main_v1) := by
    host_keep hostOps4
  have k_main_v3 : StableHlo.after (hostOps4 (F := Ideal)) W (Proc.devRef .tc main_v3) = W (Proc.devRef .tc main_v3) := by
    host_keep hostOps4
  have k_main_v19 : StableHlo.after (hostOps4 (F := Ideal)) W (Proc.devRef .tc main_v19) = W (Proc.devRef .tc main_v19) := by
    host_keep hostOps4
  have k_main_v18 : StableHlo.after (hostOps4 (F := Ideal)) W (Proc.devRef .tc main_v18) = W (Proc.devRef .tc main_v18) := by
    host_keep hostOps4
  exact
    { x := k_main_arg0.trans h.x, E := k_main_arg1.trans h.E, W0 := k_main_arg2.trans h.W0, b0 := k_main_arg3.trans h.b0,
      W1 := k_main_arg4.trans h.W1, b1 := k_main_arg5.trans h.b1, γ := k_main_arg6.trans h.γ, β := k_main_arg7.trans h.β,
      v1 := k_main_v1.trans h.v1, v3 := k_main_v3.trans h.v3, v19 := k_main_v19.trans h.v19,
      d := fun r => (congrFun k_main_v18 _).trans (h.d r) }

/-- The layer's factor row is the argument's. -/
theorem host4_gamma {a : Args} (h : Pers a W) (j : Fin 128) :
    arr S1x128 (StableHlo.after (hostOps4 (F := Ideal)) W (Proc.devRef .tc main_v138)) (ix2 0 j)
      = a.γ (ix2 (1 : Fin 3) j) :=
  (host4_gammaW W j).trans (congrFun h.γ _)

/-- The layer's shift row is the argument's. -/
theorem host4_beta {a : Args} (h : Pers a W) (j : Fin 128) :
    arr S1x128 (StableHlo.after (hostOps4 (F := Ideal)) W (Proc.devRef .tc main_v141)) (ix2 0 j)
      = a.β (ix2 (1 : Fin 3) j) :=
  (host4_betaW W j).trans (congrFun h.β _)

/-- The next layer's second dense map, transposed, is the argument's. -/
theorem host4_wT {a : Args} (h : Pers a W) (k j : Fin 128) :
    arr S128x128 (StableHlo.after (hostOps4 (F := Ideal)) W (Proc.devRef .tc main_v144)) (ix2 k j)
      = a.W1 (ix3 (2 : Fin 3) j k) :=
  (host4_wTW W k j).trans (congrFun h.W1 _)

/-- The next layer's second bias row is the argument's. -/
theorem host4_brow {a : Args} (h : Pers a W) (j : Fin 128) :
    arr S1x128 (StableHlo.after (hostOps4 (F := Ideal)) W (Proc.devRef .tc main_v147)) (ix2 0 j)
      = a.b1 (ix2 (2 : Fin 3) j) :=
  (host4_browW W j).trans (congrFun h.b1 _)

end Cert.KernelIdeal.KB

end
-- ==== Proof.K.Host5.lean ====
/-
  The host operations before the combine region of layer 2, read over a variable memory W: the edge sum — the rows of
  the previous region's second output gathered at the second and at the first endpoints, laid end to end, and
  accumulated into zeros at the 600000 endpoints — is the specification's one-accumulation edge sum; the region's
  matrix and bias row are slab 2 of the first weight array, transposed, and row 2 of the first bias array; the
  arguments, the endpoint vectors and the scaling column are not written.
-/
import proofs.«178513_j90202903151305_2_alg».proof.Proof.Gen.KernelIdeal.Frame
import proofs.«178513_j90202903151305_2_alg».proof.Proof.Spec
import proofs.«178513_j90202903151305_2_alg».proof.Proof.EdgeTerms
import proofs.«178513_j90202903151305_2_alg».proof.Proof.LibFoldCut
import proofs.«178513_j90202903151305_2_alg».proof.Proof.K.HostLib
import proofs.«178513_j90202903151305_2_alg».proof.Proof.K.Pers
import proofs.«178513_j90202903151305_2_alg».proof.Proof.K.Cols

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

variable (W : Valuation τ sig (Elt Ideal))

/-! ## Buffers the stretch does not write -/
theorem host5_keep_arg0 : StableHlo.after (hostOps5 (F := Ideal)) W (Proc.devRef .tc main_arg0) = W (Proc.devRef .tc main_arg0) := by
  host_keep hostOps5
theorem host5_keep_arg1 : StableHlo.after (hostOps5 (F := Ideal)) W (Proc.devRef .tc main_arg1) = W (Proc.devRef .tc main_arg1) := by
  host_keep hostOps5
theorem host5_keep_arg2 : StableHlo.after (hostOps5 (F := Ideal)) W (Proc.devRef .tc main_arg2) = W (Proc.devRef .tc main_arg2) := by
  host_keep hostOps5
theorem host5_keep_arg3 : StableHlo.after (hostOps5 (F := Ideal)) W (Proc.devRef .tc main_arg3) = W (Proc.devRef .tc main_arg3) := by
  host_keep hostOps5
theorem host5_keep_arg4 : StableHlo.after (hostOps5 (F := Ideal)) W (Proc.devRef .tc main_arg4) = W (Proc.devRef .tc main_arg4) := by
  host_keep hostOps5
theorem host5_keep_arg5 : StableHlo.after (hostOps5 (F := Ideal)) W (Proc.devRef .tc main_arg5) = W (Proc.devRef .tc main_arg5) := by
  host_keep hostOps5
theorem host5_keep_arg6 : StableHlo.after (hostOps5 (F := Ideal)) W (Proc.devRef .tc main_arg6) = W (Proc.devRef .tc main_arg6) := by
  host_keep hostOps5
theorem host5_keep_arg7 : StableHlo.after (hostOps5 (F := Ideal)) W (Proc.devRef .tc main_arg7) = W (Proc.devRef .tc main_arg7) := by
  host_keep hostOps5
theorem host5_keep_v1 : StableHlo.after (hostOps5 (F := Ideal)) W (Proc.devRef .tc main_v1) = W (Proc.devRef .tc main_v1) := by
  host_keep hostOps5
theorem host5_keep_v3 : StableHlo.after (hostOps5 (F := Ideal)) W (Proc.devRef .tc main_v3) = W (Proc.devRef .tc main_v3) := by
  host_keep hostOps5
theorem host5_keep_v19 : StableHlo.after (hostOps5 (F := Ideal)) W (Proc.devRef .tc main_v19) = W (Proc.devRef .tc main_v19) := by
  host_keep hostOps5
theorem host5_keep_v18 : StableHlo.after (hostOps5 (F := Ideal)) W (Proc.devRef .tc main_v18) = W (Proc.devRef .tc main_v18) := by
  host_keep hostOps5
theorem host5_keep_v148_0 : StableHlo.after (hostOps5 (F := Ideal)) W (Proc.devRef .tc main_v148_0) = W (Proc.devRef .tc main_v148_0) := by
  host_keep hostOps5

/-! ## The edge sum -/

set_option maxHeartbeats 1000000 in
/-- The rows gathered at the second endpoints. -/
theorem host5_pre_ga :
    (StableHlo.after (List.take 18 (hostOps5 (F := Ideal))) W (Proc.devRef .tc main_v155) : S300000x128.Idx → EReal)
      = Host.gather gather_S100000x128_S300000x1_S300000x128_1_0_n_n_0_1_1128 (W (Proc.devRef .tc main_v148_1))
          (normCol3 (W (Proc.devRef .tc main_v3))) := by
  simp only [hostOps5, List.take_succ_cons, List.take_zero]
  after_results_simp
  try rfl

set_option maxHeartbeats 1000000 in
/-- The rows gathered at the first endpoints. -/
theorem host5_pre_gb :
    (StableHlo.after (List.take 18 (hostOps5 (F := Ideal))) W (Proc.devRef .tc main_v162) : S300000x128.Idx → EReal)
      = Host.gather gather_S100000x128_S300000x1_S300000x128_1_0_n_n_0_1_1128 (W (Proc.devRef .tc main_v148_1))
          (normCol3 (W (Proc.devRef .tc main_v1))) := by
  simp only [hostOps5, List.take_succ_cons, List.take_zero]
  after_results_simp
  try rfl

set_option maxHeartbeats 1000000 in
theorem host5_pre_v19 :
    StableHlo.after (List.take 18 (hostOps5 (F := Ideal))) W (Proc.devRef .tc main_v19) = W (Proc.devRef .tc main_v19) := by
  simp only [hostOps5, List.take_succ_cons, List.take_zero]
  after_results_simp
  try rfl

set_option maxHeartbeats 1000000 in
/-- From the concatenation on: the accumulation of the concatenated rows into zeros at the concatenated endpoints. -/
theorem host5_cut_agg (F : Valuation τ sig (Elt Ideal)) :
    (StableHlo.after (List.drop 18 (hostOps5 (F := Ideal))) F (Proc.devRef .tc main_v171) : S100000x128.Idx → EReal)
      = Host.scatterAdd (F := Ideal) scatter_S100000x128_S600000x1_S600000x128_1_0_0_1
          (broadcastInDim S100000x128 ![] bcast_S_S100000x128 (constant (F := Ideal) S_ .f32 0x00000000#32))
          (normCol6 (F (Proc.devRef .tc main_v19)))
          (concatenate S600000x128 0 [⟨S300000x128, F (Proc.devRef .tc main_v155)⟩, ⟨S300000x128, F (Proc.devRef .tc main_v162)⟩]
            concatenates_S300000x128_S300000x128_S600000x128_d0) := by
  simp only [hostOps5, List.drop_succ_cons, List.drop_zero]
  after_results_simp
  try rfl

variable {a : Cert.Spec.Args}

theorem host5_agg (h : Pers a W) (H : Cert.Spec.Arr)
    (hH : (W (Proc.devRef .tc main_v148_1) : S100000x128.Idx → EReal) = H) :
    (StableHlo.after (hostOps5 (F := Ideal)) W (Proc.devRef .tc main_v171) : S100000x128.Idx → EReal) = Cert.Spec.aggK a.E H := by
  rw [StableHlo.after_cut 18 (hostOps5 (F := Ideal)) W, host5_cut_agg, host5_pre_v19, h.v19,
    concat2_congr (s := S300000x128) (t := S600000x128) 0 _ _ _ _ concatenates_S300000x128_S300000x128_S600000x128_d0
      (host5_pre_ga W) (host5_pre_gb W), h.v1, h.v3, hH]
  exact Cert.Spec.aggK_term a.E H gather_S100000x128_S300000x1_S300000x128_1_0_n_n_0_1_1128 rfl
    scatter_S100000x128_S600000x1_S600000x128_1_0_0_1 rfl bcast_S_S100000x128
    concatenates_S300000x128_S300000x128_S600000x128_d0 _ _ _ (normCol3_end0 a.E) (normCol3_end1 a.E) (normCol6_ends a.E)

/-! ## The region's matrix and bias row -/

theorem host5_wT (h : Pers a W) (k j : Fin 128) :
    (StableHlo.after (hostOps5 (F := Ideal)) W (Proc.devRef .tc main_v174) : S128x128.Idx → EReal) (ix2 k j)
      = a.W0 (ix3 (2 : Fin 3) j k) := by
  have e : (StableHlo.after (hostOps5 (F := Ideal)) W (Proc.devRef .tc main_v174) : S128x128.Idx → EReal)
      = transpose S128x128 [1, 0]
          (shapeCast S128x128 (extractStridedSlice S1x128x128 ![2, 0, 0] (W (Proc.devRef .tc main_arg2))
            slices_S3x128x128_S1x128x128_2_0_0) shapeCasts_S1x128x128_S128x128) transposes_S128x128_S128x128_1_0 := by
    after_results; rfl
  rw [e, h.W0]
  exact wT_apply 2 2 rfl _ _ _ _ k j

theorem host5_brow (h : Pers a W) (j : Fin 128) :
    (StableHlo.after (hostOps5 (F := Ideal)) W (Proc.devRef .tc main_v177) : S1x128.Idx → EReal) (ix2 (0 : Fin 1) j)
      = a.b0 (ix2 (2 : Fin 3) j) := by
  have e : (StableHlo.after (hostOps5 (F := Ideal)) W (Proc.devRef .tc main_v177) : S1x128.Idx → EReal)
      = shapeCast S1x128 (shapeCast S128 (extractStridedSlice S1x128 ![2, 0] (W (Proc.devRef .tc main_arg3))
          slices_S3x128_S1x128_2_0) shapeCasts_S1x128_S128) shapeCasts_S128_S1x128 := by
    after_results; rfl
  rw [e, h.b0]
  exact row_apply 2 2 rfl _ _ _ _ j

/-! ## What stays -/

theorem pers_host5 (h : Pers a W) : Pers a (StableHlo.after (hostOps5 (F := Ideal)) W) where
  x := (host5_keep_arg0 W).trans h.x
  E := (host5_keep_arg1 W).trans h.E
  W0 := (host5_keep_arg2 W).trans h.W0
  b0 := (host5_keep_arg3 W).trans h.b0
  W1 := (host5_keep_arg4 W).trans h.W1
  b1 := (host5_keep_arg5 W).trans h.b1
  γ := (host5_keep_arg6 W).trans h.γ
  β := (host5_keep_arg7 W).trans h.β
  v1 := (host5_keep_v1 W).trans h.v1
  v3 := (host5_keep_v3 W).trans h.v3
  v19 := (host5_keep_v19 W).trans h.v19
  d := fun r => (congrFun (host5_keep_v18 W) _).trans (h.d r)

end Cert.KernelIdeal.KB

end
-- ==== Proof.K.Host6.lean ====
/-
  The host operations after the third combine region, read index by index over variable buffer contents: the mean row
  and the variance row made from the two arrays of per-block partial sums, and the factor and shift rows of the
  layer. The combined array itself is not written.
-/
import proofs.«178513_j90202903151305_2_alg».proof.Proof.Gen.KernelIdeal.Frame
import proofs.«178513_j90202903151305_2_alg».proof.Proof.Spec
import proofs.«178513_j90202903151305_2_alg».proof.Proof.K.Arr
import proofs.«178513_j90202903151305_2_alg».proof.Proof.K.HostLib
import proofs.«178513_j90202903151305_2_alg».proof.Proof.K.HostStat
import proofs.«178513_j90202903151305_2_alg».proof.Proof.K.Pers

set_option maxRecDepth 16384

noncomputable section

namespace Cert.KernelIdeal.KB

open Cert.KernelIdeal Cert.KernelIdeal.Gen Cert.KernelIdeal.KA Idealize.ShloMosaic Idealize.ShloMosaic.TcCoe
open Idealize.ShloMosaic.ValueIdx Idealize.SL.Sem Cert.Spec
open scoped BigOperators

variable (W : Valuation τ sig (Elt Ideal))

/-- No operation of the stretch writes the combined array. -/
theorem host6_g :
    StableHlo.after (hostOps6 (F := Ideal)) W (Proc.devRef .tc main_v178_0) = W (Proc.devRef .tc main_v178_0) :=
  StableHlo.after_of_forall_not_mem (b := Proc.devRef .tc main_v178_0) _ _ (List.forall_iff_forall_mem.mp (by
    simp only [hostOps6, List.Forall, StableHlo.nullary_writes, StableHlo.unary_writes, StableHlo.binary_writes,
      StableHlo.reshape_writes, Finset.mem_singleton]
    repeat' apply And.intro
    all_goals exact StableHlo.devRef_ne_of_ne (by decide)))

/-- The mean row, from the first array of partial sums. -/
theorem host6_meanOf (j : Fin 128) :
    arr S1x128 (StableHlo.after (hostOps6 (F := Ideal)) W (Proc.devRef .tc main_v190)) (ix2 0 j)
      = meanOf (arr S160x128 (W (Proc.devRef .tc main_v178_1))) j := by
  show StableHlo.after (hostOps6 (F := Ideal)) W (Proc.devRef .tc main_v190) (ix2 0 j) = _
  after_results
  exact meanRow_apply (arr S160x128 (W (Proc.devRef .tc main_v178_1))) _ _ _ _ _ _ _ j

/-- The variance row, from the two arrays of partial sums. -/
theorem host6_varOf (j : Fin 128) :
    arr S1x128 (StableHlo.after (hostOps6 (F := Ideal)) W (Proc.devRef .tc main_v196)) (ix2 0 j)
      = varOf (arr S160x128 (W (Proc.devRef .tc main_v178_1))) (arr S160x128 (W (Proc.devRef .tc main_v178_2))) j := by
  show StableHlo.after (hostOps6 (F := Ideal)) W (Proc.devRef .tc main_v196) (ix2 0 j) = _
  after_results_simp
  exact varRow_apply (arr S160x128 (W (Proc.devRef .tc main_v178_1))) (arr S160x128 (W (Proc.devRef .tc main_v178_2)))
    _ _ _ _ _ _ _ j

/-- When the first partial sums are the block sums of G, the mean row is the specification's mean by blocks. -/
theorem host6_mean (G : Arr)
    (hP : ∀ q j, arr S160x128 (W (Proc.devRef .tc main_v178_1)) (ix2 q j) = blockSumAt G q j) (j : Fin 128) :
    arr S1x128 (StableHlo.after (hostOps6 (F := Ideal)) W (Proc.devRef .tc main_v190)) (ix2 0 j) = meanK G j :=
  (host6_meanOf W j).trans (meanOf_eq G _ hP j)

/-- When moreover the second partial sums are the block sums of the squares of G, the variance row is the
    specification's variance by blocks. -/
theorem host6_var (G : Arr)
    (hP : ∀ q j, arr S160x128 (W (Proc.devRef .tc main_v178_1)) (ix2 q j) = blockSumAt G q j)
    (hQ : ∀ q j, arr S160x128 (W (Proc.devRef .tc main_v178_2)) (ix2 q j) = blockSumAt (fun i => G i * G i) q j)
    (j : Fin 128) :
    arr S1x128 (StableHlo.after (hostOps6 (F := Ideal)) W (Proc.devRef .tc main_v196)) (ix2 0 j) = varK G j :=
  (host6_varOf W j).trans (varOf_eq G _ _ hP hQ j)

/-- The layer's factor row. -/
theorem host6_gammaW (j : Fin 128) :
    arr S1x128 (StableHlo.after (hostOps6 (F := Ideal)) W (Proc.devRef .tc main_v199)) (ix2 0 j)
      = arr S3x128 (W (Proc.devRef .tc main_arg6)) (ix2 (2 : Fin 3) j) := by
  show StableHlo.after (hostOps6 (F := Ideal)) W (Proc.devRef .tc main_v199) (ix2 0 j) = _
  after_results
  exact row_apply 2 (2 : Fin 3) rfl (arr S3x128 (W (Proc.devRef .tc main_arg6))) _ _ _ j

/-- The layer's shift row. -/
theorem host6_betaW (j : Fin 128) :
    arr S1x128 (StableHlo.after (hostOps6 (F := Ideal)) W (Proc.devRef .tc main_v202)) (ix2 0 j)
      = arr S3x128 (W (Proc.devRef .tc main_arg7)) (ix2 (2 : Fin 3) j) := by
  show StableHlo.after (hostOps6 (F := Ideal)) W (Proc.devRef .tc main_v202) (ix2 0 j) = _
  after_results
  exact row_apply 2 (2 : Fin 3) rfl (arr S3x128 (W (Proc.devRef .tc main_arg7))) _ _ _ j

/-! ## With the arguments in place -/

/-- The stretch writes none of the argument buffers, the endpoint vectors or the scaling column. -/
theorem pers_host6 {a : Args} (h : Pers a W) : Pers a (StableHlo.after (hostOps6 (F := Ideal)) W) := by
  have k_main_arg0 : StableHlo.after (hostOps6 (F := Ideal)) W (Proc.devRef .tc main_arg0) = W (Proc.devRef .tc main_arg0) := by
    host_keep hostOps6
  have k_main_arg1 : StableHlo.after (hostOps6 (F := Ideal)) W (Proc.devRef .tc main_arg1) = W (Proc.devRef .tc main_arg1) := by
    host_keep hostOps6
  have k_main_arg2 : StableHlo.after (hostOps6 (F := Ideal)) W (Proc.devRef .tc main_arg2) = W (Proc.devRef .tc main_arg2) := by
    host_keep hostOps6
  have k_main_arg3 : StableHlo.after (hostOps6 (F := Ideal)) W (Proc.devRef .tc main_arg3) = W (Proc.devRef .tc main_arg3) := by
    host_keep hostOps6
  have k_main_arg4 : StableHlo.after (hostOps6 (F := Ideal)) W (Proc.devRef .tc main_arg4) = W (Proc.devRef .tc main_arg4) := by
    host_keep hostOps6
  have k_main_arg5 : StableHlo.after (hostOps6 (F := Ideal)) W (Proc.devRef .tc main_arg5) = W (Proc.devRef .tc main_arg5) := by
    host_keep hostOps6
  have k_main_arg6 : StableHlo.after (hostOps6 (F := Ideal)) W (Proc.devRef .tc main_arg6) = W (Proc.devRef .tc main_arg6) := by
    host_keep hostOps6
  have k_main_arg7 : StableHlo.after (hostOps6 (F := Ideal)) W (Proc.devRef .tc main_arg7) = W (Proc.devRef .tc main_arg7) := by
    host_keep hostOps6
  have k_main_v1 : StableHlo.after (hostOps6 (F := Ideal)) W (Proc.devRef .tc main_v1) = W (Proc.devRef .tc main_v1) := by
    host_keep hostOps6
  have k_main_v3 : StableHlo.after (hostOps6 (F := Ideal)) W (Proc.devRef .tc main_v3) = W (Proc.devRef .tc main_v3) := by
    host_keep hostOps6
  have k_main_v19 : StableHlo.after (hostOps6 (F := Ideal)) W (Proc.devRef .tc main_v19) = W (Proc.devRef .tc main_v19) := by
    host_keep hostOps6
  have k_main_v18 : StableHlo.after (hostOps6 (F := Ideal)) W (Proc.devRef .tc main_v18) = W (Proc.devRef .tc main_v18) := by
    host_keep hostOps6
  exact
    { x := k_main_arg0.trans h.x, E := k_main_arg1.trans h.E, W0 := k_main_arg2.trans h.W0, b0 := k_main_arg3.trans h.b0,
      W1 := k_main_arg4.trans h.W1, b1 := k_main_arg5.trans h.b1, γ := k_main_arg6.trans h.γ, β := k_main_arg7.trans h.β,
      v1 := k_main_v1.trans h.v1, v3 := k_main_v3.trans h.v3, v19 := k_main_v19.trans h.v19,
      d := fun r => (congrFun k_main_v18 _).trans (h.d r) }

/-- The layer's factor row is the argument's. -/
theorem host6_gamma {a : Args} (h : Pers a W) (j : Fin 128) :
    arr S1x128 (StableHlo.after (hostOps6 (F := Ideal)) W (Proc.devRef .tc main_v199)) (ix2 0 j)
      = a.γ (ix2 (2 : Fin 3) j) :=
  (host6_gammaW W j).trans (congrFun h.γ _)

/-- The layer's shift row is the argument's. -/
theorem host6_beta {a : Args} (h : Pers a W) (j : Fin 128) :
    arr S1x128 (StableHlo.after (hostOps6 (F := Ideal)) W (Proc.devRef .tc main_v202)) (ix2 0 j)
      = a.β (ix2 (2 : Fin 3) j) :=
  (host6_betaW W j).trans (congrFun h.β _)

end Cert.KernelIdeal.KB

end
-- ==== Proof.K.Chain.lean ====
/-
  The kernel program's run read down to the specification. At every boundary between the host stretches and the seven
  regions the persistent buffers (arguments, endpoint vectors, scaling column) are as at the start; each dense-map or
  normalise region's outputs are the specification's dense map and normalised, clipped array of its inputs; each combine
  region's outputs are the scaled combination and its column sums by blocks; the host operations in between turn the
  block sums into the mean and variance rows and build the edge sum. Layer by layer this gives the result buffer after
  the last region as the specification's kernel-side network of the argument arrays.
-/
import proofs.«178513_j90202903151305_2_alg».proof.Proof.Gen.KernelIdeal.Frame
import proofs.«178513_j90202903151305_2_alg».proof.Proof.Spec
import proofs.«178513_j90202903151305_2_alg».proof.Proof.K.Args
import proofs.«178513_j90202903151305_2_alg».proof.Proof.K.Arr
import proofs.«178513_j90202903151305_2_alg».proof.Proof.K.Reg0
import proofs.«178513_j90202903151305_2_alg».proof.Proof.K.Reg1
import proofs.«178513_j90202903151305_2_alg».proof.Proof.K.Reg2
import proofs.«178513_j90202903151305_2_alg».proof.Proof.K.Reg3
import proofs.«178513_j90202903151305_2_alg».proof.Proof.K.Reg4
import proofs.«178513_j90202903151305_2_alg».proof.Proof.K.Reg5
import proofs.«178513_j90202903151305_2_alg».proof.Proof.K.Reg6
import proofs.«178513_j90202903151305_2_alg».proof.Proof.K.HostLib
import proofs.«178513_j90202903151305_2_alg».proof.Proof.K.Layer
import proofs.«178513_j90202903151305_2_alg».proof.Proof.K.Pers
import proofs.«178513_j90202903151305_2_alg».proof.Proof.K.Host0
import proofs.«178513_j90202903151305_2_alg».proof.Proof.K.Host1
import proofs.«178513_j90202903151305_2_alg».proof.Proof.K.Host2
import proofs.«178513_j90202903151305_2_alg».proof.Proof.K.Host3
import proofs.«178513_j90202903151305_2_alg».proof.Proof.K.Host4
import proofs.«178513_j90202903151305_2_alg».proof.Proof.K.Host5
import proofs.«178513_j90202903151305_2_alg».proof.Proof.K.Host6

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open scoped BigOperators

open Cert.Spec in
/-- The specification's intermediate arrays: per layer the second dense map H, the scaled combination G, and the next input X. -/
def H0 (a : Cert.Spec.Args) : Cert.Spec.Arr := Cert.Spec.lin a.W1 a.b1 0 a.x
def G0 (a : Cert.Spec.Args) : Cert.Spec.Arr := Cert.Spec.gK a 0 a.x (H0 a)
def X1 (a : Cert.Spec.Args) : Cert.Spec.Arr := Cert.Spec.relu (Cert.Spec.normK a 0 (G0 a))
def H1 (a : Cert.Spec.Args) : Cert.Spec.Arr := Cert.Spec.lin a.W1 a.b1 1 (X1 a)
def G1 (a : Cert.Spec.Args) : Cert.Spec.Arr := Cert.Spec.gK a 1 (X1 a) (H1 a)
def X2 (a : Cert.Spec.Args) : Cert.Spec.Arr := Cert.Spec.relu (Cert.Spec.normK a 1 (G1 a))
def H2 (a : Cert.Spec.Args) : Cert.Spec.Arr := Cert.Spec.lin a.W1 a.b1 2 (X2 a)
def G2 (a : Cert.Spec.Args) : Cert.Spec.Arr := Cert.Spec.gK a 2 (X2 a) (H2 a)

theorem outK_eq (a : Cert.Spec.Args) :
    Cert.Spec.outK a = fun i => max (Cert.Spec.normK a 2 (G2 a) i + a.x i) Cert.Spec.f0 := rfl

variable (m : (ℓ : Loc nD τ sig) → Buf (Elt Ideal) ℓ) (ρ : Dev nD → PrngReg) (c : Dev nD)

/-! ## The launch and the first dense map -/

theorem base0 : Base (argsK m c) (W0 (F := Ideal) m ρ c) := ⟨rfl, rfl, rfl, rfl, rfl, rfl, rfl, rfl⟩

theorem pers1 : Pers (argsK m c) (W1 (F := Ideal) m ρ c) := pers_host0 _ (base0 m ρ c)

/-- Region 0's output: the first layer's second dense map. -/
theorem out0 : ((W2 (F := Ideal) m ρ c (Proc.devRef .tc main_v26)) : S100000x128.Idx → EReal) = (H0 (argsK m c)) := by
  refine (W2_arr m ρ c 3).trans ?_
  refine arr_ext _ _ fun r j => ?_
  refine (KA.final0_3 (V1 (F := Ideal) m ρ) c r j).trans ?_
  exact lin_eq (argsK m c).W1 (argsK m c).b1 0 (argsK m c).x (W1 (F := Ideal) m ρ c (Proc.devRef .tc main_arg0))
    (W1 (F := Ideal) m ρ c (Proc.devRef .tc main_v22)) (W1 (F := Ideal) m ρ c (Proc.devRef .tc main_v25))
    (pers1 m ρ c).x (host0_wT' _ (base0 m ρ c)) (host0_brow' _ (base0 m ρ c)) r j

/-- Region 0 writes none of the persistent buffers. -/
theorem pers2 : Pers (argsK m c) (W2 (F := Ideal) m ρ c) where
  x := ((W2_arr m ρ c 0).trans (((dat0 (V1 m ρ) c).arrAt_in 0 rfl _).trans (A_eq0 (V1 m ρ) c 0))).trans (pers1 m ρ c).x
  E := (W2_of_ne m ρ c main_arg1 (by decide)).trans (pers1 m ρ c).E
  W0 := (W2_of_ne m ρ c main_arg2 (by decide)).trans (pers1 m ρ c).W0
  b0 := (W2_of_ne m ρ c main_arg3 (by decide)).trans (pers1 m ρ c).b0
  W1 := (W2_of_ne m ρ c main_arg4 (by decide)).trans (pers1 m ρ c).W1
  b1 := (W2_of_ne m ρ c main_arg5 (by decide)).trans (pers1 m ρ c).b1
  γ := (W2_of_ne m ρ c main_arg6 (by decide)).trans (pers1 m ρ c).γ
  β := (W2_of_ne m ρ c main_arg7 (by decide)).trans (pers1 m ρ c).β
  v1 := (W2_of_ne m ρ c main_v1 (by decide)).trans (pers1 m ρ c).v1
  v3 := (W2_of_ne m ρ c main_v3 (by decide)).trans (pers1 m ρ c).v3
  v19 := (W2_of_ne m ρ c main_v19 (by decide)).trans (pers1 m ρ c).v19
  d := fun r => (congrFun (W2_of_ne m ρ c main_v18 (by decide)) _).trans ((pers1 m ρ c).d r)

/-! ## Layer 0 -/

theorem pers3 : Pers (argsK m c) (W3 (F := Ideal) m ρ c) := pers_host1 _ (pers2 m ρ c)

/-- The combine region's first output: the scaled combination. -/
theorem g1_eq : KA.g1 (V3 (F := Ideal) m ρ) c = (G0 (argsK m c)) :=
  arr_ext _ _ fun r j => (KA.g1_apply (V3 (F := Ideal) m ρ) c r j).trans
    (comb_eq (argsK m c) 0 (argsK m c).x (H0 (argsK m c)) (W3 (F := Ideal) m ρ c (Proc.devRef .tc main_arg0)) (W3 (F := Ideal) m ρ c (Proc.devRef .tc main_v49)) (W3 (F := Ideal) m ρ c (Proc.devRef .tc main_v18)) (W3 (F := Ideal) m ρ c (Proc.devRef .tc main_v52)) (W3 (F := Ideal) m ρ c (Proc.devRef .tc main_v55))
      (pers3 m ρ c).d (pers3 m ρ c).x (host1_wT _ (pers2 m ρ c)) (host1_brow _ (pers2 m ρ c))
      (host1_agg _ (pers2 m ρ c) (H0 (argsK m c)) (out0 m ρ c)) r j)

theorem out1_5 : ((W4 (F := Ideal) m ρ c (Proc.devRef .tc main_v56_0)) : S100000x128.Idx → EReal) = (G0 (argsK m c)) := by
  refine (W4_arr m ρ c 5).trans ?_
  refine arr_ext _ _ fun r j => ?_
  refine (KA.final1_5 (V3 (F := Ideal) m ρ) c r j).trans ?_
  rw [g1_eq m ρ c]

/-- Its second and third outputs: the column sums by blocks, of the combination and of its squares. -/
theorem out1_6 (q : Fin 160) (j : Fin 128) :
    ((W4 (F := Ideal) m ρ c (Proc.devRef .tc main_v56_1)) : S160x128.Idx → EReal) (ix2 q j) = blockSumAt (G0 (argsK m c)) q j := by
  refine (congrFun (W4_arr m ρ c 6) _).trans ?_
  refine (KA.final1_6 (V3 (F := Ideal) m ρ) c q j).trans ?_
  rw [g1_eq m ρ c]
  rfl

theorem out1_7 (q : Fin 160) (j : Fin 128) :
    ((W4 (F := Ideal) m ρ c (Proc.devRef .tc main_v56_2)) : S160x128.Idx → EReal) (ix2 q j) = blockSumAt (fun i => (G0 (argsK m c)) i * (G0 (argsK m c)) i) q j := by
  refine (congrFun (W4_arr m ρ c 7) _).trans ?_
  refine (KA.final1_7 (V3 (F := Ideal) m ρ) c q j).trans ?_
  rw [g1_eq m ρ c]
  rfl

/-- Region 1 writes none of the persistent buffers. -/
theorem pers4 : Pers (argsK m c) (W4 (F := Ideal) m ρ c) where
  x := ((W4_arr m ρ c 0).trans (((dat1 (V3 m ρ) c).arrAt_in 0 rfl _).trans (A_eq1 (V3 m ρ) c 0))).trans (pers3 m ρ c).x
  E := (W4_of_ne m ρ c main_arg1 (by decide)).trans (pers3 m ρ c).E
  W0 := (W4_of_ne m ρ c main_arg2 (by decide)).trans (pers3 m ρ c).W0
  b0 := (W4_of_ne m ρ c main_arg3 (by decide)).trans (pers3 m ρ c).b0
  W1 := (W4_of_ne m ρ c main_arg4 (by decide)).trans (pers3 m ρ c).W1
  b1 := (W4_of_ne m ρ c main_arg5 (by decide)).trans (pers3 m ρ c).b1
  γ := (W4_of_ne m ρ c main_arg6 (by decide)).trans (pers3 m ρ c).γ
  β := (W4_of_ne m ρ c main_arg7 (by decide)).trans (pers3 m ρ c).β
  v1 := (W4_of_ne m ρ c main_v1 (by decide)).trans (pers3 m ρ c).v1
  v3 := (W4_of_ne m ρ c main_v3 (by decide)).trans (pers3 m ρ c).v3
  v19 := (W4_of_ne m ρ c main_v19 (by decide)).trans (pers3 m ρ c).v19
  d := fun r => (congrFun ((W4_arr m ρ c 4).trans (((dat1 (V3 m ρ) c).arrAt_in 4 rfl _).trans (A_eq1 (V3 m ρ) c 4))) _).trans ((pers3 m ρ c).d r)

theorem pers5 : Pers (argsK m c) (W5 (F := Ideal) m ρ c) := pers_host2 _ (pers4 m ρ c)

theorem gin5 : ((W5 (F := Ideal) m ρ c (Proc.devRef .tc main_v56_0)) : S100000x128.Idx → EReal) = (G0 (argsK m c)) :=
  (host2_g _).trans (out1_5 m ρ c)

/-- The normalise region's first output: the next layer's input. -/
theorem x2_eq : KA.x2 (V5 (F := Ideal) m ρ) c = (X1 (argsK m c)) :=
  arr_ext _ _ fun r j => (KA.x2_apply (V5 (F := Ideal) m ρ) c r j).trans
    (relu_norm_eq (argsK m c) 0 (G0 (argsK m c)) (W5 (F := Ideal) m ρ c (Proc.devRef .tc main_v56_0)) (W5 (F := Ideal) m ρ c (Proc.devRef .tc main_v68)) (W5 (F := Ideal) m ρ c (Proc.devRef .tc main_v74)) (W5 (F := Ideal) m ρ c (Proc.devRef .tc main_v77)) (W5 (F := Ideal) m ρ c (Proc.devRef .tc main_v80))
      (gin5 m ρ c) (host2_mean _ (G0 (argsK m c)) (out1_6 m ρ c)) (host2_var _ (G0 (argsK m c)) (out1_6 m ρ c) (out1_7 m ρ c))
      (host2_gamma _ (pers4 m ρ c)) (host2_beta _ (pers4 m ρ c)) r j)

theorem out2_7 : ((W6 (F := Ideal) m ρ c (Proc.devRef .tc main_v87_0)) : S100000x128.Idx → EReal) = (X1 (argsK m c)) := by
  refine (W6_arr m ρ c 7).trans ?_
  refine arr_ext _ _ fun r j => ?_
  refine (KA.final2_7 (V5 (F := Ideal) m ρ) c r j).trans ?_
  rw [x2_eq m ρ c]

/-- Its second output: the next layer's second dense map. -/
theorem out2_8 : ((W6 (F := Ideal) m ρ c (Proc.devRef .tc main_v87_1)) : S100000x128.Idx → EReal) = (H1 (argsK m c)) := by
  refine (W6_arr m ρ c 8).trans ?_
  refine arr_ext _ _ fun r j => ?_
  refine (KA.final2_8 (V5 (F := Ideal) m ρ) c r j).trans ?_
  rw [x2_eq m ρ c]
  exact lin_eq (argsK m c).W1 (argsK m c).b1 1 (X1 (argsK m c)) (X1 (argsK m c)) (W5 (F := Ideal) m ρ c (Proc.devRef .tc main_v83)) (W5 (F := Ideal) m ρ c (Proc.devRef .tc main_v86)) rfl
    (host2_wT _ (pers4 m ρ c)) (host2_brow _ (pers4 m ρ c)) r j

/-- Region 2 writes none of the persistent buffers. -/
theorem pers6 : Pers (argsK m c) (W6 (F := Ideal) m ρ c) where
  x := (W6_of_ne m ρ c main_arg0 (by decide)).trans (pers5 m ρ c).x
  E := (W6_of_ne m ρ c main_arg1 (by decide)).trans (pers5 m ρ c).E
  W0 := (W6_of_ne m ρ c main_arg2 (by decide)).trans (pers5 m ρ c).W0
  b0 := (W6_of_ne m ρ c main_arg3 (by decide)).trans (pers5 m ρ c).b0
  W1 := (W6_of_ne m ρ c main_arg4 (by decide)).trans (pers5 m ρ c).W1
  b1 := (W6_of_ne m ρ c main_arg5 (by decide)).trans (pers5 m ρ c).b1
  γ := (W6_of_ne m ρ c main_arg6 (by decide)).trans (pers5 m ρ c).γ
  β := (W6_of_ne m ρ c main_arg7 (by decide)).trans (pers5 m ρ c).β
  v1 := (W6_of_ne m ρ c main_v1 (by decide)).trans (pers5 m ρ c).v1
  v3 := (W6_of_ne m ρ c main_v3 (by decide)).trans (pers5 m ρ c).v3
  v19 := (W6_of_ne m ρ c main_v19 (by decide)).trans (pers5 m ρ c).v19
  d := fun r => (congrFun (W6_of_ne m ρ c main_v18 (by decide)) _).trans ((pers5 m ρ c).d r)

/-! ## Layer 1 -/

theorem pers7 : Pers (argsK m c) (W7 (F := Ideal) m ρ c) := pers_host3 _ (pers6 m ρ c)

/-- The layer's input passes the host operations before the combine region. -/
theorem x7 : ((W7 (F := Ideal) m ρ c (Proc.devRef .tc main_v87_0)) : S100000x128.Idx → EReal) = (X1 (argsK m c)) :=
  (host3_keep_v87_0 _).trans (out2_7 m ρ c)

/-- The combine region's first output: the scaled combination. -/
theorem g3_eq : KA.g3 (V7 (F := Ideal) m ρ) c = (G1 (argsK m c)) :=
  arr_ext _ _ fun r j => (KA.g3_apply (V7 (F := Ideal) m ρ) c r j).trans
    (comb_eq (argsK m c) 1 (X1 (argsK m c)) (H1 (argsK m c)) (W7 (F := Ideal) m ρ c (Proc.devRef .tc main_v87_0)) (W7 (F := Ideal) m ρ c (Proc.devRef .tc main_v110)) (W7 (F := Ideal) m ρ c (Proc.devRef .tc main_v18)) (W7 (F := Ideal) m ρ c (Proc.devRef .tc main_v113)) (W7 (F := Ideal) m ρ c (Proc.devRef .tc main_v116))
      (pers7 m ρ c).d (x7 m ρ c) (host3_wT _ (pers6 m ρ c)) (host3_brow _ (pers6 m ρ c))
      (host3_agg _ (pers6 m ρ c) (H1 (argsK m c)) (out2_8 m ρ c)) r j)

theorem out3_5 : ((W8 (F := Ideal) m ρ c (Proc.devRef .tc main_v117_0)) : S100000x128.Idx → EReal) = (G1 (argsK m c)) := by
  refine (W8_arr m ρ c 5).trans ?_
  refine arr_ext _ _ fun r j => ?_
  refine (KA.final3_5 (V7 (F := Ideal) m ρ) c r j).trans ?_
  rw [g3_eq m ρ c]

/-- Its second and third outputs: the column sums by blocks, of the combination and of its squares. -/
theorem out3_6 (q : Fin 160) (j : Fin 128) :
    ((W8 (F := Ideal) m ρ c (Proc.devRef .tc main_v117_1)) : S160x128.Idx → EReal) (ix2 q j) = blockSumAt (G1 (argsK m c)) q j := by
  refine (congrFun (W8_arr m ρ c 6) _).trans ?_
  refine (KA.final3_6 (V7 (F := Ideal) m ρ) c q j).trans ?_
  rw [g3_eq m ρ c]
  rfl

theorem out3_7 (q : Fin 160) (j : Fin 128) :
    ((W8 (F := Ideal) m ρ c (Proc.devRef .tc main_v117_2)) : S160x128.Idx → EReal) (ix2 q j) = blockSumAt (fun i => (G1 (argsK m c)) i * (G1 (argsK m c)) i) q j := by
  refine (congrFun (W8_arr m ρ c 7) _).trans ?_
  refine (KA.final3_7 (V7 (F := Ideal) m ρ) c q j).trans ?_
  rw [g3_eq m ρ c]
  rfl

/-- Region 3 writes none of the persistent buffers. -/
theorem pers8 : Pers (argsK m c) (W8 (F := Ideal) m ρ c) where
  x := (W8_of_ne m ρ c main_arg0 (by decide)).trans (pers7 m ρ c).x
  E := (W8_of_ne m ρ c main_arg1 (by decide)).trans (pers7 m ρ c).E
  W0 := (W8_of_ne m ρ c main_arg2 (by decide)).trans (pers7 m ρ c).W0
  b0 := (W8_of_ne m ρ c main_arg3 (by decide)).trans (pers7 m ρ c).b0
  W1 := (W8_of_ne m ρ c main_arg4 (by decide)).trans (pers7 m ρ c).W1
  b1 := (W8_of_ne m ρ c main_arg5 (by decide)).trans (pers7 m ρ c).b1
  γ := (W8_of_ne m ρ c main_arg6 (by decide)).trans (pers7 m ρ c).γ
  β := (W8_of_ne m ρ c main_arg7 (by decide)).trans (pers7 m ρ c).β
  v1 := (W8_of_ne m ρ c main_v1 (by decide)).trans (pers7 m ρ c).v1
  v3 := (W8_of_ne m ρ c main_v3 (by decide)).trans (pers7 m ρ c).v3
  v19 := (W8_of_ne m ρ c main_v19 (by decide)).trans (pers7 m ρ c).v19
  d := fun r => (congrFun ((W8_arr m ρ c 4).trans (((dat3 (V7 m ρ) c).arrAt_in 4 rfl _).trans (A_eq3 (V7 m ρ) c 4))) _).trans ((pers7 m ρ c).d r)

theorem pers9 : Pers (argsK m c) (W9 (F := Ideal) m ρ c) := pers_host4 _ (pers8 m ρ c)

theorem gin9 : ((W9 (F := Ideal) m ρ c (Proc.devRef .tc main_v117_0)) : S100000x128.Idx → EReal) = (G1 (argsK m c)) :=
  (host4_g _).trans (out3_5 m ρ c)

/-- The normalise region's first output: the next layer's input. -/
theorem x4_eq : KA.x4 (V9 (F := Ideal) m ρ) c = (X2 (argsK m c)) :=
  arr_ext _ _ fun r j => (KA.x4_apply (V9 (F := Ideal) m ρ) c r j).trans
    (relu_norm_eq (argsK m c) 1 (G1 (argsK m c)) (W9 (F := Ideal) m ρ c (Proc.devRef .tc main_v117_0)) (W9 (F := Ideal) m ρ c (Proc.devRef .tc main_v129)) (W9 (F := Ideal) m ρ c (Proc.devRef .tc main_v135)) (W9 (F := Ideal) m ρ c (Proc.devRef .tc main_v138)) (W9 (F := Ideal) m ρ c (Proc.devRef .tc main_v141))
      (gin9 m ρ c) (host4_mean _ (G1 (argsK m c)) (out3_6 m ρ c)) (host4_var _ (G1 (argsK m c)) (out3_6 m ρ c) (out3_7 m ρ c))
      (host4_gamma _ (pers8 m ρ c)) (host4_beta _ (pers8 m ρ c)) r j)

theorem out4_7 : ((W10 (F := Ideal) m ρ c (Proc.devRef .tc main_v148_0)) : S100000x128.Idx → EReal) = (X2 (argsK m c)) := by
  refine (W10_arr m ρ c 7).trans ?_
  refine arr_ext _ _ fun r j => ?_
  refine (KA.final4_7 (V9 (F := Ideal) m ρ) c r j).trans ?_
  rw [x4_eq m ρ c]

/-- Its second output: the next layer's second dense map. -/
theorem out4_8 : ((W10 (F := Ideal) m ρ c (Proc.devRef .tc main_v148_1)) : S100000x128.Idx → EReal) = (H2 (argsK m c)) := by
  refine (W10_arr m ρ c 8).trans ?_
  refine arr_ext _ _ fun r j => ?_
  refine (KA.final4_8 (V9 (F := Ideal) m ρ) c r j).trans ?_
  rw [x4_eq m ρ c]
  exact lin_eq (argsK m c).W1 (argsK m c).b1 2 (X2 (argsK m c)) (X2 (argsK m c)) (W9 (F := Ideal) m ρ c (Proc.devRef .tc main_v144)) (W9 (F := Ideal) m ρ c (Proc.devRef .tc main_v147)) rfl
    (host4_wT _ (pers8 m ρ c)) (host4_brow _ (pers8 m ρ c)) r j

/-- Region 4 writes none of the persistent buffers. -/
theorem pers10 : Pers (argsK m c) (W10 (F := Ideal) m ρ c) where
  x := (W10_of_ne m ρ c main_arg0 (by decide)).trans (pers9 m ρ c).x
  E := (W10_of_ne m ρ c main_arg1 (by decide)).trans (pers9 m ρ c).E
  W0 := (W10_of_ne m ρ c main_arg2 (by decide)).trans (pers9 m ρ c).W0
  b0 := (W10_of_ne m ρ c main_arg3 (by decide)).trans (pers9 m ρ c).b0
  W1 := (W10_of_ne m ρ c main_arg4 (by decide)).trans (pers9 m ρ c).W1
  b1 := (W10_of_ne m ρ c main_arg5 (by decide)).trans (pers9 m ρ c).b1
  γ := (W10_of_ne m ρ c main_arg6 (by decide)).trans (pers9 m ρ c).γ
  β := (W10_of_ne m ρ c main_arg7 (by decide)).trans (pers9 m ρ c).β
  v1 := (W10_of_ne m ρ c main_v1 (by decide)).trans (pers9 m ρ c).v1
  v3 := (W10_of_ne m ρ c main_v3 (by decide)).trans (pers9 m ρ c).v3
  v19 := (W10_of_ne m ρ c main_v19 (by decide)).trans (pers9 m ρ c).v19
  d := fun r => (congrFun (W10_of_ne m ρ c main_v18 (by decide)) _).trans ((pers9 m ρ c).d r)

/-! ## Layer 2 -/

theorem pers11 : Pers (argsK m c) (W11 (F := Ideal) m ρ c) := pers_host5 _ (pers10 m ρ c)

/-- The layer's input passes the host operations before the combine region. -/
theorem x11 : ((W11 (F := Ideal) m ρ c (Proc.devRef .tc main_v148_0)) : S100000x128.Idx → EReal) = (X2 (argsK m c)) :=
  (host5_keep_v148_0 _).trans (out4_7 m ρ c)

/-- The combine region's first output: the scaled combination. -/
theorem g5_eq : KA.g5 (V11 (F := Ideal) m ρ) c = (G2 (argsK m c)) :=
  arr_ext _ _ fun r j => (KA.g5_apply (V11 (F := Ideal) m ρ) c r j).trans
    (comb_eq (argsK m c) 2 (X2 (argsK m c)) (H2 (argsK m c)) (W11 (F := Ideal) m ρ c (Proc.devRef .tc main_v148_0)) (W11 (F := Ideal) m ρ c (Proc.devRef .tc main_v171)) (W11 (F := Ideal) m ρ c (Proc.devRef .tc main_v18)) (W11 (F := Ideal) m ρ c (Proc.devRef .tc main_v174)) (W11 (F := Ideal) m ρ c (Proc.devRef .tc main_v177))
      (pers11 m ρ c).d (x11 m ρ c) (host5_wT _ (pers10 m ρ c)) (host5_brow _ (pers10 m ρ c))
      (host5_agg _ (pers10 m ρ c) (H2 (argsK m c)) (out4_8 m ρ c)) r j)

theorem out5_5 : ((W12 (F := Ideal) m ρ c (Proc.devRef .tc main_v178_0)) : S100000x128.Idx → EReal) = (G2 (argsK m c)) := by
  refine (W12_arr m ρ c 5).trans ?_
  refine arr_ext _ _ fun r j => ?_
  refine (KA.final5_5 (V11 (F := Ideal) m ρ) c r j).trans ?_
  rw [g5_eq m ρ c]

/-- Its second and third outputs: the column sums by blocks, of the combination and of its squares. -/
theorem out5_6 (q : Fin 160) (j : Fin 128) :
    ((W12 (F := Ideal) m ρ c (Proc.devRef .tc main_v178_1)) : S160x128.Idx → EReal) (ix2 q j) = blockSumAt (G2 (argsK m c)) q j := by
  refine (congrFun (W12_arr m ρ c 6) _).trans ?_
  refine (KA.final5_6 (V11 (F := Ideal) m ρ) c q j).trans ?_
  rw [g5_eq m ρ c]
  rfl

theorem out5_7 (q : Fin 160) (j : Fin 128) :
    ((W12 (F := Ideal) m ρ c (Proc.devRef .tc main_v178_2)) : S160x128.Idx → EReal) (ix2 q j) = blockSumAt (fun i => (G2 (argsK m c)) i * (G2 (argsK m c)) i) q j := by
  refine (congrFun (W12_arr m ρ c 7) _).trans ?_
  refine (KA.final5_7 (V11 (F := Ideal) m ρ) c q j).trans ?_
  rw [g5_eq m ρ c]
  rfl

/-- Region 5 writes none of the persistent buffers. -/
theorem pers12 : Pers (argsK m c) (W12 (F := Ideal) m ρ c) where
  x := (W12_of_ne m ρ c main_arg0 (by decide)).trans (pers11 m ρ c).x
  E := (W12_of_ne m ρ c main_arg1 (by decide)).trans (pers11 m ρ c).E
  W0 := (W12_of_ne m ρ c main_arg2 (by decide)).trans (pers11 m ρ c).W0
  b0 := (W12_of_ne m ρ c main_arg3 (by decide)).trans (pers11 m ρ c).b0
  W1 := (W12_of_ne m ρ c main_arg4 (by decide)).trans (pers11 m ρ c).W1
  b1 := (W12_of_ne m ρ c main_arg5 (by decide)).trans (pers11 m ρ c).b1
  γ := (W12_of_ne m ρ c main_arg6 (by decide)).trans (pers11 m ρ c).γ
  β := (W12_of_ne m ρ c main_arg7 (by decide)).trans (pers11 m ρ c).β
  v1 := (W12_of_ne m ρ c main_v1 (by decide)).trans (pers11 m ρ c).v1
  v3 := (W12_of_ne m ρ c main_v3 (by decide)).trans (pers11 m ρ c).v3
  v19 := (W12_of_ne m ρ c main_v19 (by decide)).trans (pers11 m ρ c).v19
  d := fun r => (congrFun ((W12_arr m ρ c 4).trans (((dat5 (V11 m ρ) c).arrAt_in 4 rfl _).trans (A_eq5 (V11 m ρ) c 4))) _).trans ((pers11 m ρ c).d r)

theorem pers13 : Pers (argsK m c) (W13 (F := Ideal) m ρ c) := pers_host6 _ (pers12 m ρ c)

theorem gin13 : ((W13 (F := Ideal) m ρ c (Proc.devRef .tc main_v178_0)) : S100000x128.Idx → EReal) = (G2 (argsK m c)) :=
  (host6_g _).trans (out5_5 m ρ c)

/-- The last region's output: the normalisation plus the network's input, clipped at zero. -/
theorem out6 : ((W14 (F := Ideal) m ρ c (Proc.devRef .tc main_v203)) : S100000x128.Idx → EReal)
    = fun i => max (Cert.Spec.normK (argsK m c) 2 (G2 (argsK m c)) i + (argsK m c).x i) Cert.Spec.f0 := by
  refine (W14_arr m ρ c 6).trans ?_
  funext i
  rw [eq_ix2 i]
  refine (KA.final6_6 (V13 (F := Ideal) m ρ) c (i 0) (i 1)).trans ?_
  exact out_norm_eq (argsK m c) 2 (G2 (argsK m c)) (W13 (F := Ideal) m ρ c (Proc.devRef .tc main_v178_0)) (W13 (F := Ideal) m ρ c (Proc.devRef .tc main_arg0)) (W13 (F := Ideal) m ρ c (Proc.devRef .tc main_v190)) (W13 (F := Ideal) m ρ c (Proc.devRef .tc main_v196)) (W13 (F := Ideal) m ρ c (Proc.devRef .tc main_v199)) (W13 (F := Ideal) m ρ c (Proc.devRef .tc main_v202))
      (gin13 m ρ c) (pers13 m ρ c).x (host6_mean _ (G2 (argsK m c)) (out5_6 m ρ c)) (host6_var _ (G2 (argsK m c)) (out5_6 m ρ c) (out5_7 m ρ c))
      (host6_gamma _ (pers12 m ρ c)) (host6_beta _ (pers12 m ρ c)) (i 0) (i 1)

/-! ## The result -/

/-- The result buffer after the last region is the specification's kernel-side network of the argument arrays. -/
theorem result (m : (ℓ : Loc nD τ sig) → Buf (Elt Ideal) ℓ) (ρ : Dev nD → PrngReg) (c : Dev nD) :
    Gen.W14 (F := Ideal) m ρ c (Proc.devRef .tc main_v203) = Cert.Spec.outK (argsK m c) :=
  (out6 m ρ c).trans (outK_eq (argsK m c)).symm

end Cert.KernelIdeal.KB

end
-- ==== Proof.R.Args.lean ====
/-
  The eight argument arrays of the reference program, as they lie in a launch memory, bundled for the specification.
-/
import proofs.«178513_j90202903151305_2_alg».proof.ReferenceIdeal
import proofs.«178513_j90202903151305_2_alg».proof.Proof.Spec
import Idealize.ShloMosaic.PureOps.Ideal

noncomputable section

namespace Cert.ReferenceIdeal

open Idealize.ShloMosaic Idealize.SL.Sem

/-- Core c's argument arrays in the memory m. -/
def argsR (m : (ℓ : Loc nD τ sig) → Buf (Elt Ideal) ℓ) (c : Dev nD) : Cert.Spec.Args where
  x := m ((c.tc : Thread nD τ).loc main_arg0)
  E := m ((c.tc : Thread nD τ).loc main_arg1)
  W0 := m ((c.tc : Thread nD τ).loc main_arg2)
  b0 := m ((c.tc : Thread nD τ).loc main_arg3)
  W1 := m ((c.tc : Thread nD τ).loc main_arg4)
  b1 := m ((c.tc : Thread nD τ).loc main_arg5)
  γ := m ((c.tc : Thread nD τ).loc main_arg6)
  β := m ((c.tc : Thread nD τ).loc main_arg7)

end Cert.ReferenceIdeal

end
-- ==== Proof.R.Ops.lean ====
/-
  The reference program's @main as lists of its host operations, in order, every call unfolded in place: a call of
  @_var is @_var's operations over that call's buffer record (its call of @_where over the record's own record), a
  call of @relu is @relu's three operations over its record. The program is a prelude (the edge list's two endpoint
  columns, the in-degree count and its reciprocal) followed by three layers of the same shape; each layer is five
  lists cut at the same places: the two dense maps, the neighbour sum (gathers and scatter-adds), the combination
  scaled by the reciprocal count, the column mean and variance, the normalisation with scale, shift and rectifier.
-/
import proofs.«178513_j90202903151305_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The two endpoint columns of the edge list, the in-degree count (a scatter-add of ones plus one) and its reciprocal as a column: %0 … %18. -/
abbrev opsPre : List (HloOp τ sig (Elt F)) :=
  [ StableHlo.unary main_arg1 main_v0 ((extractStridedSlice S300000x1 ![0, 0] · slices_S300000x2_S300000x1_0_0) : (⟨S300000x2, .i32⟩ : BufTy).Contents (Elt F) → (⟨S300000x1, .i32⟩ : BufTy).Contents (Elt F)),
    StableHlo.reshape main_v0 main_v1 rfl shapeCasts_S300000x1_S300000,
    StableHlo.unary main_arg1 main_v2 ((extractStridedSlice S300000x1 ![0, 1] · slices_S300000x2_S300000x1_0_1) : (⟨S300000x2, .i32⟩ : BufTy).Contents (Elt F) → (⟨S300000x1, .i32⟩ : BufTy).Contents (Elt F)),
    StableHlo.reshape main_v2 main_v3 rfl shapeCasts_S300000x1_S300000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.reshape main_arg1 main_v5 rfl shapeCasts_S300000x2_S600000,
    StableHlo.nullary main_c (constantI S_ 32 0#32),
    StableHlo.unary main_c main_v6 (broadcastInDim S600000 ![] bcast_S_S600000 : (⟨S_, .i32⟩ : BufTy).Contents (Elt F) → (⟨S600000, .i32⟩ : BufTy).Contents (Elt F)),
    StableHlo.binary main_v5 main_v6 main_v7 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v8 (broadcastInDim S600000 ![] bcast_S_S600000 : (⟨S_, .i32⟩ : BufTy).Contents (Elt F) → (⟨S600000, .i32⟩ : BufTy).Contents (Elt F)),
    StableHlo.binary main_v5 main_v8 main_v9 (addi : (⟨S600000, .i32⟩ : BufTy).Contents (Elt F) → (⟨S600000, .i32⟩ : BufTy).Contents (Elt F) → (⟨S600000, .i32⟩ : BufTy).Contents (Elt F)),
    StableHlo.ternary main_v7 main_v9 main_v5 main_v10 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v10 main_v11 (broadcastInDim S600000x1 ![0] bcast_S600000_S600000x1_0 : (⟨S600000, .i32⟩ : BufTy).Contents (Elt F) → (⟨S600000x1, .i32⟩ : BufTy).Contents (Elt F)),
    StableHlo.nullary main_cst_1 (constant S_ .f32 0x3F800000#32),
    StableHlo.unary main_cst_1 main_v12 (broadcastInDim S600000 ![] bcast_S_S600000 : (⟨S_, .f32⟩ : BufTy).Contents (Elt F) → (⟨S600000, .f32⟩ : BufTy).Contents (Elt F)),
    StableHlo.ternary main_v4 main_v11 main_v12 main_v13 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_2 (constant S_ .f32 0x3F800000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v14 main_v13 main_v15 (addf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x3F800000#32),
    StableHlo.unary main_cst_3 main_v16 (broadcastInDim S100000 ![] bcast_S_S100000 : (⟨S_, .f32⟩ : BufTy).Contents (Elt F) → (⟨S100000, .f32⟩ : BufTy).Contents (Elt F)),
    StableHlo.binary main_v16 main_v15 main_v17 (Host.divf : (⟨S100000, .f32⟩ : BufTy).Contents (Elt F) → (⟨S100000, .f32⟩ : BufTy).Contents (Elt F) → (⟨S100000, .f32⟩ : BufTy).Contents (Elt F)),
    StableHlo.unary main_v17 main_v18 (broadcastInDim S100000x1 ![0] bcast_S100000_S100000x1_0 : (⟨S100000, .f32⟩ : BufTy).Contents (Elt F) → (⟨S100000x1, .f32⟩ : BufTy).Contents (Elt F)) ]

/-- Layer 0, the two dense maps x·W0ᵀ + b0 and x·W1ᵀ + b1: %19 … %36. -/
abbrev opsL0a : List (HloOp τ sig (Elt F)) :=
  [ StableHlo.unary main_arg2 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v19 main_v20 rfl shapeCasts_S1x128x128_S128x128,
    StableHlo.unary main_v20 main_v21 ((transpose S128x128 [1, 0] · transposes_S128x128_S128x128_1_0) : (⟨S128x128, .f32⟩ : BufTy).Contents (Elt F) → (⟨S128x128, .f32⟩ : BufTy).Contents (Elt F)),
    StableHlo.binary main_arg0 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v28 main_v29 rfl shapeCasts_S1x128x128_S128x128,
    StableHlo.unary main_v29 main_v30 ((transpose S128x128 [1, 0] · transposes_S128x128_S128x128_1_0) : (⟨S128x128, .f32⟩ : BufTy).Contents (Elt F) → (⟨S128x128, .f32⟩ : BufTy).Contents (Elt F)),
    StableHlo.binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v35 main_v36 (addf : (⟨S100000x128, .f32⟩ : BufTy).Contents (Elt F) → (⟨S100000x128, .f32⟩ : BufTy).Contents (Elt F) → (⟨S100000x128, .f32⟩ : BufTy).Contents (Elt F)) ]

/-- Layer 0, the neighbour sum: zeros, the four wrapped index columns, two gathers and two scatter-adds: %cst_4, %37 … %65. -/
abbrev opsL0b : List (HloOp τ sig (Elt F)) :=
  [ StableHlo.nullary main_cst_4 (constant S_ .f32 0x00000000#32),
    StableHlo.unary main_cst_4 main_v37 (broadcastInDim S100000x128 ![] bcast_S_S100000x128 : (⟨S_, .f32⟩ : BufTy).Contents (Elt F) → (⟨S100000x128, .f32⟩ : BufTy).Contents (Elt F)),
    StableHlo.nullary main_c_5 (constantI S_ 32 0#32),
    StableHlo.unary main_c_5 main_v38 (broadcastInDim S300000 ![] bcast_S_S300000 : (⟨S_, .i32⟩ : BufTy).Contents (Elt F) → (⟨S300000, .i32⟩ : BufTy).Contents (Elt F)),
    StableHlo.binary main_v3 main_v38 main_v39 (cmpi .slt : (⟨S300000, .i32⟩ : BufTy).Contents (Elt F) → (⟨S300000, .i32⟩ : BufTy).Contents (Elt F) → (⟨S300000, .i1⟩ : BufTy).Contents (Elt F)),
    StableHlo.nullary main_c_6 (constantI S_ 32 100000#32),
    StableHlo.unary main_c_6 main_v40 (broadcastInDim S300000 ![] bcast_S_S300000 : (⟨S_, .i32⟩ : BufTy).Contents (Elt F) → (⟨S300000, .i32⟩ : BufTy).Contents (Elt F)),
    StableHlo.binary main_v3 main_v40 main_v41 (addi : (⟨S300000, .i32⟩ : BufTy).Contents (Elt F) → (⟨S300000, .i32⟩ : BufTy).Contents (Elt F) → (⟨S300000, .i32⟩ : BufTy).Contents (Elt F)),
    StableHlo.ternary main_v39 main_v41 main_v3 main_v42 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v42 main_v43 (broadcastInDim S300000x1 ![0] bcast_S300000_S300000x1_0 : (⟨S300000, .i32⟩ : BufTy).Contents (Elt F) → (⟨S300000x1, .i32⟩ : BufTy).Contents (Elt F)),
    StableHlo.binary main_v36 main_v43 main_v44 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.nullary main_c_7 (constantI S_ 32 0#32),
    StableHlo.unary main_c_7 main_v45 (broadcastInDim S300000 ![] bcast_S_S300000 : (⟨S_, .i32⟩ : BufTy).Contents (Elt F) → (⟨S300000, .i32⟩ : BufTy).Contents (Elt F)),
    StableHlo.binary main_v1 main_v45 main_v46 (cmpi .slt : (⟨S300000, .i32⟩ : BufTy).Contents (Elt F) → (⟨S300000, .i32⟩ : BufTy).Contents (Elt F) → (⟨S300000, .i1⟩ : BufTy).Contents (Elt F)),
    StableHlo.nullary main_c_8 (constantI S_ 32 100000#32),
    StableHlo.unary main_c_8 main_v47 (broadcastInDim S300000 ![] bcast_S_S300000 : (⟨S_, .i32⟩ : BufTy).Contents (Elt F) → (⟨S300000, .i32⟩ : BufTy).Contents (Elt F)),
    StableHlo.binary main_v1 main_v47 main_v48 (addi : (⟨S300000, .i32⟩ : BufTy).Contents (Elt F) → (⟨S300000, .i32⟩ : BufTy).Contents (Elt F) → (⟨S300000, .i32⟩ : BufTy).Contents (Elt F)),
    StableHlo.ternary main_v46 main_v48 main_v1 main_v49 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v49 main_v50 (broadcastInDim S300000x1 ![0] bcast_S300000_S300000x1_0 : (⟨S300000, .i32⟩ : BufTy).Contents (Elt F) → (⟨S300000x1, .i32⟩ : BufTy).Contents (Elt F)),
    StableHlo.ternary main_v37 main_v50 main_v44 main_v51 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    StableHlo.nullary main_c_9 (constantI S_ 32 0#32),
    StableHlo.unary main_c_9 main_v52 (broadcastInDim S300000 ![] bcast_S_S300000 : (⟨S_, .i32⟩ : BufTy).Contents (Elt F) → (⟨S300000, .i32⟩ : BufTy).Contents (Elt F)),
    StableHlo.binary main_v1 main_v52 main_v53 (cmpi .slt : (⟨S300000, .i32⟩ : BufTy).Contents (Elt F) → (⟨S300000, .i32⟩ : BufTy).Contents (Elt F) → (⟨S300000, .i1⟩ : BufTy).Contents (Elt F)),
    StableHlo.nullary main_c_10 (constantI S_ 32 100000#32),
    StableHlo.unary main_c_10 main_v54 (broadcastInDim S300000 ![] bcast_S_S300000 : (⟨S_, .i32⟩ : BufTy).Contents (Elt F) → (⟨S300000, .i32⟩ : BufTy).Contents (Elt F)),
    StableHlo.binary main_v1 main_v54 main_v55 (addi : (⟨S300000, .i32⟩ : BufTy).Contents (Elt F) → (⟨S300000, .i32⟩ : BufTy).Contents (Elt F) → (⟨S300000, .i32⟩ : BufTy).Contents (Elt F)),
    StableHlo.ternary main_v53 main_v55 main_v1 main_v56 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v56 main_v57 (broadcastInDim S300000x1 ![0] bcast_S300000_S300000x1_0 : (⟨S300000, .i32⟩ : BufTy).Contents (Elt F) → (⟨S300000x1, .i32⟩ : BufTy).Contents (Elt F)),
    StableHlo.binary main_v36 main_v57 main_v58 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.nullary main_c_11 (constantI S_ 32 0#32),
    StableHlo.unary main_c_11 main_v59 (broadcastInDim S300000 ![] bcast_S_S300000 : (⟨S_, .i32⟩ : BufTy).Contents (Elt F) → (⟨S300000, .i32⟩ : BufTy).Contents (Elt F)),
    StableHlo.binary main_v3 main_v59 main_v60 (cmpi .slt : (⟨S300000, .i32⟩ : BufTy).Contents (Elt F) → (⟨S300000, .i32⟩ : BufTy).Contents (Elt F) → (⟨S300000, .i1⟩ : BufTy).Contents (Elt F)),
    StableHlo.nullary main_c_12 (constantI S_ 32 100000#32),
    StableHlo.unary main_c_12 main_v61 (broadcastInDim S300000 ![] bcast_S_S300000 : (⟨S_, .i32⟩ : BufTy).Contents (Elt F) → (⟨S300000, .i32⟩ : BufTy).Contents (Elt F)),
    StableHlo.binary main_v3 main_v61 main_v62 (addi : (⟨S300000, .i32⟩ : BufTy).Contents (Elt F) → (⟨S300000, .i32⟩ : BufTy).Contents (Elt F) → (⟨S300000, .i32⟩ : BufTy).Contents (Elt F)),
    StableHlo.ternary main_v60 main_v62 main_v3 main_v63 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v63 main_v64 (broadcastInDim S300000x1 ![0] bcast_S300000_S300000x1_0 : (⟨S300000, .i32⟩ : BufTy).Contents (Elt F) → (⟨S300000x1, .i32⟩ : BufTy).Contents (Elt F)),
    StableHlo.ternary main_v51 main_v64 main_v58 main_v65 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)) ]

/-- Layer 0, self term plus neighbour sum, scaled by the reciprocal count: %66 … %68. -/
abbrev opsL0c : List (HloOp τ sig (Elt F)) :=
  [ StableHlo.binary main_v27 main_v65 main_v66 (addf : (⟨S100000x128, .f32⟩ : BufTy).Contents (Elt F) → (⟨S100000x128, .f32⟩ : BufTy).Contents (Elt F) → (⟨S100000x128, .f32⟩ : BufTy).Contents (Elt F)),
    StableHlo.unary main_v18 main_v67 (broadcastInDim S100000x128 ![0, 1] bcast_S100000x1_S100000x128_0_1 : (⟨S100000x1, .f32⟩ : BufTy).Contents (Elt F) → (⟨S100000x128, .f32⟩ : BufTy).Contents (Elt F)),
    StableHlo.binary main_v67 main_v66 main_v68 (mulf : (⟨S100000x128, .f32⟩ : BufTy).Contents (Elt F) → (⟨S100000x128, .f32⟩ : BufTy).Contents (Elt F) → (⟨S100000x128, .f32⟩ : BufTy).Contents (Elt F)) ]

/-- Layer 0, the column mean (%69 … %71) and the column variance: @_var's operations over main_call0, @_where's over main_call0.call0 (writes main_v72). -/
abbrev opsL0d : List (HloOp τ sig (Elt F)) :=
  [ StableHlo.nullary main_cst_13 (constant S_ .f32 0x00000000#32),
    StableHlo.binary main_v68 main_cst_13 main_v69 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_14 (constant S_ .f32 0x47C35000#32),
    StableHlo.unary main_cst_14 main_v70 (broadcastInDim S128 ![] bcast_S_S128 : (⟨S_, .f32⟩ : BufTy).Contents (Elt F) → (⟨S128, .f32⟩ : BufTy).Contents (Elt F)),
    StableHlo.binary main_v69 main_v70 main_v71 (Host.divf : (⟨S128, .f32⟩ : BufTy).Contents (Elt F) → (⟨S128, .f32⟩ : BufTy).Contents (Elt F) → (⟨S128, .f32⟩ : BufTy).Contents (Elt F)),
    StableHlo.nullary main_c_15 (constantI S_ 32 0#32),
    StableHlo.TRef.nullary main_call0.cst (constant S_ .f32 0x00000000#32),
    StableHlo.TRef.binary (TRef.of main_v68 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (TRef.of main_v68 : StableHlo.TRef sig ⟨S100000x128, .f32⟩) main_call0.v4 main_call0.v5 subf,
    StableHlo.TRef.binary main_call0.v5 main_call0.v5 main_call0.v6 mulf,
    StableHlo.TRef.unary (TRef.of main_c_15 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Layer 0, the normalisation, scale and shift (%73 … %91) and @relu's operations over main_call1 (writes main_v92). -/
abbrev opsL0e : List (HloOp τ sig (Elt F)) :=
  [ StableHlo.unary main_arg6 main_v73 ((extractStridedSlice S1x128 ![0, 0] · slices_S3x128_S1x128_0_0) : (⟨S3x128, .f32⟩ : BufTy).Contents (Elt F) → (⟨S1x128, .f32⟩ : BufTy).Contents (Elt F)),
    StableHlo.reshape main_v73 main_v74 rfl shapeCasts_S1x128_S128,
    StableHlo.unary main_v71 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v76 main_v77 (subf : (⟨S100000x128, .f32⟩ : BufTy).Contents (Elt F) → (⟨S100000x128, .f32⟩ : BufTy).Contents (Elt F) → (⟨S100000x128, .f32⟩ : BufTy).Contents (Elt F)),
    StableHlo.unary main_v74 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v77 main_v80 (mulf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3727C5AC#32),
    StableHlo.unary main_cst_16 main_v81 (broadcastInDim S128 ![] bcast_S_S128 : (⟨S_, .f32⟩ : BufTy).Contents (Elt F) → (⟨S128, .f32⟩ : BufTy).Contents (Elt F)),
    StableHlo.binary main_v72 main_v81 main_v82 (addf : (⟨S128, .f32⟩ : BufTy).Contents (Elt F) → (⟨S128, .f32⟩ : BufTy).Contents (Elt F) → (⟨S128, .f32⟩ : BufTy).Contents (Elt F)),
    StableHlo.unary main_v82 main_v83 (Host.rsqrt : (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v85 main_v86 (mulf : (⟨S100000x128, .f32⟩ : BufTy).Contents (Elt F) → (⟨S100000x128, .f32⟩ : BufTy).Contents (Elt F) → (⟨S100000x128, .f32⟩ : BufTy).Contents (Elt F)),
    StableHlo.unary main_arg7 main_v87 ((extractStridedSlice S1x128 ![0, 0] · slices_S3x128_S1x128_0_0) : (⟨S3x128, .f32⟩ : BufTy).Contents (Elt F) → (⟨S1x128, .f32⟩ : BufTy).Contents (Elt F)),
    StableHlo.reshape main_v87 main_v88 rfl shapeCasts_S1x128_S128,
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v90 main_v91 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (TRef.of main_v91 : StableHlo.TRef sig ⟨S100000x128, .f32⟩) main_call1.v0 main_call1.v1 maximumf ]

/-- Layer 1, the two dense maps: %93 … %110. -/
abbrev opsL1a : List (HloOp τ sig (Elt F)) :=
  [ StableHlo.unary main_arg2 main_v93 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v93 main_v94 rfl shapeCasts_S1x128x128_S128x128,
    StableHlo.unary main_v94 main_v95 ((transpose S128x128 [1, 0] · transposes_S128x128_S128x128_1_0) : (⟨S128x128, .f32⟩ : BufTy).Contents (Elt F) → (⟨S128x128, .f32⟩ : BufTy).Contents (Elt F)),
    StableHlo.binary main_v92 main_v95 main_v96 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v97 ((extractStridedSlice S1x128 ![1, 0] · slices_S3x128_S1x128_1_0) : (⟨S3x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v100 main_v101 (addf : (⟨S100000x128, .f32⟩ : BufTy).Contents (Elt F) → (⟨S100000x128, .f32⟩ : BufTy).Contents (Elt F) → (⟨S100000x128, .f32⟩ : BufTy).Contents (Elt F)),
    StableHlo.unary main_arg4 main_v102 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v102 main_v103 rfl shapeCasts_S1x128x128_S128x128,
    StableHlo.unary main_v103 main_v104 ((transpose S128x128 [1, 0] · transposes_S128x128_S128x128_1_0) : (⟨S128x128, .f32⟩ : BufTy).Contents (Elt F) → (⟨S128x128, .f32⟩ : BufTy).Contents (Elt F)),
    StableHlo.binary main_v92 main_v104 main_v105 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v106 ((extractStridedSlice S1x128 ![1, 0] · slices_S3x128_S1x128_1_0) : (⟨S3x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v109 main_v110 (addf : (⟨S100000x128, .f32⟩ : BufTy).Contents (Elt F) → (⟨S100000x128, .f32⟩ : BufTy).Contents (Elt F) → (⟨S100000x128, .f32⟩ : BufTy).Contents (Elt F)) ]

/-- Layer 1, the neighbour sum: %cst_17, %111 … %139. -/
abbrev opsL1b : List (HloOp τ sig (Elt F)) :=
  [ StableHlo.nullary main_cst_17 (constant S_ .f32 0x00000000#32),
    StableHlo.unary main_cst_17 main_v111 (broadcastInDim S100000x128 ![] bcast_S_S100000x128 : (⟨S_, .f32⟩ : BufTy).Contents (Elt F) → (⟨S100000x128, .f32⟩ : BufTy).Contents (Elt F)),
    StableHlo.nullary main_c_18 (constantI S_ 32 0#32),
    StableHlo.unary main_c_18 main_v112 (broadcastInDim S300000 ![] bcast_S_S300000 : (⟨S_, .i32⟩ : BufTy).Contents (Elt F) → (⟨S300000, .i32⟩ : BufTy).Contents (Elt F)),
    StableHlo.binary main_v3 main_v112 main_v113 (cmpi .slt : (⟨S300000, .i32⟩ : BufTy).Contents (Elt F) → (⟨S300000, .i32⟩ : BufTy).Contents (Elt F) → (⟨S300000, .i1⟩ : BufTy).Contents (Elt F)),
    StableHlo.nullary main_c_19 (constantI S_ 32 100000#32),
    StableHlo.unary main_c_19 main_v114 (broadcastInDim S300000 ![] bcast_S_S300000 : (⟨S_, .i32⟩ : BufTy).Contents (Elt F) → (⟨S300000, .i32⟩ : BufTy).Contents (Elt F)),
    StableHlo.binary main_v3 main_v114 main_v115 (addi : (⟨S300000, .i32⟩ : BufTy).Contents (Elt F) → (⟨S300000, .i32⟩ : BufTy).Contents (Elt F) → (⟨S300000, .i32⟩ : BufTy).Contents (Elt F)),
    StableHlo.ternary main_v113 main_v115 main_v3 main_v116 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v116 main_v117 (broadcastInDim S300000x1 ![0] bcast_S300000_S300000x1_0 : (⟨S300000, .i32⟩ : BufTy).Contents (Elt F) → (⟨S300000x1, .i32⟩ : BufTy).Contents (Elt F)),
    StableHlo.binary main_v110 main_v117 main_v118 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.nullary main_c_20 (constantI S_ 32 0#32),
    StableHlo.unary main_c_20 main_v119 (broadcastInDim S300000 ![] bcast_S_S300000 : (⟨S_, .i32⟩ : BufTy).Contents (Elt F) → (⟨S300000, .i32⟩ : BufTy).Contents (Elt F)),
    StableHlo.binary main_v1 main_v119 main_v120 (cmpi .slt : (⟨S300000, .i32⟩ : BufTy).Contents (Elt F) → (⟨S300000, .i32⟩ : BufTy).Contents (Elt F) → (⟨S300000, .i1⟩ : BufTy).Contents (Elt F)),
    StableHlo.nullary main_c_21 (constantI S_ 32 100000#32),
    StableHlo.unary main_c_21 main_v121 (broadcastInDim S300000 ![] bcast_S_S300000 : (⟨S_, .i32⟩ : BufTy).Contents (Elt F) → (⟨S300000, .i32⟩ : BufTy).Contents (Elt F)),
    StableHlo.binary main_v1 main_v121 main_v122 (addi : (⟨S300000, .i32⟩ : BufTy).Contents (Elt F) → (⟨S300000, .i32⟩ : BufTy).Contents (Elt F) → (⟨S300000, .i32⟩ : BufTy).Contents (Elt F)),
    StableHlo.ternary main_v120 main_v122 main_v1 main_v123 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v123 main_v124 (broadcastInDim S300000x1 ![0] bcast_S300000_S300000x1_0 : (⟨S300000, .i32⟩ : BufTy).Contents (Elt F) → (⟨S300000x1, .i32⟩ : BufTy).Contents (Elt F)),
    StableHlo.ternary main_v111 main_v124 main_v118 main_v125 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    StableHlo.nullary main_c_22 (constantI S_ 32 0#32),
    StableHlo.unary main_c_22 main_v126 (broadcastInDim S300000 ![] bcast_S_S300000 : (⟨S_, .i32⟩ : BufTy).Contents (Elt F) → (⟨S300000, .i32⟩ : BufTy).Contents (Elt F)),
    StableHlo.binary main_v1 main_v126 main_v127 (cmpi .slt : (⟨S300000, .i32⟩ : BufTy).Contents (Elt F) → (⟨S300000, .i32⟩ : BufTy).Contents (Elt F) → (⟨S300000, .i1⟩ : BufTy).Contents (Elt F)),
    StableHlo.nullary main_c_23 (constantI S_ 32 100000#32),
    StableHlo.unary main_c_23 main_v128 (broadcastInDim S300000 ![] bcast_S_S300000 : (⟨S_, .i32⟩ : BufTy).Contents (Elt F) → (⟨S300000, .i32⟩ : BufTy).Contents (Elt F)),
    StableHlo.binary main_v1 main_v128 main_v129 (addi : (⟨S300000, .i32⟩ : BufTy).Contents (Elt F) → (⟨S300000, .i32⟩ : BufTy).Contents (Elt F) → (⟨S300000, .i32⟩ : BufTy).Contents (Elt F)),
    StableHlo.ternary main_v127 main_v129 main_v1 main_v130 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v130 main_v131 (broadcastInDim S300000x1 ![0] bcast_S300000_S300000x1_0 : (⟨S300000, .i32⟩ : BufTy).Contents (Elt F) → (⟨S300000x1, .i32⟩ : BufTy).Contents (Elt F)),
    StableHlo.binary main_v110 main_v131 main_v132 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.nullary main_c_24 (constantI S_ 32 0#32),
    StableHlo.unary main_c_24 main_v133 (broadcastInDim S300000 ![] bcast_S_S300000 : (⟨S_, .i32⟩ : BufTy).Contents (Elt F) → (⟨S300000, .i32⟩ : BufTy).Contents (Elt F)),
    StableHlo.binary main_v3 main_v133 main_v134 (cmpi .slt : (⟨S300000, .i32⟩ : BufTy).Contents (Elt F) → (⟨S300000, .i32⟩ : BufTy).Contents (Elt F) → (⟨S300000, .i1⟩ : BufTy).Contents (Elt F)),
    StableHlo.nullary main_c_25 (constantI S_ 32 100000#32),
    StableHlo.unary main_c_25 main_v135 (broadcastInDim S300000 ![] bcast_S_S300000 : (⟨S_, .i32⟩ : BufTy).Contents (Elt F) → (⟨S300000, .i32⟩ : BufTy).Contents (Elt F)),
    StableHlo.binary main_v3 main_v135 main_v136 (addi : (⟨S300000, .i32⟩ : BufTy).Contents (Elt F) → (⟨S300000, .i32⟩ : BufTy).Contents (Elt F) → (⟨S300000, .i32⟩ : BufTy).Contents (Elt F)),
    StableHlo.ternary main_v134 main_v136 main_v3 main_v137 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v137 main_v138 (broadcastInDim S300000x1 ![0] bcast_S300000_S300000x1_0 : (⟨S300000, .i32⟩ : BufTy).Contents (Elt F) → (⟨S300000x1, .i32⟩ : BufTy).Contents (Elt F)),
    StableHlo.ternary main_v125 main_v138 main_v132 main_v139 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)) ]

/-- Layer 1, the combination scaled by the reciprocal count: %140 … %142. -/
abbrev opsL1c : List (HloOp τ sig (Elt F)) :=
  [ StableHlo.binary main_v101 main_v139 main_v140 (addf : (⟨S100000x128, .f32⟩ : BufTy).Contents (Elt F) → (⟨S100000x128, .f32⟩ : BufTy).Contents (Elt F) → (⟨S100000x128, .f32⟩ : BufTy).Contents (Elt F)),
    StableHlo.unary main_v18 main_v141 (broadcastInDim S100000x128 ![0, 1] bcast_S100000x1_S100000x128_0_1 : (⟨S100000x1, .f32⟩ : BufTy).Contents (Elt F) → (⟨S100000x128, .f32⟩ : BufTy).Contents (Elt F)),
    StableHlo.binary main_v141 main_v140 main_v142 (mulf : (⟨S100000x128, .f32⟩ : BufTy).Contents (Elt F) → (⟨S100000x128, .f32⟩ : BufTy).Contents (Elt F) → (⟨S100000x128, .f32⟩ : BufTy).Contents (Elt F)) ]

/-- Layer 1, the column mean (%143 … %145) and the column variance: @_var's operations over main_call2, @_where's over main_call2.call0 (writes main_v146). -/
abbrev opsL1d : List (HloOp τ sig (Elt F)) :=
  [ StableHlo.nullary main_cst_26 (constant S_ .f32 0x00000000#32),
    StableHlo.binary main_v142 main_cst_26 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v144 (broadcastInDim S128 ![] bcast_S_S128 : (⟨S_, .f32⟩ : BufTy).Contents (Elt F) → (⟨S128, .f32⟩ : BufTy).Contents (Elt F)),
    StableHlo.binary main_v143 main_v144 main_v145 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call2.cst (constant S_ .f32 0x00000000#32),
    StableHlo.TRef.binary (TRef.of main_v142 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v142 : StableHlo.TRef sig ⟨S100000x128, .f32⟩) main_call2.v4 main_call2.v5 subf,
    StableHlo.TRef.binary main_call2.v5 main_call2.v5 main_call2.v6 mulf,
    StableHlo.TRef.unary (TRef.of main_c_28 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Layer 1, the normalisation, scale and shift (%147 … %165) and @relu's operations over main_call3 (writes main_v166). -/
abbrev opsL1e : List (HloOp τ sig (Elt F)) :=
  [ StableHlo.unary main_arg6 main_v147 ((extractStridedSlice S1x128 ![1, 0] · slices_S3x128_S1x128_1_0) : (⟨S3x128, .f32⟩ : BufTy).Contents (Elt F) → (⟨S1x128, .f32⟩ : BufTy).Contents (Elt F)),
    StableHlo.reshape main_v147 main_v148 rfl shapeCasts_S1x128_S128,
    StableHlo.unary main_v145 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v150 main_v151 (subf : (⟨S100000x128, .f32⟩ : BufTy).Contents (Elt F) → (⟨S100000x128, .f32⟩ : BufTy).Contents (Elt F) → (⟨S100000x128, .f32⟩ : BufTy).Contents (Elt F)),
    StableHlo.unary main_v148 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v153 main_v151 main_v154 (mulf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v155 (broadcastInDim S128 ![] bcast_S_S128 : (⟨S_, .f32⟩ : BufTy).Contents (Elt F) → (⟨S128, .f32⟩ : BufTy).Contents (Elt F)),
    StableHlo.binary main_v146 main_v155 main_v156 (addf : (⟨S128, .f32⟩ : BufTy).Contents (Elt F) → (⟨S128, .f32⟩ : BufTy).Contents (Elt F) → (⟨S128, .f32⟩ : BufTy).Contents (Elt F)),
    StableHlo.unary main_v156 main_v157 (Host.rsqrt : (⟨S128, .f32⟩ : BufTy).Contents (Elt F) → (⟨S128, .f32⟩ : BufTy).Contents (Elt F)),
    StableHlo.unary main_v157 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v154 main_v159 main_v160 (mulf : (⟨S100000x128, .f32⟩ : BufTy).Contents (Elt F) → (⟨S100000x128, .f32⟩ : BufTy).Contents (Elt F) → (⟨S100000x128, .f32⟩ : BufTy).Contents (Elt F)),
    StableHlo.unary main_arg7 main_v161 ((extractStridedSlice S1x128 ![1, 0] · slices_S3x128_S1x128_1_0) : (⟨S3x128, .f32⟩ : BufTy).Contents (Elt F) → (⟨S1x128, .f32⟩ : BufTy).Contents (Elt F)),
    StableHlo.reshape main_v161 main_v162 rfl shapeCasts_S1x128_S128,
    StableHlo.unary main_v162 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v164 main_v165 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (TRef.of main_v165 : StableHlo.TRef sig ⟨S100000x128, .f32⟩) main_call3.v0 main_call3.v1 maximumf ]

/-- Layer 2, the two dense maps: %167 … %184. -/
abbrev opsL2a : List (HloOp τ sig (Elt F)) :=
  [ StableHlo.unary main_arg2 main_v167 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v167 main_v168 rfl shapeCasts_S1x128x128_S128x128,
    StableHlo.unary main_v168 main_v169 ((transpose S128x128 [1, 0] · transposes_S128x128_S128x128_1_0) : (⟨S128x128, .f32⟩ : BufTy).Contents (Elt F) → (⟨S128x128, .f32⟩ : BufTy).Contents (Elt F)),
    StableHlo.binary main_v166 main_v169 main_v170 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v171 ((extractStridedSlice S1x128 ![2, 0] · slices_S3x128_S1x128_2_0) : (⟨S3x128, .f32⟩ : BufTy).Contents (Elt F) → (⟨S1x128, .f32⟩ : BufTy).Contents (Elt F)),
    StableHlo.reshape main_v171 main_v172 rfl shapeCasts_S1x128_S128,
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v170 main_v174 main_v175 (addf : (⟨S100000x128, .f32⟩ : BufTy).Contents (Elt F) → (⟨S100000x128, .f32⟩ : BufTy).Contents (Elt F) → (⟨S100000x128, .f32⟩ : BufTy).Contents (Elt F)),
    StableHlo.unary main_arg4 main_v176 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v176 main_v177 rfl shapeCasts_S1x128x128_S128x128,
    StableHlo.unary main_v177 main_v178 ((transpose S128x128 [1, 0] · transposes_S128x128_S128x128_1_0) : (⟨S128x128, .f32⟩ : BufTy).Contents (Elt F) → (⟨S128x128, .f32⟩ : BufTy).Contents (Elt F)),
    StableHlo.binary main_v166 main_v178 main_v179 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v180 ((extractStridedSlice S1x128 ![2, 0] · slices_S3x128_S1x128_2_0) : (⟨S3x128, .f32⟩ : BufTy).Contents (Elt F) → (⟨S1x128, .f32⟩ : BufTy).Contents (Elt F)),
    StableHlo.reshape main_v180 main_v181 rfl shapeCasts_S1x128_S128,
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v179 main_v183 main_v184 (addf : (⟨S100000x128, .f32⟩ : BufTy).Contents (Elt F) → (⟨S100000x128, .f32⟩ : BufTy).Contents (Elt F) → (⟨S100000x128, .f32⟩ : BufTy).Contents (Elt F)) ]

/-- Layer 2, the neighbour sum: %cst_30, %185 … %213. -/
abbrev opsL2b : List (HloOp τ sig (Elt F)) :=
  [ StableHlo.nullary main_cst_30 (constant S_ .f32 0x00000000#32),
    StableHlo.unary main_cst_30 main_v185 (broadcastInDim S100000x128 ![] bcast_S_S100000x128 : (⟨S_, .f32⟩ : BufTy).Contents (Elt F) → (⟨S100000x128, .f32⟩ : BufTy).Contents (Elt F)),
    StableHlo.nullary main_c_31 (constantI S_ 32 0#32),
    StableHlo.unary main_c_31 main_v186 (broadcastInDim S300000 ![] bcast_S_S300000 : (⟨S_, .i32⟩ : BufTy).Contents (Elt F) → (⟨S300000, .i32⟩ : BufTy).Contents (Elt F)),
    StableHlo.binary main_v3 main_v186 main_v187 (cmpi .slt : (⟨S300000, .i32⟩ : BufTy).Contents (Elt F) → (⟨S300000, .i32⟩ : BufTy).Contents (Elt F) → (⟨S300000, .i1⟩ : BufTy).Contents (Elt F)),
    StableHlo.nullary main_c_32 (constantI S_ 32 100000#32),
    StableHlo.unary main_c_32 main_v188 (broadcastInDim S300000 ![] bcast_S_S300000 : (⟨S_, .i32⟩ : BufTy).Contents (Elt F) → (⟨S300000, .i32⟩ : BufTy).Contents (Elt F)),
    StableHlo.binary main_v3 main_v188 main_v189 (addi : (⟨S300000, .i32⟩ : BufTy).Contents (Elt F) → (⟨S300000, .i32⟩ : BufTy).Contents (Elt F) → (⟨S300000, .i32⟩ : BufTy).Contents (Elt F)),
    StableHlo.ternary main_v187 main_v189 main_v3 main_v190 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v190 main_v191 (broadcastInDim S300000x1 ![0] bcast_S300000_S300000x1_0 : (⟨S300000, .i32⟩ : BufTy).Contents (Elt F) → (⟨S300000x1, .i32⟩ : BufTy).Contents (Elt F)),
    StableHlo.binary main_v184 main_v191 main_v192 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.nullary main_c_33 (constantI S_ 32 0#32),
    StableHlo.unary main_c_33 main_v193 (broadcastInDim S300000 ![] bcast_S_S300000 : (⟨S_, .i32⟩ : BufTy).Contents (Elt F) → (⟨S300000, .i32⟩ : BufTy).Contents (Elt F)),
    StableHlo.binary main_v1 main_v193 main_v194 (cmpi .slt : (⟨S300000, .i32⟩ : BufTy).Contents (Elt F) → (⟨S300000, .i32⟩ : BufTy).Contents (Elt F) → (⟨S300000, .i1⟩ : BufTy).Contents (Elt F)),
    StableHlo.nullary main_c_34 (constantI S_ 32 100000#32),
    StableHlo.unary main_c_34 main_v195 (broadcastInDim S300000 ![] bcast_S_S300000 : (⟨S_, .i32⟩ : BufTy).Contents (Elt F) → (⟨S300000, .i32⟩ : BufTy).Contents (Elt F)),
    StableHlo.binary main_v1 main_v195 main_v196 (addi : (⟨S300000, .i32⟩ : BufTy).Contents (Elt F) → (⟨S300000, .i32⟩ : BufTy).Contents (Elt F) → (⟨S300000, .i32⟩ : BufTy).Contents (Elt F)),
    StableHlo.ternary main_v194 main_v196 main_v1 main_v197 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v197 main_v198 (broadcastInDim S300000x1 ![0] bcast_S300000_S300000x1_0 : (⟨S300000, .i32⟩ : BufTy).Contents (Elt F) → (⟨S300000x1, .i32⟩ : BufTy).Contents (Elt F)),
    StableHlo.ternary main_v185 main_v198 main_v192 main_v199 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    StableHlo.nullary main_c_35 (constantI S_ 32 0#32),
    StableHlo.unary main_c_35 main_v200 (broadcastInDim S300000 ![] bcast_S_S300000 : (⟨S_, .i32⟩ : BufTy).Contents (Elt F) → (⟨S300000, .i32⟩ : BufTy).Contents (Elt F)),
    StableHlo.binary main_v1 main_v200 main_v201 (cmpi .slt : (⟨S300000, .i32⟩ : BufTy).Contents (Elt F) → (⟨S300000, .i32⟩ : BufTy).Contents (Elt F) → (⟨S300000, .i1⟩ : BufTy).Contents (Elt F)),
    StableHlo.nullary main_c_36 (constantI S_ 32 100000#32),
    StableHlo.unary main_c_36 main_v202 (broadcastInDim S300000 ![] bcast_S_S300000 : (⟨S_, .i32⟩ : BufTy).Contents (Elt F) → (⟨S300000, .i32⟩ : BufTy).Contents (Elt F)),
    StableHlo.binary main_v1 main_v202 main_v203 (addi : (⟨S300000, .i32⟩ : BufTy).Contents (Elt F) → (⟨S300000, .i32⟩ : BufTy).Contents (Elt F) → (⟨S300000, .i32⟩ : BufTy).Contents (Elt F)),
    StableHlo.ternary main_v201 main_v203 main_v1 main_v204 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v204 main_v205 (broadcastInDim S300000x1 ![0] bcast_S300000_S300000x1_0 : (⟨S300000, .i32⟩ : BufTy).Contents (Elt F) → (⟨S300000x1, .i32⟩ : BufTy).Contents (Elt F)),
    StableHlo.binary main_v184 main_v205 main_v206 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.nullary main_c_37 (constantI S_ 32 0#32),
    StableHlo.unary main_c_37 main_v207 (broadcastInDim S300000 ![] bcast_S_S300000 : (⟨S_, .i32⟩ : BufTy).Contents (Elt F) → (⟨S300000, .i32⟩ : BufTy).Contents (Elt F)),
    StableHlo.binary main_v3 main_v207 main_v208 (cmpi .slt : (⟨S300000, .i32⟩ : BufTy).Contents (Elt F) → (⟨S300000, .i32⟩ : BufTy).Contents (Elt F) → (⟨S300000, .i1⟩ : BufTy).Contents (Elt F)),
    StableHlo.nullary main_c_38 (constantI S_ 32 100000#32),
    StableHlo.unary main_c_38 main_v209 (broadcastInDim S300000 ![] bcast_S_S300000 : (⟨S_, .i32⟩ : BufTy).Contents (Elt F) → (⟨S300000, .i32⟩ : BufTy).Contents (Elt F)),
    StableHlo.binary main_v3 main_v209 main_v210 (addi : (⟨S300000, .i32⟩ : BufTy).Contents (Elt F) → (⟨S300000, .i32⟩ : BufTy).Contents (Elt F) → (⟨S300000, .i32⟩ : BufTy).Contents (Elt F)),
    StableHlo.ternary main_v208 main_v210 main_v3 main_v211 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v211 main_v212 (broadcastInDim S300000x1 ![0] bcast_S300000_S300000x1_0 : (⟨S300000, .i32⟩ : BufTy).Contents (Elt F) → (⟨S300000x1, .i32⟩ : BufTy).Contents (Elt F)),
    StableHlo.ternary main_v199 main_v212 main_v206 main_v213 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)) ]

/-- Layer 2, the combination scaled by the reciprocal count: %214 … %216. -/
abbrev opsL2c : List (HloOp τ sig (Elt F)) :=
  [ StableHlo.binary main_v175 main_v213 main_v214 (addf : (⟨S100000x128, .f32⟩ : BufTy).Contents (Elt F) → (⟨S100000x128, .f32⟩ : BufTy).Contents (Elt F) → (⟨S100000x128, .f32⟩ : BufTy).Contents (Elt F)),
    StableHlo.unary main_v18 main_v215 (broadcastInDim S100000x128 ![0, 1] bcast_S100000x1_S100000x128_0_1 : (⟨S100000x1, .f32⟩ : BufTy).Contents (Elt F) → (⟨S100000x128, .f32⟩ : BufTy).Contents (Elt F)),
    StableHlo.binary main_v215 main_v214 main_v216 (mulf : (⟨S100000x128, .f32⟩ : BufTy).Contents (Elt F) → (⟨S100000x128, .f32⟩ : BufTy).Contents (Elt F) → (⟨S100000x128, .f32⟩ : BufTy).Contents (Elt F)) ]

/-- Layer 2, the column mean (%217 … %219) and the column variance: @_var's operations over main_call4, @_where's over main_call4.call0 (writes main_v220). -/
abbrev opsL2d : List (HloOp τ sig (Elt F)) :=
  [ StableHlo.nullary main_cst_39 (constant S_ .f32 0x00000000#32),
    StableHlo.binary main_v216 main_cst_39 main_v217 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_40 (constant S_ .f32 0x47C35000#32),
    StableHlo.unary main_cst_40 main_v218 (broadcastInDim S128 ![] bcast_S_S128 : (⟨S_, .f32⟩ : BufTy).Contents (Elt F) → (⟨S128, .f32⟩ : BufTy).Contents (Elt F)),
    StableHlo.binary main_v217 main_v218 main_v219 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call4.cst (constant S_ .f32 0x00000000#32),
    StableHlo.TRef.binary (TRef.of main_v216 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (TRef.of main_v216 : StableHlo.TRef sig ⟨S100000x128, .f32⟩) main_call4.v4 main_call4.v5 subf,
    StableHlo.TRef.binary main_call4.v5 main_call4.v5 main_call4.v6 mulf,
    StableHlo.TRef.unary (TRef.of main_c_41 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Layer 2, the normalisation, scale and shift (%221 … %239), the residual add of the input (%240) and @relu's operations over main_call5 (writes main_v241). -/
abbrev opsL2e : List (HloOp τ sig (Elt F)) :=
  [ StableHlo.unary main_arg6 main_v221 ((extractStridedSlice S1x128 ![2, 0] · slices_S3x128_S1x128_2_0) : (⟨S3x128, .f32⟩ : BufTy).Contents (Elt F) → (⟨S1x128, .f32⟩ : BufTy).Contents (Elt F)),
    StableHlo.reshape main_v221 main_v222 rfl shapeCasts_S1x128_S128,
    StableHlo.unary main_v219 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S100000x128 ![0, 1] bcast_S1x128_S100000x128_0_1 : (⟨S1x128, .f32⟩ : BufTy).Contents (Elt F) → (⟨S100000x128, .f32⟩ : BufTy).Contents (Elt F)),
    StableHlo.binary main_v216 main_v224 main_v225 (subf : (⟨S100000x128, .f32⟩ : BufTy).Contents (Elt F) → (⟨S100000x128, .f32⟩ : BufTy).Contents (Elt F) → (⟨S100000x128, .f32⟩ : BufTy).Contents (Elt F)),
    StableHlo.unary main_v222 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v225 main_v228 (mulf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x3727C5AC#32),
    StableHlo.unary main_cst_42 main_v229 (broadcastInDim S128 ![] bcast_S_S128 : (⟨S_, .f32⟩ : BufTy).Contents (Elt F) → (⟨S128, .f32⟩ : BufTy).Contents (Elt F)),
    StableHlo.binary main_v220 main_v229 main_v230 (addf : (⟨S128, .f32⟩ : BufTy).Contents (Elt F) → (⟨S128, .f32⟩ : BufTy).Contents (Elt F) → (⟨S128, .f32⟩ : BufTy).Contents (Elt F)),
    StableHlo.unary main_v230 main_v231 (Host.rsqrt : (⟨S128, .f32⟩ : BufTy).Contents (Elt F) → (⟨S128, .f32⟩ : BufTy).Contents (Elt F)),
    StableHlo.unary main_v231 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S100000x128 ![0, 1] bcast_S1x128_S100000x128_0_1 : (⟨S1x128, .f32⟩ : BufTy).Contents (Elt F) → (⟨S100000x128, .f32⟩ : BufTy).Contents (Elt F)),
    StableHlo.binary main_v228 main_v233 main_v234 (mulf : (⟨S100000x128, .f32⟩ : BufTy).Contents (Elt F) → (⟨S100000x128, .f32⟩ : BufTy).Contents (Elt F) → (⟨S100000x128, .f32⟩ : BufTy).Contents (Elt F)),
    StableHlo.unary main_arg7 main_v235 ((extractStridedSlice S1x128 ![2, 0] · slices_S3x128_S1x128_2_0) : (⟨S3x128, .f32⟩ : BufTy).Contents (Elt F) → (⟨S1x128, .f32⟩ : BufTy).Contents (Elt F)),
    StableHlo.reshape main_v235 main_v236 rfl shapeCasts_S1x128_S128,
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v234 main_v238 main_v239 (addf : (⟨S100000x128, .f32⟩ : BufTy).Contents (Elt F) → (⟨S100000x128, .f32⟩ : BufTy).Contents (Elt F) → (⟨S100000x128, .f32⟩ : BufTy).Contents (Elt F)),
    StableHlo.binary main_v239 main_arg0 main_v240 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (TRef.of main_v240 : StableHlo.TRef sig ⟨S100000x128, .f32⟩) main_call5.v0 main_call5.v1 maximumf ]

/-- Layer 0: %19 … %92. -/
abbrev opsL0 : List (HloOp τ sig (Elt F)) := opsL0a ++ opsL0b ++ opsL0c ++ opsL0d ++ opsL0e

/-- Layer 1: %93 … %166. -/
abbrev opsL1 : List (HloOp τ sig (Elt F)) := opsL1a ++ opsL1b ++ opsL1c ++ opsL1d ++ opsL1e

/-- Layer 2: %167 … %241. -/
abbrev opsL2 : List (HloOp τ sig (Elt F)) := opsL2a ++ opsL2b ++ opsL2c ++ opsL2d ++ opsL2e

/-- @main's operations, in order. -/
abbrev ops : List (HloOp τ sig (Elt F)) := opsPre ++ opsL0 ++ opsL1 ++ opsL2

end Cert.ReferenceIdeal.RRun

end
-- ==== Proof.R.Run.lean ====
/-
  The reference program runs to the fold of its operations. @main is five consecutive windows of statements; each
  window, its calls unfolded, is the straight line of a stretch of the operation list (sequencing is associative and
  a call is its body, so the two are the same program by computation); the stretches concatenate to the whole list
  (a list cut at any place is its two parts appended), and a straight line of a concatenation is the straight lines in
  sequence. Every operation touches TensorCore buffers only and determines its results, so from any memory with zero
  counters every weakly fair execution terminates with each buffer at the operations' fold over its launch contents.
-/
import proofs.«178513_j90202903151305_2_alg».proof.Proof.R.Ops

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## The five windows, each the straight line of a stretch of the list -/

/-- Statements 1 … 60: the prelude, layer 0's dense maps and the first 17 operations of its neighbour sum. -/
def opsW0 : List (HloOp τ sig (Elt F)) := opsPre ++ opsL0a ++ opsL0b.take 17
/-- Statements 61 … 120: the rest of layer 0 and the first 8 operations of layer 1. -/
def opsW1 : List (HloOp τ sig (Elt F)) := opsL0b.drop 17 ++ opsL0c ++ opsL0d ++ opsL0e ++ opsL1a.take 8
/-- Statements 121 … 180: layer 1 up to the first 2 operations of its normalisation. -/
def opsW2 : List (HloOp τ sig (Elt F)) := opsL1a.drop 8 ++ opsL1b ++ opsL1c ++ opsL1d ++ opsL1e.take 2
/-- Statements 181 … 240: the rest of layer 1, layer 2's dense maps and the first 23 operations of its neighbour sum. -/
def opsW3 : List (HloOp τ sig (Elt F)) := opsL1e.drop 2 ++ opsL2a ++ opsL2b.take 23
/-- Statements 241 … 288: the rest of layer 2. -/
def opsW4 : List (HloOp τ sig (Elt F)) := opsL2b.drop 23 ++ opsL2c ++ opsL2d ++ opsL2e

set_option maxRecDepth 8192 in
set_option maxHeartbeats 4000000 in
theorem main_part0_eq (c : Dev nD) : main_part0 (F := F) c = seq opsW0 := rfl

set_option maxRecDepth 8192 in
set_option maxHeartbeats 4000000 in
theorem main_part1_eq (c : Dev nD) : main_part1 (F := F) c = seq opsW1 := rfl

set_option maxRecDepth 8192 in
set_option maxHeartbeats 4000000 in
theorem main_part2_eq (c : Dev nD) : main_part2 (F := F) c = seq opsW2 := rfl

set_option maxRecDepth 8192 in
set_option maxHeartbeats 4000000 in
theorem main_part3_eq (c : Dev nD) : main_part3 (F := F) c = seq opsW3 := rfl

set_option maxRecDepth 8192 in
set_option maxHeartbeats 4000000 in
theorem main_part4_eq (c : Dev nD) : main_part4 (F := F) c = seq opsW4 := rfl

/-! ## The stretches concatenate to the list -/

/-- A list cut at any place, its two parts appended in front of a third list. -/
private theorem take_drop_append {α : Type _} (n : Nat) (l r : List α) : l.take n ++ (l.drop n ++ r) = l ++ r := by
  rw [← List.append_assoc, List.take_append_drop]

/-- Sixteen lists appended layer by layer are the same appended window by window. -/
private theorem regroup {α : Type _} (p a0 b0 c0 d0 e0 a1 b1 c1 d1 e1 a2 b2 c2 d2 e2 : List α) :
    p ++ (a0 ++ b0 ++ c0 ++ d0 ++ e0) ++ (a1 ++ b1 ++ c1 ++ d1 ++ e1) ++ (a2 ++ b2 ++ c2 ++ d2 ++ e2)
      = (p ++ a0 ++ b0.take 17) ++ ((b0.drop 17 ++ c0 ++ d0 ++ e0 ++ a1.take 8) ++ ((a1.drop 8 ++ b1 ++ c1 ++ d1 ++ e1.take 2)
          ++ ((e1.drop 2 ++ a2 ++ b2.take 23) ++ (b2.drop 23 ++ c2 ++ d2 ++ e2)))) := by
  simp only [List.append_assoc, take_drop_append]

theorem ops_windows : (ops : List (HloOp τ sig (Elt F))) = opsW0 ++ (opsW1 ++ (opsW2 ++ (opsW3 ++ opsW4))) :=
  regroup opsPre opsL0a opsL0b opsL0c opsL0d opsL0e opsL1a opsL1b opsL1c opsL1d opsL1e opsL2a opsL2b opsL2c opsL2d opsL2e

/-- The windows' straight lines in sequence are @main. -/
theorem seq_windows (c : Dev nD) :
    seq (opsW0 ++ (opsW1 ++ (opsW2 ++ (opsW3 ++ opsW4))) : List (HloOp τ sig (Elt F))) = main (F := F) c := by
  rw [seq_append opsW0, seq_append opsW1, seq_append opsW2, seq_append opsW3, ← main_part0_eq c, ← main_part1_eq c, ← main_part2_eq c,
    ← main_part3_eq c, ← main_part4_eq c]
  rfl

/-- @main is the straight line of its operations. -/
theorem main_eq (c : Dev nD) : main (F := F) c = seq ops := by
  rw [ops_windows]; exact (seq_windows c).symm

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its results -/

set_option maxRecDepth 8192 in
theorem opsPre_sub : (opsPre : List (HloOp τ sig (Elt F))).Forall fun op => op.bufs ⊆ tcRefs τ sig :=
  ⟨unary_bufs_sub .., reshape_bufs_sub .., unary_bufs_sub .., reshape_bufs_sub .., nullary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub ..⟩

set_option maxRecDepth 8192 in
theorem opsPre_fresh : (opsPre : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl⟩

set_option maxRecDepth 8192 in
theorem opsL0a_sub : (opsL0a : List (HloOp τ sig (Elt F))).Forall fun op => op.bufs ⊆ tcRefs τ sig :=
  ⟨unary_bufs_sub .., reshape_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    binary_bufs_sub .., unary_bufs_sub .., reshape_bufs_sub .., unary_bufs_sub .., unary_bufs_sub .., binary_bufs_sub ..⟩

set_option maxRecDepth 8192 in
theorem opsL0a_fresh : (opsL0a : List (HloOp τ sig (Elt F))).Forall fun op => op.fresh = ∅ :=
  ⟨rfl, rfl, rfl, rfl, rfl, rfl,
    rfl, rfl, rfl, rfl, rfl, rfl,
    rfl, rfl, rfl, rfl, rfl, rfl⟩

set_option maxRecDepth 8192 in
theorem opsL0b_sub : (opsL0b : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub ..⟩

set_option maxRecDepth 8192 in
theorem opsL0b_fresh : (opsL0b : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl⟩

set_option maxRecDepth 8192 in
theorem opsL0c_sub : (opsL0c : List (HloOp τ sig (Elt F))).Forall fun op => op.bufs ⊆ tcRefs τ sig :=
  ⟨binary_bufs_sub .., unary_bufs_sub .., binary_bufs_sub ..⟩

set_option maxRecDepth 8192 in
theorem opsL0c_fresh : (opsL0c : List (HloOp τ sig (Elt F))).Forall fun op => op.fresh = ∅ :=
  ⟨rfl, rfl, rfl⟩

set_option maxRecDepth 8192 in
theorem opsL0d_sub : (opsL0d : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

set_option maxRecDepth 8192 in
theorem opsL0d_fresh : (opsL0d : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl⟩

set_option maxRecDepth 8192 in
theorem opsL0e_sub : (opsL0e : List (HloOp τ sig (Elt F))).Forall fun op => op.bufs ⊆ tcRefs τ sig :=
  ⟨unary_bufs_sub .., reshape_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub ..⟩

set_option maxRecDepth 8192 in
theorem opsL0e_fresh : (opsL0e : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl⟩

set_option maxRecDepth 8192 in
theorem opsL1a_sub : (opsL1a : List (HloOp τ sig (Elt F))).Forall fun op => op.bufs ⊆ tcRefs τ sig :=
  ⟨unary_bufs_sub .., reshape_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    binary_bufs_sub .., unary_bufs_sub .., reshape_bufs_sub .., unary_bufs_sub .., unary_bufs_sub .., binary_bufs_sub ..⟩

set_option maxRecDepth 8192 in
theorem opsL1a_fresh : (opsL1a : List (HloOp τ sig (Elt F))).Forall fun op => op.fresh = ∅ :=
  ⟨rfl, rfl, rfl, rfl, rfl, rfl,
    rfl, rfl, rfl, rfl, rfl, rfl,
    rfl, rfl, rfl, rfl, rfl, rfl⟩

set_option maxRecDepth 8192 in
theorem opsL1b_sub : (opsL1b : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub ..⟩

set_option maxRecDepth 8192 in
theorem opsL1b_fresh : (opsL1b : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl⟩

set_option maxRecDepth 8192 in
theorem opsL1c_sub : (opsL1c : List (HloOp τ sig (Elt F))).Forall fun op => op.bufs ⊆ tcRefs τ sig :=
  ⟨binary_bufs_sub .., unary_bufs_sub .., binary_bufs_sub ..⟩

set_option maxRecDepth 8192 in
theorem opsL1c_fresh : (opsL1c : List (HloOp τ sig (Elt F))).Forall fun op => op.fresh = ∅ :=
  ⟨rfl, rfl, rfl⟩

set_option maxRecDepth 8192 in
theorem opsL1d_sub : (opsL1d : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

set_option maxRecDepth 8192 in
theorem opsL1d_fresh : (opsL1d : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl⟩

set_option maxRecDepth 8192 in
theorem opsL1e_sub : (opsL1e : List (HloOp τ sig (Elt F))).Forall fun op => op.bufs ⊆ tcRefs τ sig :=
  ⟨unary_bufs_sub .., reshape_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub ..⟩

set_option maxRecDepth 8192 in
theorem opsL1e_fresh : (opsL1e : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl⟩

set_option maxRecDepth 8192 in
theorem opsL2a_sub : (opsL2a : List (HloOp τ sig (Elt F))).Forall fun op => op.bufs ⊆ tcRefs τ sig :=
  ⟨unary_bufs_sub .., reshape_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    binary_bufs_sub .., unary_bufs_sub .., reshape_bufs_sub .., unary_bufs_sub .., unary_bufs_sub .., binary_bufs_sub ..⟩

set_option maxRecDepth 8192 in
theorem opsL2a_fresh : (opsL2a : List (HloOp τ sig (Elt F))).Forall fun op => op.fresh = ∅ :=
  ⟨rfl, rfl, rfl, rfl, rfl, rfl,
    rfl, rfl, rfl, rfl, rfl, rfl,
    rfl, rfl, rfl, rfl, rfl, rfl⟩

set_option maxRecDepth 8192 in
theorem opsL2b_sub : (opsL2b : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., ternary_bufs_sub ..⟩

set_option maxRecDepth 8192 in
theorem opsL2b_fresh : (opsL2b : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl⟩

set_option maxRecDepth 8192 in
theorem opsL2c_sub : (opsL2c : List (HloOp τ sig (Elt F))).Forall fun op => op.bufs ⊆ tcRefs τ sig :=
  ⟨binary_bufs_sub .., unary_bufs_sub .., binary_bufs_sub ..⟩

set_option maxRecDepth 8192 in
theorem opsL2c_fresh : (opsL2c : List (HloOp τ sig (Elt F))).Forall fun op => op.fresh = ∅ :=
  ⟨rfl, rfl, rfl⟩

set_option maxRecDepth 8192 in
theorem opsL2d_sub : (opsL2d : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

set_option maxRecDepth 8192 in
theorem opsL2d_fresh : (opsL2d : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl⟩

set_option maxRecDepth 8192 in
theorem opsL2e_sub : (opsL2e : List (HloOp τ sig (Elt F))).Forall fun op => op.bufs ⊆ tcRefs τ sig :=
  ⟨unary_bufs_sub .., reshape_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., reshape_bufs_sub .., unary_bufs_sub ..,
    unary_bufs_sub .., binary_bufs_sub .., binary_bufs_sub .., nullary_bufs_sub .., unary_bufs_sub .., binary_bufs_sub ..⟩

set_option maxRecDepth 8192 in
theorem opsL2e_fresh : (opsL2e : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl⟩

/-- A property of every operation of two lists holds of every operation of their concatenation. -/
private theorem forall_app {P : HloOp τ sig (Elt F) → Prop} {l₁ l₂ : List (HloOp τ sig (Elt F))}
    (h₁ : l₁.Forall P) (h₂ : l₂.Forall P) : (l₁ ++ l₂).Forall P := List.forall_append.mpr ⟨h₁, h₂⟩

theorem ops_sub : (ops : List (HloOp τ sig (Elt F))).Forall fun op => op.bufs ⊆ tcRefs τ sig :=
  forall_app (forall_app (forall_app opsPre_sub
    (forall_app (forall_app (forall_app (forall_app opsL0a_sub opsL0b_sub) opsL0c_sub) opsL0d_sub) opsL0e_sub))
    (forall_app (forall_app (forall_app (forall_app opsL1a_sub opsL1b_sub) opsL1c_sub) opsL1d_sub) opsL1e_sub))
    (forall_app (forall_app (forall_app (forall_app opsL2a_sub opsL2b_sub) opsL2c_sub) opsL2d_sub) opsL2e_sub)

theorem ops_fresh : (ops : List (HloOp τ sig (Elt F))).Forall fun op => op.fresh = ∅ :=
  forall_app (forall_app (forall_app opsPre_fresh
    (forall_app (forall_app (forall_app (forall_app opsL0a_fresh opsL0b_fresh) opsL0c_fresh) opsL0d_fresh) opsL0e_fresh))
    (forall_app (forall_app (forall_app (forall_app opsL1a_fresh opsL1b_fresh) opsL1c_fresh) opsL1d_fresh) opsL1e_fresh))
    (forall_app (forall_app (forall_app (forall_app opsL2a_fresh opsL2b_fresh) opsL2c_fresh) opsL2d_fresh) opsL2e_fresh)

/-! ## The run -/

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RRun

end
-- ==== Proof.LibBcastIdx.lean ====
/-
  A host program's `broadcast_in_dim` READ AT AN INDEX GIVEN BY COORDINATES, general in the extents and in the element type:
  a scalar broadcast to any shape (`broadcastInDim_scalar_apply`), a vector `[N]` set on the middle axis of `[1, N, 1]`
  (`broadcastInDim_b_1b1_apply`), and a column `[1, B, 1]` broadcast to `[A, B, C]` (`broadcastInDim_1b1_abc_apply`): what a
  per-node statistic kept with unit axes goes through before it meets the array it normalises. The axis maps are written over
  the literal ranks (`Fin 1 → Fin 3`, `Fin 3 → Fin 3`), which is how a printed program's terms carry them.
-/
import Idealize.ShloMosaic.Lib.ValueLayout

namespace Cert.LayoutIdx

open Idealize.ShloMosaic Idealize.ShloMosaic.ValueIdx

variable {α : Type}

/-- A scalar broadcast to any shape reads, at every index, the scalar. -/
theorem broadcastInDim_scalar_apply {t : Shape} (dims : Fin (⟨0, ![]⟩ : Shape).rank → Fin t.rank)
    (h : (⟨0, ![]⟩ : Shape).BroadcastsInDim t dims) (c : (⟨0, ![]⟩ : Shape).Idx → α) (j : t.Idx) :
    broadcastInDim t dims h c j = c ix0 :=
  broadcastInDim_apply dims h c j ix0 fun a => a.elim0

/-- An `[N]` array set on the middle axis of `[1, N, 1]` reads, at `(z, n, w)`, the operand at `n`. -/
theorem broadcastInDim_b_1b1_apply {N : ℕ} (v : (⟨1, ![N]⟩ : Shape).Idx → α)
    (h : (⟨1, ![N]⟩ : Shape).BroadcastsInDim ⟨3, ![1, N, 1]⟩ (![1] : Fin 1 → Fin 3)) (z : Fin 1) (n : Fin N) (w : Fin 1) :
    broadcastInDim ⟨3, ![1, N, 1]⟩ (![1] : Fin 1 → Fin 3) h v (ix3 z n w) = v (ix1 n) := by
  refine broadcastInDim_apply _ h v (ix3 z n w) (ix1 n) fun ax => ?_
  match ax with
  | ⟨0, _⟩ =>
    show n.val = if N = 1 then 0 else n.val
    split
    · have := n.isLt; omega
    · rfl

/-- A `[1, B, 1]` array broadcast axis by axis to `[A, B, C]` reads, at `(a, b, c)`, the operand's one column at `b`. -/
theorem broadcastInDim_1b1_abc_apply {A B C : ℕ} (v : (⟨3, ![1, B, 1]⟩ : Shape).Idx → α)
    (h : (⟨3, ![1, B, 1]⟩ : Shape).BroadcastsInDim ⟨3, ![A, B, C]⟩ (![0, 1, 2] : Fin 3 → Fin 3)) (a : Fin A) (b : Fin B)
    (c : Fin C) :
    broadcastInDim ⟨3, ![A, B, C]⟩ (![0, 1, 2] : Fin 3 → Fin 3) h v (ix3 a b c) = v (ix3 (0 : Fin 1) b (0 : Fin 1)) := by
  refine broadcastInDim_apply _ h v (ix3 a b c) (ix3 (0 : Fin 1) b (0 : Fin 1)) fun ax => ?_
  match ax with
  | ⟨0, _⟩ => rfl
  | ⟨1, _⟩ =>
    show b.val = if B = 1 then 0 else b.val
    split
    · have := b.isLt; omega
    · rfl
  | ⟨2, _⟩ => rfl

end Cert.LayoutIdx
-- ==== Proof.Math.Consts.lean ====
/-
  The four float literals of the two programs as extended reals: 0, 1, 100000, and a positive real (the variance's
  offset, 10995116 · 2⁻⁴⁰).
-/
import proofs.«178513_j90202903151305_2_alg».proof.Proof.Spec

namespace Cert.Spec

open Idealize.ShloMosaic

theorem f0_eq : f0 = 0 := by
  simp [f0, Ideal.ofBits, Ideal.ieee]

theorem f1_eq : f1 = 1 := by
  simp [f1, Ideal.ofBits, Ideal.ieee, -EReal.coe_mul]; norm_num

theorem nV_eq : nV = ((100000 : ℝ) : EReal) := by
  simp [nV, Ideal.ofBits, Ideal.ieee, -EReal.coe_mul]; norm_num

theorem eps_eq : ∃ r : ℝ, 0 < r ∧ eps = (r : EReal) := by
  refine ⟨10995116 * (2 : ℝ) ^ (-40 : Int), by positivity, ?_⟩
  simp [eps, Ideal.ofBits, Ideal.ieee, -EReal.coe_mul]

end Cert.Spec
-- ==== Proof.R.Stages.lean ====
/-
  The pieces of one layer of the reference network, each read at an index over variable arrays: the dense map x·Wᵀ + b
  from the sliced, reshaped and transposed weight array; the sum of a column of a [100000, 128] array; the column mean
  and the column variance as the mean of the squared deviations; the normalisation with the sliced scale and shift; the
  scaling by a [100000, 1] column; the clipping at zero. Every side condition of a layout operation is a variable, so
  that a program's own evidence fits.
-/
import proofs.«178513_j90202903151305_2_alg».proof.Proof.Spec
import proofs.«178513_j90202903151305_2_alg».proof.Proof.LibBcastIdx
import proofs.«178513_j90202903151305_2_alg».proof.Proof.LibLayoutIdx
import proofs.«178513_j90202903151305_2_alg».proof.Proof.Math.Consts
import Idealize.ShloMosaic.Lib.ValueLayout
import Idealize.ShloMosaic.PureOps.Ideal.Laws

noncomputable section

open scoped BigOperators

namespace Cert.RStages

open Idealize.ShloMosaic Idealize.ShloMosaic.ValueIdx Cert.Spec Cert.LayoutIdx

abbrev S0 : Shape := ⟨0, ![]⟩
abbrev SD : Shape := ⟨1, ![128]⟩
abbrev S1D : Shape := ⟨2, ![1, 128]⟩
abbrev SDD : Shape := ⟨2, ![128, 128]⟩
abbrev S1DD : Shape := ⟨3, ![1, 128, 128]⟩

variable {α : Type}

/-! ## Broadcasts read at coordinates -/

/-- An `[N]` array set on the second axis of `[1, N]` reads, at `(u, n)`, the operand at `n`. -/
theorem bcast_b_1b_apply {N : ℕ} (v : (⟨1, ![N]⟩ : Shape).Idx → α)
    (h : (⟨1, ![N]⟩ : Shape).BroadcastsInDim ⟨2, ![1, N]⟩ (![1] : Fin 1 → Fin 2)) (u : Fin 1) (n : Fin N) :
    broadcastInDim ⟨2, ![1, N]⟩ (![1] : Fin 1 → Fin 2) h v (ix2 u n) = v (ix1 n) := by
  refine broadcastInDim_apply _ h v (ix2 u n) (ix1 n) fun ax => ?_
  match ax with
  | ⟨0, _⟩ =>
    show n.val = if N = 1 then 0 else n.val
    split
    · have := n.isLt; omega
    · rfl

/-- A `[1, B]` row broadcast to `[A, B]` reads, at `(a, b)`, the row at `b`. -/
theorem bcast_1b_ab_apply {A B : ℕ} (v : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h v (ix2 a b) = v (ix2 (0 : Fin 1) b) := by
  refine broadcastInDim_apply _ h v (ix2 a b) (ix2 (0 : Fin 1) b) fun ax => ?_
  match ax with
  | ⟨0, _⟩ => rfl
  | ⟨1, _⟩ =>
    show b.val = if B = 1 then 0 else b.val
    split
    · have := b.isLt; omega
    · rfl

/-- An `[A, 1]` column broadcast to `[A, B]` reads, at `(a, b)`, the column at `a`. -/
theorem bcast_a1_ab_apply {A B : ℕ} (v : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h v (ix2 a b) = v (ix2 a (0 : Fin 1)) := by
  refine broadcastInDim_apply _ h v (ix2 a b) (ix2 a (0 : Fin 1)) fun ax => ?_
  match ax with
  | ⟨0, _⟩ =>
    show a.val = if A = 1 then 0 else a.val
    split
    · have := a.isLt; omega
    · rfl
  | ⟨1, _⟩ => rfl

/-- A vector `[B]` made a row and broadcast to `[A, B]` reads, at `(a, b)`, the vector at `b`. -/
theorem rowBcast_apply {A B : ℕ} (v : (⟨1, ![B]⟩ : Shape).Idx → α)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h2 (broadcastInDim ⟨2, ![1, B]⟩ (![1] : Fin 1 → Fin 2) h1 v) (ix2 a b)
      = v (ix1 b) :=
  (bcast_1b_ab_apply _ h2 a b).trans (bcast_b_1b_apply v h1 0 b)

/-! ## A row of a stacked array -/

/-- Row `l` of a `[3, 128]` array, cut out and reshaped to `[128]`, reads at `j` the array at `(l, j)`. -/
theorem row_apply (b : S3D.Idx → α) (l : Fin 3) (hs : S3D.Slices ![l.val, 0] S1D) (hc : S1D.ShapeCasts SD) (j : Fin 128) :
    shapeCast SD (extractStridedSlice S1D ![l.val, 0] b hs) hc (ix1 j) = b (ix2 l j) :=
  (shapeCast_1a_a_apply _ hc j).trans (slice2_axis0_apply l.val b hs (0 : Fin 1) j l rfl)

/-- Matrix `l` of a `[3, 128, 128]` array, cut out, reshaped to `[128, 128]` and transposed, reads at `(k, j)` the array at
    `(l, j, k)`. -/
theorem matT_apply (W : S3DD.Idx → α) (l : Fin 3) (hs : S3DD.Slices ![l.val, 0, 0] S1DD) (hc : S1DD.ShapeCasts SDD)
    (ht : SDD.Transposes [1, 0] SDD) (k j : Fin 128) :
    transpose SDD [1, 0] (shapeCast SDD (extractStridedSlice S1DD ![l.val, 0, 0] W hs) hc) ht (ix2 k j) = W (ix3 l j k) := by
  refine (transpose_ix2_apply _ ht k j).trans ?_
  refine (shapeCast_1ab_ab_apply _ hc j k).trans ?_
  refine extractStridedSlice_apply _ W hs (ix3 (0 : Fin 1) j k) (ix3 l j k) fun ax => ?_
  match ax with
  | ⟨0, _⟩ => rfl
  | ⟨1, _⟩ => exact (Nat.zero_add _).symm
  | ⟨2, _⟩ => exact (Nat.zero_add _).symm

/-! ## The dense map -/

/-- The product of an `m × k` by a `k × n` matrix on the host, read at `(i, c)`: the sum over the contracted coordinate. -/
theorem dot_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    Host.dotGeneral (⟨[1], [0], [0], [1], [], [], w⟩ : DotDims _ _ _) prec A B (ix2 i c)
      = ∑ j : Fin k, A (ix2 i j) * B (ix2 j c) := by
  show FloatOps.dotGeneral _ prec _ A B (ix2 i c) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The dense map of layer `l` as the program spells it — the input times the transposed matrix `l` of the weights, plus
    row `l` of the bias broadcast over the vertices — is `x · W[l]ᵀ + b[l]`. -/
theorem lin_eq (W : S3DD.Idx → EReal) (b : S3D.Idx → EReal) (x : Arr) (l : Fin 3)
    (hsW : S3DD.Slices ![l.val, 0, 0] S1DD) (hcW : S1DD.ShapeCasts SDD) (htW : SDD.Transposes [1, 0] SDD)
    (wd : DotDims.WF SVD SDD SVD [1] [0] [0] [1] [] [])
    (hsb : S3D.Slices ![l.val, 0] S1D) (hcb : S1D.ShapeCasts SD)
    (hb1 : SD.BroadcastsInDim S1D (![1] : Fin 1 → Fin 2)) (hb2 : S1D.BroadcastsInDim SVD (![0, 1] : Fin 2 → Fin 2)) :
    addf (F := Ideal) (φ := .f32)
        (Host.dotGeneral (F := Ideal) (φ₁ := .f32) (φ₂ := .f32) (⟨[1], [0], [0], [1], [], [], wd⟩ : DotDims SVD SDD SVD) none x
          (transpose SDD [1, 0] (shapeCast SDD (extractStridedSlice S1DD ![l.val, 0, 0] W hsW) hcW) htW))
        (broadcastInDim SVD (![0, 1] : Fin 2 → Fin 2) hb2
          (broadcastInDim S1D (![1] : Fin 1 → Fin 2) hb1 (shapeCast SD (extractStridedSlice S1D ![l.val, 0] b hsb) hcb)))
      = lin W b l x := by
  funext i
  obtain ⟨r, j, rfl⟩ : ∃ (r : Fin 100000) (j : Fin 128), i = ix2 r j := ⟨i 0, i 1, eq_ix2 i⟩
  rw [lin_apply]
  refine congrArg₂ (· + ·) ?_ ?_
  · refine (dot_plain_apply wd none x _ r j).trans (Finset.sum_congr rfl fun k _ => congrArg (x (ix2 r k) * ·) ?_)
    exact matT_apply W l hsW hcW htW k j
  · exact (rowBcast_apply _ hb1 hb2 r j).trans (row_apply b l hsb hcb j)

/-! ## Constant arrays, the scaling column, the clipping -/

/-- A scalar literal broadcast to any shape is the constant function at the literal's value. -/
theorem const_eq {t : Shape} (dims : Fin S0.rank → Fin t.rank) (h : S0.BroadcastsInDim t dims) (w : BitVec 32) :
    broadcastInDim t dims h (constant (F := Ideal) S0 .f32 w) = fun _ => Ideal.ofBits .f32 w :=
  funext fun j => broadcastInDim_scalar_apply dims h _ j

/-- One over one plus a count, set as a column, read at `(r, 0)`. -/
theorem dinvCol_apply (cn : SV.Idx → EReal) (hbs : S0.BroadcastsInDim SV (![] : Fin 0 → Fin 1))
    (hb : SV.BroadcastsInDim SV1 (![0] : Fin 1 → Fin 2)) (r : Fin 100000) :
    broadcastInDim SV1 (![0] : Fin 1 → Fin 2) hb
        (Host.divf (F := Ideal) (φ := .f32) (broadcastInDim SV (![] : Fin 0 → Fin 1) hbs (constant (F := Ideal) S0 .f32 0x3F800000#32))
          (addf (F := Ideal) (φ := .f32) (broadcastInDim SV (![] : Fin 0 → Fin 1) hbs (constant (F := Ideal) S0 .f32 0x3F800000#32)) cn))
        (ix2 r (0 : Fin 1))
      = Ideal.div f1 (f1 + cn (ix1 r)) := by
  rw [broadcastInDim_a_a1_apply]
  show Ideal.div (broadcastInDim SV _ hbs (constant (F := Ideal) S0 .f32 0x3F800000#32) (ix1 r))
    (broadcastInDim SV _ hbs (constant (F := Ideal) S0 .f32 0x3F800000#32) (ix1 r) + cn (ix1 r)) = _
  rw [broadcastInDim_scalar_apply]
  rfl

/-- The sum of two arrays scaled row by row by a `[100000, 1]` column. -/
theorem comb_eq (dcol : SV1.Idx → EReal) (d : Fin 100000 → EReal) (hd : ∀ r, dcol (ix2 r (0 : Fin 1)) = d r) (h0 agg : Arr)
    (hb : SV1.BroadcastsInDim SVD (![0, 1] : Fin 2 → Fin 2)) :
    mulf (F := Ideal) (φ := .f32) (broadcastInDim SVD (![0, 1] : Fin 2 → Fin 2) hb dcol) (addf (F := Ideal) (φ := .f32) h0 agg)
      = comb d h0 agg := by
  funext i
  obtain ⟨r, j, rfl⟩ : ∃ (r : Fin 100000) (j : Fin 128), i = ix2 r j := ⟨i 0, i 1, eq_ix2 i⟩
  rw [comb_apply, mulf_apply, addf_apply, bcast_a1_ab_apply, hd]

/-- The maximum with the zero array is the clipping at zero. -/
theorem relu_eq (x : Arr) (hbs : S0.BroadcastsInDim SVD (![] : Fin 0 → Fin 2)) :
    maximumf (F := Ideal) (φ := .f32) x (broadcastInDim SVD (![] : Fin 0 → Fin 2) hbs (constant (F := Ideal) S0 .f32 0x00000000#32))
      = relu x := by
  funext i
  rw [maximumf_apply, broadcastInDim_scalar_apply]
  rfl

/-! ## Column sums, the mean and the variance -/

/-- A column index with the row put back. -/
theorem lift_col (hr : SVD.Reduces [0] SD) (j : Fin 128) (r : Fin 100000) : hr.lift (ix1 j) r = ix2 r j := by
  funext ax; apply Fin.ext
  match ax with
  | ⟨0, _⟩ => rfl
  | ⟨1, _⟩ => rfl

/-- The host's sum over the vertices, read at column `j`: the initial value plus the sum of the column. -/
theorem colSum_apply (g : Arr) (init : S0.Idx → EReal) (h : SVD.ReducesTo [0] SD) (hu : 0 < S0.numel) (j : Fin 128) :
    Host.reduceAdd (F := Ideal) (φ := .f32) g init h hu (ix1 j) = init ix0 + ∑ r : Fin 100000, g (ix2 r j) := by
  have hr : SVD.Reduces [0] SD := by decide
  show Ideal.hostReduceAdd h g (init (Shape.Idx.first hu)) (ix1 j) = _
  rw [Ideal.hostReduceAdd_single h hr g _ (ix1 j), eq_ix0 (Shape.Idx.first hu)]
  refine congrArg (init ix0 + ·) (Finset.sum_congr rfl fun r _ => congrArg g ?_)
  exact lift_col hr j r

/-- From the zero literal: just the sum of the column. -/
theorem colSum0_apply (g : Arr) (h : SVD.ReducesTo [0] SD) (hu : 0 < S0.numel) (j : Fin 128) :
    Host.reduceAdd (F := Ideal) (φ := .f32) g (constant (F := Ideal) S0 .f32 0x00000000#32) h hu (ix1 j)
      = ∑ r : Fin 100000, g (ix2 r j) := by
  rw [colSum_apply]
  show Ideal.ofBits .f32 0x00000000#32 + _ = _
  rw [Ideal.ofBits_zero_f32, zero_add]

/-- The column mean: the column sum divided by the number of vertices. -/
theorem mean_apply (g : Arr) (h : SVD.ReducesTo [0] SD) (hu : 0 < S0.numel)
    (hb : S0.BroadcastsInDim SD (![] : Fin 0 → Fin 1)) (j : Fin 128) :
    Host.divf (F := Ideal) (φ := .f32) (Host.reduceAdd (F := Ideal) (φ := .f32) g (constant (F := Ideal) S0 .f32 0x00000000#32) h hu)
        (broadcastInDim SD (![] : Fin 0 → Fin 1) hb (constant (F := Ideal) S0 .f32 0x47C35000#32)) (ix1 j) = meanR g j := by
  show Ideal.div (Host.reduceAdd (F := Ideal) (φ := .f32) g (constant (F := Ideal) S0 .f32 0x00000000#32) h hu (ix1 j))
    (broadcastInDim SD _ hb (constant (F := Ideal) S0 .f32 0x47C35000#32) (ix1 j)) = _
  rw [colSum0_apply, broadcastInDim_scalar_apply]
  rfl

/-- The same mean computed on a `[1, 128]` row (the sum set as a row, divided by the literal broadcast to a row). -/
theorem meanRow_apply (g : Arr) (h : SVD.ReducesTo [0] SD) (hu : 0 < S0.numel)
    (hb1 : SD.BroadcastsInDim S1D (![1] : Fin 1 → Fin 2)) (hbs1 : S0.BroadcastsInDim S1D (![] : Fin 0 → Fin 2)) (j : Fin 128) :
    Host.divf (F := Ideal) (φ := .f32)
        (broadcastInDim S1D (![1] : Fin 1 → Fin 2) hb1
          (Host.reduceAdd (F := Ideal) (φ := .f32) g (constant (F := Ideal) S0 .f32 0x00000000#32) h hu))
        (broadcastInDim S1D (![] : Fin 0 → Fin 2) hbs1 (constant (F := Ideal) S0 .f32 0x47C35000#32)) (ix2 (0 : Fin 1) j)
      = meanR g j := by
  show Ideal.div (broadcastInDim S1D _ hb1 (Host.reduceAdd (F := Ideal) (φ := .f32) g (constant (F := Ideal) S0 .f32 0x00000000#32) h hu) (ix2 (0 : Fin 1) j))
    (broadcastInDim S1D _ hbs1 (constant (F := Ideal) S0 .f32 0x47C35000#32) (ix2 (0 : Fin 1) j)) = _
  rw [bcast_b_1b_apply, colSum0_apply, broadcastInDim_scalar_apply]
  rfl

/-- The number of vertices minus the integer zero made a float is the number of vertices. -/
theorem den_eq : subf (F := Ideal) (φ := .f32) (constant (F := Ideal) S0 .f32 0x47C35000#32)
    (sitofp (F := Ideal) .f32 (constantI S0 32 0#32)) ix0 = nV := by
  show nV - (((0#32 : BitVec 32).toInt : ℝ) : EReal) = nV
  have : (0#32 : BitVec 32).toInt = 0 := by decide
  rw [this]
  simp

/-- The number of vertices is above zero. -/
theorem nV_pos : Ideal.cmp .ogt nV (Ideal.ofBits .f32 0x00000000#32) = 1#1 := by
  rw [Ideal.ofBits_zero_f32, nV_eq]
  show BitVec.ofBool (decide ((0 : EReal) < ((100000 : ℝ) : EReal))) = 1#1
  rw [decide_eq_true (EReal.coe_pos.mpr (by norm_num))]
  rfl

/-! ## The normalisation -/

/-- The normalisation of layer `l` as the program spells it: the scale's row `l` times the deviation from the mean, times
    the inverse square root of the variance plus the offset, plus the shift's row `l`; the mean and the variance are
    vectors over the features, each set as a row and broadcast over the vertices. -/
theorem bn_eq (γ β : S3D.Idx → EReal) (l : Fin 3) (g : Arr) (mv vv : SD.Idx → EReal) (mu var : Feat)
    (hm : ∀ j, mv (ix1 j) = mu j) (hv : ∀ j, vv (ix1 j) = var j)
    (hsg : S3D.Slices ![l.val, 0] S1D) (hc : S1D.ShapeCasts SD)
    (hb1 : SD.BroadcastsInDim S1D (![1] : Fin 1 → Fin 2)) (hb2 : S1D.BroadcastsInDim SVD (![0, 1] : Fin 2 → Fin 2))
    (hbs : S0.BroadcastsInDim SD (![] : Fin 0 → Fin 1)) :
    addf (F := Ideal) (φ := .f32)
        (mulf (F := Ideal) (φ := .f32)
          (mulf (F := Ideal) (φ := .f32)
            (broadcastInDim SVD (![0, 1] : Fin 2 → Fin 2) hb2
              (broadcastInDim S1D (![1] : Fin 1 → Fin 2) hb1 (shapeCast SD (extractStridedSlice S1D ![l.val, 0] γ hsg) hc)))
            (subf (F := Ideal) (φ := .f32) g
              (broadcastInDim SVD (![0, 1] : Fin 2 → Fin 2) hb2 (broadcastInDim S1D (![1] : Fin 1 → Fin 2) hb1 mv))))
          (broadcastInDim SVD (![0, 1] : Fin 2 → Fin 2) hb2
            (broadcastInDim S1D (![1] : Fin 1 → Fin 2) hb1
              (Host.rsqrt (F := Ideal) (φ := .f32)
                (addf (F := Ideal) (φ := .f32) vv
                  (broadcastInDim SD (![] : Fin 0 → Fin 1) hbs (constant (F := Ideal) S0 .f32 0x3727C5AC#32)))))))
        (broadcastInDim SVD (![0, 1] : Fin 2 → Fin 2) hb2
          (broadcastInDim S1D (![1] : Fin 1 → Fin 2) hb1 (shapeCast SD (extractStridedSlice S1D ![l.val, 0] β hsg) hc)))
      = bn γ β l mu var g := by
  funext i
  obtain ⟨r, j, rfl⟩ : ∃ (r : Fin 100000) (j : Fin 128), i = ix2 r j := ⟨i 0, i 1, eq_ix2 i⟩
  rw [bn_apply, addf_apply, mulf_apply, mulf_apply, subf_apply]
  rw [rowBcast_apply _ hb1 hb2 r j, rowBcast_apply _ hb1 hb2 r j, rowBcast_apply _ hb1 hb2 r j, rowBcast_apply _ hb1 hb2 r j]
  rw [row_apply γ l hsg hc j, row_apply β l hsg hc j, hm j]
  show _ * _ * Ideal.rsqrt (vv (ix1 j) + broadcastInDim SD _ hbs (constant (F := Ideal) S0 .f32 0x3727C5AC#32) (ix1 j)) + _ = _
  rw [broadcastInDim_scalar_apply, hv j]
  rfl

end Cert.RStages

end
-- ==== Proof.R.Chunks.lean ====
/-
  One layer of the reference program, a stretch of host operations at a time, read over an arbitrary state of the buffers:
  the two dense maps, the edge sum one direction after the other, the combination scaled by the inverse count, and the
  normalisation with the clipping (for the last layer with the input added back before the clipping).
-/
import proofs.«178513_j90202903151305_2_alg».proof.Proof.R.Ops
import proofs.«178513_j90202903151305_2_alg».proof.Proof.R.Stages
import proofs.«178513_j90202903151305_2_alg».proof.Proof.EdgeTerms

noncomputable section

namespace Cert.ReferenceIdeal.RRead

open Cert.ReferenceIdeal Cert.ReferenceIdeal.Gen Idealize.ShloMosaic Idealize.ShloMosaic.TcCoe Idealize.SL.Sem Idealize.ShloMosaic.StableHlo
open Idealize.ShloMosaic.ValueIdx Cert.Spec

/-! ## Layer 0 -/

/-- The first dense map of layer 0. -/
theorem denseA0 (V : Valuation τ sig (Elt Ideal)) :
    (after (RRun.opsL0a (F := Ideal)) V (main_v27 : DevRef τ sig) : Arr)
      = lin (V (main_arg2 : DevRef τ sig)) (V (main_arg3 : DevRef τ sig)) 0 (V (main_arg0 : DevRef τ sig)) := by
  after_results
  exact RStages.lin_eq _ _ _ 0 _ _ _ _ _ _ _ _

/-- The second dense map of layer 0. -/
theorem denseB0 (V : Valuation τ sig (Elt Ideal)) :
    (after (RRun.opsL0a (F := Ideal)) V (main_v36 : DevRef τ sig) : Arr)
      = lin (V (main_arg4 : DevRef τ sig)) (V (main_arg5 : DevRef τ sig)) 0 (V (main_arg0 : DevRef τ sig)) := by
  after_results
  exact RStages.lin_eq _ _ _ 0 _ _ _ _ _ _ _ _

/-- The edge sum of layer 0: into zeros, at every first endpoint the row of the second one, then at every second endpoint
    the row of the first one; the endpoint vectors are the two columns of the edge array. -/
theorem edgeSum0 (V : Valuation τ sig (Elt Ideal)) (E : IVec SE2 32)
    (h1 : (V (main_v1 : DevRef τ sig) : SE.Idx → BitVec 32)
      = shapeCast SE (extractStridedSlice SE1 ![0, 0] E slices_S300000x2_S300000x1_0_0) shapeCasts_S300000x1_S300000)
    (h3 : (V (main_v3 : DevRef τ sig) : SE.Idx → BitVec 32)
      = shapeCast SE (extractStridedSlice SE1 ![0, 1] E slices_S300000x2_S300000x1_0_1) shapeCasts_S300000x1_S300000) :
    (after (RRun.opsL0b (F := Ideal)) V (main_v65 : DevRef τ sig) : Arr) = aggR E (V (main_v36 : DevRef τ sig)) := by
  after_results_simp
  rw [h1, h3]
  exact aggR_term E _ _ rfl _ rfl _ _ _ (srcCol_eq E _ _ _ _) (dstCol_eq E _ _ _ _)

/-- The combination of layer 0, scaled row by row by the column of inverse counts. -/
theorem scaled0 (V : Valuation τ sig (Elt Ideal)) (d : Fin 100000 → EReal)
    (hd : ∀ r, (V (main_v18 : DevRef τ sig) : SV1.Idx → EReal) (ix2 r (0 : Fin 1)) = d r) :
    (after (RRun.opsL0c (F := Ideal)) V (main_v68 : DevRef τ sig) : Arr) = comb d (V (main_v27 : DevRef τ sig)) (V (main_v65 : DevRef τ sig)) := by
  after_results
  exact RStages.comb_eq _ d hd _ _ _

/-- The normalisation and the clipping of layer 0, given the mean and the variance vectors. -/
theorem normed0 (V : Valuation τ sig (Elt Ideal)) (mu var : Feat)
    (hm : ∀ j, (V (main_v71 : DevRef τ sig) : RStages.SD.Idx → EReal) (ix1 j) = mu j)
    (hv : ∀ j, (V (main_v72 : DevRef τ sig) : RStages.SD.Idx → EReal) (ix1 j) = var j) :
    (after (RRun.opsL0e (F := Ideal)) V (main_v92 : DevRef τ sig) : Arr)
      = relu (bn (V (main_arg6 : DevRef τ sig)) (V (main_arg7 : DevRef τ sig)) 0 mu var (V (main_v68 : DevRef τ sig))) := by
  after_results_simp
  exact (RStages.relu_eq _ bcast_S_S100000x128).trans (congrArg relu (RStages.bn_eq _ _ 0 _ _ _ mu var hm hv _ _ _ _ _))

/-! ## Layer 1 -/

/-- The first dense map of layer 1. -/
theorem denseA1 (V : Valuation τ sig (Elt Ideal)) :
    (after (RRun.opsL1a (F := Ideal)) V (main_v101 : DevRef τ sig) : Arr)
      = lin (V (main_arg2 : DevRef τ sig)) (V (main_arg3 : DevRef τ sig)) 1 (V (main_v92 : DevRef τ sig)) := by
  after_results
  exact RStages.lin_eq _ _ _ 1 _ _ _ _ _ _ _ _

/-- The second dense map of layer 1. -/
theorem denseB1 (V : Valuation τ sig (Elt Ideal)) :
    (after (RRun.opsL1a (F := Ideal)) V (main_v110 : DevRef τ sig) : Arr)
      = lin (V (main_arg4 : DevRef τ sig)) (V (main_arg5 : DevRef τ sig)) 1 (V (main_v92 : DevRef τ sig)) := by
  after_results
  exact RStages.lin_eq _ _ _ 1 _ _ _ _ _ _ _ _

/-- The edge sum of layer 1: into zeros, at every first endpoint the row of the second one, then at every second endpoint
    the row of the first one; the endpoint vectors are the two columns of the edge array. -/
theorem edgeSum1 (V : Valuation τ sig (Elt Ideal)) (E : IVec SE2 32)
    (h1 : (V (main_v1 : DevRef τ sig) : SE.Idx → BitVec 32)
      = shapeCast SE (extractStridedSlice SE1 ![0, 0] E slices_S300000x2_S300000x1_0_0) shapeCasts_S300000x1_S300000)
    (h3 : (V (main_v3 : DevRef τ sig) : SE.Idx → BitVec 32)
      = shapeCast SE (extractStridedSlice SE1 ![0, 1] E slices_S300000x2_S300000x1_0_1) shapeCasts_S300000x1_S300000) :
    (after (RRun.opsL1b (F := Ideal)) V (main_v139 : DevRef τ sig) : Arr) = aggR E (V (main_v110 : DevRef τ sig)) := by
  after_results_simp
  rw [h1, h3]
  exact aggR_term E _ _ rfl _ rfl _ _ _ (srcCol_eq E _ _ _ _) (dstCol_eq E _ _ _ _)

/-- The combination of layer 1, scaled row by row by the column of inverse counts. -/
theorem scaled1 (V : Valuation τ sig (Elt Ideal)) (d : Fin 100000 → EReal)
    (hd : ∀ r, (V (main_v18 : DevRef τ sig) : SV1.Idx → EReal) (ix2 r (0 : Fin 1)) = d r) :
    (after (RRun.opsL1c (F := Ideal)) V (main_v142 : DevRef τ sig) : Arr) = comb d (V (main_v101 : DevRef τ sig)) (V (main_v139 : DevRef τ sig)) := by
  after_results
  exact RStages.comb_eq _ d hd _ _ _

/-- The normalisation and the clipping of layer 1, given the mean and the variance vectors. -/
theorem normed1 (V : Valuation τ sig (Elt Ideal)) (mu var : Feat)
    (hm : ∀ j, (V (main_v145 : DevRef τ sig) : RStages.SD.Idx → EReal) (ix1 j) = mu j)
    (hv : ∀ j, (V (main_v146 : DevRef τ sig) : RStages.SD.Idx → EReal) (ix1 j) = var j) :
    (after (RRun.opsL1e (F := Ideal)) V (main_v166 : DevRef τ sig) : Arr)
      = relu (bn (V (main_arg6 : DevRef τ sig)) (V (main_arg7 : DevRef τ sig)) 1 mu var (V (main_v142 : DevRef τ sig))) := by
  after_results_simp
  exact (RStages.relu_eq _ bcast_S_S100000x128).trans (congrArg relu (RStages.bn_eq _ _ 1 _ _ _ mu var hm hv _ _ _ _ _))

/-! ## Layer 2 -/

/-- The first dense map of layer 2. -/
theorem denseA2 (V : Valuation τ sig (Elt Ideal)) :
    (after (RRun.opsL2a (F := Ideal)) V (main_v175 : DevRef τ sig) : Arr)
      = lin (V (main_arg2 : DevRef τ sig)) (V (main_arg3 : DevRef τ sig)) 2 (V (main_v166 : DevRef τ sig)) := by
  after_results
  exact RStages.lin_eq _ _ _ 2 _ _ _ _ _ _ _ _

/-- The second dense map of layer 2. -/
theorem denseB2 (V : Valuation τ sig (Elt Ideal)) :
    (after (RRun.opsL2a (F := Ideal)) V (main_v184 : DevRef τ sig) : Arr)
      = lin (V (main_arg4 : DevRef τ sig)) (V (main_arg5 : DevRef τ sig)) 2 (V (main_v166 : DevRef τ sig)) := by
  after_results
  exact RStages.lin_eq _ _ _ 2 _ _ _ _ _ _ _ _

/-- The edge sum of layer 2: into zeros, at every first endpoint the row of the second one, then at every second endpoint
    the row of the first one; the endpoint vectors are the two columns of the edge array. -/
theorem edgeSum2 (V : Valuation τ sig (Elt Ideal)) (E : IVec SE2 32)
    (h1 : (V (main_v1 : DevRef τ sig) : SE.Idx → BitVec 32)
      = shapeCast SE (extractStridedSlice SE1 ![0, 0] E slices_S300000x2_S300000x1_0_0) shapeCasts_S300000x1_S300000)
    (h3 : (V (main_v3 : DevRef τ sig) : SE.Idx → BitVec 32)
      = shapeCast SE (extractStridedSlice SE1 ![0, 1] E slices_S300000x2_S300000x1_0_1) shapeCasts_S300000x1_S300000) :
    (after (RRun.opsL2b (F := Ideal)) V (main_v213 : DevRef τ sig) : Arr) = aggR E (V (main_v184 : DevRef τ sig)) := by
  after_results_simp
  rw [h1, h3]
  exact aggR_term E _ _ rfl _ rfl _ _ _ (srcCol_eq E _ _ _ _) (dstCol_eq E _ _ _ _)

/-- The combination of layer 2, scaled row by row by the column of inverse counts. -/
theorem scaled2 (V : Valuation τ sig (Elt Ideal)) (d : Fin 100000 → EReal)
    (hd : ∀ r, (V (main_v18 : DevRef τ sig) : SV1.Idx → EReal) (ix2 r (0 : Fin 1)) = d r) :
    (after (RRun.opsL2c (F := Ideal)) V (main_v216 : DevRef τ sig) : Arr) = comb d (V (main_v175 : DevRef τ sig)) (V (main_v213 : DevRef τ sig)) := by
  after_results
  exact RStages.comb_eq _ d hd _ _ _

/-- The normalisation of layer 2, the input added back, and the clipping, given the mean and the variance vectors. -/
theorem normed2 (V : Valuation τ sig (Elt Ideal)) (mu var : Feat)
    (hm : ∀ j, (V (main_v219 : DevRef τ sig) : RStages.SD.Idx → EReal) (ix1 j) = mu j)
    (hv : ∀ j, (V (main_v220 : DevRef τ sig) : RStages.SD.Idx → EReal) (ix1 j) = var j) :
    (after (RRun.opsL2e (F := Ideal)) V (main_v241 : DevRef τ sig) : Arr)
      = fun i => max (bn (V (main_arg6 : DevRef τ sig)) (V (main_arg7 : DevRef τ sig)) 2 mu var (V (main_v216 : DevRef τ sig)) i + (V (main_arg0 : DevRef τ sig) : Arr) i) f0 := by
  after_results_simp
  exact (RStages.relu_eq _ bcast_S_S100000x128).trans (congrArg (fun y : Arr => relu (addf (F := Ideal) (φ := .f32) y (V (main_arg0 : DevRef τ sig))))
    (RStages.bn_eq _ _ 2 _ _ _ mu var hm hv _ _ _ _ _))

end Cert.ReferenceIdeal.RRead

end
-- ==== Proof.R.Kept.lean ====
/-
  The argument arrays are never written. Every operation of the program writes exactly one buffer, its result; the results
  of a stretch of the list are listed, a buffer outside the list keeps its contents through the stretch, and so through
  the whole list a buffer outside every stretch's list: the eight argument buffers are such.
-/
import proofs.«178513_j90202903151305_2_alg».proof.Proof.R.Ops
import proofs.«178513_j90202903151305_2_alg».proof.Proof.LibTypedRefs

noncomputable section

namespace Cert.ReferenceIdeal.RRead

open Cert.ReferenceIdeal Cert.ReferenceIdeal.Gen Idealize.ShloMosaic Idealize.ShloMosaic.TcCoe Idealize.SL.Sem Idealize.ShloMosaic.StableHlo
open Cert.ReferenceIdeal.RRun

variable {F : FTy → Type} [FloatOps F]

/-- A list of operations leaves reference r alone: from any contents, r's buffer holds afterwards what it held. -/
def Keeps (l : List (HloOp τ sig (Elt F))) (r : Ref sig .tc) : Prop :=
  ∀ V : Valuation τ sig (Elt F), after l V (Proc.devRef .tc r) = V (Proc.devRef .tc r)

theorem Keeps.append {l₁ l₂ : List (HloOp τ sig (Elt F))} {r : Ref sig .tc} (h₁ : Keeps l₁ r) (h₂ : Keeps l₂ r) :
    Keeps (l₁ ++ l₂) r := fun V => by rw [after_append, h₂, h₁]

/-- The buffers that `opsPre`'s operations write. -/
abbrev opsPre_W : List (Ref sig .tc) :=
  [main_v0, main_v1, main_v2, main_v3, main_cst, main_v4, main_v5, main_c,
   main_v6, main_v7, main_c_0, main_v8, main_v9, main_v10, main_v11, main_cst_1,
   main_v12, main_v13, main_cst_2, main_v14, main_v15, main_cst_3, main_v16, main_v17,
   main_v18]
set_option maxRecDepth 8192 in
theorem opsPre_writes : (opsPre : List (HloOp τ sig (Elt F))).Forall fun op =>
    op.writes ⊆ (opsPre_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsPre` does not write keeps its contents through it. -/
theorem keep_opsPre (V : Valuation τ sig (Elt F)) (r : Ref sig .tc) (h : r ∉ opsPre_W) :
    after (opsPre : List (HloOp τ sig (Elt F))) V (r : DevRef τ sig) = V (r : DevRef τ sig) :=
  after_of_writes_sub opsPre V opsPre_writes h
theorem opsPre_keeps (r : Ref sig .tc) (h : r ∉ opsPre_W) : Keeps (opsPre : List (HloOp τ sig (Elt F))) r :=
  fun V => keep_opsPre V r h

/-- The buffers that `opsL0a`'s operations write. -/
abbrev opsL0a_W : List (Ref sig .tc) :=
  [main_v19, main_v20, main_v21, main_v22, main_v23, main_v24, main_v25, main_v26,
   main_v27, main_v28, main_v29, main_v30, main_v31, main_v32, main_v33, main_v34,
   main_v35, main_v36]
set_option maxRecDepth 8192 in
theorem opsL0a_writes : (opsL0a : List (HloOp τ sig (Elt F))).Forall fun op =>
    op.writes ⊆ (opsL0a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL0a` does not write keeps its contents through it. -/
theorem keep_opsL0a (V : Valuation τ sig (Elt F)) (r : Ref sig .tc) (h : r ∉ opsL0a_W) :
    after (opsL0a : List (HloOp τ sig (Elt F))) V (r : DevRef τ sig) = V (r : DevRef τ sig) :=
  after_of_writes_sub opsL0a V opsL0a_writes h
theorem opsL0a_keeps (r : Ref sig .tc) (h : r ∉ opsL0a_W) : Keeps (opsL0a : List (HloOp τ sig (Elt F))) r :=
  fun V => keep_opsL0a V r h

/-- The buffers that `opsL0b`'s operations write. -/
abbrev opsL0b_W : List (Ref sig .tc) :=
  [main_cst_4, main_v37, main_c_5, main_v38, main_v39, main_c_6, main_v40, main_v41,
   main_v42, main_v43, main_v44, main_c_7, main_v45, main_v46, main_c_8, main_v47,
   main_v48, main_v49, main_v50, main_v51, main_c_9, main_v52, main_v53, main_c_10,
   main_v54, main_v55, main_v56, main_v57, main_v58, main_c_11, main_v59, main_v60,
   main_c_12, main_v61, main_v62, main_v63, main_v64, main_v65]
set_option maxRecDepth 8192 in
theorem opsL0b_writes : (opsL0b : List (HloOp τ sig (Elt F))).Forall fun op =>
    op.writes ⊆ (opsL0b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL0b` does not write keeps its contents through it. -/
theorem keep_opsL0b (V : Valuation τ sig (Elt F)) (r : Ref sig .tc) (h : r ∉ opsL0b_W) :
    after (opsL0b : List (HloOp τ sig (Elt F))) V (r : DevRef τ sig) = V (r : DevRef τ sig) :=
  after_of_writes_sub opsL0b V opsL0b_writes h
theorem opsL0b_keeps (r : Ref sig .tc) (h : r ∉ opsL0b_W) : Keeps (opsL0b : List (HloOp τ sig (Elt F))) r :=
  fun V => keep_opsL0b V r h

/-- The buffers that `opsL0c`'s operations write. -/
abbrev opsL0c_W : List (Ref sig .tc) :=
  [main_v66, main_v67, main_v68]
set_option maxRecDepth 8192 in
theorem opsL0c_writes : (opsL0c : List (HloOp τ sig (Elt F))).Forall fun op =>
    op.writes ⊆ (opsL0c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL0c` does not write keeps its contents through it. -/
theorem keep_opsL0c (V : Valuation τ sig (Elt F)) (r : Ref sig .tc) (h : r ∉ opsL0c_W) :
    after (opsL0c : List (HloOp τ sig (Elt F))) V (r : DevRef τ sig) = V (r : DevRef τ sig) :=
  after_of_writes_sub opsL0c V opsL0c_writes h
theorem opsL0c_keeps (r : Ref sig .tc) (h : r ∉ opsL0c_W) : Keeps (opsL0c : List (HloOp τ sig (Elt F))) r :=
  fun V => keep_opsL0c V r h

/-- The buffers that `opsL0d`'s operations write. -/
abbrev opsL0d_W : List (Ref sig .tc) :=
  [main_cst_13, main_v69, main_cst_14, main_v70, main_v71, main_c_15, main_call0.cst.ref, main_call0.v0.ref,
   main_call0.v1.ref, main_call0.cst_0.ref, main_call0.v2.ref, main_call0.v3.ref, main_call0.v4.ref, main_call0.v5.ref, main_call0.v6.ref, main_call0.v7.ref,
   main_call0.cst_1.ref, main_call0.v8.ref, main_call0.cst_2.ref, main_call0.v9.ref, main_call0.v10.ref, main_call0.v11.ref, main_call0.cst_3.ref, main_call0.v12.ref,
   main_call0.cst_4.ref, main_call0.call0.v0.ref, main_call0.call0.v1.ref, main_call0.call0.v2.ref]
set_option maxRecDepth 8192 in
theorem opsL0d_writes : (opsL0d : List (HloOp τ sig (Elt F))).Forall fun op =>
    op.writes ⊆ (opsL0d_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL0d` does not write keeps its contents through it. -/
theorem keep_opsL0d (V : Valuation τ sig (Elt F)) (r : Ref sig .tc) (h : r ∉ opsL0d_W) :
    after (opsL0d : List (HloOp τ sig (Elt F))) V (r : DevRef τ sig) = V (r : DevRef τ sig) :=
  after_of_writes_sub opsL0d V opsL0d_writes h
theorem opsL0d_keeps (r : Ref sig .tc) (h : r ∉ opsL0d_W) : Keeps (opsL0d : List (HloOp τ sig (Elt F))) r :=
  fun V => keep_opsL0d V r h

/-- The buffers that `opsL0e`'s operations write. -/
abbrev opsL0e_W : List (Ref sig .tc) :=
  [main_v73, main_v74, main_v75, main_v76, main_v77, main_v78, main_v79, main_v80,
   main_cst_16, main_v81, main_v82, main_v83, main_v84, main_v85, main_v86, main_v87,
   main_v88, main_v89, main_v90, main_v91, main_call1.cst.ref, main_call1.v0.ref, main_call1.v1.ref]
set_option maxRecDepth 8192 in
theorem opsL0e_writes : (opsL0e : List (HloOp τ sig (Elt F))).Forall fun op =>
    op.writes ⊆ (opsL0e_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL0e` does not write keeps its contents through it. -/
theorem keep_opsL0e (V : Valuation τ sig (Elt F)) (r : Ref sig .tc) (h : r ∉ opsL0e_W) :
    after (opsL0e : List (HloOp τ sig (Elt F))) V (r : DevRef τ sig) = V (r : DevRef τ sig) :=
  after_of_writes_sub opsL0e V opsL0e_writes h
theorem opsL0e_keeps (r : Ref sig .tc) (h : r ∉ opsL0e_W) : Keeps (opsL0e : List (HloOp τ sig (Elt F))) r :=
  fun V => keep_opsL0e V r h

/-- The buffers that `opsL1a`'s operations write. -/
abbrev opsL1a_W : List (Ref sig .tc) :=
  [main_v93, main_v94, main_v95, main_v96, main_v97, main_v98, main_v99, main_v100,
   main_v101, main_v102, main_v103, main_v104, main_v105, main_v106, main_v107, main_v108,
   main_v109, main_v110]
set_option maxRecDepth 8192 in
theorem opsL1a_writes : (opsL1a : List (HloOp τ sig (Elt F))).Forall fun op =>
    op.writes ⊆ (opsL1a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL1a` does not write keeps its contents through it. -/
theorem keep_opsL1a (V : Valuation τ sig (Elt F)) (r : Ref sig .tc) (h : r ∉ opsL1a_W) :
    after (opsL1a : List (HloOp τ sig (Elt F))) V (r : DevRef τ sig) = V (r : DevRef τ sig) :=
  after_of_writes_sub opsL1a V opsL1a_writes h
theorem opsL1a_keeps (r : Ref sig .tc) (h : r ∉ opsL1a_W) : Keeps (opsL1a : List (HloOp τ sig (Elt F))) r :=
  fun V => keep_opsL1a V r h

/-- The buffers that `opsL1b`'s operations write. -/
abbrev opsL1b_W : List (Ref sig .tc) :=
  [main_cst_17, main_v111, main_c_18, main_v112, main_v113, main_c_19, main_v114, main_v115,
   main_v116, main_v117, main_v118, main_c_20, main_v119, main_v120, main_c_21, main_v121,
   main_v122, main_v123, main_v124, main_v125, main_c_22, main_v126, main_v127, main_c_23,
   main_v128, main_v129, main_v130, main_v131, main_v132, main_c_24, main_v133, main_v134,
   main_c_25, main_v135, main_v136, main_v137, main_v138, main_v139]
set_option maxRecDepth 8192 in
theorem opsL1b_writes : (opsL1b : List (HloOp τ sig (Elt F))).Forall fun op =>
    op.writes ⊆ (opsL1b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL1b` does not write keeps its contents through it. -/
theorem keep_opsL1b (V : Valuation τ sig (Elt F)) (r : Ref sig .tc) (h : r ∉ opsL1b_W) :
    after (opsL1b : List (HloOp τ sig (Elt F))) V (r : DevRef τ sig) = V (r : DevRef τ sig) :=
  after_of_writes_sub opsL1b V opsL1b_writes h
theorem opsL1b_keeps (r : Ref sig .tc) (h : r ∉ opsL1b_W) : Keeps (opsL1b : List (HloOp τ sig (Elt F))) r :=
  fun V => keep_opsL1b V r h

/-- The buffers that `opsL1c`'s operations write. -/
abbrev opsL1c_W : List (Ref sig .tc) :=
  [main_v140, main_v141, main_v142]
set_option maxRecDepth 8192 in
theorem opsL1c_writes : (opsL1c : List (HloOp τ sig (Elt F))).Forall fun op =>
    op.writes ⊆ (opsL1c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL1c` does not write keeps its contents through it. -/
theorem keep_opsL1c (V : Valuation τ sig (Elt F)) (r : Ref sig .tc) (h : r ∉ opsL1c_W) :
    after (opsL1c : List (HloOp τ sig (Elt F))) V (r : DevRef τ sig) = V (r : DevRef τ sig) :=
  after_of_writes_sub opsL1c V opsL1c_writes h
theorem opsL1c_keeps (r : Ref sig .tc) (h : r ∉ opsL1c_W) : Keeps (opsL1c : List (HloOp τ sig (Elt F))) r :=
  fun V => keep_opsL1c V r h

/-- The buffers that `opsL1d`'s operations write. -/
abbrev opsL1d_W : List (Ref sig .tc) :=
  [main_cst_26, main_v143, main_cst_27, main_v144, main_v145, main_c_28, main_call2.cst.ref, main_call2.v0.ref,
   main_call2.v1.ref, main_call2.cst_0.ref, main_call2.v2.ref, main_call2.v3.ref, main_call2.v4.ref, main_call2.v5.ref, main_call2.v6.ref, main_call2.v7.ref,
   main_call2.cst_1.ref, main_call2.v8.ref, main_call2.cst_2.ref, main_call2.v9.ref, main_call2.v10.ref, main_call2.v11.ref, main_call2.cst_3.ref, main_call2.v12.ref,
   main_call2.cst_4.ref, main_call2.call0.v0.ref, main_call2.call0.v1.ref, main_call2.call0.v2.ref]
set_option maxRecDepth 8192 in
theorem opsL1d_writes : (opsL1d : List (HloOp τ sig (Elt F))).Forall fun op =>
    op.writes ⊆ (opsL1d_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL1d` does not write keeps its contents through it. -/
theorem keep_opsL1d (V : Valuation τ sig (Elt F)) (r : Ref sig .tc) (h : r ∉ opsL1d_W) :
    after (opsL1d : List (HloOp τ sig (Elt F))) V (r : DevRef τ sig) = V (r : DevRef τ sig) :=
  after_of_writes_sub opsL1d V opsL1d_writes h
theorem opsL1d_keeps (r : Ref sig .tc) (h : r ∉ opsL1d_W) : Keeps (opsL1d : List (HloOp τ sig (Elt F))) r :=
  fun V => keep_opsL1d V r h

/-- The buffers that `opsL1e`'s operations write. -/
abbrev opsL1e_W : List (Ref sig .tc) :=
  [main_v147, main_v148, main_v149, main_v150, main_v151, main_v152, main_v153, main_v154,
   main_cst_29, main_v155, main_v156, main_v157, main_v158, main_v159, main_v160, main_v161,
   main_v162, main_v163, main_v164, main_v165, main_call3.cst.ref, main_call3.v0.ref, main_call3.v1.ref]
set_option maxRecDepth 8192 in
theorem opsL1e_writes : (opsL1e : List (HloOp τ sig (Elt F))).Forall fun op =>
    op.writes ⊆ (opsL1e_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL1e` does not write keeps its contents through it. -/
theorem keep_opsL1e (V : Valuation τ sig (Elt F)) (r : Ref sig .tc) (h : r ∉ opsL1e_W) :
    after (opsL1e : List (HloOp τ sig (Elt F))) V (r : DevRef τ sig) = V (r : DevRef τ sig) :=
  after_of_writes_sub opsL1e V opsL1e_writes h
theorem opsL1e_keeps (r : Ref sig .tc) (h : r ∉ opsL1e_W) : Keeps (opsL1e : List (HloOp τ sig (Elt F))) r :=
  fun V => keep_opsL1e V r h

/-- The buffers that `opsL2a`'s operations write. -/
abbrev opsL2a_W : List (Ref sig .tc) :=
  [main_v167, main_v168, main_v169, main_v170, main_v171, main_v172, main_v173, main_v174,
   main_v175, main_v176, main_v177, main_v178, main_v179, main_v180, main_v181, main_v182,
   main_v183, main_v184]
set_option maxRecDepth 8192 in
theorem opsL2a_writes : (opsL2a : List (HloOp τ sig (Elt F))).Forall fun op =>
    op.writes ⊆ (opsL2a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL2a` does not write keeps its contents through it. -/
theorem keep_opsL2a (V : Valuation τ sig (Elt F)) (r : Ref sig .tc) (h : r ∉ opsL2a_W) :
    after (opsL2a : List (HloOp τ sig (Elt F))) V (r : DevRef τ sig) = V (r : DevRef τ sig) :=
  after_of_writes_sub opsL2a V opsL2a_writes h
theorem opsL2a_keeps (r : Ref sig .tc) (h : r ∉ opsL2a_W) : Keeps (opsL2a : List (HloOp τ sig (Elt F))) r :=
  fun V => keep_opsL2a V r h

/-- The buffers that `opsL2b`'s operations write. -/
abbrev opsL2b_W : List (Ref sig .tc) :=
  [main_cst_30, main_v185, main_c_31, main_v186, main_v187, main_c_32, main_v188, main_v189,
   main_v190, main_v191, main_v192, main_c_33, main_v193, main_v194, main_c_34, main_v195,
   main_v196, main_v197, main_v198, main_v199, main_c_35, main_v200, main_v201, main_c_36,
   main_v202, main_v203, main_v204, main_v205, main_v206, main_c_37, main_v207, main_v208,
   main_c_38, main_v209, main_v210, main_v211, main_v212, main_v213]
set_option maxRecDepth 8192 in
theorem opsL2b_writes : (opsL2b : List (HloOp τ sig (Elt F))).Forall fun op =>
    op.writes ⊆ (opsL2b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL2b` does not write keeps its contents through it. -/
theorem keep_opsL2b (V : Valuation τ sig (Elt F)) (r : Ref sig .tc) (h : r ∉ opsL2b_W) :
    after (opsL2b : List (HloOp τ sig (Elt F))) V (r : DevRef τ sig) = V (r : DevRef τ sig) :=
  after_of_writes_sub opsL2b V opsL2b_writes h
theorem opsL2b_keeps (r : Ref sig .tc) (h : r ∉ opsL2b_W) : Keeps (opsL2b : List (HloOp τ sig (Elt F))) r :=
  fun V => keep_opsL2b V r h

/-- The buffers that `opsL2c`'s operations write. -/
abbrev opsL2c_W : List (Ref sig .tc) :=
  [main_v214, main_v215, main_v216]
set_option maxRecDepth 8192 in
theorem opsL2c_writes : (opsL2c : List (HloOp τ sig (Elt F))).Forall fun op =>
    op.writes ⊆ (opsL2c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL2c` does not write keeps its contents through it. -/
theorem keep_opsL2c (V : Valuation τ sig (Elt F)) (r : Ref sig .tc) (h : r ∉ opsL2c_W) :
    after (opsL2c : List (HloOp τ sig (Elt F))) V (r : DevRef τ sig) = V (r : DevRef τ sig) :=
  after_of_writes_sub opsL2c V opsL2c_writes h
theorem opsL2c_keeps (r : Ref sig .tc) (h : r ∉ opsL2c_W) : Keeps (opsL2c : List (HloOp τ sig (Elt F))) r :=
  fun V => keep_opsL2c V r h

/-- The buffers that `opsL2d`'s operations write. -/
abbrev opsL2d_W : List (Ref sig .tc) :=
  [main_cst_39, main_v217, main_cst_40, main_v218, main_v219, main_c_41, main_call4.cst.ref, main_call4.v0.ref,
   main_call4.v1.ref, main_call4.cst_0.ref, main_call4.v2.ref, main_call4.v3.ref, main_call4.v4.ref, main_call4.v5.ref, main_call4.v6.ref, main_call4.v7.ref,
   main_call4.cst_1.ref, main_call4.v8.ref, main_call4.cst_2.ref, main_call4.v9.ref, main_call4.v10.ref, main_call4.v11.ref, main_call4.cst_3.ref, main_call4.v12.ref,
   main_call4.cst_4.ref, main_call4.call0.v0.ref, main_call4.call0.v1.ref, main_call4.call0.v2.ref]
set_option maxRecDepth 8192 in
theorem opsL2d_writes : (opsL2d : List (HloOp τ sig (Elt F))).Forall fun op =>
    op.writes ⊆ (opsL2d_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL2d` does not write keeps its contents through it. -/
theorem keep_opsL2d (V : Valuation τ sig (Elt F)) (r : Ref sig .tc) (h : r ∉ opsL2d_W) :
    after (opsL2d : List (HloOp τ sig (Elt F))) V (r : DevRef τ sig) = V (r : DevRef τ sig) :=
  after_of_writes_sub opsL2d V opsL2d_writes h
theorem opsL2d_keeps (r : Ref sig .tc) (h : r ∉ opsL2d_W) : Keeps (opsL2d : List (HloOp τ sig (Elt F))) r :=
  fun V => keep_opsL2d V r h

/-- The buffers that `opsL2e`'s operations write. -/
abbrev opsL2e_W : List (Ref sig .tc) :=
  [main_v221, main_v222, main_v223, main_v224, main_v225, main_v226, main_v227, main_v228,
   main_cst_42, main_v229, main_v230, main_v231, main_v232, main_v233, main_v234, main_v235,
   main_v236, main_v237, main_v238, main_v239, main_v240, main_call5.cst.ref, main_call5.v0.ref, main_call5.v1.ref]
set_option maxRecDepth 8192 in
theorem opsL2e_writes : (opsL2e : List (HloOp τ sig (Elt F))).Forall fun op =>
    op.writes ⊆ (opsL2e_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer `opsL2e` does not write keeps its contents through it. -/
theorem keep_opsL2e (V : Valuation τ sig (Elt F)) (r : Ref sig .tc) (h : r ∉ opsL2e_W) :
    after (opsL2e : List (HloOp τ sig (Elt F))) V (r : DevRef τ sig) = V (r : DevRef τ sig) :=
  after_of_writes_sub opsL2e V opsL2e_writes h
theorem opsL2e_keeps (r : Ref sig .tc) (h : r ∉ opsL2e_W) : Keeps (opsL2e : List (HloOp τ sig (Elt F))) r :=
  fun V => keep_opsL2e V r h

/-! ## The whole list -/

/-- Every buffer the program writes, stretch by stretch. -/
abbrev ops_W : List (Ref sig .tc) :=
  opsPre_W ++ (opsL0a_W ++ (opsL0b_W ++ (opsL0c_W ++ (opsL0d_W ++ (opsL0e_W ++ (opsL1a_W ++ (opsL1b_W ++ (opsL1c_W ++ (opsL1d_W ++ (opsL1e_W ++ (opsL2a_W ++ (opsL2b_W ++ (opsL2c_W ++ (opsL2d_W ++ (opsL2e_W)))))))))))))))

/-- A buffer no stretch writes keeps its contents through the whole list. -/
theorem ops_keeps (r : Ref sig .tc) (h : r ∉ ops_W) : Keeps (ops : List (HloOp τ sig (Elt F))) r := by
  simp only [ops_W, List.mem_append, not_or] at h
  obtain ⟨h0, h1, h2, h3, h4, h5, h6, h7, h8, h9, h10, h11, h12, h13, h14, h15⟩ := h
  exact (((opsPre_keeps r h0).append
    ((((opsL0a_keeps r h1).append (opsL0b_keeps r h2)).append (opsL0c_keeps r h3)).append (opsL0d_keeps r h4) |>.append (opsL0e_keeps r h5))).append
    ((((opsL1a_keeps r h6).append (opsL1b_keeps r h7)).append (opsL1c_keeps r h8)).append (opsL1d_keeps r h9) |>.append (opsL1e_keeps r h10))).append
    ((((opsL2a_keeps r h11).append (opsL2b_keeps r h12)).append (opsL2c_keeps r h13)).append (opsL2d_keeps r h14) |>.append (opsL2e_keeps r h15))

theorem keep_ops (V : Valuation τ sig (Elt F)) (r : Ref sig .tc) (h : r ∉ ops_W) :
    after (ops : List (HloOp τ sig (Elt F))) V (r : DevRef τ sig) = V (r : DevRef τ sig) := ops_keeps r h V

/-! ## The eight argument arrays -/

set_option maxRecDepth 16384 in
theorem kept_arg0 (m : (ℓ : Loc nD τ sig) → Buf (Elt F) ℓ) (c : Dev nD) :
    StableHlo.after (RRun.ops (F := F)) (launchContents m c) ((main_arg0 : Ref sig .tc) : DevRef τ sig)
      = m ((c.tc : Thread nD τ).loc main_arg0) :=
  keep_ops (launchContents m c) main_arg0 (by decide)
set_option maxRecDepth 16384 in
theorem kept_arg1 (m : (ℓ : Loc nD τ sig) → Buf (Elt F) ℓ) (c : Dev nD) :
    StableHlo.after (RRun.ops (F := F)) (launchContents m c) ((main_arg1 : Ref sig .tc) : DevRef τ sig)
      = m ((c.tc : Thread nD τ).loc main_arg1) :=
  keep_ops (launchContents m c) main_arg1 (by decide)
set_option maxRecDepth 16384 in
theorem kept_arg2 (m : (ℓ : Loc nD τ sig) → Buf (Elt F) ℓ) (c : Dev nD) :
    StableHlo.after (RRun.ops (F := F)) (launchContents m c) ((main_arg2 : Ref sig .tc) : DevRef τ sig)
      = m ((c.tc : Thread nD τ).loc main_arg2) :=
  keep_ops (launchContents m c) main_arg2 (by decide)
set_option maxRecDepth 16384 in
theorem kept_arg3 (m : (ℓ : Loc nD τ sig) → Buf (Elt F) ℓ) (c : Dev nD) :
    StableHlo.after (RRun.ops (F := F)) (launchContents m c) ((main_arg3 : Ref sig .tc) : DevRef τ sig)
      = m ((c.tc : Thread nD τ).loc main_arg3) :=
  keep_ops (launchContents m c) main_arg3 (by decide)
set_option maxRecDepth 16384 in
theorem kept_arg4 (m : (ℓ : Loc nD τ sig) → Buf (Elt F) ℓ) (c : Dev nD) :
    StableHlo.after (RRun.ops (F := F)) (launchContents m c) ((main_arg4 : Ref sig .tc) : DevRef τ sig)
      = m ((c.tc : Thread nD τ).loc main_arg4) :=
  keep_ops (launchContents m c) main_arg4 (by decide)
set_option maxRecDepth 16384 in
theorem kept_arg5 (m : (ℓ : Loc nD τ sig) → Buf (Elt F) ℓ) (c : Dev nD) :
    StableHlo.after (RRun.ops (F := F)) (launchContents m c) ((main_arg5 : Ref sig .tc) : DevRef τ sig)
      = m ((c.tc : Thread nD τ).loc main_arg5) :=
  keep_ops (launchContents m c) main_arg5 (by decide)
set_option maxRecDepth 16384 in
theorem kept_arg6 (m : (ℓ : Loc nD τ sig) → Buf (Elt F) ℓ) (c : Dev nD) :
    StableHlo.after (RRun.ops (F := F)) (launchContents m c) ((main_arg6 : Ref sig .tc) : DevRef τ sig)
      = m ((c.tc : Thread nD τ).loc main_arg6) :=
  keep_ops (launchContents m c) main_arg6 (by decide)
set_option maxRecDepth 16384 in
theorem kept_arg7 (m : (ℓ : Loc nD τ sig) → Buf (Elt F) ℓ) (c : Dev nD) :
    StableHlo.after (RRun.ops (F := F)) (launchContents m c) ((main_arg7 : Ref sig .tc) : DevRef τ sig)
      = m ((c.tc : Thread nD τ).loc main_arg7) :=
  keep_ops (launchContents m c) main_arg7 (by decide)

end Cert.ReferenceIdeal.RRead

end
-- ==== Proof.R.Pre.lean ====
/-
  The prelude of the reference program, read back: the two endpoint columns of the edge array as vectors, and the column
  that scales every layer, whose entry at vertex r is the inverse of one plus the number of edge endpoints naming r.
-/
import proofs.«178513_j90202903151305_2_alg».proof.Proof.R.Ops
import proofs.«178513_j90202903151305_2_alg».proof.Proof.R.Stages
import proofs.«178513_j90202903151305_2_alg».proof.Proof.EdgeTerms
import proofs.«178513_j90202903151305_2_alg».proof.Proof.LibTypedRefs

noncomputable section

namespace Cert.ReferenceIdeal.RRead

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RRun

/-- After the prelude, main_v1 holds the first endpoints as a vector: column 0 of the edge array, reshaped. -/
theorem pre_v1 (V : Valuation τ sig (Elt Ideal)) :
    (after (opsPre (F := Ideal)) V (main_v1 : DevRef τ sig) : Cert.Spec.SE.Idx → BitVec 32)
      = shapeCast Cert.Spec.SE (extractStridedSlice Cert.Spec.SE1 ![0, 0] (V (main_arg1 : DevRef τ sig)) slices_S300000x2_S300000x1_0_0)
          shapeCasts_S300000x1_S300000 := by
  after_results_simp
  rfl

/-- After the prelude, main_v3 holds the second endpoints as a vector: column 1 of the edge array, reshaped. -/
theorem pre_v3 (V : Valuation τ sig (Elt Ideal)) :
    (after (opsPre (F := Ideal)) V (main_v3 : DevRef τ sig) : Cert.Spec.SE.Idx → BitVec 32)
      = shapeCast Cert.Spec.SE (extractStridedSlice Cert.Spec.SE1 ![0, 1] (V (main_arg1 : DevRef τ sig)) slices_S300000x2_S300000x1_0_1)
          shapeCasts_S300000x1_S300000 := by
  after_results_simp
  rfl

/-- The program's dimension record of the count's accumulation is the specification's. -/
theorem scatterC_eq : scatter_S100000_S600000x1_S600000_n_0_0_1 = Cert.Spec.sRecC := rfl

set_option maxRecDepth 8192 in
/-- After the prelude, main_v18 is the scaling column: at (r, 0), the inverse of one plus the count of r among the endpoints
    (zeros accumulated with ones at every endpoint of the flattened edge array, one added, and one divided by that). -/
theorem pre_v18 (V : Valuation τ sig (Elt Ideal)) (r : Fin 100000) :
    (after (opsPre (F := Ideal)) V (main_v18 : DevRef τ sig) : Cert.Spec.SV1.Idx → EReal) (ix2 r (0 : Fin 1))
      = Cert.Spec.dinv (V (main_arg1 : DevRef τ sig)) r := by
  after_results_simp
  refine (Cert.RStages.dinvCol_apply _ _ _ r).trans ?_
  unfold Cert.Spec.dinv
  refine congrArg (fun C : Cert.Spec.SV.Idx → EReal => Ideal.div Cert.Spec.f1 (Cert.Spec.f1 + C (ix1 r))) ?_
  exact Cert.Spec.cnt_term _ _ scatterC_eq _ _ _ (Cert.Spec.flatCol_eq _ _ _ _)

end Cert.ReferenceIdeal.RRead

end
-- ==== Proof.R.Stats.lean ====
/-
  The column statistics of a layer of the reference program, read back at a feature j over the [100000, 128] array g the
  layer normalises: the mean is the column sum divided by the number of vertices; the variance is the mean of the squared
  deviations from that mean, as the outlined variance function computes it — it divides by the number of vertices minus
  zero degrees of freedom, and selects that quotient because the divisor is positive (the other branch, not a number, is
  never taken).
-/
import proofs.«178513_j90202903151305_2_alg».proof.Proof.R.Ops
import proofs.«178513_j90202903151305_2_alg».proof.Proof.R.Stages
import proofs.«178513_j90202903151305_2_alg».proof.Proof.LibTypedRefs

noncomputable section

open scoped BigOperators

namespace Cert.ReferenceIdeal.RRead

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RRun Cert.Spec Cert.RStages Cert.LayoutIdx

/-- The host's quotient at an index is the quotient of the entries. -/
theorem hostDivf_apply {s : Shape} (a b : FVec Ideal s .f32) (i : s.Idx) :
    Host.divf (F := Ideal) (φ := .f32) a b i = Ideal.div (a i) (b i) := rfl

/-- The variance as the outlined function spells it, at feature j: the selection takes the quotient (its condition, the
    divisor above zero, holds), the quotient is the sum of the squared deviations over the number of vertices, and the
    deviations are from the column mean set as a row and broadcast over the vertices. -/
theorem var_apply (g : Arr) (h : SVD.ReducesTo [0] SD) (hu : 0 < S0.numel)
    (hb1 : SD.BroadcastsInDim S1D (![1] : Fin 1 → Fin 2)) (hbs1 : S0.BroadcastsInDim S1D (![] : Fin 0 → Fin 2))
    (hb2 : S1D.BroadcastsInDim SVD (![0, 1] : Fin 2 → Fin 2)) (hbs : S0.BroadcastsInDim SD (![] : Fin 0 → Fin 1)) (j : Fin 128) :
    select
        (broadcastInDim SD (![] : Fin 0 → Fin 1) hbs
          (cmpf (F := Ideal) (φ := .f32) .ogt (subf (F := Ideal) (φ := .f32) (constant (F := Ideal) S0 .f32 0x47C35000#32) (sitofp (F := Ideal) .f32 (constantI S0 32 0#32))) (constant (F := Ideal) S0 .f32 0x00000000#32)))
        (Host.divf (F := Ideal) (φ := .f32)
          (Host.reduceAdd (F := Ideal) (φ := .f32)
            (mulf (F := Ideal) (φ := .f32)
              (subf (F := Ideal) (φ := .f32) g
            (broadcastInDim SVD (![0, 1] : Fin 2 → Fin 2) hb2
              (Host.divf (F := Ideal) (φ := .f32)
              (broadcastInDim S1D (![1] : Fin 1 → Fin 2) hb1 (Host.reduceAdd (F := Ideal) (φ := .f32) g (constant (F := Ideal) S0 .f32 0x00000000#32) h hu))
              (broadcastInDim S1D (![] : Fin 0 → Fin 2) hbs1 (constant (F := Ideal) S0 .f32 0x47C35000#32)))))
              (subf (F := Ideal) (φ := .f32) g
            (broadcastInDim SVD (![0, 1] : Fin 2 → Fin 2) hb2
              (Host.divf (F := Ideal) (φ := .f32)
              (broadcastInDim S1D (![1] : Fin 1 → Fin 2) hb1 (Host.reduceAdd (F := Ideal) (φ := .f32) g (constant (F := Ideal) S0 .f32 0x00000000#32) h hu))
              (broadcastInDim S1D (![] : Fin 0 → Fin 2) hbs1 (constant (F := Ideal) S0 .f32 0x47C35000#32))))))
            (constant (F := Ideal) S0 .f32 0x00000000#32) h hu)
          (broadcastInDim SD (![] : Fin 0 → Fin 1) hbs (subf (F := Ideal) (φ := .f32) (constant (F := Ideal) S0 .f32 0x47C35000#32) (sitofp (F := Ideal) .f32 (constantI S0 32 0#32)))))
        (broadcastInDim SD (![] : Fin 0 → Fin 1) hbs (id (constant (F := Ideal) S0 .f32 0x7FC00000#32)))
        (ix1 j)
      = varR g j := by
  rw [select_apply]
  have hden : (subf (F := Ideal) (φ := .f32) (constant (F := Ideal) S0 .f32 0x47C35000#32) (sitofp (F := Ideal) .f32 (constantI S0 32 0#32))) ix0 = nV := den_eq
  have hp : broadcastInDim SD (![] : Fin 0 → Fin 1) hbs
      (cmpf (F := Ideal) (φ := .f32) .ogt (subf (F := Ideal) (φ := .f32) (constant (F := Ideal) S0 .f32 0x47C35000#32) (sitofp (F := Ideal) .f32 (constantI S0 32 0#32))) (constant (F := Ideal) S0 .f32 0x00000000#32)) (ix1 j) = 1#1 := by
    rw [broadcastInDim_scalar_apply, cmpf_apply, hden]
    exact nV_pos
  rw [hp, select_one, hostDivf_apply, colSum0_apply, broadcastInDim_scalar_apply, hden]
  unfold varR
  refine congrArg (fun s => Ideal.div s nV) (Finset.sum_congr rfl fun r _ => ?_)
  rw [mulf_apply, subf_apply, bcast_1b_ab_apply, meanRow_apply]

attribute [local irreducible] Host.reduceAdd in
set_option maxRecDepth 8192 in
/-- Layer 0: after the statistics stretch, main_v71 holds the column means and main_v72 the column variances of the array in main_v68. -/
theorem stats0 (V : Valuation τ sig (Elt Ideal)) (j : Fin 128) :
    (after (opsL0d (F := Ideal)) V (main_v71 : DevRef τ sig) : SD.Idx → EReal) (ix1 j) = meanR (V (main_v68 : DevRef τ sig)) j
    ∧ (after (opsL0d (F := Ideal)) V (main_v72 : DevRef τ sig) : SD.Idx → EReal) (ix1 j) = varR (V (main_v68 : DevRef τ sig)) j := by
  refine ⟨?_, ?_⟩
  · after_results_simp
    exact mean_apply _ reducesTo_S100000x128_S128_d0 h_S_ bcast_S_S128 j
  · after_results_simp
    exact var_apply (V (main_v68 : DevRef τ sig)) reducesTo_S100000x128_S128_d0 h_S_ bcast_S128_S1x128_1 bcast_S_S1x128
      bcast_S1x128_S100000x128_0_1 bcast_S_S128 j

attribute [local irreducible] Host.reduceAdd in
set_option maxRecDepth 8192 in
/-- Layer 1: after the statistics stretch, main_v145 holds the column means and main_v146 the column variances of the array in main_v142. -/
theorem stats1 (V : Valuation τ sig (Elt Ideal)) (j : Fin 128) :
    (after (opsL1d (F := Ideal)) V (main_v145 : DevRef τ sig) : SD.Idx → EReal) (ix1 j) = meanR (V (main_v142 : DevRef τ sig)) j
    ∧ (after (opsL1d (F := Ideal)) V (main_v146 : DevRef τ sig) : SD.Idx → EReal) (ix1 j) = varR (V (main_v142 : DevRef τ sig)) j := by
  refine ⟨?_, ?_⟩
  · after_results_simp
    exact mean_apply _ reducesTo_S100000x128_S128_d0 h_S_ bcast_S_S128 j
  · after_results_simp
    exact var_apply (V (main_v142 : DevRef τ sig)) reducesTo_S100000x128_S128_d0 h_S_ bcast_S128_S1x128_1 bcast_S_S1x128
      bcast_S1x128_S100000x128_0_1 bcast_S_S128 j

attribute [local irreducible] Host.reduceAdd in
set_option maxRecDepth 8192 in
/-- Layer 2: after the statistics stretch, main_v219 holds the column means and main_v220 the column variances of the array in main_v216. -/
theorem stats2 (V : Valuation τ sig (Elt Ideal)) (j : Fin 128) :
    (after (opsL2d (F := Ideal)) V (main_v219 : DevRef τ sig) : SD.Idx → EReal) (ix1 j) = meanR (V (main_v216 : DevRef τ sig)) j
    ∧ (after (opsL2d (F := Ideal)) V (main_v220 : DevRef τ sig) : SD.Idx → EReal) (ix1 j) = varR (V (main_v216 : DevRef τ sig)) j := by
  refine ⟨?_, ?_⟩
  · after_results_simp
    exact mean_apply _ reducesTo_S100000x128_S128_d0 h_S_ bcast_S_S128 j
  · after_results_simp
    exact var_apply (V (main_v216 : DevRef τ sig)) reducesTo_S100000x128_S128_d0 h_S_ bcast_S128_S1x128_1 bcast_S_S1x128
      bcast_S1x128_S100000x128_0_1 bcast_S_S128 j

end Cert.ReferenceIdeal.RRead

end
-- ==== Proof.R.Value.lean ====
/-
  The reference program's result, read index by index: after the program's host operations, the result buffer holds the
  three-layer network of the specification (the edge sum one direction after the other, the column statistics over all
  vertices at once, the variance as the mean of the squared deviations), and the argument buffers hold what they held.
  The program is a prelude followed by three layers; each layer is read from a state that holds the arguments, the two
  endpoint vectors of the edge array, the scaling column and the layer's input, and leaves such a state again.
-/
import proofs.«178513_j90202903151305_2_alg».proof.Proof.R.Chunks
import proofs.«178513_j90202903151305_2_alg».proof.Proof.R.Kept
import proofs.«178513_j90202903151305_2_alg».proof.Proof.R.Pre
import proofs.«178513_j90202903151305_2_alg».proof.Proof.R.Stats
import proofs.«178513_j90202903151305_2_alg».proof.Proof.R.Args

noncomputable section

namespace Cert.ReferenceIdeal.RValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.ReferenceIdeal.RRead

/-- What a layer needs of the state it starts from: the eight arguments, the two endpoint vectors (the columns of the edge
    array), and the scaling column (at vertex r, the inverse of one plus r's count among the endpoints). -/
structure Ready (a : Spec.Args) (V : Valuation τ sig (Elt Ideal)) : Prop where
  a0 : (V (main_arg0 : DevRef τ sig) : Arr) = a.x
  a1 : (V (main_arg1 : DevRef τ sig) : IVec SE2 32) = a.E
  a2 : (V (main_arg2 : DevRef τ sig) : S3DD.Idx → EReal) = a.W0
  a3 : (V (main_arg3 : DevRef τ sig) : S3D.Idx → EReal) = a.b0
  a4 : (V (main_arg4 : DevRef τ sig) : S3DD.Idx → EReal) = a.W1
  a5 : (V (main_arg5 : DevRef τ sig) : S3D.Idx → EReal) = a.b1
  a6 : (V (main_arg6 : DevRef τ sig) : S3D.Idx → EReal) = a.γ
  a7 : (V (main_arg7 : DevRef τ sig) : S3D.Idx → EReal) = a.β
  v1 : (V (main_v1 : DevRef τ sig) : SE.Idx → BitVec 32)
    = shapeCast SE (extractStridedSlice SE1 ![0, 0] a.E slices_S300000x2_S300000x1_0_0) shapeCasts_S300000x1_S300000
  v3 : (V (main_v3 : DevRef τ sig) : SE.Idx → BitVec 32)
    = shapeCast SE (extractStridedSlice SE1 ![0, 1] a.E slices_S300000x2_S300000x1_0_1) shapeCasts_S300000x1_S300000
  v18 : ∀ r : Fin 100000, (V (main_v18 : DevRef τ sig) : SV1.Idx → EReal) (ix2 r (0 : Fin 1)) = dinv a.E r

/-- The prelude leaves such a state. -/
theorem ready_pre (m : (ℓ : Loc nD τ sig) → Buf (Elt Ideal) ℓ) (c : Dev nD) :
    Ready (argsR m c) (after (RRun.opsPre (F := Ideal)) (launchContents m c)) :=
  ⟨keep_opsPre _ main_arg0 (by decide), keep_opsPre _ main_arg1 (by decide), keep_opsPre _ main_arg2 (by decide),
    keep_opsPre _ main_arg3 (by decide), keep_opsPre _ main_arg4 (by decide), keep_opsPre _ main_arg5 (by decide),
    keep_opsPre _ main_arg6 (by decide), keep_opsPre _ main_arg7 (by decide),
    pre_v1 _, pre_v3 _, fun r => pre_v18 _ r⟩

/-- Layer 0 from a state that holds the arguments, the endpoint vectors, the scaling column and the layer's input. -/
theorem layer0 (a : Spec.Args) (V : Valuation τ sig (Elt Ideal)) (hR : Ready a V) (x : Arr)
    (hx : (V (main_arg0 : DevRef τ sig) : Arr) = x) :
    Ready a (after (RRun.opsL0 (F := Ideal)) V)
      ∧ (after (RRun.opsL0 (F := Ideal)) V (main_v92 : DevRef τ sig) : Arr) = relu (normR a 0 (gR a 0 x)) := by
  have e : after (RRun.opsL0 (F := Ideal)) V = after RRun.opsL0e (after RRun.opsL0d (after RRun.opsL0c (after RRun.opsL0b (after RRun.opsL0a V)))) := by
    show after (RRun.opsL0a ++ RRun.opsL0b ++ RRun.opsL0c ++ RRun.opsL0d ++ RRun.opsL0e) V = _
    rw [after_append, after_append, after_append, after_append]
  rw [e]
  have k : ∀ r : Ref sig .tc, r ∉ opsL0a_W → r ∉ opsL0b_W → r ∉ opsL0c_W → r ∉ opsL0d_W → r ∉ opsL0e_W →
      after RRun.opsL0e (after RRun.opsL0d (after RRun.opsL0c (after RRun.opsL0b (after RRun.opsL0a V)))) (r : DevRef τ sig) = V (r : DevRef τ sig) :=
    fun r ha hb hc hd he => (keep_opsL0e _ r he).trans ((keep_opsL0d _ r hd).trans ((keep_opsL0c _ r hc).trans
      ((keep_opsL0b _ r hb).trans (keep_opsL0a _ r ha))))
  refine ⟨⟨(k main_arg0 (by decide) (by decide) (by decide) (by decide) (by decide)).trans hR.a0, (k main_arg1 (by decide) (by decide) (by decide) (by decide) (by decide)).trans hR.a1,
    (k main_arg2 (by decide) (by decide) (by decide) (by decide) (by decide)).trans hR.a2, (k main_arg3 (by decide) (by decide) (by decide) (by decide) (by decide)).trans hR.a3,
    (k main_arg4 (by decide) (by decide) (by decide) (by decide) (by decide)).trans hR.a4, (k main_arg5 (by decide) (by decide) (by decide) (by decide) (by decide)).trans hR.a5,
    (k main_arg6 (by decide) (by decide) (by decide) (by decide) (by decide)).trans hR.a6, (k main_arg7 (by decide) (by decide) (by decide) (by decide) (by decide)).trans hR.a7,
    (k main_v1 (by decide) (by decide) (by decide) (by decide) (by decide)).trans hR.v1, (k main_v3 (by decide) (by decide) (by decide) (by decide) (by decide)).trans hR.v3,
    fun r => (congrFun (k main_v18 (by decide) (by decide) (by decide) (by decide) (by decide)) _).trans (hR.v18 r)⟩, ?_⟩
  -- the two dense maps
  have hA : ((after RRun.opsL0a V) (main_v27 : DevRef τ sig) : Arr) = lin a.W0 a.b0 0 x := by
    rw [denseA0 V, hR.a2, hR.a3, hx]
  have hB : ((after RRun.opsL0a V) (main_v36 : DevRef τ sig) : Arr) = lin a.W1 a.b1 0 x := by
    rw [denseB0 V, hR.a4, hR.a5, hx]
  -- the edge sum
  have hS : ((after RRun.opsL0b (after RRun.opsL0a V)) (main_v65 : DevRef τ sig) : Arr) = aggR a.E (lin a.W1 a.b1 0 x) :=
    (edgeSum0 (after RRun.opsL0a V) a.E ((keep_opsL0a V main_v1 (by decide)).trans hR.v1)
      ((keep_opsL0a V main_v3 (by decide)).trans hR.v3)).trans (congrArg (aggR a.E) hB)
  -- the scaled combination
  have hg : ((after RRun.opsL0c (after RRun.opsL0b (after RRun.opsL0a V))) (main_v68 : DevRef τ sig) : Arr) = gR a 0 x := by
    refine (scaled0 (after RRun.opsL0b (after RRun.opsL0a V)) (dinv a.E) fun r =>
      (congrFun ((keep_opsL0b _ main_v18 (by decide)).trans (keep_opsL0a V main_v18 (by decide))) _).trans (hR.v18 r)).trans ?_
    rw [hS, (keep_opsL0b (after RRun.opsL0a V) main_v27 (by decide)).trans hA]
    rfl
  -- the statistics
  have hm : ∀ j, ((after RRun.opsL0d (after RRun.opsL0c (after RRun.opsL0b (after RRun.opsL0a V)))) (main_v71 : DevRef τ sig) : RStages.SD.Idx → EReal) (ix1 j) = meanR (gR a 0 x) j :=
    fun j => ((stats0 (after RRun.opsL0c (after RRun.opsL0b (after RRun.opsL0a V))) j).1).trans (by rw [hg])
  have hv : ∀ j, ((after RRun.opsL0d (after RRun.opsL0c (after RRun.opsL0b (after RRun.opsL0a V)))) (main_v72 : DevRef τ sig) : RStages.SD.Idx → EReal) (ix1 j) = varR (gR a 0 x) j :=
    fun j => ((stats0 (after RRun.opsL0c (after RRun.opsL0b (after RRun.opsL0a V))) j).2).trans (by rw [hg])
  -- the normalisation
  have k4 : ∀ r : Ref sig .tc, r ∉ opsL0a_W → r ∉ opsL0b_W → r ∉ opsL0c_W → r ∉ opsL0d_W →
      (after RRun.opsL0d (after RRun.opsL0c (after RRun.opsL0b (after RRun.opsL0a V)))) (r : DevRef τ sig) = V (r : DevRef τ sig) :=
    fun r ha hb hc hd => (keep_opsL0d _ r hd).trans ((keep_opsL0c _ r hc).trans
      ((keep_opsL0b _ r hb).trans (keep_opsL0a _ r ha)))
  refine (normed0 (after RRun.opsL0d (after RRun.opsL0c (after RRun.opsL0b (after RRun.opsL0a V)))) (meanR (gR a 0 x)) (varR (gR a 0 x)) hm hv).trans ?_
  rw [(k4 main_arg6 (by decide) (by decide) (by decide) (by decide)).trans hR.a6,
    (k4 main_arg7 (by decide) (by decide) (by decide) (by decide)).trans hR.a7,
    (keep_opsL0d (after RRun.opsL0c (after RRun.opsL0b (after RRun.opsL0a V))) main_v68 (by decide)).trans hg]
  rfl

/-- Layer 1 from a state that holds the arguments, the endpoint vectors, the scaling column and the layer's input. -/
theorem layer1 (a : Spec.Args) (V : Valuation τ sig (Elt Ideal)) (hR : Ready a V) (x : Arr)
    (hx : (V (main_v92 : DevRef τ sig) : Arr) = x) :
    Ready a (after (RRun.opsL1 (F := Ideal)) V)
      ∧ (after (RRun.opsL1 (F := Ideal)) V (main_v166 : DevRef τ sig) : Arr) = relu (normR a 1 (gR a 1 x)) := by
  have e : after (RRun.opsL1 (F := Ideal)) V = after RRun.opsL1e (after RRun.opsL1d (after RRun.opsL1c (after RRun.opsL1b (after RRun.opsL1a V)))) := by
    show after (RRun.opsL1a ++ RRun.opsL1b ++ RRun.opsL1c ++ RRun.opsL1d ++ RRun.opsL1e) V = _
    rw [after_append, after_append, after_append, after_append]
  rw [e]
  have k : ∀ r : Ref sig .tc, r ∉ opsL1a_W → r ∉ opsL1b_W → r ∉ opsL1c_W → r ∉ opsL1d_W → r ∉ opsL1e_W →
      after RRun.opsL1e (after RRun.opsL1d (after RRun.opsL1c (after RRun.opsL1b (after RRun.opsL1a V)))) (r : DevRef τ sig) = V (r : DevRef τ sig) :=
    fun r ha hb hc hd he => (keep_opsL1e _ r he).trans ((keep_opsL1d _ r hd).trans ((keep_opsL1c _ r hc).trans
      ((keep_opsL1b _ r hb).trans (keep_opsL1a _ r ha))))
  refine ⟨⟨(k main_arg0 (by decide) (by decide) (by decide) (by decide) (by decide)).trans hR.a0, (k main_arg1 (by decide) (by decide) (by decide) (by decide) (by decide)).trans hR.a1,
    (k main_arg2 (by decide) (by decide) (by decide) (by decide) (by decide)).trans hR.a2, (k main_arg3 (by decide) (by decide) (by decide) (by decide) (by decide)).trans hR.a3,
    (k main_arg4 (by decide) (by decide) (by decide) (by decide) (by decide)).trans hR.a4, (k main_arg5 (by decide) (by decide) (by decide) (by decide) (by decide)).trans hR.a5,
    (k main_arg6 (by decide) (by decide) (by decide) (by decide) (by decide)).trans hR.a6, (k main_arg7 (by decide) (by decide) (by decide) (by decide) (by decide)).trans hR.a7,
    (k main_v1 (by decide) (by decide) (by decide) (by decide) (by decide)).trans hR.v1, (k main_v3 (by decide) (by decide) (by decide) (by decide) (by decide)).trans hR.v3,
    fun r => (congrFun (k main_v18 (by decide) (by decide) (by decide) (by decide) (by decide)) _).trans (hR.v18 r)⟩, ?_⟩
  -- the two dense maps
  have hA : ((after RRun.opsL1a V) (main_v101 : DevRef τ sig) : Arr) = lin a.W0 a.b0 1 x := by
    rw [denseA1 V, hR.a2, hR.a3, hx]
  have hB : ((after RRun.opsL1a V) (main_v110 : DevRef τ sig) : Arr) = lin a.W1 a.b1 1 x := by
    rw [denseB1 V, hR.a4, hR.a5, hx]
  -- the edge sum
  have hS : ((after RRun.opsL1b (after RRun.opsL1a V)) (main_v139 : DevRef τ sig) : Arr) = aggR a.E (lin a.W1 a.b1 1 x) :=
    (edgeSum1 (after RRun.opsL1a V) a.E ((keep_opsL1a V main_v1 (by decide)).trans hR.v1)
      ((keep_opsL1a V main_v3 (by decide)).trans hR.v3)).trans (congrArg (aggR a.E) hB)
  -- the scaled combination
  have hg : ((after RRun.opsL1c (after RRun.opsL1b (after RRun.opsL1a V))) (main_v142 : DevRef τ sig) : Arr) = gR a 1 x := by
    refine (scaled1 (after RRun.opsL1b (after RRun.opsL1a V)) (dinv a.E) fun r =>
      (congrFun ((keep_opsL1b _ main_v18 (by decide)).trans (keep_opsL1a V main_v18 (by decide))) _).trans (hR.v18 r)).trans ?_
    rw [hS, (keep_opsL1b (after RRun.opsL1a V) main_v101 (by decide)).trans hA]
    rfl
  -- the statistics
  have hm : ∀ j, ((after RRun.opsL1d (after RRun.opsL1c (after RRun.opsL1b (after RRun.opsL1a V)))) (main_v145 : DevRef τ sig) : RStages.SD.Idx → EReal) (ix1 j) = meanR (gR a 1 x) j :=
    fun j => ((stats1 (after RRun.opsL1c (after RRun.opsL1b (after RRun.opsL1a V))) j).1).trans (by rw [hg])
  have hv : ∀ j, ((after RRun.opsL1d (after RRun.opsL1c (after RRun.opsL1b (after RRun.opsL1a V)))) (main_v146 : DevRef τ sig) : RStages.SD.Idx → EReal) (ix1 j) = varR (gR a 1 x) j :=
    fun j => ((stats1 (after RRun.opsL1c (after RRun.opsL1b (after RRun.opsL1a V))) j).2).trans (by rw [hg])
  -- the normalisation
  have k4 : ∀ r : Ref sig .tc, r ∉ opsL1a_W → r ∉ opsL1b_W → r ∉ opsL1c_W → r ∉ opsL1d_W →
      (after RRun.opsL1d (after RRun.opsL1c (after RRun.opsL1b (after RRun.opsL1a V)))) (r : DevRef τ sig) = V (r : DevRef τ sig) :=
    fun r ha hb hc hd => (keep_opsL1d _ r hd).trans ((keep_opsL1c _ r hc).trans
      ((keep_opsL1b _ r hb).trans (keep_opsL1a _ r ha)))
  refine (normed1 (after RRun.opsL1d (after RRun.opsL1c (after RRun.opsL1b (after RRun.opsL1a V)))) (meanR (gR a 1 x)) (varR (gR a 1 x)) hm hv).trans ?_
  rw [(k4 main_arg6 (by decide) (by decide) (by decide) (by decide)).trans hR.a6,
    (k4 main_arg7 (by decide) (by decide) (by decide) (by decide)).trans hR.a7,
    (keep_opsL1d (after RRun.opsL1c (after RRun.opsL1b (after RRun.opsL1a V))) main_v142 (by decide)).trans hg]
  rfl

/-- Layer 2 from a state that holds the arguments, the endpoint vectors, the scaling column and the layer's input. -/
theorem layer2 (a : Spec.Args) (V : Valuation τ sig (Elt Ideal)) (hR : Ready a V) (x : Arr)
    (hx : (V (main_v166 : DevRef τ sig) : Arr) = x) :
    Ready a (after (RRun.opsL2 (F := Ideal)) V)
      ∧ (after (RRun.opsL2 (F := Ideal)) V (main_v241 : DevRef τ sig) : Arr) = fun i => max (normR a 2 (gR a 2 x) i + a.x i) f0 := by
  have e : after (RRun.opsL2 (F := Ideal)) V = after RRun.opsL2e (after RRun.opsL2d (after RRun.opsL2c (after RRun.opsL2b (after RRun.opsL2a V)))) := by
    show after (RRun.opsL2a ++ RRun.opsL2b ++ RRun.opsL2c ++ RRun.opsL2d ++ RRun.opsL2e) V = _
    rw [after_append, after_append, after_append, after_append]
  rw [e]
  have k : ∀ r : Ref sig .tc, r ∉ opsL2a_W → r ∉ opsL2b_W → r ∉ opsL2c_W → r ∉ opsL2d_W → r ∉ opsL2e_W →
      after RRun.opsL2e (after RRun.opsL2d (after RRun.opsL2c (after RRun.opsL2b (after RRun.opsL2a V)))) (r : DevRef τ sig) = V (r : DevRef τ sig) :=
    fun r ha hb hc hd he => (keep_opsL2e _ r he).trans ((keep_opsL2d _ r hd).trans ((keep_opsL2c _ r hc).trans
      ((keep_opsL2b _ r hb).trans (keep_opsL2a _ r ha))))
  refine ⟨⟨(k main_arg0 (by decide) (by decide) (by decide) (by decide) (by decide)).trans hR.a0, (k main_arg1 (by decide) (by decide) (by decide) (by decide) (by decide)).trans hR.a1,
    (k main_arg2 (by decide) (by decide) (by decide) (by decide) (by decide)).trans hR.a2, (k main_arg3 (by decide) (by decide) (by decide) (by decide) (by decide)).trans hR.a3,
    (k main_arg4 (by decide) (by decide) (by decide) (by decide) (by decide)).trans hR.a4, (k main_arg5 (by decide) (by decide) (by decide) (by decide) (by decide)).trans hR.a5,
    (k main_arg6 (by decide) (by decide) (by decide) (by decide) (by decide)).trans hR.a6, (k main_arg7 (by decide) (by decide) (by decide) (by decide) (by decide)).trans hR.a7,
    (k main_v1 (by decide) (by decide) (by decide) (by decide) (by decide)).trans hR.v1, (k main_v3 (by decide) (by decide) (by decide) (by decide) (by decide)).trans hR.v3,
    fun r => (congrFun (k main_v18 (by decide) (by decide) (by decide) (by decide) (by decide)) _).trans (hR.v18 r)⟩, ?_⟩
  -- the two dense maps
  have hA : ((after RRun.opsL2a V) (main_v175 : DevRef τ sig) : Arr) = lin a.W0 a.b0 2 x := by
    rw [denseA2 V, hR.a2, hR.a3, hx]
  have hB : ((after RRun.opsL2a V) (main_v184 : DevRef τ sig) : Arr) = lin a.W1 a.b1 2 x := by
    rw [denseB2 V, hR.a4, hR.a5, hx]
  -- the edge sum
  have hS : ((after RRun.opsL2b (after RRun.opsL2a V)) (main_v213 : DevRef τ sig) : Arr) = aggR a.E (lin a.W1 a.b1 2 x) :=
    (edgeSum2 (after RRun.opsL2a V) a.E ((keep_opsL2a V main_v1 (by decide)).trans hR.v1)
      ((keep_opsL2a V main_v3 (by decide)).trans hR.v3)).trans (congrArg (aggR a.E) hB)
  -- the scaled combination
  have hg : ((after RRun.opsL2c (after RRun.opsL2b (after RRun.opsL2a V))) (main_v216 : DevRef τ sig) : Arr) = gR a 2 x := by
    refine (scaled2 (after RRun.opsL2b (after RRun.opsL2a V)) (dinv a.E) fun r =>
      (congrFun ((keep_opsL2b _ main_v18 (by decide)).trans (keep_opsL2a V main_v18 (by decide))) _).trans (hR.v18 r)).trans ?_
    rw [hS, (keep_opsL2b (after RRun.opsL2a V) main_v175 (by decide)).trans hA]
    rfl
  -- the statistics
  have hm : ∀ j, ((after RRun.opsL2d (after RRun.opsL2c (after RRun.opsL2b (after RRun.opsL2a V)))) (main_v219 : DevRef τ sig) : RStages.SD.Idx → EReal) (ix1 j) = meanR (gR a 2 x) j :=
    fun j => ((stats2 (after RRun.opsL2c (after RRun.opsL2b (after RRun.opsL2a V))) j).1).trans (by rw [hg])
  have hv : ∀ j, ((after RRun.opsL2d (after RRun.opsL2c (after RRun.opsL2b (after RRun.opsL2a V)))) (main_v220 : DevRef τ sig) : RStages.SD.Idx → EReal) (ix1 j) = varR (gR a 2 x) j :=
    fun j => ((stats2 (after RRun.opsL2c (after RRun.opsL2b (after RRun.opsL2a V))) j).2).trans (by rw [hg])
  -- the normalisation
  have k4 : ∀ r : Ref sig .tc, r ∉ opsL2a_W → r ∉ opsL2b_W → r ∉ opsL2c_W → r ∉ opsL2d_W →
      (after RRun.opsL2d (after RRun.opsL2c (after RRun.opsL2b (after RRun.opsL2a V)))) (r : DevRef τ sig) = V (r : DevRef τ sig) :=
    fun r ha hb hc hd => (keep_opsL2d _ r hd).trans ((keep_opsL2c _ r hc).trans
      ((keep_opsL2b _ r hb).trans (keep_opsL2a _ r ha)))
  refine (normed2 (after RRun.opsL2d (after RRun.opsL2c (after RRun.opsL2b (after RRun.opsL2a V)))) (meanR (gR a 2 x)) (varR (gR a 2 x)) hm hv).trans ?_
  rw [(k4 main_arg6 (by decide) (by decide) (by decide) (by decide)).trans hR.a6,
    (k4 main_arg7 (by decide) (by decide) (by decide) (by decide)).trans hR.a7,
    (keep_opsL2d (after RRun.opsL2c (after RRun.opsL2b (after RRun.opsL2a V))) main_v216 (by decide)).trans hg,
    (k4 main_arg0 (by decide) (by decide) (by decide) (by decide)).trans hR.a0]
  rfl

/-- The result buffer after the whole program is the specification's network of the arguments. -/
theorem result (m : (ℓ : Loc nD τ sig) → Buf (Elt Ideal) ℓ) (c : Dev nD) :
    StableHlo.after (RRun.ops (F := Ideal)) (launchContents m c) ((main_v241 : Ref sig .tc) : DevRef τ sig)
      = Cert.Spec.outR (argsR m c) := by
  have e : after (RRun.ops (F := Ideal)) (launchContents m c)
      = after RRun.opsL2 (after RRun.opsL1 (after RRun.opsL0 (after RRun.opsPre (launchContents m c)))) := by
    show after (RRun.opsPre ++ RRun.opsL0 ++ RRun.opsL1 ++ RRun.opsL2) (launchContents m c) = _
    rw [after_append (RRun.opsPre ++ RRun.opsL0 ++ RRun.opsL1) RRun.opsL2, after_append (RRun.opsPre ++ RRun.opsL0) RRun.opsL1,
      after_append RRun.opsPre RRun.opsL0]
  rw [e]
  have R0 := ready_pre m c
  obtain ⟨R1, x1⟩ := layer0 (argsR m c) _ R0 (argsR m c).x R0.a0
  obtain ⟨R2, x2⟩ := layer1 (argsR m c) _ R1 _ x1
  exact (layer2 (argsR m c) _ R2 _ x2).2

theorem kept_arg0 (m : (ℓ : Loc nD τ sig) → Buf (Elt Ideal) ℓ) (c : Dev nD) :
    StableHlo.after (RRun.ops (F := Ideal)) (launchContents m c) ((main_arg0 : Ref sig .tc) : DevRef τ sig)
      = m ((c.tc : Thread nD τ).loc main_arg0) := RRead.kept_arg0 m c
theorem kept_arg1 (m : (ℓ : Loc nD τ sig) → Buf (Elt Ideal) ℓ) (c : Dev nD) :
    StableHlo.after (RRun.ops (F := Ideal)) (launchContents m c) ((main_arg1 : Ref sig .tc) : DevRef τ sig)
      = m ((c.tc : Thread nD τ).loc main_arg1) := RRead.kept_arg1 m c
theorem kept_arg2 (m : (ℓ : Loc nD τ sig) → Buf (Elt Ideal) ℓ) (c : Dev nD) :
    StableHlo.after (RRun.ops (F := Ideal)) (launchContents m c) ((main_arg2 : Ref sig .tc) : DevRef τ sig)
      = m ((c.tc : Thread nD τ).loc main_arg2) := RRead.kept_arg2 m c
theorem kept_arg3 (m : (ℓ : Loc nD τ sig) → Buf (Elt Ideal) ℓ) (c : Dev nD) :
    StableHlo.after (RRun.ops (F := Ideal)) (launchContents m c) ((main_arg3 : Ref sig .tc) : DevRef τ sig)
      = m ((c.tc : Thread nD τ).loc main_arg3) := RRead.kept_arg3 m c
theorem kept_arg4 (m : (ℓ : Loc nD τ sig) → Buf (Elt Ideal) ℓ) (c : Dev nD) :
    StableHlo.after (RRun.ops (F := Ideal)) (launchContents m c) ((main_arg4 : Ref sig .tc) : DevRef τ sig)
      = m ((c.tc : Thread nD τ).loc main_arg4) := RRead.kept_arg4 m c
theorem kept_arg5 (m : (ℓ : Loc nD τ sig) → Buf (Elt Ideal) ℓ) (c : Dev nD) :
    StableHlo.after (RRun.ops (F := Ideal)) (launchContents m c) ((main_arg5 : Ref sig .tc) : DevRef τ sig)
      = m ((c.tc : Thread nD τ).loc main_arg5) := RRead.kept_arg5 m c
theorem kept_arg6 (m : (ℓ : Loc nD τ sig) → Buf (Elt Ideal) ℓ) (c : Dev nD) :
    StableHlo.after (RRun.ops (F := Ideal)) (launchContents m c) ((main_arg6 : Ref sig .tc) : DevRef τ sig)
      = m ((c.tc : Thread nD τ).loc main_arg6) := RRead.kept_arg6 m c
theorem kept_arg7 (m : (ℓ : Loc nD τ sig) → Buf (Elt Ideal) ℓ) (c : Dev nD) :
    StableHlo.after (RRun.ops (F := Ideal)) (launchContents m c) ((main_arg7 : Ref sig .tc) : DevRef τ sig)
      = m ((c.tc : Thread nD τ).loc main_arg7) := RRead.kept_arg7 m c

end Cert.ReferenceIdeal.RValue

end
-- ==== Proof.Math.Scatter.lean ====
/-
  An accumulating scatter of rows read at an index. With one start index per update row (a column of start indices),
  update row e lands on operand row (start index of e, read signed), column by column, and is dropped when that row
  is outside the operand. So the result at (r, j) is the operand's entry plus the sum, over the update rows e whose
  start index is r, of the update's entry (e, j).
-/
import Idealize.ShloMosaic.PureOps.Ideal
import Idealize.ShloMosaic.Lib.ValueIdx

namespace Cert.Math

open Idealize.ShloMosaic Idealize.ShloMosaic.ValueIdx
open scoped BigOperators

/-- Rows accumulated into an [N, C] array at an [E, 1] column of start indices; the updates are [E, C]. -/
abbrev rowScat (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E w : Nat} (wf : ScatterDims.WF ⟨2, ![N, C]⟩ ⟨2, ![E, 1]⟩ ⟨2, ![E, C]⟩ [1] [0] [0] 1)
  (idx : IVec ⟨2, ![E, 1]⟩ w) (e : Fin E) (j : Fin C)

/-- On the row axis the window starts at the start index of e. -/
theorem start0 : (rowScat N C E wf).start (ix2 e j) idx (0 : Fin 2) = (idx (ix2 e ⟨0, Nat.one_pos⟩)).toInt := by
  unfold ScatterDims.start
  rw [dif_pos (show (0 : Fin 2) ∈ (rowScat N C E wf).scatterDimsToOperandDims from List.mem_singleton.mpr rfl)]
  have hsi : (rowScat N C E wf).siIdx (ix2 e j) ⟨List.idxOf (0 : Fin 2) (rowScat N C E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis it starts at 0. -/
theorem start1 : (rowScat N C E wf).start (ix2 e j) idx (1 : Fin 2) = 0 := by
  unfold ScatterDims.start
  rw [dif_neg (fun h => Nat.one_ne_zero (congrArg Fin.val (List.mem_singleton.mp h)))]

/-- The window coordinate on the row axis is 0. -/
theorem window0 : (rowScat N C E wf).window (ix2 e j) (0 : Fin 2) = 0 := by
  unfold ScatterDims.window
  rw [dif_neg (by simp [ScatterDims.sKept, Shape.kept, List.mem_filter, List.mem_finRange])]

/-- The window coordinate on the column axis is the update's column. -/
theorem window1 : (rowScat N C E wf).window (ix2 e j) (1 : Fin 2) = j.val := by
  unfold ScatterDims.window
  rw [dif_pos (by simp [ScatterDims.sKept, Shape.kept, List.mem_filter, List.mem_finRange])]
  rfl

/-- Update entry (e, j) lands on operand entry (r, j') exactly when the start index of e is r and j = j'. -/
theorem resultIdx_iff (r : Fin N) (j' : Fin C) :
    (rowScat N C E wf).resultIdx? (ix2 e j) idx = some (ix2 r j') ↔
      (idx (ix2 e ⟨0, Nat.one_pos⟩)).toInt = (r.val : Int) ∧ j = j' := by
  have s0 := start0 wf idx e j
  have s1 := start1 wf idx e j
  have w0 := window0 wf e j
  have w1 := window1 wf e j
  unfold ScatterDims.resultIdx?
  constructor
  · intro h
    split at h
    · rename_i hc
      have h' := Option.some.inj h
      have e0 : ((rowScat N C E wf).start (ix2 e j) idx (0 : Fin 2) + (rowScat N C E wf).window (ix2 e j) (0 : Fin 2)).toNat
          = r.val := congrArg (fun f => (f (0 : Fin 2)).val) h'
      have e1 : ((rowScat N C E wf).start (ix2 e j) idx (1 : Fin 2) + (rowScat N C E wf).window (ix2 e j) (1 : Fin 2)).toNat
          = j'.val := congrArg (fun f => (f (1 : Fin 2)).val) h'
      have c0 := (hc (0 : Fin 2)).1
      rw [s0, w0] at e0 c0
      rw [s1, w1] at e1
      refine ⟨by omega, Fin.ext (by omega)⟩
    · exact absurd h (by simp)
  · rintro ⟨hT, rfl⟩
    have hc : ∀ a : Fin 2, 0 ≤ (rowScat N C E wf).start (ix2 e j) idx a + (rowScat N C E wf).window (ix2 e j) a ∧
        (rowScat N C E wf).start (ix2 e j) idx a + (rowScat N C E wf).window (ix2 e j) a
          < ((⟨2, ![N, C]⟩ : Shape).size a : Nat) := by
      intro a
      match a with
      | ⟨0, _⟩ =>
        show 0 ≤ (rowScat N C E wf).start (ix2 e j) idx (0 : Fin 2) + (rowScat N C E wf).window (ix2 e j) (0 : Fin 2) ∧
          (rowScat N C E wf).start (ix2 e j) idx (0 : Fin 2) + (rowScat N C E wf).window (ix2 e j) (0 : Fin 2) < (N : Nat)
        rw [s0, w0, hT]; have := r.isLt; omega
      | ⟨1, _⟩ =>
        show 0 ≤ (rowScat N C E wf).start (ix2 e j) idx (1 : Fin 2) + (rowScat N C E wf).window (ix2 e j) (1 : Fin 2) ∧
          (rowScat N C E wf).start (ix2 e j) idx (1 : Fin 2) + (rowScat N C E wf).window (ix2 e j) (1 : Fin 2) < (C : Nat)
        rw [s1, w1]; have := j.isLt; omega
    rw [dif_pos hc]
    refine congrArg some (funext fun a => Fin.ext ?_)
    match a with
    | ⟨0, _⟩ =>
      show ((rowScat N C E wf).start (ix2 e j) idx (0 : Fin 2) + (rowScat N C E wf).window (ix2 e j) (0 : Fin 2)).toNat = r.val
      rw [s0, w0, hT]; omega
    | ⟨1, _⟩ =>
      show ((rowScat N C E wf).start (ix2 e j) idx (1 : Fin 2) + (rowScat N C E wf).window (ix2 e j) (1 : Fin 2)).toNat = j.val
      rw [s1, w1]; omega

end

/-- The accumulating scatter of rows at (r, j): the operand's entry plus, over the update rows whose start index is r,
    the update's entry in column j. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (j : Fin C) :
    Ideal.hostScatterAdd (rowScat N C E wf) x idx upd (ix2 r j)
      = x (ix2 r j) + ∑ e : Fin E,
          if (idx (ix2 e ⟨0, Nat.one_pos⟩)).toInt = (r.val : Int) then upd (ix2 e j) else 0 := by
  unfold Ideal.hostScatterAdd
  congr 1
  rw [Finset.sum_filter, sum_idx2]
  refine Finset.sum_congr rfl fun e _ => ?_
  simp only [resultIdx_iff]
  by_cases hT : (idx (ix2 e ⟨0, Nat.one_pos⟩)).toInt = (r.val : Int)
  · simp only [hT, true_and, if_true]
    rw [Finset.sum_ite_eq' Finset.univ j (fun b => upd (ix2 e b)), if_pos (Finset.mem_univ j)]
  · simp only [hT, false_and, if_false, Finset.sum_const_zero]

end Cert.Math
-- ==== Proof.Math.Sums.lean ====
/-
  Two rearrangements of a finite sum in a commutative monoid: a sum over a·b indices taken by blocks of b, and a sum
  over n + n indices taken as its two halves.
-/
import Idealize.ShloMosaic.PureOps.Ideal

namespace Cert.Math

open scoped BigOperators

/-- The sum over the a blocks of the sums within a block of b is the sum over all a·b indices. -/
theorem sum_blocks {M : Type*} [AddCommMonoid M] {a b N : Nat} (hN : N = a * b) (f : Fin N → M)
    (hlt : ∀ (t : Fin a) (q : Fin b), b * t.val + q.val < N) :
    ∑ t : Fin a, ∑ q : Fin b, f ⟨b * t.val + q.val, hlt t q⟩ = ∑ r, f r := by
  subst hN
  rw [← Fintype.sum_equiv finProdFinEquiv (fun p : Fin a × Fin b => f (finProdFinEquiv p)) f (fun _ => rfl),
    Fintype.sum_prod_type]
  refine Finset.sum_congr rfl fun t _ => Finset.sum_congr rfl fun q _ => congrArg f (Fin.ext ?_)
  simp [finProdFinEquiv, Nat.add_comm]

/-- The sum over n + n indices is the sum over the first n plus the sum over the last n. -/
theorem sum_halves {M : Type*} [AddCommMonoid M] {n m : Nat} (hm : m = n + n) (f : Fin m → M)
    (h1 : ∀ e : Fin n, e.val < m) (h2 : ∀ e : Fin n, n + e.val < m) :
    ∑ q, f q = ∑ e : Fin n, f ⟨e.val, h1 e⟩ + ∑ e : Fin n, f ⟨n + e.val, h2 e⟩ := by
  subst hm
  rw [Fin.sum_univ_add]
  rfl

end Cert.Math
-- ==== Proof.Math.Edge.lean ====
/-
  The edge sum: one accumulation over the 600000 endpoint rows laid end to end is the accumulation over the 300000
  first endpoints followed by the one over the 300000 second endpoints. Row by row both are a sum, over the update
  rows whose start index is the row, of the update's entry; the long sum splits into its two halves, and addition of
  extended reals is associative and commutative.
-/
import proofs.«178513_j90202903151305_2_alg».proof.Proof.Spec
import proofs.«178513_j90202903151305_2_alg».proof.Proof.Math.Scatter
import proofs.«178513_j90202903151305_2_alg».proof.Proof.Math.Sums

namespace Cert.Spec

open Idealize.ShloMosaic Idealize.ShloMosaic.ValueIdx
open scoped BigOperators

/-- The first 300000 start indices of the long column are the first endpoints. -/
theorem catCol_lo (E : IVec SE2 32) (e : Fin 300000) (h : e.val < 600000) :
    catCol E (ix2 (⟨e.val, h⟩ : Fin 600000) (⟨0, Nat.one_pos⟩ : Fin 1)) = srcCol E (ix2 e (⟨0, Nat.one_pos⟩ : Fin 1)) := by
  show catAt E ⟨e.val, h⟩ = norm (E (ix2 e (0 : Fin 2)))
  unfold catAt
  rw [dif_pos (show (⟨e.val, h⟩ : Fin 600000).val < 300000 from e.isLt)]

/-- The last 300000 are the second endpoints. -/
theorem catCol_hi (E : IVec SE2 32) (e : Fin 300000) (h : 300000 + e.val < 600000) :
    catCol E (ix2 (⟨300000 + e.val, h⟩ : Fin 600000) (⟨0, Nat.one_pos⟩ : Fin 1)) = dstCol E (ix2 e (⟨0, Nat.one_pos⟩ : Fin 1)) := by
  show catAt E ⟨300000 + e.val, h⟩ = norm (E (ix2 e (1 : Fin 2)))
  unfold catAt
  rw [dif_neg (show ¬ (⟨300000 + e.val, h⟩ : Fin 600000).val < 300000 from by simp)]
  have he : (⟨(⟨300000 + e.val, h⟩ : Fin 600000).val - 300000, by have := e.isLt; simp⟩ : Fin 300000) = e :=
    Fin.ext (by simp)
  rw [he]

/-- The first 300000 rows of two arrays laid end to end are the first array's. -/
theorem cat_lo (A B : SED.Idx → EReal) (e : Fin 300000) (h : e.val < 600000) (j : Fin 128) :
    cat A B (ix2 (⟨e.val, h⟩ : Fin 600000) j) = A (ix2 e j) := by
  show catAt2 A B ⟨e.val, h⟩ j = A (ix2 e j)
  unfold catAt2
  rw [dif_pos (show (⟨e.val, h⟩ : Fin 600000).val < 300000 from e.isLt)]

/-- The last 300000 rows are the second array's. -/
theorem cat_hi (A B : SED.Idx → EReal) (e : Fin 300000) (h : 300000 + e.val < 600000) (j : Fin 128) :
    cat A B (ix2 (⟨300000 + e.val, h⟩ : Fin 600000) j) = B (ix2 e j) := by
  show catAt2 A B ⟨300000 + e.val, h⟩ j = B (ix2 e j)
  unfold catAt2
  rw [dif_neg (show ¬ (⟨300000 + e.val, h⟩ : Fin 600000).val < 300000 from by simp)]
  have he : (⟨(⟨300000 + e.val, h⟩ : Fin 600000).val - 300000, by have := e.isLt; simp⟩ : Fin 300000) = e :=
    Fin.ext (by simp)
  rw [he]

/-- The one accumulation at (r, j). -/
theorem aggK_apply (E : IVec SE2 32) (h : Arr) (r : Fin 100000) (j : Fin 128) :
    aggK E h (ix2 r j) = f0 + ∑ q : Fin 600000,
      if (catCol E (ix2 q (⟨0, Nat.one_pos⟩ : Fin 1))).toInt = (r.val : Int)
      then cat (Host.gather gRec h (dstCol E)) (Host.gather gRec h (srcCol E)) (ix2 q j) else 0 :=
  Cert.Math.scatterAdd_rows_apply (N := 100000) (C := 128) (E := 600000) sRec6.wf (fun _ => f0) (catCol E)
    (cat (Host.gather gRec h (dstCol E)) (Host.gather gRec h (srcCol E))) r j

/-- The two accumulations at (r, j). -/
theorem aggR_apply (E : IVec SE2 32) (h : Arr) (r : Fin 100000) (j : Fin 128) :
    aggR E h (ix2 r j) = (f0 + ∑ e : Fin 300000,
        if (srcCol E (ix2 e (⟨0, Nat.one_pos⟩ : Fin 1))).toInt = (r.val : Int)
        then Host.gather gRec h (dstCol E) (ix2 e j) else 0)
      + ∑ e : Fin 300000,
        if (dstCol E (ix2 e (⟨0, Nat.one_pos⟩ : Fin 1))).toInt = (r.val : Int)
        then Host.gather gRec h (srcCol E) (ix2 e j) else 0 :=
  (Cert.Math.scatterAdd_rows_apply (N := 100000) (C := 128) (E := 300000) sRec3.wf
      (Ideal.hostScatterAdd sRec3 (fun _ => f0) (srcCol E) (Host.gather gRec h (dstCol E))) (dstCol E)
      (Host.gather gRec h (srcCol E)) r j).trans
    (congrArg (· + ∑ e : Fin 300000,
        if (dstCol E (ix2 e (⟨0, Nat.one_pos⟩ : Fin 1))).toInt = (r.val : Int)
        then Host.gather gRec h (srcCol E) (ix2 e j) else 0)
      (Cert.Math.scatterAdd_rows_apply (N := 100000) (C := 128) (E := 300000) sRec3.wf (fun _ => f0) (srcCol E)
        (Host.gather gRec h (dstCol E)) r j))

/-- The two spellings of the edge sum agree, whatever the arrays hold. -/
theorem aggK_eq_aggR (E : IVec SE2 32) (h : Arr) : aggK E h = aggR E h := by
  funext i
  obtain ⟨r, j, rfl⟩ : ∃ (r : Fin 100000) (j : Fin 128), i = ix2 r j := ⟨i 0, i 1, eq_ix2 i⟩
  rw [aggK_apply, aggR_apply]
  generalize Host.gather gRec h (dstCol E) = A
  generalize Host.gather gRec h (srcCol E) = B
  rw [Cert.Math.sum_halves (n := 300000) (m := 600000) (by norm_num) _ (fun e => by have := e.isLt; omega)
    (fun e => by have := e.isLt; omega)]
  simp only [catCol_lo, catCol_hi, cat_lo, cat_hi]
  rw [add_assoc]

end Cert.Spec
-- ==== Proof.LibRealSums.lean ====
/-
  Arithmetic of extended reals that are in fact real numbers: a finite sum, a product, a sum or a maximum of reals is a
  real, and a real factor moves across a finite sum of products of reals. On the extended reals themselves the last law
  fails at the infinities, which is why every array that meets it is first shown to hold real numbers only.
-/
import Idealize.ShloMosaic.PureOps.Ideal

namespace Cert.Algebra

open Finset

/-- The embedding of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_sum]; exact Finset.sum_congr rfl hg⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two reals is a real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The maximum of two reals is a real. -/
theorem max_real {a b : EReal} (ha : ∃ r : ℝ, a = (r : EReal)) (hb : ∃ r : ℝ, b = (r : EReal)) :
    ∃ r : ℝ, max a b = (r : EReal) := by
  rcases max_choice a b with h | h <;> rw [h] <;> assumption

/-- A real factor moves across a finite sum of products of reals:
    the sum over k of (a k · n) · w k is (the sum over k of a k · w k) · n. -/
theorem scale_sum {ι : Type*} [Fintype ι] (a w : ι → EReal) (n : EReal) (ha : ∀ k, ∃ r : ℝ, a k = (r : EReal))
    (hw : ∀ k, ∃ r : ℝ, w k = (r : EReal)) (hn : ∃ r : ℝ, n = (r : EReal)) :
    ∑ k, (a k * n) * w k = (∑ k, a k * w k) * n := by
  choose x hx using ha
  choose y hy using hw
  obtain ⟨z, rfl⟩ := hn
  have e1 : ∀ k, (a k * (z : EReal)) * w k = ((x k * z * y k : ℝ) : EReal) := fun k => by
    rw [hx, hy, ← EReal.coe_mul, ← EReal.coe_mul]
  have e2 : ∀ k, a k * w k = ((x k * y k : ℝ) : EReal) := fun k => by rw [hx, hy, ← EReal.coe_mul]
  rw [Finset.sum_congr rfl (fun k _ => e1 k), Finset.sum_congr rfl (fun k _ => e2 k), ← coe_sum, ← coe_sum,
    ← EReal.coe_mul]
  congr 1
  rw [Finset.sum_mul]
  exact Finset.sum_congr rfl fun k _ => by ring

end Cert.Algebra
-- ==== Proof.Math.Reals.lean ====
/-
  Real-valuedness, piece by piece: every piece of a layer maps arrays of real numbers to arrays of real numbers.
  A dense map, a gather, an accumulating scatter and the scaled combination are finite sums and products of reals;
  a vertex's count among the endpoints is a sum of ones, so one plus it is a real that is at least one and its
  inverse is a real.
-/
import proofs.«178513_j90202903151305_2_alg».proof.Proof.Spec
import proofs.«178513_j90202903151305_2_alg».proof.Proof.LibRealSums
import proofs.«178513_j90202903151305_2_alg».proof.Proof.Math.Consts

namespace Cert.Spec

open Idealize.ShloMosaic Idealize.ShloMosaic.ValueIdx Cert.Algebra
open scoped BigOperators

/-- An extended real that is a real number. -/
abbrev IsReal (x : EReal) : Prop := ∃ r : ℝ, x = (r : EReal)

theorem sub_real {a b : EReal} (ha : IsReal a) (hb : IsReal b) : IsReal (a - b) := by
  obtain ⟨x, rfl⟩ := ha; obtain ⟨y, rfl⟩ := hb; exact ⟨x - y, (EReal.coe_sub x y).symm⟩

theorem f0_real : IsReal f0 := ⟨0, by rw [f0_eq, EReal.coe_zero]⟩
theorem f1_real : IsReal f1 := ⟨1, by rw [f1_eq, EReal.coe_one]⟩

/-- A real divided by the number of vertices is a real. -/
theorem div_nV_real {x : EReal} (hx : IsReal x) : IsReal (Ideal.div x nV) := by
  rw [nV_eq, Ideal.div_coe (by norm_num)]
  exact mul_real hx ⟨_, rfl⟩

theorem lin_real {W : S3DD.Idx → EReal} {b : S3D.Idx → EReal} (l : Fin 3) {x : Arr} (hW : ∀ i, IsReal (W i))
    (hb : ∀ i, IsReal (b i)) (hx : ∀ i, IsReal (x i)) : ∀ i, IsReal (lin W b l x i) :=
  fun _ => add_real (sum_real _ _ fun _ _ => mul_real (hx _) (hW _)) (hb _)

/-- A gather only reads entries of its operand. -/
theorem gather_real {s si t : Shape} {w : Nat} (d : GatherDims s si t) {x : s.Idx → EReal} (idx : IVec si w)
    (hx : ∀ i, IsReal (x i)) : ∀ j, IsReal (Host.gather d x idx j) :=
  fun _ => hx _

/-- An accumulating scatter adds finitely many update entries to an operand entry. -/
theorem scatterAdd_real {s si su : Shape} (d : ScatterDims s si su) {w : Nat} {x : s.Idx → EReal} (idx : IVec si w)
    {upd : su.Idx → EReal} (hx : ∀ i, IsReal (x i)) (hu : ∀ j, IsReal (upd j)) :
    ∀ i, IsReal (Ideal.hostScatterAdd d x idx upd i) :=
  fun i => add_real (hx i) (sum_real _ _ fun j _ => hu j)

theorem aggR_real (E : IVec SE2 32) {h : Arr} (hh : ∀ i, IsReal (h i)) : ∀ i, IsReal (aggR E h i) :=
  scatterAdd_real _ _ (scatterAdd_real _ _ (fun _ => f0_real) (gather_real _ _ hh)) (gather_real _ _ hh)

/-- A finite sum of ones is a real that is at least zero. -/
theorem sum_ones_real {ι : Type*} (s : Finset ι) : ∃ c : ℝ, 0 ≤ c ∧ ∑ _j ∈ s, (1 : EReal) = (c : EReal) :=
  ⟨∑ _j ∈ s, (1 : ℝ), Finset.sum_nonneg (fun _ _ => zero_le_one), by rw [coe_sum]; simp only [EReal.coe_one]⟩

/-- A vertex's count among the endpoints is a real that is at least zero. -/
theorem cnt_eq (E : IVec SE2 32) (i : SV.Idx) : ∃ c : ℝ, 0 ≤ c ∧ cnt E i = (c : EReal) := by
  unfold cnt Ideal.hostScatterAdd
  beta_reduce
  rw [f0_eq, f1_eq, zero_add]
  exact sum_ones_real _

/-- The inverse of one plus the count is a real. -/
theorem dinv_real (E : IVec SE2 32) (r : Fin 100000) : IsReal (dinv E r) := by
  obtain ⟨c, hc, he⟩ := cnt_eq E (ix1 r)
  unfold dinv
  rw [he, f1_eq, ← EReal.coe_one, ← EReal.coe_add,
    Ideal.div_coe (by have : (0 : ℝ) < 1 + c := by linarith
                      exact this.ne')]
  exact mul_real ⟨1, rfl⟩ ⟨_, rfl⟩

theorem comb_real {d : Fin 100000 → EReal} {h0 agg : Arr} (hd : ∀ r, IsReal (d r)) (h0r : ∀ i, IsReal (h0 i))
    (har : ∀ i, IsReal (agg i)) : ∀ i, IsReal (comb d h0 agg i) :=
  fun i => mul_real (hd _) (add_real (h0r i) (har i))

/-- A layer's scaled combination of a real array is real. -/
theorem gR_real (a : Args) (ha : a.Real) (l : Fin 3) {x : Arr} (hx : ∀ i, IsReal (x i)) : ∀ i, IsReal (gR a l x i) :=
  comb_real (dinv_real a.E) (lin_real l ha.W0 ha.b0 hx) (aggR_real a.E (lin_real l ha.W1 ha.b1 hx))

theorem relu_real {x : Arr} (hx : ∀ i, IsReal (x i)) : ∀ i, IsReal (relu x i) :=
  fun i => max_real (hx i) f0_real

end Cert.Spec
-- ==== Proof.Math.VarReal.lean ====
/-
  The two spellings of a variance over a finite family of real numbers: the mean of the squares minus the square of
  the mean is the mean of the squared deviations from the mean, and the latter is at least zero.
-/
import Idealize.ShloMosaic.PureOps.Ideal

namespace Cert.Math

open scoped BigOperators

/-- With n the number of terms: (1/n)·∑x² − ((1/n)·∑x)² = (1/n)·∑(x − (1/n)·∑x)². -/
theorem var_identity {ι : Type*} [Fintype ι] (x : ι → ℝ) (n : ℝ) (hn : n ≠ 0) (hcard : (Fintype.card ι : ℝ) = n) :
    (∑ r, x r * x r) * (1 / n) - ((∑ r, x r) * (1 / n)) * ((∑ r, x r) * (1 / n))
      = (∑ r, (x r - (∑ r, x r) * (1 / n)) * (x r - (∑ r, x r) * (1 / n))) * (1 / n) := by
  generalize hS : ∑ r, x r = S
  generalize hm : S * (1 / n) = m
  have h : ∑ r, (x r - m) * (x r - m) = (∑ r, x r * x r) - 2 * m * S + n * (m * m) := by
    have e : ∀ r, (x r - m) * (x r - m) = x r * x r - 2 * m * x r + m * m := fun r => by ring
    simp only [e, Finset.sum_add_distrib, Finset.sum_sub_distrib, ← Finset.mul_sum, Finset.sum_const,
      Finset.card_univ, nsmul_eq_mul, hcard, hS]
    ring
  rw [h, ← hm]
  field_simp
  ring

/-- The mean of squared deviations is at least zero. -/
theorem var_nonneg {ι : Type*} [Fintype ι] (x : ι → ℝ) (m n : ℝ) (hn : 0 < n) :
    0 ≤ (∑ r, (x r - m) * (x r - m)) * (1 / n) :=
  mul_nonneg (Finset.sum_nonneg fun r _ => mul_self_nonneg (x r - m)) (by positivity)

end Cert.Math
-- ==== Proof.Math.Var.lean ====
/-
  Column sums, means and variances. The sum by blocks is the sum, so the two means agree; for an array of real numbers
  the mean of squares minus the squared mean is the mean of the squared deviations, which is at least zero, so the clip
  at zero does nothing and the two variances agree. The normalisation of a real array is real: the variance plus the
  positive offset is a positive real, and its inverse square root is a real.
-/
import proofs.«178513_j90202903151305_2_alg».proof.Proof.Spec
import proofs.«178513_j90202903151305_2_alg».proof.Proof.LibRealSums
import proofs.«178513_j90202903151305_2_alg».proof.Proof.Math.Consts
import proofs.«178513_j90202903151305_2_alg».proof.Proof.Math.Sums
import proofs.«178513_j90202903151305_2_alg».proof.Proof.Math.Reals
import proofs.«178513_j90202903151305_2_alg».proof.Proof.Math.VarReal

namespace Cert.Spec

open Idealize.ShloMosaic Idealize.ShloMosaic.ValueIdx Cert.Algebra
open scoped BigOperators

/-- The sum by blocks of 5000 is the sum over all vertices. -/
theorem sumK_eq (f : Fin 100000 → EReal) : sumK f = ∑ r, f r :=
  Cert.Math.sum_blocks (a := 20) (b := 5000) (N := 100000) (by norm_num) f
    (fun t q => by have := t.isLt; have := q.isLt; omega)

theorem meanK_eq_meanR (g : Arr) : meanK g = meanR g := by
  funext j
  unfold meanK meanR
  rw [sumK_eq]

/-- A real divided by the number of vertices. -/
theorem div_nV_coe (s : ℝ) : Ideal.div (s : EReal) nV = ((s * (1 / 100000) : ℝ) : EReal) := by
  rw [nV_eq, Ideal.div_coe (by norm_num), ← EReal.coe_mul]

section
variable {g : Arr} (j : Fin 128) (x : Fin 100000 → ℝ) (hx : ∀ r, g (ix2 r j) = (x r : EReal))
include hx

/-- The mean of a real column. -/
theorem meanR_val : meanR g j = (((∑ r, x r) * (1 / 100000) : ℝ) : EReal) := by
  unfold meanR
  simp only [hx]
  rw [← coe_sum, div_nV_coe]

/-- The mean of the squared deviations of a real column. -/
theorem varR_val : varR g j
    = (((∑ r, (x r - (∑ r, x r) * (1 / 100000)) * (x r - (∑ r, x r) * (1 / 100000))) * (1 / 100000) : ℝ) : EReal) := by
  unfold varR
  rw [meanR_val j x hx]
  simp only [hx, ← EReal.coe_sub, ← EReal.coe_mul]
  rw [← coe_sum, div_nV_coe]

/-- For a real column the clipped mean of squares minus the squared mean is the mean of the squared deviations. -/
theorem varK_val : varK g j = varR g j := by
  rw [varR_val j x hx]
  unfold varK
  rw [meanK_eq_meanR, meanR_val j x hx, sumK_eq]
  simp only [hx, ← EReal.coe_mul]
  rw [← coe_sum, div_nV_coe, ← EReal.coe_sub, f0_eq,
    Cert.Math.var_identity x 100000 (by norm_num) (by simp)]
  exact max_eq_left (by exact_mod_cast Cert.Math.var_nonneg x _ 100000 (by norm_num))

end

theorem varK_eq_varR {g : Arr} (hg : ∀ i, IsReal (g i)) : varK g = varR g := by
  funext j
  choose x hx using fun r : Fin 100000 => hg (ix2 r j)
  exact varK_val j x hx

/-- The two normalisations of a real array agree. -/
theorem normK_eq_normR (a : Args) (l : Fin 3) {g : Arr} (hg : ∀ i, IsReal (g i)) : normK a l g = normR a l g := by
  unfold normK normR
  rw [meanK_eq_meanR, varK_eq_varR hg]

/-- The inverse square root of a positive real is a real. -/
theorem rsqrt_real {v : ℝ} (hv : 0 < v) : IsReal (Ideal.rsqrt (v : EReal)) := by
  rw [Ideal.rsqrt_coe, if_neg (not_lt.mpr hv.le), if_neg hv.ne']
  exact ⟨_, rfl⟩

/-- The normalisation of a real array is real. -/
theorem normR_real (a : Args) (ha : a.Real) (l : Fin 3) {g : Arr} (hg : ∀ i, IsReal (g i)) :
    ∀ i, IsReal (normR a l g i) := by
  intro i
  obtain ⟨r, j, rfl⟩ : ∃ (r : Fin 100000) (j : Fin 128), i = ix2 r j := ⟨i 0, i 1, eq_ix2 i⟩
  choose x hx using fun r : Fin 100000 => hg (ix2 r j)
  unfold normR
  rw [bn_apply, varR_val j x hx, meanR_val j x hx]
  obtain ⟨e, he, hee⟩ := eps_eq
  rw [hee, ← EReal.coe_add]
  exact add_real (mul_real (mul_real (ha.γ _) (sub_real (hg _) ⟨_, rfl⟩))
    (rsqrt_real (add_pos_of_nonneg_of_pos (Cert.Math.var_nonneg x _ 100000 (by norm_num)) he))) (ha.β _)

end Cert.Spec
-- ==== Proof.Math.Main.lean ====
/-
  The two spellings of the network agree on real-valued arguments. The edge sums agree whatever the arrays hold; a
  layer's scaled combination of a real array is real, and on a real array the two normalisations agree and are real;
  so the three layers agree one after the other.
-/
import proofs.«178513_j90202903151305_2_alg».proof.Proof.Spec
import proofs.«178513_j90202903151305_2_alg».proof.Proof.Math.Edge
import proofs.«178513_j90202903151305_2_alg».proof.Proof.Math.Reals
import proofs.«178513_j90202903151305_2_alg».proof.Proof.Math.Var

namespace Cert.Spec

open Idealize.ShloMosaic Idealize.ShloMosaic.ValueIdx

/-- One layer on a real input: the normalised combinations agree. -/
theorem layer_eq (a : Args) (ha : a.Real) (l : Fin 3) {x : Arr} (hx : ∀ i, IsReal (x i)) :
    normK a l (gK a l x (lin a.W1 a.b1 l x)) = normR a l (gR a l x) := by
  have hg : gK a l x (lin a.W1 a.b1 l x) = gR a l x := by
    unfold gK gR
    rw [aggK_eq_aggR]
  rw [hg]
  exact normK_eq_normR a l (gR_real a ha l hx)

/-- One layer on a real input: the clipped normalised combination is real. -/
theorem layer_real (a : Args) (ha : a.Real) (l : Fin 3) {x : Arr} (hx : ∀ i, IsReal (x i)) :
    ∀ i, IsReal (relu (normR a l (gR a l x)) i) :=
  relu_real (normR_real a ha l (gR_real a ha l hx))

theorem outK_eq_outR (a : Args) (ha : a.Real) : outK a = outR a := by
  have r0 : ∀ i, IsReal (a.x i) := ha.x
  have e0 := layer_eq a ha 0 r0
  have r1 := layer_real a ha 0 r0
  have e1 := layer_eq a ha 1 r1
  have r2 := layer_real a ha 1 r1
  have e2 := layer_eq a ha 2 r2
  dsimp only [outK, outR]
  rw [e0, e1, e2]

end Cert.Spec
-- ==== Proof.lean ====
/-
  The kernel program against its reference: a three-layer graph convolution over 100000 vertices with 128 features
  (Proof/Spec.lean has the mathematics). The three frames are the two generated frame certificates and the reference's run
  with its result dropped; the kernel's idealization rewrote nothing, so there is nothing to preserve. For the value claim
  the kernel program ends at `Spec.outK` of its argument arrays (its run through seven pallas_call regions, read region by
  region and stretch by stretch) and the reference at `Spec.outR` of its own (its run as a line of host operations, read
  layer by layer); the arguments agree, the precondition makes every float argument real, and on real arguments the two
  functions are one: the edge sum accumulated once or direction by direction is the same finite sum, a column sum by blocks
  is the column sum, and the mean of squares minus the squared mean is the mean of squared deviations, never negative.
-/
import proofs.«178513_j90202903151305_2_alg».proof.Defs
import proofs.«178513_j90202903151305_2_alg».proof.Proof.Gen.Kernel
import proofs.«178513_j90202903151305_2_alg».proof.Proof.Gen.Kernel.Frame
import proofs.«178513_j90202903151305_2_alg».proof.Proof.Gen.KernelIdeal
import proofs.«178513_j90202903151305_2_alg».proof.Proof.Gen.KernelIdeal.Frame
import proofs.«178513_j90202903151305_2_alg».proof.Proof.Gen.ReferenceIdeal
import proofs.«178513_j90202903151305_2_alg».proof.Proof.Gen.Pre_finite_inputs
import proofs.«178513_j90202903151305_2_alg».proof.Proof.Spec
import proofs.«178513_j90202903151305_2_alg».proof.Proof.Pre
import proofs.«178513_j90202903151305_2_alg».proof.Proof.K.Args
import proofs.«178513_j90202903151305_2_alg».proof.Proof.K.Run
import proofs.«178513_j90202903151305_2_alg».proof.Proof.K.Chain
import proofs.«178513_j90202903151305_2_alg».proof.Proof.R.Args
import proofs.«178513_j90202903151305_2_alg».proof.Proof.R.Run
import proofs.«178513_j90202903151305_2_alg».proof.Proof.R.Value
import proofs.«178513_j90202903151305_2_alg».proof.Proof.Math.Main
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ

/-- The reference's frame: its run, every argument read back through the line of operations. -/
theorem frame_ri : Cert.frame_ReferenceIdeal := fun m ρ _ =>
  (θ_run Cert.ReferenceIdeal.defs _ _).mono (fun r h c =>
    ⟨(h c Cert.ReferenceIdeal.main_arg0).trans (Cert.ReferenceIdeal.RValue.kept_arg0 m c),
     (h c Cert.ReferenceIdeal.main_arg1).trans (Cert.ReferenceIdeal.RValue.kept_arg1 m c),
     (h c Cert.ReferenceIdeal.main_arg2).trans (Cert.ReferenceIdeal.RValue.kept_arg2 m c),
     (h c Cert.ReferenceIdeal.main_arg3).trans (Cert.ReferenceIdeal.RValue.kept_arg3 m c),
     (h c Cert.ReferenceIdeal.main_arg4).trans (Cert.ReferenceIdeal.RValue.kept_arg4 m c),
     (h c Cert.ReferenceIdeal.main_arg5).trans (Cert.ReferenceIdeal.RValue.kept_arg5 m c),
     (h c Cert.ReferenceIdeal.main_arg6).trans (Cert.ReferenceIdeal.RValue.kept_arg6 m c),
     (h c Cert.ReferenceIdeal.main_arg7).trans (Cert.ReferenceIdeal.RValue.kept_arg7 m c)⟩)
    (Cert.ReferenceIdeal.RRun.run_main (F := Ideal) m ρ)

/-- The precondition makes the kernel program's float arguments real. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.argsK m c).Real := by
  obtain ⟨h0, h2, h3, h4, h5, h6, h7⟩ := Cert.PreReal.reals_of_pre _ _ _ _ _ _ _ _ (hpre c)
  exact ⟨h0, h2, h3, h4, h5, h6, h7⟩

/-- Memories that agree on the arguments give the two programs the same argument bundle. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.argsR m' c = Cert.KernelIdeal.argsK m c := by
  unfold Cert.ReferenceIdeal.argsR Cert.KernelIdeal.argsK
  rw [h0, h1, h2, h3, h4, h5, h6, h7]

/-- The two idealized programs, from memories agreeing on the arguments, end with one result. -/
theorem algebraic : Cert.algebraic_KernelIdeal_ReferenceIdeal := by
  intro m ρ m' ρ' hpre hagree
  refine ⟨fun c => Cert.Spec.outK (Cert.KernelIdeal.argsK m c), ?_, ?_⟩
  · exact (θ_run Cert.KernelIdeal.defs _ _).mono
      (fun r h c => ⟨(h c).1.trans (Cert.KernelIdeal.KB.result m ρ c), (h c).2⟩)
      (Cert.KernelIdeal.KRun.run_value (F := Ideal) m ρ)
  · refine (θ_run Cert.ReferenceIdeal.defs _ _).mono (fun r h c => ⟨?_,
       (h c Cert.ReferenceIdeal.main_arg0).trans (Cert.ReferenceIdeal.RValue.kept_arg0 m' c),
       (h c Cert.ReferenceIdeal.main_arg1).trans (Cert.ReferenceIdeal.RValue.kept_arg1 m' c),
       (h c Cert.ReferenceIdeal.main_arg2).trans (Cert.ReferenceIdeal.RValue.kept_arg2 m' c),
       (h c Cert.ReferenceIdeal.main_arg3).trans (Cert.ReferenceIdeal.RValue.kept_arg3 m' c),
       (h c Cert.ReferenceIdeal.main_arg4).trans (Cert.ReferenceIdeal.RValue.kept_arg4 m' c),
       (h c Cert.ReferenceIdeal.main_arg5).trans (Cert.ReferenceIdeal.RValue.kept_arg5 m' c),
       (h c Cert.ReferenceIdeal.main_arg6).trans (Cert.ReferenceIdeal.RValue.kept_arg6 m' c),
       (h c Cert.ReferenceIdeal.main_arg7).trans (Cert.ReferenceIdeal.RValue.kept_arg7 m' c)⟩)
      (Cert.ReferenceIdeal.RRun.run_main (F := Ideal) m' ρ')
    have ha := args_agree m m' c (hagree c).1 (hagree c).2.1 (hagree c).2.2.1 (hagree c).2.2.2.1 (hagree c).2.2.2.2.1
      (hagree c).2.2.2.2.2.1 (hagree c).2.2.2.2.2.2.1 (hagree c).2.2.2.2.2.2.2
    refine (h c Cert.ReferenceIdeal.main_v241).trans ?_
    rw [Cert.ReferenceIdeal.RValue.result m' c, ha]
    exact (Cert.Spec.outK_eq_outR _ (real_args m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
